-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192x8192 : Shape := ⟨2, ![8192, 8192]⟩
abbrev S768x768 : Shape := ⟨2, ![768, 768]⟩
abbrev S768 : Shape := ⟨1, ![768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768 .f32) (main_arg5 : FVec F S768x768 .f32) (main_arg6 : FVec F S768x768 .f32) (main_arg7 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_v33

def fn {F : FTy → Type} [FloatOps F] (main_arg0 : FVec F S8192x768 .f32) (main_arg1 : FVec F S8192x8192 .f32) (main_arg2 : FVec F S768x768 .f32) (main_arg3 : FVec F S768x768 .f32) (main_arg4 : FVec F S768 .f32) (main_arg5 : FVec F S768x768 .f32) (main_arg6 : FVec F S768x768 .f32) (main_arg7 : FVec F S768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_v13 main_v16
-- ==== Kernel.lean ====
abbrev S8192x768 : Shape := ⟨2, ![8192, 768]⟩
abbrev S8192x8192 : Shape := ⟨2, ![8192, 8192]⟩
abbrev S768x768 : Shape := ⟨2, ![768, 768]⟩
abbrev S768 : Shape := ⟨1, ![768]⟩
abbrev S8192 : Shape := ⟨1, ![8192]⟩
abbrev S_ : Shape := ⟨0, ![]⟩
abbrev S8192x1 : Shape := ⟨2, ![8192, 1]⟩
abbrev S1x10 : Shape := ⟨2, ![1, 10]⟩
abbrev S8192x10 : Shape := ⟨2, ![8192, 10]⟩
abbrev S8192x128 : Shape := ⟨2, ![8192, 128]⟩
abbrev S2x128x128 : Shape := ⟨3, ![2, 128, 128]⟩
abbrev S256x8192 : Shape := ⟨2, ![256, 8192]⟩
abbrev S256x128 : Shape := ⟨2, ![256, 128]⟩
abbrev S1x128x128 : Shape := ⟨3, ![1, 128, 128]⟩
abbrev S128x128 : Shape := ⟨2, ![128, 128]⟩
abbrev S10x10 : Shape := ⟨2, ![10, 10]⟩
abbrev S2x128x768 : Shape := ⟨3, ![2, 128, 768]⟩
abbrev S512x768 : Shape := ⟨2, ![512, 768]⟩
abbrev S512x128 : Shape := ⟨2, ![512, 128]⟩
abbrev S1x128x768 : Shape := ⟨3, ![1, 128, 768]⟩
abbrev S128x768 : Shape := ⟨2, ![128, 768]⟩
abbrev S128x8192 : Shape := ⟨2, ![128, 8192]⟩
abbrev S2x128x1 : Shape := ⟨3, ![2, 128, 1]⟩
abbrev S128x512 : Shape := ⟨2, ![128, 512]⟩
abbrev S1x128x1 : Shape := ⟨3, ![1, 128, 1]⟩
abbrev S128x1 : Shape := ⟨2, ![128, 1]⟩
abbrev S128 : Shape := ⟨1, ![128]⟩
abbrev S10x768 : Shape := ⟨2, ![10, 768]⟩
abbrev S10 : Shape := ⟨1, ![10]⟩
abbrev S10x1 : Shape := ⟨2, ![10, 1]⟩
abbrev S10x2 : Shape := ⟨2, ![10, 2]⟩
abbrev S1x768 : Shape := ⟨2, ![1, 768]⟩
abbrev S1x5 : Shape := ⟨2, ![1, 5]⟩
abbrev S10x5 : Shape := ⟨2, ![10, 5]⟩
abbrev S5x10 : Shape := ⟨2, ![5, 10]⟩
abbrev S5x5 : Shape := ⟨2, ![5, 5]⟩
abbrev S5x768 : Shape := ⟨2, ![5, 768]⟩
abbrev S768x10 : Shape := ⟨2, ![768, 10]⟩
abbrev S5 : Shape := ⟨1, ![5]⟩
abbrev S5x1 : Shape := ⟨2, ![5, 1]⟩
abbrev S5x2 : Shape := ⟨2, ![5, 2]⟩

abbrev nBuf : Space → Nat
  | .hbm => 234
  | .vmem => 27
  | .smem => 0
  | _ => 0

abbrev hbmTy0_0 (i : Nat) : BufTy := match i % 128 with
  | 0 => ⟨S8192x768, .f32⟩
  | 1 => ⟨S8192x8192, .f32⟩
  | 2 => ⟨S768x768, .f32⟩
  | 3 => ⟨S768x768, .f32⟩
  | 4 => ⟨S768, .f32⟩
  | 5 => ⟨S768x768, .f32⟩
  | 6 => ⟨S768x768, .f32⟩
  | 7 => ⟨S768, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S1x10, .i32⟩
  | 29 => ⟨S8192x10, .i32⟩
  | 30 => ⟨S8192x10, .i32⟩
  | 31 => ⟨S8192x10, .i1⟩
  | 32 => ⟨S8192x10, .f32⟩
  | 33 => ⟨S_, .i32⟩
  | 34 => ⟨S_, .f32⟩
  | 35 => ⟨S8192x128, .f32⟩
  | 36 => ⟨S8192x128, .bf16⟩
  | 37 => ⟨S2x128x128, .f32⟩
  | 38 => ⟨S1x128x128, .f32⟩
  | 39 => ⟨S128x128, .f32⟩
  | 40 => ⟨S1x128x128, .f32⟩
  | 41 => ⟨S128x128, .f32⟩
  | 42 => ⟨S128x128, .f32⟩
  | 43 => ⟨S10x10, .f32⟩
  | 44 => ⟨S2x128x768, .f32⟩
  | 45 => ⟨S1x128x768, .f32⟩
  | 46 => ⟨S128x768, .f32⟩
  | 47 => ⟨S1x128x768, .f32⟩
  | 48 => ⟨S128x768, .f32⟩
  | 49 => ⟨S128x768, .f32⟩
  | 50 => ⟨S128x768, .f32⟩
  | 51 => ⟨S_, .f32⟩
  | 52 => ⟨S8192x128, .f32⟩
  | 53 => ⟨S8192x128, .f32⟩
  | 54 => ⟨S128x8192, .f32⟩
  | 55 => ⟨S2x128x1, .f32⟩
  | 56 => ⟨S2x128x1, .f32⟩
  | 57 => ⟨S2x128x768, .f32⟩
  | 58 => ⟨S1x128x1, .f32⟩
  | 59 => ⟨S128x1, .f32⟩
  | 60 => ⟨S1x128x1, .f32⟩
  | 61 => ⟨S128x1, .f32⟩
  | 62 => ⟨S1x128x1, .f32⟩
  | 63 => ⟨S128x1, .f32⟩
  | 64 => ⟨S1x128x1, .f32⟩
  | 65 => ⟨S128x1, .f32⟩
  | 66 => ⟨S1x128x768, .f32⟩
  | 67 => ⟨S128x768, .f32⟩
  | 68 => ⟨S1x128x768, .f32⟩
  | 69 => ⟨S128x768, .f32⟩
  | 70 => ⟨S128x1, .f32⟩
  | 71 => ⟨S128x1, .f32⟩
  | 72 => ⟨S128x1, .f32⟩
  | 73 => ⟨S128x1, .f32⟩
  | 74 => ⟨S128x1, .f32⟩
  | 75 => ⟨S128x1, .f32⟩
  | 76 => ⟨S128x1, .f32⟩
  | 77 => ⟨S128x1, .f32⟩
  | 78 => ⟨S128x768, .f32⟩
  | 79 => ⟨S128x768, .f32⟩
  | 80 => ⟨S128x768, .f32⟩
  | 81 => ⟨S128x768, .f32⟩
  | 82 => ⟨S128x768, .f32⟩
  | 83 => ⟨S128x768, .f32⟩
  | 84 => ⟨S128x768, .f32⟩
  | 85 => ⟨S128x768, .f32⟩
  | 86 => ⟨S10x768, .f32⟩
  | 87 => ⟨S10, .i32⟩
  | 88 => ⟨S_, .i32⟩
  | 89 => ⟨S10, .i32⟩
  | 90 => ⟨S10, .i1⟩
  | 91 => ⟨S_, .i32⟩
  | 92 => ⟨S10, .i32⟩
  | 93 => ⟨S10, .i32⟩
  | 94 => ⟨S10, .i32⟩
  | 95 => ⟨S_, .i32⟩
  | 96 => ⟨S10, .i32⟩
  | 97 => ⟨S10, .i1⟩
  | 98 => ⟨S_, .i32⟩
  | 99 => ⟨S10, .i32⟩
  | 100 => ⟨S10, .i32⟩
  | 101 => ⟨S10, .i32⟩
  | 102 => ⟨S10x1, .i32⟩
  | 103 => ⟨S10x1, .i32⟩
  | 104 => ⟨S10x2, .i32⟩
  | 105 => ⟨S_, .f32⟩
  | 106 => ⟨S10, .f32⟩
  | 107 => ⟨S10x10, .f32⟩
  | 108 => ⟨S_, .f32⟩
  | 109 => ⟨S10, .f32⟩
  | 110 => ⟨S_, .f32⟩
  | 111 => ⟨S_, .f32⟩
  | 112 => ⟨S10, .f32⟩
  | 113 => ⟨S10, .f32⟩
  | 114 => ⟨S_, .f32⟩
  | 115 => ⟨S10, .f32⟩
  | 116 => ⟨S10, .f32⟩
  | 117 => ⟨S10x1, .f32⟩
  | 118 => ⟨S10x10, .f32⟩
  | 119 => ⟨S10x10, .f32⟩
  | 120 => ⟨S1x10, .f32⟩
  | 121 => ⟨S10x10, .f32⟩
  | 122 => ⟨S10x10, .f32⟩
  | 123 => ⟨S10x768, .f32⟩
  | 124 => ⟨S10x768, .f32⟩
  | 125 => ⟨S1x768, .f32⟩
  | 126 => ⟨S10x768, .f32⟩
  | 127 => ⟨S10x768, .f32⟩
  | _ => ⟨S8192x768, .f32⟩

abbrev hbmTy0_1 (i : Nat) : BufTy := match i % 128 with
  | 0 => ⟨S_, .f32⟩
  | 1 => ⟨S10x768, .f32⟩
  | 2 => ⟨S10x768, .f32⟩
  | 3 => ⟨S10, .i32⟩
  | 4 => ⟨S_, .i32⟩
  | 5 => ⟨S_, .i32⟩
  | 6 => ⟨S10, .i32⟩
  | 7 => ⟨S10, .i32⟩
  | 8 => ⟨S10, .i32⟩
  | 9 => ⟨S_, .i32⟩
  | 10 => ⟨S10, .i32⟩
  | 11 => ⟨S10, .i1⟩
  | 12 => ⟨S10, .i32⟩
  | 13 => ⟨S10, .i32⟩
  | 14 => ⟨S_, .i32⟩
  | 15 => ⟨S10, .i32⟩
  | 16 => ⟨S10, .i1⟩
  | 17 => ⟨S10, .i1⟩
  | 18 => ⟨S_, .i32⟩
  | 19 => ⟨S10, .i32⟩
  | 20 => ⟨S10, .i32⟩
  | 21 => ⟨S10, .i32⟩
  | 22 => ⟨S10x1, .i32⟩
  | 23 => ⟨S1x5, .i32⟩
  | 24 => ⟨S10x5, .i32⟩
  | 25 => ⟨S10x5, .i32⟩
  | 26 => ⟨S10x5, .i1⟩
  | 27 => ⟨S10x5, .f32⟩
  | 28 => ⟨S5x10, .f32⟩
  | 29 => ⟨S5x10, .f32⟩
  | 30 => ⟨S5x5, .f32⟩
  | 31 => ⟨S5x10, .f32⟩
  | 32 => ⟨S5x768, .f32⟩
  | 33 => ⟨S5x768, .f32⟩
  | 34 => ⟨S768x10, .f32⟩
  | 35 => ⟨S5x10, .f32⟩
  | 36 => ⟨S_, .f32⟩
  | 37 => ⟨S10x5, .f32⟩
  | 38 => ⟨S10x5, .f32⟩
  | 39 => ⟨S5x10, .f32⟩
  | 40 => ⟨S5x10, .f32⟩
  | 41 => ⟨S_, .f32⟩
  | 42 => ⟨S5, .f32⟩
  | 43 => ⟨S_, .f32⟩
  | 44 => ⟨S5, .f32⟩
  | 45 => ⟨S5, .f32⟩
  | 46 => ⟨S5x1, .f32⟩
  | 47 => ⟨S5x10, .f32⟩
  | 48 => ⟨S5x10, .f32⟩
  | 49 => ⟨S5x10, .f32⟩
  | 50 => ⟨S_, .f32⟩
  | 51 => ⟨S5, .f32⟩
  | 52 => ⟨S5x1, .f32⟩
  | 53 => ⟨S5x10, .f32⟩
  | 54 => ⟨S5x10, .f32⟩
  | 55 => ⟨S5x768, .f32⟩
  | 56 => ⟨S5x768, .f32⟩
  | 57 => ⟨S5, .i32⟩
  | 58 => ⟨S_, .i32⟩
  | 59 => ⟨S5, .i32⟩
  | 60 => ⟨S5, .i1⟩
  | 61 => ⟨S_, .i32⟩
  | 62 => ⟨S5, .i32⟩
  | 63 => ⟨S5, .i32⟩
  | 64 => ⟨S5, .i32⟩
  | 65 => ⟨S_, .i32⟩
  | 66 => ⟨S5, .i32⟩
  | 67 => ⟨S5, .i1⟩
  | 68 => ⟨S_, .i32⟩
  | 69 => ⟨S5, .i32⟩
  | 70 => ⟨S5, .i32⟩
  | 71 => ⟨S5, .i32⟩
  | 72 => ⟨S5x1, .i32⟩
  | 73 => ⟨S5x1, .i32⟩
  | 74 => ⟨S5x2, .i32⟩
  | 75 => ⟨S_, .f32⟩
  | 76 => ⟨S5, .f32⟩
  | 77 => ⟨S5x5, .f32⟩
  | 78 => ⟨S_, .f32⟩
  | 79 => ⟨S5, .f32⟩
  | 80 => ⟨S_, .f32⟩
  | 81 => ⟨S_, .f32⟩
  | 82 => ⟨S5, .f32⟩
  | 83 => ⟨S5, .f32⟩
  | 84 => ⟨S_, .f32⟩
  | 85 => ⟨S5, .f32⟩
  | 86 => ⟨S5, .f32⟩
  | 87 => ⟨S5x1, .f32⟩
  | 88 => ⟨S5x5, .f32⟩
  | 89 => ⟨S5x5, .f32⟩
  | 90 => ⟨S1x5, .f32⟩
  | 91 => ⟨S5x5, .f32⟩
  | 92 => ⟨S5x5, .f32⟩
  | 93 => ⟨S5x768, .f32⟩
  | 94 => ⟨S5x768, .f32⟩
  | 95 => ⟨S1x768, .f32⟩
  | 96 => ⟨S5x768, .f32⟩
  | 97 => ⟨S5x768, .f32⟩
  | 98 => ⟨S_, .f32⟩
  | 99 => ⟨S5x768, .f32⟩
  | 100 => ⟨S5x768, .f32⟩
  | 101 => ⟨S_, .f32⟩
  | 102 => ⟨S768, .f32⟩
  | 103 => ⟨S_, .f32⟩
  | 104 => ⟨S768, .f32⟩
  | 105 => ⟨S768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S256x128, .bf16⟩
  | .local _ .vmem, ⟨4, _⟩ => ⟨S256x128, .bf16⟩
  | .local _ .vmem, ⟨5, _⟩ => ⟨S1x128x128, .f32⟩
  | .local _ .vmem, ⟨6, _⟩ => ⟨S1x128x128, .f32⟩
  | .local _ .vmem, ⟨7, _⟩ => ⟨S512x768, .f32⟩
  | .local _ .vmem, ⟨8, _⟩ => ⟨S512x768, .f32⟩
  | .local _ .vmem, ⟨9, _⟩ => ⟨S512x128, .f32⟩
  | .local _ .vmem, ⟨10, _⟩ => ⟨S512x128, .f32⟩
  | .local _ .vmem, ⟨11, _⟩ => ⟨S1x128x768, .f32⟩
  | .local _ .vmem, ⟨12, _⟩ => ⟨S1x128x768, .f32⟩
  | .local _ .vmem, ⟨13, _⟩ => ⟨S512x768, .f32⟩
  | .local _ .vmem, ⟨14, _⟩ => ⟨S512x768, .f32⟩
  | .local _ .vmem, ⟨15, _⟩ => ⟨S128x512, .f32⟩
  | .local _ .vmem, ⟨16, _⟩ => ⟨S128x512, .f32⟩
  | .local _ .vmem, ⟨17, _⟩ => ⟨S128x768, .f32⟩
  | .local _ .vmem, ⟨18, _⟩ => ⟨S1x128x1, .f32⟩
  | .local _ .vmem, ⟨19, _⟩ => ⟨S1x128x1, .f32⟩
  | .local _ .vmem, ⟨20, _⟩ => ⟨S1x128x1, .f32⟩
  | .local _ .vmem, ⟨21, _⟩ => ⟨S1x128x1, .f32⟩
  | .local _ .vmem, ⟨22, _⟩ => ⟨S1x128x768, .f32⟩
  | .local _ .vmem, ⟨23, _⟩ => ⟨S1x128x768, .f32⟩
  | .local _ .vmem, ⟨24, _⟩ => ⟨S128x1, .f32⟩
  | .local _ .vmem, ⟨25, _⟩ => ⟨S128x1, .f32⟩
  | .local _ .vmem, ⟨26, _⟩ => ⟨S128x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v2 : Ref sig .tc := ⟨.hbm, 32, rfl⟩
abbrev main_c_0 : Ref sig .tc := ⟨.hbm, 33, rfl⟩
abbrev main_call2_v0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22_0 : Ref sig .tc := ⟨.hbm, 55, rfl⟩
abbrev main_v22_1 : Ref sig .tc := ⟨.hbm, 56, rfl⟩
abbrev main_v22_2 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_1 : Ref sig .tc := ⟨.hbm, 88, rfl⟩
abbrev main_v53 : Ref sig .tc := ⟨.hbm, 89, rfl⟩
abbrev main_v54 : Ref sig .tc := ⟨.hbm, 90, rfl⟩
abbrev main_c_2 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_3 : Ref sig .tc := ⟨.hbm, 95, rfl⟩
abbrev main_v58 : Ref sig .tc := ⟨.hbm, 96, rfl⟩
abbrev main_v59 : Ref sig .tc := ⟨.hbm, 97, rfl⟩
abbrev main_c_4 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_5 : Ref sig .tc := ⟨.hbm, 105, rfl⟩
abbrev main_v66 : Ref sig .tc := ⟨.hbm, 106, rfl⟩
abbrev main_v67 : Ref sig .tc := ⟨.hbm, 107, rfl⟩
abbrev main_cst_6 : Ref sig .tc := ⟨.hbm, 108, rfl⟩
abbrev main_v68 : Ref sig .tc := ⟨.hbm, 109, rfl⟩
abbrev main_cst_7 : Ref sig .tc := ⟨.hbm, 110, rfl⟩
abbrev main_call3_v0 : Ref sig .tc := ⟨.hbm, 111, rfl⟩
abbrev main_call3_v1 : Ref sig .tc := ⟨.hbm, 112, rfl⟩
abbrev main_v69 : Ref sig .tc := ⟨.hbm, 113, rfl⟩
abbrev main_cst_8 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call4_cst : Ref sig .tc := ⟨.hbm, 128, rfl⟩
abbrev main_call4_v0 : Ref sig .tc := ⟨.hbm, 129, rfl⟩
abbrev main_v83 : Ref sig .tc := ⟨.hbm, 130, rfl⟩
abbrev main_v84 : Ref sig .tc := ⟨.hbm, 131, rfl⟩
abbrev main_c_9 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_c : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_0 : Ref sig .tc := ⟨.hbm, 146, rfl⟩
abbrev main_call5_v12 : Ref sig .tc := ⟨.hbm, 147, rfl⟩
abbrev main_call5_v13 : Ref sig .tc := ⟨.hbm, 148, rfl⟩
abbrev main_v85 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_cst_10 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_cst_11 : Ref sig .tc := ⟨.hbm, 169, rfl⟩
abbrev main_v99 : Ref sig .tc := ⟨.hbm, 170, rfl⟩
abbrev main_cst_12 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_13 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_c_14 : Ref sig .tc := ⟨.hbm, 186, rfl⟩
abbrev main_v113 : Ref sig .tc := ⟨.hbm, 187, rfl⟩
abbrev main_v114 : Ref sig .tc := ⟨.hbm, 188, rfl⟩
abbrev main_c_15 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_c_16 : Ref sig .tc := ⟨.hbm, 193, rfl⟩
abbrev main_v118 : Ref sig .tc := ⟨.hbm, 194, rfl⟩
abbrev main_v119 : Ref sig .tc := ⟨.hbm, 195, rfl⟩
abbrev main_c_17 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_cst_18 : Ref sig .tc := ⟨.hbm, 203, rfl⟩
abbrev main_v126 : Ref sig .tc := ⟨.hbm, 204, rfl⟩
abbrev main_v127 : Ref sig .tc := ⟨.hbm, 205, rfl⟩
abbrev main_cst_19 : Ref sig .tc := ⟨.hbm, 206, rfl⟩
abbrev main_v128 : Ref sig .tc := ⟨.hbm, 207, rfl⟩
abbrev main_cst_20 : Ref sig .tc := ⟨.hbm, 208, rfl⟩
abbrev main_call7_v0 : Ref sig .tc := ⟨.hbm, 209, rfl⟩
abbrev main_call7_v1 : Ref sig .tc := ⟨.hbm, 210, rfl⟩
abbrev main_v129 : Ref sig .tc := ⟨.hbm, 211, rfl⟩
abbrev main_cst_21 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_call8_cst : Ref sig .tc := ⟨.hbm, 226, rfl⟩
abbrev main_call8_v0 : Ref sig .tc := ⟨.hbm, 227, rfl⟩
abbrev main_v143 : Ref sig .tc := ⟨.hbm, 228, rfl⟩
abbrev main_cst_22 : Ref sig .tc := ⟨.hbm, 229, rfl⟩
abbrev main_v144 : Ref sig .tc := ⟨.hbm, 230, rfl⟩
abbrev main_cst_23 : Ref sig .tc := ⟨.hbm, 231, rfl⟩
abbrev main_v145 : Ref sig .tc := ⟨.hbm, 232, rfl⟩
abbrev main_v146 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x128x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x128x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  pads_S8192x10_S8192x128_000_01180 : S8192x10.Pads (![0, 0] : Fin 2 → Nat) ![0, 118] ![0, 0] S8192x128
  h_S_ : 0 < S_.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S2x128x128_S1x128x128_0_0_0 : S2x128x128.Slices ![0, 0, 0] S1x128x128
  slices_S2x128x128_S1x128x128_1_0_0 : S2x128x128.Slices ![1, 0, 0] S1x128x128
  slices_S128x128_S10x10_0_0 : S128x128.Slices ![0, 0] S10x10
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  inb_S512x768_S512x768_0_0 : ∀ a, (![0, 0] : Fin 2 → Nat) a + S512x768.size a ≤ S512x768.size a
  h_S512x768 : 0 < S512x768.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2x128x768_S1x128x768_0_0_0 : S2x128x768.Slices ![0, 0, 0] S1x128x768
  slices_S2x128x768_S1x128x768_1_0_0 : S2x128x768.Slices ![1, 0, 0] S1x128x768
  bcast_S_S8192x128 : S_.BroadcastsInDim S8192x128 (![] : Fin 0 → Fin S8192x128.rank)
  transposes_S8192x128_S128x8192_1_0 : S8192x128.Transposes [1, 0] S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S128x512_S128x512_0_0 : ∀ a, (![0, 0] : Fin 2 → Nat) a + S128x512.size a ≤ S128x512.size a
  h_S128x512 : 0 < S128x512.numel
  shapeCasts_S128x512_S128x512 : S128x512.ShapeCasts S128x512
  reduces_S128x512_S128 : S128x512.Reduces [1] S128
  shapeCasts_S128_S128x1 : S128.ShapeCasts S128x1
  broadcasts_S128x1_S128x512 : S128x1.Broadcasts S128x512
  broadcasts_S128x1_S128x768 : S128x1.Broadcasts S128x768
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  slices_S2x128x1_S1x128x1_0_0_0 : S2x128x1.Slices ![0, 0, 0] S1x128x1
  slices_S2x128x1_S1x128x1_1_0_0 : S2x128x1.Slices ![1, 0, 0] S1x128x1
  bcast_S128x1_S128x768_0_1 : S128x1.BroadcastsInDim S128x768 (![0, 1] : Fin 2 → Fin S128x768.rank)
  slices_S128x768_S10x768_0_0 : S128x768.Slices ![0, 0] S10x768
  bcast_S_S10 : S_.BroadcastsInDim S10 (![] : Fin 0 → Fin S10.rank)
  bcast_S10_S10x1_0 : S10.BroadcastsInDim S10x1 (![0] : Fin 1 → Fin S10x1.rank)
  concatenates_S10x1_S10x1_S10x2_d1 : Shape.Concatenates [S10x1, S10x1] S10x2 1
  reducesTo_S10x10_S10_d1 : S10x10.ReducesTo [1] S10
  bcast_S10x1_S10x10_0_1 : S10x1.BroadcastsInDim S10x10 (![0, 1] : Fin 2 → Fin S10x10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  bcast_S768_S1x768_1 : S768.BroadcastsInDim S1x768 (![1] : Fin 1 → Fin S1x768.rank)
  bcast_S1x768_S10x768_0_1 : S1x768.BroadcastsInDim S10x768 (![0, 1] : Fin 2 → Fin S10x768.rank)
  bcast_S_S10x768 : S_.BroadcastsInDim S10x768 (![] : Fin 0 → Fin S10x768.rank)
  bcast_S10x1_S10x5_0_1 : S10x1.BroadcastsInDim S10x5 (![0, 1] : Fin 2 → Fin S10x5.rank)
  bcast_S1x5_S10x5_0_1 : S1x5.BroadcastsInDim S10x5 (![0, 1] : Fin 2 → Fin S10x5.rank)
  transposes_S10x5_S5x10_1_0 : S10x5.Transposes [1, 0] S5x10
  transposes_S10x768_S768x10_1_0 : S10x768.Transposes [1, 0] S768x10
  bcast_S_S10x5 : S_.BroadcastsInDim S10x5 (![] : Fin 0 → Fin S10x5.rank)
  reducesTo_S5x10_S5_d1 : S5x10.ReducesTo [1] S5
  bcast_S_S5 : S_.BroadcastsInDim S5 (![] : Fin 0 → Fin S5.rank)
  bcast_S5_S5x1_0 : S5.BroadcastsInDim S5x1 (![0] : Fin 1 → Fin S5x1.rank)
  bcast_S5x1_S5x10_0_1 : S5x1.BroadcastsInDim S5x10 (![0, 1] : Fin 2 → Fin S5x10.rank)
  concatenates_S5x1_S5x1_S5x2_d1 : Shape.Concatenates [S5x1, S5x1] S5x2 1
  reducesTo_S5x5_S5_d1 : S5x5.ReducesTo [1] S5
  bcast_S5x1_S5x5_0_1 : S5x1.BroadcastsInDim S5x5 (![0, 1] : Fin 2 → Fin S5x5.rank)
  bcast_S5_S1x5_1 : S5.BroadcastsInDim S1x5 (![1] : Fin 1 → Fin S1x5.rank)
  bcast_S1x5_S5x5_0_1 : S1x5.BroadcastsInDim S5x5 (![0, 1] : Fin 2 → Fin S5x5.rank)
  bcast_S1x768_S5x768_0_1 : S1x768.BroadcastsInDim S5x768 (![0, 1] : Fin 2 → Fin S5x768.rank)
  bcast_S_S5x768 : S_.BroadcastsInDim S5x768 (![] : Fin 0 → Fin S5x768.rank)
  reducesTo_S5x768_S768_d0 : S5x768.ReducesTo [0] S768
  bcast_S_S768 : S_.BroadcastsInDim S768 (![] : Fin 0 → Fin S768.rank)
  dot_S256x8192_S8192x128_S256x128_1_0_0_1_n_n_wf : DotDims.WF S256x8192 S8192x128 S256x128 [1] [0] [0] [1] [] []
  dot_S256x128_S256x128_S128x128_0_0_1_1_n_n_wf : DotDims.WF S256x128 S256x128 S128x128 [0] [0] [1] [1] [] []
  dot_S512x128_S512x768_S128x768_0_0_1_1_n_n_wf : DotDims.WF S512x128 S512x768 S128x768 [0] [0] [1] [1] [] []
  dot_S128x768_S768x768_S128x768_1_0_0_1_n_n_wf : DotDims.WF S128x768 S768x768 S128x768 [1] [0] [0] [1] [] []
  dot_S128x768_S512x768_S128x512_1_1_0_0_n_n_wf : DotDims.WF S128x768 S512x768 S128x512 [1] [1] [0] [0] [] []
  dot_S128x512_S512x768_S128x768_1_0_0_1_n_n_wf : DotDims.WF S128x512 S512x768 S128x768 [1] [0] [0] [1] [] []
  scatter_S10x10_S10x2_S10_n_01_01_1_wf : ScatterDims.WF S10x10 S10x2 S10 [] [0, 1] [0, 1] 1
  dot_S10x768_S768x768_S10x768_1_0_0_1_n_n_wf : DotDims.WF S10x768 S768x768 S10x768 [1] [0] [0] [1] [] []
  dot_S10x10_S10x768_S10x768_1_0_0_1_n_n_wf : DotDims.WF S10x10 S10x768 S10x768 [1] [0] [0] [1] [] []
  dot_S5x10_S10x10_S5x10_1_0_0_1_n_n_wf : DotDims.WF S5x10 S10x10 S5x10 [1] [0] [0] [1] [] []
  dot_S5x10_S10x5_S5x5_1_0_0_1_n_n_wf : DotDims.WF S5x10 S10x5 S5x5 [1] [0] [0] [1] [] []
  dot_S5x10_S10x768_S5x768_1_0_0_1_n_n_wf : DotDims.WF S5x10 S10x768 S5x768 [1] [0] [0] [1] [] []
  dot_S5x768_S768x768_S5x768_1_0_0_1_n_n_wf : DotDims.WF S5x768 S768x768 S5x768 [1] [0] [0] [1] [] []
  dot_S5x768_S768x10_S5x10_1_0_0_1_n_n_wf : DotDims.WF S5x768 S768x10 S5x10 [1] [0] [0] [1] [] []
  scatter_S5x5_S5x2_S5_n_01_01_1_wf : ScatterDims.WF S5x5 S5x2 S5 [] [0, 1] [0, 1] 1
  dot_S5x5_S5x768_S5x768_1_0_0_1_n_n_wf : DotDims.WF S5x5 S5x768 S5x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .bf16 = 32 ∨ (Rect.block (s := S8192x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S8192x768.size a
  hwx1_0 : ∀ i : grid1.Coords, EltTy.bits .f32 = 32 ∨ (Rect.block (s := S8192x768) S512x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x768.size a ≤ S2x128x768.size a
  hwx1_2 : ∀ i : grid1.Coords, EltTy.bits .f32 = 32 ∨ (Rect.block (s := S2x128x768) S1x128x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S8192x768.size a
  hwx2_0 : ∀ i : grid2.Coords, EltTy.bits .f32 = 32 ∨ (Rect.block (s := S8192x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x8192.size a
  hwx2_1 : ∀ i : grid2.Coords, EltTy.bits .f32 = 32 ∨ (Rect.block (s := S128x8192) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x768.size a ≤ S128x768.size a
  hwx2_2 : ∀ i : grid2.Coords, EltTy.bits .f32 = 32 ∨ (Rect.block (s := S128x768) S128x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x1.size a ≤ S2x128x1.size a
  hwx2_3 : ∀ i : grid2.Coords, EltTy.bits .f32 = 32 ∨ (Rect.block (s := S2x128x1) S1x128x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128x1.size a ≤ S2x128x1.size a
  hwx2_4 : ∀ i : grid2.Coords, EltTy.bits .f32 = 32 ∨ (Rect.block (s := S2x128x1) S1x128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x128x768.size a ≤ S2x128x768.size a
  hwx2_5 : ∀ i : grid2.Coords, EltTy.bits .f32 = 32 ∨ (Rect.block (s := S2x128x768) S1x128x768.size (cc2_transform_5 i) (hinb2_5 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S256x128_S128x128_0_0_1_1_n_n : DotDims S256x128 S256x128 S128x128 where
  lhsContracting := [0]
  rhsContracting := [0]
  lhsNonContracting := [1]
  rhsNonContracting := [1]
  lhsBatch := []
  rhsBatch := []
  wf := dot_S256x128_S256x128_S128x128_0_0_1_1_n_n_wf
def dot_S512x128_S512x768_S128x768_0_0_1_1_n_n : DotDims S512x128 S512x768 S128x768 where
  lhsContracting := [0]
  rhsContracting := [0]
  lhsNonContracting := [1]
  rhsNonContracting := [1]
  lhsBatch := []
  rhsBatch := []
  wf := dot_S512x128_S512x768_S128x768_0_0_1_1_n_n_wf
def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf
def dot_S128x768_S512x768_S128x512_1_1_0_0_n_n : DotDims S128x768 S512x768 S128x512 where
  lhsContracting := [1]
  rhsContracting := [1]
  lhsNonContracting := [0]
  rhsNonContracting := [0]
  lhsBatch := []
  rhsBatch := []
  wf := dot_S128x768_S512x768_S128x512_1_1_0_0_n_n_wf
def dot_S128x512_S512x768_S128x768_1_0_0_1_n_n : DotDims S128x512 S512x768 S128x768 where
  lhsContracting := [1]
  rhsContracting := [0]
  lhsNonContracting := [0]
  rhsNonContracting := [1]
  lhsBatch := []
  rhsBatch := []
  wf := dot_S128x512_S512x768_S128x768_1_0_0_1_n_n_wf
def scatter_S10x10_S10x2_S10_n_01_01_1 : ScatterDims S10x10 S10x2 S10 where
  updateWindowDims := []
  insertedWindowDims := [0, 1]
  scatterDimsToOperandDims := [0, 1]
  indexVectorDim := 1
  wf := scatter_S10x10_S10x2_S10_n_01_01_1_wf
def dot_S10x768_S768x768_S10x768_1_0_0_1_n_n : DotDims S10x768 S768x768 S10x768 where
  lhsContracting := [1]
  rhsContracting := [0]
  lhsNonContracting := [0]
  rhsNonContracting := [1]
  lhsBatch := []
  rhsBatch := []
  wf := dot_S10x768_S768x768_S10x768_1_0_0_1_n_n_wf
def dot_S10x10_S10x768_S10x768_1_0_0_1_n_n : DotDims S10x10 S10x768 S10x768 where
  lhsContracting := [1]
  rhsContracting := [0]
  lhsNonContracting := [0]
  rhsNonContracting := [1]
  lhsBatch := []
  rhsBatch := []
  wf := dot_S10x10_S10x768_S10x768_1_0_0_1_n_n_wf
def dot_S5x10_S10x10_S5x10_1_0_0_1_n_n : DotDims S5x10 S10x10 S5x10 where
  lhsContracting := [1]
  rhsContracting := [0]
  lhsNonContracting := [0]
  rhsNonContracting := [1]
  lhsBatch := []
  rhsBatch := []
  wf := dot_S5x10_S10x10_S5x10_1_0_0_1_n_n_wf
def dot_S5x10_S10x5_S5x5_1_0_0_1_n_n : DotDims S5x10 S10x5 S5x5 where
  lhsContracting := [1]
  rhsContracting := [0]
  lhsNonContracting := [0]
  rhsNonContracting := [1]
  lhsBatch := []
  rhsBatch := []
  wf := dot_S5x10_S10x5_S5x5_1_0_0_1_n_n_wf
def dot_S5x10_S10x768_S5x768_1_0_0_1_n_n : DotDims S5x10 S10x768 S5x768 where
  lhsContracting := [1]
  rhsContracting := [0]
  lhsNonContracting := [0]
  rhsNonContracting := [1]
  lhsBatch := []
  rhsBatch := []
  wf := dot_S5x10_S10x768_S5x768_1_0_0_1_n_n_wf
def dot_S5x768_S768x768_S5x768_1_0_0_1_n_n : DotDims S5x768 S768x768 S5x768 where
  lhsContracting := [1]
  rhsContracting := [0]
  lhsNonContracting := [0]
  rhsNonContracting := [1]
  lhsBatch := []
  rhsBatch := []
  wf := dot_S5x768_S768x768_S5x768_1_0_0_1_n_n_wf
def dot_S5x768_S768x10_S5x10_1_0_0_1_n_n : DotDims S5x768 S768x10 S5x10 where
  lhsContracting := [1]
  rhsContracting := [0]
  lhsNonContracting := [0]
  rhsNonContracting := [1]
  lhsBatch := []
  rhsBatch := []
  wf := dot_S5x768_S768x10_S5x10_1_0_0_1_n_n_wf
def scatter_S5x5_S5x2_S5_n_01_01_1 : ScatterDims S5x5 S5x2 S5 where
  updateWindowDims := []
  insertedWindowDims := [0, 1]
  scatterDimsToOperandDims := [0, 1]
  indexVectorDim := 1
  wf := scatter_S5x5_S5x2_S5_n_01_01_1_wf
def dot_S5x5_S5x768_S5x768_1_0_0_1_n_n : DotDims S5x5 S5x768 S5x768 where
  lhsContracting := [1]
  rhsContracting := [0]
  lhsNonContracting := [0]
  rhsNonContracting := [1]
  lhsBatch := []
  rhsBatch := []
  wf := dot_S5x5_S5x768_S5x768_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22_0) S1x128x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22_1) S1x128x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22_2) S1x128x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x768 : Shape := ⟨2, ![8192, 768]⟩
abbrev S8192x8192 : Shape := ⟨2, ![8192, 8192]⟩
abbrev S768x768 : Shape := ⟨2, ![768, 768]⟩
abbrev S768 : Shape := ⟨1, ![768]⟩
abbrev S8192 : Shape := ⟨1, ![8192]⟩
abbrev S_ : Shape := ⟨0, ![]⟩
abbrev S8192x1 : Shape := ⟨2, ![8192, 1]⟩
abbrev S1x10 : Shape := ⟨2, ![1, 10]⟩
abbrev S8192x10 : Shape := ⟨2, ![8192, 10]⟩
abbrev S10x8192 : Shape := ⟨2, ![10, 8192]⟩
abbrev S10x10 : Shape := ⟨2, ![10, 10]⟩
abbrev S10x768 : Shape := ⟨2, ![10, 768]⟩
abbrev S768x8192 : Shape := ⟨2, ![768, 8192]⟩
abbrev S10 : Shape := ⟨1, ![10]⟩
abbrev S10x1 : Shape := ⟨2, ![10, 1]⟩
abbrev S10x2 : Shape := ⟨2, ![10, 2]⟩
abbrev S1x768 : Shape := ⟨2, ![1, 768]⟩
abbrev S1x5 : Shape := ⟨2, ![1, 5]⟩
abbrev S10x5 : Shape := ⟨2, ![10, 5]⟩
abbrev S5x10 : Shape := ⟨2, ![5, 10]⟩
abbrev S5x5 : Shape := ⟨2, ![5, 5]⟩
abbrev S5x768 : Shape := ⟨2, ![5, 768]⟩
abbrev S768x10 : Shape := ⟨2, ![768, 10]⟩
abbrev S5 : Shape := ⟨1, ![5]⟩
abbrev S5x1 : Shape := ⟨2, ![5, 1]⟩
abbrev S5x2 : Shape := ⟨2, ![5, 2]⟩

abbrev nBuf : Space → Nat
  | .hbm => 209
  | .vmem => 0
  | .smem => 0
  | _ => 0

abbrev hbmTy0_0 (i : Nat) : BufTy := match i % 128 with
  | 0 => ⟨S8192x768, .f32⟩
  | 1 => ⟨S8192x8192, .f32⟩
  | 2 => ⟨S768x768, .f32⟩
  | 3 => ⟨S768x768, .f32⟩
  | 4 => ⟨S768, .f32⟩
  | 5 => ⟨S768x768, .f32⟩
  | 6 => ⟨S768x768, .f32⟩
  | 7 => ⟨S768, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S1x10, .i32⟩
  | 29 => ⟨S8192x10, .i32⟩
  | 30 => ⟨S8192x10, .i32⟩
  | 31 => ⟨S8192x10, .i1⟩
  | 32 => ⟨S8192x10, .f32⟩
  | 33 => ⟨S10x8192, .f32⟩
  | 34 => ⟨S10x8192, .f32⟩
  | 35 => ⟨S10x10, .f32⟩
  | 36 => ⟨S10x8192, .f32⟩
  | 37 => ⟨S10x768, .f32⟩
  | 38 => ⟨S10x768, .f32⟩
  | 39 => ⟨S768x8192, .f32⟩
  | 40 => ⟨S10x8192, .f32⟩
  | 41 => ⟨S_, .f32⟩
  | 42 => ⟨S8192x10, .f32⟩
  | 43 => ⟨S8192x10, .f32⟩
  | 44 => ⟨S10x8192, .f32⟩
  | 45 => ⟨S10x8192, .f32⟩
  | 46 => ⟨S_, .f32⟩
  | 47 => ⟨S10, .f32⟩
  | 48 => ⟨S_, .f32⟩
  | 49 => ⟨S10, .f32⟩
  | 50 => ⟨S10, .f32⟩
  | 51 => ⟨S10x1, .f32⟩
  | 52 => ⟨S10x8192, .f32⟩
  | 53 => ⟨S10x8192, .f32⟩
  | 54 => ⟨S10x8192, .f32⟩
  | 55 => ⟨S_, .f32⟩
  | 56 => ⟨S10, .f32⟩
  | 57 => ⟨S10x1, .f32⟩
  | 58 => ⟨S10x8192, .f32⟩
  | 59 => ⟨S10x8192, .f32⟩
  | 60 => ⟨S10x768, .f32⟩
  | 61 => ⟨S10x768, .f32⟩
  | 62 => ⟨S10, .i32⟩
  | 63 => ⟨S_, .i32⟩
  | 64 => ⟨S10, .i32⟩
  | 65 => ⟨S10, .i1⟩
  | 66 => ⟨S_, .i32⟩
  | 67 => ⟨S10, .i32⟩
  | 68 => ⟨S10, .i32⟩
  | 69 => ⟨S10, .i32⟩
  | 70 => ⟨S_, .i32⟩
  | 71 => ⟨S10, .i32⟩
  | 72 => ⟨S10, .i1⟩
  | 73 => ⟨S_, .i32⟩
  | 74 => ⟨S10, .i32⟩
  | 75 => ⟨S10, .i32⟩
  | 76 => ⟨S10, .i32⟩
  | 77 => ⟨S10x1, .i32⟩
  | 78 => ⟨S10x1, .i32⟩
  | 79 => ⟨S10x2, .i32⟩
  | 80 => ⟨S_, .f32⟩
  | 81 => ⟨S10, .f32⟩
  | 82 => ⟨S10x10, .f32⟩
  | 83 => ⟨S_, .f32⟩
  | 84 => ⟨S10, .f32⟩
  | 85 => ⟨S_, .f32⟩
  | 86 => ⟨S_, .f32⟩
  | 87 => ⟨S10, .f32⟩
  | 88 => ⟨S10, .f32⟩
  | 89 => ⟨S_, .f32⟩
  | 90 => ⟨S10, .f32⟩
  | 91 => ⟨S10, .f32⟩
  | 92 => ⟨S10x1, .f32⟩
  | 93 => ⟨S10x10, .f32⟩
  | 94 => ⟨S10x10, .f32⟩
  | 95 => ⟨S1x10, .f32⟩
  | 96 => ⟨S10x10, .f32⟩
  | 97 => ⟨S10x10, .f32⟩
  | 98 => ⟨S10x768, .f32⟩
  | 99 => ⟨S10x768, .f32⟩
  | 100 => ⟨S1x768, .f32⟩
  | 101 => ⟨S10x768, .f32⟩
  | 102 => ⟨S10x768, .f32⟩
  | 103 => ⟨S_, .f32⟩
  | 104 => ⟨S10x768, .f32⟩
  | 105 => ⟨S10x768, .f32⟩
  | 106 => ⟨S10, .i32⟩
  | 107 => ⟨S_, .i32⟩
  | 108 => ⟨S_, .i32⟩
  | 109 => ⟨S10, .i32⟩
  | 110 => ⟨S10, .i32⟩
  | 111 => ⟨S10, .i32⟩
  | 112 => ⟨S_, .i32⟩
  | 113 => ⟨S10, .i32⟩
  | 114 => ⟨S10, .i1⟩
  | 115 => ⟨S10, .i32⟩
  | 116 => ⟨S10, .i32⟩
  | 117 => ⟨S_, .i32⟩
  | 118 => ⟨S10, .i32⟩
  | 119 => ⟨S10, .i1⟩
  | 120 => ⟨S10, .i1⟩
  | 121 => ⟨S_, .i32⟩
  | 122 => ⟨S10, .i32⟩
  | 123 => ⟨S10, .i32⟩
  | 124 => ⟨S10, .i32⟩
  | 125 => ⟨S10x1, .i32⟩
  | 126 => ⟨S1x5, .i32⟩
  | 127 => ⟨S10x5, .i32⟩
  | _ => ⟨S8192x768, .f32⟩

abbrev hbmTy0_1 (i : Nat) : BufTy := match i % 128 with
  | 0 => ⟨S10x5, .i32⟩
  | 1 => ⟨S10x5, .i1⟩
  | 2 => ⟨S10x5, .f32⟩
  | 3 => ⟨S5x10, .f32⟩
  | 4 => ⟨S5x10, .f32⟩
  | 5 => ⟨S5x5, .f32⟩
  | 6 => ⟨S5x10, .f32⟩
  | 7 => ⟨S5x768, .f32⟩
  | 8 => ⟨S5x768, .f32⟩
  | 9 => ⟨S768x10, .f32⟩
  | 10 => ⟨S5x10, .f32⟩
  | 11 => ⟨S_, .f32⟩
  | 12 => ⟨S10x5, .f32⟩
  | 13 => ⟨S10x5, .f32⟩
  | 14 => ⟨S5x10, .f32⟩
  | 15 => ⟨S5x10, .f32⟩
  | 16 => ⟨S_, .f32⟩
  | 17 => ⟨S5, .f32⟩
  | 18 => ⟨S_, .f32⟩
  | 19 => ⟨S5, .f32⟩
  | 20 => ⟨S5, .f32⟩
  | 21 => ⟨S5x1, .f32⟩
  | 22 => ⟨S5x10, .f32⟩
  | 23 => ⟨S5x10, .f32⟩
  | 24 => ⟨S5x10, .f32⟩
  | 25 => ⟨S_, .f32⟩
  | 26 => ⟨S5, .f32⟩
  | 27 => ⟨S5x1, .f32⟩
  | 28 => ⟨S5x10, .f32⟩
  | 29 => ⟨S5x10, .f32⟩
  | 30 => ⟨S5x768, .f32⟩
  | 31 => ⟨S5x768, .f32⟩
  | 32 => ⟨S5, .i32⟩
  | 33 => ⟨S_, .i32⟩
  | 34 => ⟨S5, .i32⟩
  | 35 => ⟨S5, .i1⟩
  | 36 => ⟨S_, .i32⟩
  | 37 => ⟨S5, .i32⟩
  | 38 => ⟨S5, .i32⟩
  | 39 => ⟨S5, .i32⟩
  | 40 => ⟨S_, .i32⟩
  | 41 => ⟨S5, .i32⟩
  | 42 => ⟨S5, .i1⟩
  | 43 => ⟨S_, .i32⟩
  | 44 => ⟨S5, .i32⟩
  | 45 => ⟨S5, .i32⟩
  | 46 => ⟨S5, .i32⟩
  | 47 => ⟨S5x1, .i32⟩
  | 48 => ⟨S5x1, .i32⟩
  | 49 => ⟨S5x2, .i32⟩
  | 50 => ⟨S_, .f32⟩
  | 51 => ⟨S5, .f32⟩
  | 52 => ⟨S5x5, .f32⟩
  | 53 => ⟨S_, .f32⟩
  | 54 => ⟨S5, .f32⟩
  | 55 => ⟨S_, .f32⟩
  | 56 => ⟨S_, .f32⟩
  | 57 => ⟨S5, .f32⟩
  | 58 => ⟨S5, .f32⟩
  | 59 => ⟨S_, .f32⟩
  | 60 => ⟨S5, .f32⟩
  | 61 => ⟨S5, .f32⟩
  | 62 => ⟨S5x1, .f32⟩
  | 63 => ⟨S5x5, .f32⟩
  | 64 => ⟨S5x5, .f32⟩
  | 65 => ⟨S1x5, .f32⟩
  | 66 => ⟨S5x5, .f32⟩
  | 67 => ⟨S5x5, .f32⟩
  | 68 => ⟨S5x768, .f32⟩
  | 69 => ⟨S5x768, .f32⟩
  | 70 => ⟨S1x768, .f32⟩
  | 71 => ⟨S5x768, .f32⟩
  | 72 => ⟨S5x768, .f32⟩
  | 73 => ⟨S_, .f32⟩
  | 74 => ⟨S5x768, .f32⟩
  | 75 => ⟨S5x768, .f32⟩
  | 76 => ⟨S_, .f32⟩
  | 77 => ⟨S768, .f32⟩
  | 78 => ⟨S_, .f32⟩
  | 79 => ⟨S768, .f32⟩
  | 80 => ⟨S768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_5 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_v45 : Ref sig .tc := ⟨.hbm, 88, rfl⟩
abbrev main_cst_10 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call3_cst : Ref sig .tc := ⟨.hbm, 103, rfl⟩
abbrev main_call3_v0 : Ref sig .tc := ⟨.hbm, 104, rfl⟩
abbrev main_v59 : Ref sig .tc := ⟨.hbm, 105, rfl⟩
abbrev main_v60 : Ref sig .tc := ⟨.hbm, 106, rfl⟩
abbrev main_c_11 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_c : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_0 : Ref sig .tc := ⟨.hbm, 121, rfl⟩
abbrev main_call4_v12 : Ref sig .tc := ⟨.hbm, 122, rfl⟩
abbrev main_call4_v13 : Ref sig .tc := ⟨.hbm, 123, rfl⟩
abbrev main_v61 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_12 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_cst_13 : Ref sig .tc := ⟨.hbm, 144, rfl⟩
abbrev main_v75 : Ref sig .tc := ⟨.hbm, 145, rfl⟩
abbrev main_cst_14 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_cst_15 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_c_16 : Ref sig .tc := ⟨.hbm, 161, rfl⟩
abbrev main_v89 : Ref sig .tc := ⟨.hbm, 162, rfl⟩
abbrev main_v90 : Ref sig .tc := ⟨.hbm, 163, rfl⟩
abbrev main_c_17 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_c_18 : Ref sig .tc := ⟨.hbm, 168, rfl⟩
abbrev main_v94 : Ref sig .tc := ⟨.hbm, 169, rfl⟩
abbrev main_v95 : Ref sig .tc := ⟨.hbm, 170, rfl⟩
abbrev main_c_19 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_cst_20 : Ref sig .tc := ⟨.hbm, 178, rfl⟩
abbrev main_v102 : Ref sig .tc := ⟨.hbm, 179, rfl⟩
abbrev main_v103 : Ref sig .tc := ⟨.hbm, 180, rfl⟩
abbrev main_cst_21 : Ref sig .tc := ⟨.hbm, 181, rfl⟩
abbrev main_v104 : Ref sig .tc := ⟨.hbm, 182, rfl⟩
abbrev main_cst_22 : Ref sig .tc := ⟨.hbm, 183, rfl⟩
abbrev main_call6_v0 : Ref sig .tc := ⟨.hbm, 184, rfl⟩
abbrev main_call6_v1 : Ref sig .tc := ⟨.hbm, 185, rfl⟩
abbrev main_v105 : Ref sig .tc := ⟨.hbm, 186, rfl⟩
abbrev main_cst_23 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call7_cst : Ref sig .tc := ⟨.hbm, 201, rfl⟩
abbrev main_call7_v0 : Ref sig .tc := ⟨.hbm, 202, rfl⟩
abbrev main_v119 : Ref sig .tc := ⟨.hbm, 203, rfl⟩
abbrev main_cst_24 : Ref sig .tc := ⟨.hbm, 204, rfl⟩
abbrev main_v120 : Ref sig .tc := ⟨.hbm, 205, rfl⟩
abbrev main_cst_25 : Ref sig .tc := ⟨.hbm, 206, rfl⟩
abbrev main_v121 : Ref sig .tc := ⟨.hbm, 207, rfl⟩
abbrev main_v122 : Ref sig .tc := ⟨.hbm, 208, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  transposes_S8192x10_S10x8192_1_0 : S8192x10.Transposes [1, 0] S10x8192
  transposes_S8192x768_S768x8192_1_0 : S8192x768.Transposes [1, 0] S768x8192
  bcast_S_S8192x10 : S_.BroadcastsInDim S8192x10 (![] : Fin 0 → Fin S8192x10.rank)
  reducesTo_S10x8192_S10_d1 : S10x8192.ReducesTo [1] S10
  h_S_ : 0 < S_.numel
  bcast_S_S10 : S_.BroadcastsInDim S10 (![] : Fin 0 → Fin S10.rank)
  bcast_S10_S10x1_0 : S10.BroadcastsInDim S10x1 (![0] : Fin 1 → Fin S10x1.rank)
  bcast_S10x1_S10x8192_0_1 : S10x1.BroadcastsInDim S10x8192 (![0, 1] : Fin 2 → Fin S10x8192.rank)
  concatenates_S10x1_S10x1_S10x2_d1 : Shape.Concatenates [S10x1, S10x1] S10x2 1
  reducesTo_S10x10_S10_d1 : S10x10.ReducesTo [1] S10
  bcast_S10x1_S10x10_0_1 : S10x1.BroadcastsInDim S10x10 (![0, 1] : Fin 2 → Fin S10x10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  bcast_S768_S1x768_1 : S768.BroadcastsInDim S1x768 (![1] : Fin 1 → Fin S1x768.rank)
  bcast_S1x768_S10x768_0_1 : S1x768.BroadcastsInDim S10x768 (![0, 1] : Fin 2 → Fin S10x768.rank)
  bcast_S_S10x768 : S_.BroadcastsInDim S10x768 (![] : Fin 0 → Fin S10x768.rank)
  bcast_S10x1_S10x5_0_1 : S10x1.BroadcastsInDim S10x5 (![0, 1] : Fin 2 → Fin S10x5.rank)
  bcast_S1x5_S10x5_0_1 : S1x5.BroadcastsInDim S10x5 (![0, 1] : Fin 2 → Fin S10x5.rank)
  transposes_S10x5_S5x10_1_0 : S10x5.Transposes [1, 0] S5x10
  transposes_S10x768_S768x10_1_0 : S10x768.Transposes [1, 0] S768x10
  bcast_S_S10x5 : S_.BroadcastsInDim S10x5 (![] : Fin 0 → Fin S10x5.rank)
  reducesTo_S5x10_S5_d1 : S5x10.ReducesTo [1] S5
  bcast_S_S5 : S_.BroadcastsInDim S5 (![] : Fin 0 → Fin S5.rank)
  bcast_S5_S5x1_0 : S5.BroadcastsInDim S5x1 (![0] : Fin 1 → Fin S5x1.rank)
  bcast_S5x1_S5x10_0_1 : S5x1.BroadcastsInDim S5x10 (![0, 1] : Fin 2 → Fin S5x10.rank)
  concatenates_S5x1_S5x1_S5x2_d1 : Shape.Concatenates [S5x1, S5x1] S5x2 1
  reducesTo_S5x5_S5_d1 : S5x5.ReducesTo [1] S5
  bcast_S5x1_S5x5_0_1 : S5x1.BroadcastsInDim S5x5 (![0, 1] : Fin 2 → Fin S5x5.rank)
  bcast_S5_S1x5_1 : S5.BroadcastsInDim S1x5 (![1] : Fin 1 → Fin S1x5.rank)
  bcast_S1x5_S5x5_0_1 : S1x5.BroadcastsInDim S5x5 (![0, 1] : Fin 2 → Fin S5x5.rank)
  bcast_S1x768_S5x768_0_1 : S1x768.BroadcastsInDim S5x768 (![0, 1] : Fin 2 → Fin S5x768.rank)
  bcast_S_S5x768 : S_.BroadcastsInDim S5x768 (![] : Fin 0 → Fin S5x768.rank)
  reducesTo_S5x768_S768_d0 : S5x768.ReducesTo [0] S768
  bcast_S_S768 : S_.BroadcastsInDim S768 (![] : Fin 0 → Fin S768.rank)
  dot_S10x8192_S8192x8192_S10x8192_1_0_0_1_n_n_wf : DotDims.WF S10x8192 S8192x8192 S10x8192 [1] [0] [0] [1] [] []
  dot_S10x8192_S8192x10_S10x10_1_0_0_1_n_n_wf : DotDims.WF S10x8192 S8192x10 S10x10 [1] [0] [0] [1] [] []
  dot_S10x8192_S8192x768_S10x768_1_0_0_1_n_n_wf : DotDims.WF S10x8192 S8192x768 S10x768 [1] [0] [0] [1] [] []
  dot_S10x768_S768x768_S10x768_1_0_0_1_n_n_wf : DotDims.WF S10x768 S768x768 S10x768 [1] [0] [0] [1] [] []
  dot_S10x768_S768x8192_S10x8192_1_0_0_1_n_n_wf : DotDims.WF S10x768 S768x8192 S10x8192 [1] [0] [0] [1] [] []
  scatter_S10x10_S10x2_S10_n_01_01_1_wf : ScatterDims.WF S10x10 S10x2 S10 [] [0, 1] [0, 1] 1
  dot_S10x10_S10x768_S10x768_1_0_0_1_n_n_wf : DotDims.WF S10x10 S10x768 S10x768 [1] [0] [0] [1] [] []
  dot_S5x10_S10x10_S5x10_1_0_0_1_n_n_wf : DotDims.WF S5x10 S10x10 S5x10 [1] [0] [0] [1] [] []
  dot_S5x10_S10x5_S5x5_1_0_0_1_n_n_wf : DotDims.WF S5x10 S10x5 S5x5 [1] [0] [0] [1] [] []
  dot_S5x10_S10x768_S5x768_1_0_0_1_n_n_wf : DotDims.WF S5x10 S10x768 S5x768 [1] [0] [0] [1] [] []
  dot_S5x768_S768x768_S5x768_1_0_0_1_n_n_wf : DotDims.WF S5x768 S768x768 S5x768 [1] [0] [0] [1] [] []
  dot_S5x768_S768x10_S5x10_1_0_0_1_n_n_wf : DotDims.WF S5x768 S768x10 S5x10 [1] [0] [0] [1] [] []
  scatter_S5x5_S5x2_S5_n_01_01_1_wf : ScatterDims.WF S5x5 S5x2 S5 [] [0, 1] [0, 1] 1
  dot_S5x5_S5x768_S5x768_1_0_0_1_n_n_wf : DotDims.WF S5x5 S5x768 S5x768 [1] [0] [0] [1] [] []

variable [Facts₀]

def dot_S10x8192_S8192x8192_S10x8192_1_0_0_1_n_n : DotDims S10x8192 S8192x8192 S10x8192 where
  lhsContracting := [1]
  rhsContracting := [0]
  lhsNonContracting := [0]
  rhsNonContracting := [1]
  lhsBatch := []
  rhsBatch := []
  wf := dot_S10x8192_S8192x8192_S10x8192_1_0_0_1_n_n_wf
def dot_S10x8192_S8192x10_S10x10_1_0_0_1_n_n : DotDims S10x8192 S8192x10 S10x10 where
  lhsContracting := [1]
  rhsContracting := [0]
  lhsNonContracting := [0]
  rhsNonContracting := [1]
  lhsBatch := []
  rhsBatch := []
  wf := dot_S10x8192_S8192x10_S10x10_1_0_0_1_n_n_wf
def dot_S10x8192_S8192x768_S10x768_1_0_0_1_n_n : DotDims S10x8192 S8192x768 S10x768 where
  lhsContracting := [1]
  rhsContracting := [0]
  lhsNonContracting := [0]
  rhsNonContracting := [1]
  lhsBatch := []
  rhsBatch := []
  wf := dot_S10x8192_S8192x768_S10x768_1_0_0_1_n_n_wf
def dot_S10x768_S768x768_S10x768_1_0_0_1_n_n : DotDims S10x768 S768x768 S10x768 where
  lhsContracting := [1]
  rhsContracting := [0]
  lhsNonContracting := [0]
  rhsNonContracting := [1]
  lhsBatch := []
  rhsBatch := []
  wf := dot_S10x768_S768x768_S10x768_1_0_0_1_n_n_wf
def dot_S10x768_S768x8192_S10x8192_1_0_0_1_n_n : DotDims S10x768 S768x8192 S10x8192 where
  lhsContracting := [1]
  rhsContracting := [0]
  lhsNonContracting := [0]
  rhsNonContracting := [1]
  lhsBatch := []
  rhsBatch := []
  wf := dot_S10x768_S768x8192_S10x8192_1_0_0_1_n_n_wf
def scatter_S10x10_S10x2_S10_n_01_01_1 : ScatterDims S10x10 S10x2 S10 where
  updateWindowDims := []
  insertedWindowDims := [0, 1]
  scatterDimsToOperandDims := [0, 1]
  indexVectorDim := 1
  wf := scatter_S10x10_S10x2_S10_n_01_01_1_wf
def dot_S10x10_S10x768_S10x768_1_0_0_1_n_n : DotDims S10x10 S10x768 S10x768 where
  lhsContracting := [1]
  rhsContracting := [0]
  lhsNonContracting := [0]
  rhsNonContracting := [1]
  lhsBatch := []
  rhsBatch := []
  wf := dot_S10x10_S10x768_S10x768_1_0_0_1_n_n_wf
def dot_S5x10_S10x10_S5x10_1_0_0_1_n_n : DotDims S5x10 S10x10 S5x10 where
  lhsContracting := [1]
  rhsContracting := [0]
  lhsNonContracting := [0]
  rhsNonContracting := [1]
  lhsBatch := []
  rhsBatch := []
  wf := dot_S5x10_S10x10_S5x10_1_0_0_1_n_n_wf
def dot_S5x10_S10x5_S5x5_1_0_0_1_n_n : DotDims S5x10 S10x5 S5x5 where
  lhsContracting := [1]
  rhsContracting := [0]
  lhsNonContracting := [0]
  rhsNonContracting := [1]
  lhsBatch := []
  rhsBatch := []
  wf := dot_S5x10_S10x5_S5x5_1_0_0_1_n_n_wf
def dot_S5x10_S10x768_S5x768_1_0_0_1_n_n : DotDims S5x10 S10x768 S5x768 where
  lhsContracting := [1]
  rhsContracting := [0]
  lhsNonContracting := [0]
  rhsNonContracting := [1]
  lhsBatch := []
  rhsBatch := []
  wf := dot_S5x10_S10x768_S5x768_1_0_0_1_n_n_wf
def dot_S5x768_S768x768_S5x768_1_0_0_1_n_n : DotDims S5x768 S768x768 S5x768 where
  lhsContracting := [1]
  rhsContracting := [0]
  lhsNonContracting := [0]
  rhsNonContracting := [1]
  lhsBatch := []
  rhsBatch := []
  wf := dot_S5x768_S768x768_S5x768_1_0_0_1_n_n_wf
def dot_S5x768_S768x10_S5x10_1_0_0_1_n_n : DotDims S5x768 S768x10 S5x10 where
  lhsContracting := [1]
  rhsContracting := [0]
  lhsNonContracting := [0]
  rhsNonContracting := [1]
  lhsBatch := []
  rhsBatch := []
  wf := dot_S5x768_S768x10_S5x10_1_0_0_1_n_n_wf
def scatter_S5x5_S5x2_S5_n_01_01_1 : ScatterDims S5x5 S5x2 S5 where
  updateWindowDims := []
  insertedWindowDims := [0, 1]
  scatterDimsToOperandDims := [0, 1]
  indexVectorDim := 1
  wf := scatter_S5x5_S5x2_S5_n_01_01_1_wf
def dot_S5x5_S5x768_S5x768_1_0_0_1_n_n : DotDims S5x5 S5x768 S5x768 where
  lhsContracting := [1]
  rhsContracting := [0]
  lhsNonContracting := [0]
  rhsNonContracting := [1]
  lhsBatch := []
  rhsBatch := []
  wf := dot_S5x5_S5x768_S5x768_1_0_0_1_n_n_wf

class Facts : Prop extends Facts₀ where

variable [Facts]
-- ==== Proof.RefOps.lean ====
/- The reference program's @main transcribed as literal lists of its host operations, one list per printed window of
   @main, in order; a call of an outlined function is replaced by that function's operations over the call's own
   buffers. A table only: every statement about these lists is proved in RefRun.lean. -/
import proofs.«114392_j58480274702406_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (83 of them). -/
abbrev ops0 : List (HloOp τ sig (Elt F)) :=
  [ StableHlo.nullary main_v0 (iotaInDim S8192 32 0),
    StableHlo.nullary main_c (constantI S_ 32 820#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_v0 : StableHlo.TRef sig ⟨S8192, .i32⟩) main_call0.v1 main_call0.v2 Host.divsi,
    StableHlo.TRef.unary (.of main_v0 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v0 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.TRef.unary (.of main_v1 : StableHlo.TRef sig ⟨S8192, .i32⟩) main_call1.v0 (broadcastInDim S8192x1 ![0] bcast_S8192_S8192x1_0),
    StableHlo.TRef.nullary main_call1.v1 (iotaInDim S1x10 32 1),
    StableHlo.TRef.unary main_call1.v0 main_call1.v2 (broadcastInDim S8192x10 ![0, 1] bcast_S8192x1_S8192x10_0_1),
    StableHlo.TRef.unary main_call1.v1 main_call1.v3 (broadcastInDim S8192x10 ![0, 1] bcast_S1x10_S8192x10_0_1),
    StableHlo.TRef.binary main_call1.v2 main_call1.v3 main_call1.v4 (cmpi .eq),
    StableHlo.TRef.unary main_call1.v4 main_call1.v5 (uitofp .f32),
    StableHlo.unary main_v2 main_v3 ((transpose S10x8192 [1, 0] · transposes_S8192x10_S10x8192_1_0) : (⟨S8192x10, .f32⟩ : BufTy).Contents (Elt F) → (⟨S10x8192, .f32⟩ : BufTy).Contents (Elt F)),
    StableHlo.binary main_v3 main_arg1 main_v4 ((fun l r => Host.dotGeneral dot_S10x8192_S8192x8192_S10x8192_1_0_0_1_n_n none l r) : (⟨S10x8192, .f32⟩ : BufTy).Contents (Elt F) → (⟨S8192x8192, .f32⟩ : BufTy).Contents (Elt F) → (⟨S10x8192, .f32⟩ : BufTy).Contents (Elt F)),
    StableHlo.binary main_v4 main_v2 main_v5 ((fun l r => Host.dotGeneral dot_S10x8192_S8192x10_S10x10_1_0_0_1_n_n none l r) : (⟨S10x8192, .f32⟩ : BufTy).Contents (Elt F) → (⟨S8192x10, .f32⟩ : BufTy).Contents (Elt F) → (⟨S10x10, .f32⟩ : BufTy).Contents (Elt F)),
    StableHlo.unary main_v2 main_v6 ((transpose S10x8192 [1, 0] · transposes_S8192x10_S10x8192_1_0) : (⟨S8192x10, .f32⟩ : BufTy).Contents (Elt F) → (⟨S10x8192, .f32⟩ : BufTy).Contents (Elt F)),
    StableHlo.binary main_v6 main_arg0 main_v7 ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)),
    StableHlo.binary main_v7 main_arg2 main_v8 ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)),
    StableHlo.unary main_arg0 main_v9 ((transpose S768x8192 [1, 0] · transposes_S8192x768_S768x8192_1_0) : (⟨S8192x768, .f32⟩ : BufTy).Contents (Elt F) → (⟨S768x8192, .f32⟩ : BufTy).Contents (Elt F)),
    StableHlo.binary main_v8 main_v9 main_v10 ((fun l r => Host.dotGeneral dot_S10x768_S768x8192_S10x8192_1_0_0_1_n_n none l r) : (⟨S10x768, .f32⟩ : BufTy).Contents (Elt F) → (⟨S768x8192, .f32⟩ : BufTy).Contents (Elt F) → (⟨S10x8192, .f32⟩ : BufTy).Contents (Elt F)),
    StableHlo.nullary main_cst (constant S_ .f32 0x3F800000#32),
    StableHlo.unary main_cst main_v11 (broadcastInDim S8192x10 ![] bcast_S_S8192x10 : (⟨S_, .f32⟩ : BufTy).Contents (Elt F) → (⟨S8192x10, .f32⟩ : BufTy).Contents (Elt F)),
    StableHlo.binary main_v11 main_v2 main_v12 (subf : (⟨S8192x10, .f32⟩ : BufTy).Contents (Elt F) → (⟨S8192x10, .f32⟩ : BufTy).Contents (Elt F) → (⟨S8192x10, .f32⟩ : BufTy).Contents (Elt F)),
    StableHlo.unary main_v12 main_v13 ((transpose S10x8192 [1, 0] · transposes_S8192x10_S10x8192_1_0) : (⟨S8192x10, .f32⟩ : BufTy).Contents (Elt F) → (⟨S10x8192, .f32⟩ : BufTy).Contents (Elt F)),
    StableHlo.binary main_v10 main_v13 main_v14 (mulf : (⟨S10x8192, .f32⟩ : BufTy).Contents (Elt F) → (⟨S10x8192, .f32⟩ : BufTy).Contents (Elt F) → (⟨S10x8192, .f32⟩ : BufTy).Contents (Elt F)),
    StableHlo.nullary main_cst_0 (constant S_ .f32 0xFF800000#32),
    StableHlo.binary main_v14 main_cst_0 main_v15 ((fun x v => Host.reduce FloatOps.maximumf x v reducesTo_S10x8192_S10_d1 h_S_) : (⟨S10x8192, .f32⟩ : BufTy).Contents (Elt F) → (⟨S_, .f32⟩ : BufTy).Contents (Elt F) → (⟨S10, .f32⟩ : BufTy).Contents (Elt F)),
    StableHlo.nullary main_cst_1 (constant S_ .f32 0xFF800000#32),
    StableHlo.unary main_cst_1 main_v16 (broadcastInDim S10 ![] bcast_S_S10 : (⟨S_, .f32⟩ : BufTy).Contents (Elt F) → (⟨S10, .f32⟩ : BufTy).Contents (Elt F)),
    StableHlo.binary main_v16 main_v15 main_v17 (maximumf : (⟨S10, .f32⟩ : BufTy).Contents (Elt F) → (⟨S10, .f32⟩ : BufTy).Contents (Elt F) → (⟨S10, .f32⟩ : BufTy).Contents (Elt F)),
    StableHlo.unary main_v17 main_v18 (broadcastInDim S10x1 ![0] bcast_S10_S10x1_0 : (⟨S10, .f32⟩ : BufTy).Contents (Elt F) → (⟨S10x1, .f32⟩ : BufTy).Contents (Elt F)),
    StableHlo.unary main_v18 main_v19 (broadcastInDim S10x8192 ![0, 1] bcast_S10x1_S10x8192_0_1 : (⟨S10x1, .f32⟩ : BufTy).Contents (Elt F) → (⟨S10x8192, .f32⟩ : BufTy).Contents (Elt F)),
    StableHlo.binary main_v14 main_v19 main_v20 (subf : (⟨S10x8192, .f32⟩ : BufTy).Contents (Elt F) → (⟨S10x8192, .f32⟩ : BufTy).Contents (Elt F) → (⟨S10x8192, .f32⟩ : BufTy).Contents (Elt F)),
    StableHlo.unary main_v20 main_v21 (Host.exp : (⟨S10x8192, .f32⟩ : BufTy).Contents (Elt F) → (⟨S10x8192, .f32⟩ : BufTy).Contents (Elt F)),
    StableHlo.nullary main_cst_2 (constant S_ .f32 0x00000000#32),
    StableHlo.binary main_v21 main_cst_2 main_v22 ((fun x v => Host.reduceAdd x v reducesTo_S10x8192_S10_d1 h_S_) : (⟨S10x8192, .f32⟩ : BufTy).Contents (Elt F) → (⟨S_, .f32⟩ : BufTy).Contents (Elt F) → (⟨S10, .f32⟩ : BufTy).Contents (Elt F)),
    StableHlo.unary main_v22 main_v23 (broadcastInDim S10x1 ![0] bcast_S10_S10x1_0 : (⟨S10, .f32⟩ : BufTy).Contents (Elt F) → (⟨S10x1, .f32⟩ : BufTy).Contents (Elt F)),
    StableHlo.unary main_v23 main_v24 (broadcastInDim S10x8192 ![0, 1] bcast_S10x1_S10x8192_0_1 : (⟨S10x1, .f32⟩ : BufTy).Contents (Elt F) → (⟨S10x8192, .f32⟩ : BufTy).Contents (Elt F)),
    StableHlo.binary main_v21 main_v24 main_v25 (Host.divf : (⟨S10x8192, .f32⟩ : BufTy).Contents (Elt F) → (⟨S10x8192, .f32⟩ : BufTy).Contents (Elt F) → (⟨S10x8192, .f32⟩ : BufTy).Contents (Elt F)),
    StableHlo.binary main_v25 main_arg0 main_v26 ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)),
    StableHlo.binary main_v26 main_v7 main_v27 (addf : (⟨S10x768, .f32⟩ : BufTy).Contents (Elt F) → (⟨S10x768, .f32⟩ : BufTy).Contents (Elt F) → (⟨S10x768, .f32⟩ : BufTy).Contents (Elt F)),
    StableHlo.nullary main_v28 (iotaInDim S10 32 0),
    StableHlo.nullary main_c_3 (constantI S_ 32 0#32),
    StableHlo.unary main_c_3 main_v29 (broadcastInDim S10 ![] bcast_S_S10 : (⟨S_, .i32⟩ : BufTy).Contents (Elt F) → (⟨S10, .i32⟩ : BufTy).Contents (Elt F)),
    StableHlo.binary main_v28 main_v29 main_v30 (cmpi .slt : (⟨S10, .i32⟩ : BufTy).Contents (Elt F) → (⟨S10, .i32⟩ : BufTy).Contents (Elt F) → (⟨S10, .i1⟩ : BufTy).Contents (Elt F)),
    StableHlo.nullary main_c_4 (constantI S_ 32 10#32),
    StableHlo.unary main_c_4 main_v31 (broadcastInDim S10 ![] bcast_S_S10 : (⟨S_, .i32⟩ : BufTy).Contents (Elt F) → (⟨S10, .i32⟩ : BufTy).Contents (Elt F)),
    StableHlo.binary main_v28 main_v31 main_v32 (addi : (⟨S10, .i32⟩ : BufTy).Contents (Elt F) → (⟨S10, .i32⟩ : BufTy).Contents (Elt F) → (⟨S10, .i32⟩ : BufTy).Contents (Elt F)),
    StableHlo.ternary main_v30 main_v32 main_v28 main_v33 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.nullary main_c_5 (constantI S_ 32 0#32),
    StableHlo.unary main_c_5 main_v34 (broadcastInDim S10 ![] bcast_S_S10 : (⟨S_, .i32⟩ : BufTy).Contents (Elt F) → (⟨S10, .i32⟩ : BufTy).Contents (Elt F)),
    StableHlo.binary main_v28 main_v34 main_v35 (cmpi .slt : (⟨S10, .i32⟩ : BufTy).Contents (Elt F) → (⟨S10, .i32⟩ : BufTy).Contents (Elt F) → (⟨S10, .i1⟩ : BufTy).Contents (Elt F)),
    StableHlo.nullary main_c_6 (constantI S_ 32 10#32),
    StableHlo.unary main_c_6 main_v36 (broadcastInDim S10 ![] bcast_S_S10 : (⟨S_, .i32⟩ : BufTy).Contents (Elt F) → (⟨S10, .i32⟩ : BufTy).Contents (Elt F)),
    StableHlo.binary main_v28 main_v36 main_v37 (addi : (⟨S10, .i32⟩ : BufTy).Contents (Elt F) → (⟨S10, .i32⟩ : BufTy).Contents (Elt F) → (⟨S10, .i32⟩ : BufTy).Contents (Elt F)),
    StableHlo.ternary main_v35 main_v37 main_v28 main_v38 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v33 main_v39 (broadcastInDim S10x1 ![0] bcast_S10_S10x1_0 : (⟨S10, .i32⟩ : BufTy).Contents (Elt F) → (⟨S10x1, .i32⟩ : BufTy).Contents (Elt F)),
    StableHlo.unary main_v38 main_v40 (broadcastInDim S10x1 ![0] bcast_S10_S10x1_0 : (⟨S10, .i32⟩ : BufTy).Contents (Elt F) → (⟨S10x1, .i32⟩ : BufTy).Contents (Elt F)),
    StableHlo.binary main_v39 main_v40 main_v41 ((fun a b => concatenate S10x2 1 [⟨S10x1, a⟩, ⟨S10x1, b⟩] concatenates_S10x1_S10x1_S10x2_d1) : (⟨S10x1, .i32⟩ : BufTy).Contents (Elt F) → (⟨S10x1, .i32⟩ : BufTy).Contents (Elt F) → (⟨S10x2, .i32⟩ : BufTy).Contents (Elt F)),
    StableHlo.nullary main_cst_7 (constant S_ .f32 0x3F800000#32),
    StableHlo.unary main_cst_7 main_v42 (broadcastInDim S10 ![] bcast_S_S10 : (⟨S_, .f32⟩ : BufTy).Contents (Elt F) → (⟨S10, .f32⟩ : BufTy).Contents (Elt F)),
    StableHlo.ternary main_v5 main_v41 main_v42 main_v43 ((fun x i u => Host.scatter scatter_S10x10_S10x2_S10_n_01_01_1 (fun _ b => b) x i u) : (⟨S10x10, .f32⟩ : BufTy).Contents (Elt F) → (⟨S10x2, .i32⟩ : BufTy).Contents (Elt F) → (⟨S10, .f32⟩ : BufTy).Contents (Elt F) → (⟨S10x10, .f32⟩ : BufTy).Contents (Elt F)),
    StableHlo.nullary main_cst_8 (constant S_ .f32 0x00000000#32),
    StableHlo.binary main_v43 main_cst_8 main_v44 ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F)),
    StableHlo.nullary main_cst_9 (constant S_ .f32 0x3F800000#32),
    StableHlo.TRef.unary (.of main_cst_9 : StableHlo.TRef sig ⟨S_, .f32⟩) main_call2.v0 id,
    StableHlo.TRef.unary main_call2.v0 main_call2.v1 (broadcastInDim S10 ![] bcast_S_S10),
    StableHlo.TRef.binary main_call2.v1 (.of main_v44 : StableHlo.TRef sig ⟨S10, .f32⟩) main_call2.v2 maximumf,
    StableHlo.nullary main_cst_10 (constant S_ .f32 0xBF000000#32),
    StableHlo.unary main_cst_10 main_v46 (broadcastInDim S10 ![] bcast_S_S10 : (⟨S_, .f32⟩ : BufTy).Contents (Elt F) → (⟨S10, .f32⟩ : BufTy).Contents (Elt F)) ]

theorem ops0_sub : (ops0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., binary_bufs_sub .., unary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., binary_bufs_sub .., nullary_bufs_sub .., unary_bufs_sub .., unary_bufs_sub .., binary_bufs_sub .., nullary_bufs_sub .., unary_bufs_sub ..⟩

/-- The operations of @main's window 1 (83 of them). -/
abbrev ops1 : List (HloOp τ sig (Elt F)) :=
  [ StableHlo.binary main_v45 main_v46 main_v47 (Host.powf : (⟨S10, .f32⟩ : BufTy).Contents (Elt F) → (⟨S10, .f32⟩ : BufTy).Contents (Elt F) → (⟨S10, .f32⟩ : BufTy).Contents (Elt F)),
    StableHlo.unary main_v47 main_v48 (broadcastInDim S10x1 ![0] bcast_S10_S10x1_0 : (⟨S10, .f32⟩ : BufTy).Contents (Elt F) → (⟨S10x1, .f32⟩ : BufTy).Contents (Elt F)),
    StableHlo.unary main_v48 main_v49 (broadcastInDim S10x10 ![0, 1] bcast_S10x1_S10x10_0_1 : (⟨S10x1, .f32⟩ : BufTy).Contents (Elt F) → (⟨S10x10, .f32⟩ : BufTy).Contents (Elt F)),
    StableHlo.binary main_v49 main_v43 main_v50 (mulf : (⟨S10x10, .f32⟩ : BufTy).Contents (Elt F) → (⟨S10x10, .f32⟩ : BufTy).Contents (Elt F) → (⟨S10x10, .f32⟩ : BufTy).Contents (Elt F)),
    StableHlo.unary main_v47 main_v51 (broadcastInDim S1x10 ![1] bcast_S10_S1x10_1 : (⟨S10, .f32⟩ : BufTy).Contents (Elt F) → (⟨S1x10, .f32⟩ : BufTy).Contents (Elt F)),
    StableHlo.unary main_v51 main_v52 (broadcastInDim S10x10 ![0, 1] bcast_S1x10_S10x10_0_1 : (⟨S1x10, .f32⟩ : BufTy).Contents (Elt F) → (⟨S10x10, .f32⟩ : BufTy).Contents (Elt F)),
    StableHlo.binary main_v50 main_v52 main_v53 (mulf : (⟨S10x10, .f32⟩ : BufTy).Contents (Elt F) → (⟨S10x10, .f32⟩ : BufTy).Contents (Elt F) → (⟨S10x10, .f32⟩ : BufTy).Contents (Elt F)),
    StableHlo.binary main_v27 main_arg3 main_v54 ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)),
    StableHlo.binary main_v53 main_v54 main_v55 ((fun l r => Host.dotGeneral dot_S10x10_S10x768_S10x768_1_0_0_1_n_n none l r) : (⟨S10x10, .f32⟩ : BufTy).Contents (Elt F) → (⟨S10x768, .f32⟩ : BufTy).Contents (Elt F) → (⟨S10x768, .f32⟩ : BufTy).Contents (Elt F)),
    StableHlo.unary main_arg4 main_v56 (broadcastInDim S1x768 ![1] bcast_S768_S1x768_1 : (⟨S768, .f32⟩ : BufTy).Contents (Elt F) → (⟨S1x768, .f32⟩ : BufTy).Contents (Elt F)),
    StableHlo.unary main_v56 main_v57 (broadcastInDim S10x768 ![0, 1] bcast_S1x768_S10x768_0_1 : (⟨S1x768, .f32⟩ : BufTy).Contents (Elt F) → (⟨S10x768, .f32⟩ : BufTy).Contents (Elt F)),
    StableHlo.binary main_v55 main_v57 main_v58 (addf : (⟨S10x768, .f32⟩ : BufTy).Contents (Elt F) → (⟨S10x768, .f32⟩ : BufTy).Contents (Elt F) → (⟨S10x768, .f32⟩ : BufTy).Contents (Elt F)),
    StableHlo.TRef.nullary main_call3.cst (constant S_ .f32 0x00000000#32),
    StableHlo.TRef.unary main_call3.cst main_call3.v0 (broadcastInDim S10x768 ![] bcast_S_S10x768),
    StableHlo.TRef.binary (.of main_v58 : StableHlo.TRef sig ⟨S10x768, .f32⟩) main_call3.v0 main_call3.v1 maximumf,
    StableHlo.nullary main_v60 (iotaInDim S10 32 0),
    StableHlo.nullary main_c_11 (constantI S_ 32 2#32),
    StableHlo.TRef.unary (.of main_c_11 : StableHlo.TRef sig ⟨S_, .i32⟩) main_call4.v0 id,
    StableHlo.TRef.unary main_call4.v0 main_call4.v1 (broadcastInDim S10 ![] bcast_S_S10),
    StableHlo.TRef.binary (.of main_v60 : StableHlo.TRef sig ⟨S10, .i32⟩) main_call4.v1 main_call4.v2 Host.divsi,
    StableHlo.TRef.unary (.of main_v60 : StableHlo.TRef sig ⟨S10, .i32⟩) main_call4.v3 signi,
    StableHlo.TRef.unary main_call4.v0 main_call4.v4 signi,
    StableHlo.TRef.unary main_call4.v4 main_call4.v5 (broadcastInDim S10 ![] bcast_S_S10),
    StableHlo.TRef.binary main_call4.v3 main_call4.v5 main_call4.v6 (cmpi .ne),
    StableHlo.TRef.unary main_call4.v0 main_call4.v7 (broadcastInDim S10 ![] bcast_S_S10),
    StableHlo.TRef.binary (.of main_v60 : StableHlo.TRef sig ⟨S10, .i32⟩) main_call4.v7 main_call4.v8 Host.remsi,
    StableHlo.TRef.nullary main_call4.c (constantI S_ 32 0#32),
    StableHlo.TRef.unary main_call4.c main_call4.v9 (broadcastInDim S10 ![] bcast_S_S10),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S10 ![] bcast_S_S10),
    StableHlo.TRef.binary main_call4.v2 main_call4.v12 main_call4.v13 subi,
    StableHlo.TRef.ternary main_call4.v11 main_call4.v13 main_call4.v2 main_call4.call0.v0 select,
    StableHlo.TRef.unary (.of main_v61 : StableHlo.TRef sig ⟨S10, .i32⟩) main_call5.v0 (broadcastInDim S10x1 ![0] bcast_S10_S10x1_0),
    StableHlo.TRef.nullary main_call5.v1 (iotaInDim S1x5 32 1),
    StableHlo.TRef.unary main_call5.v0 main_call5.v2 (broadcastInDim S10x5 ![0, 1] bcast_S10x1_S10x5_0_1),
    StableHlo.TRef.unary main_call5.v1 main_call5.v3 (broadcastInDim S10x5 ![0, 1] bcast_S1x5_S10x5_0_1),
    StableHlo.TRef.binary main_call5.v2 main_call5.v3 main_call5.v4 (cmpi .eq),
    StableHlo.TRef.unary main_call5.v4 main_call5.v5 (uitofp .f32),
    StableHlo.unary main_v62 main_v63 ((transpose S5x10 [1, 0] · transposes_S10x5_S5x10_1_0) : (⟨S10x5, .f32⟩ : BufTy).Contents (Elt F) → (⟨S5x10, .f32⟩ : BufTy).Contents (Elt F)),
    StableHlo.binary main_v63 main_v5 main_v64 ((fun l r => Host.dotGeneral dot_S5x10_S10x10_S5x10_1_0_0_1_n_n none l r) : (⟨S5x10, .f32⟩ : BufTy).Contents (Elt F) → (⟨S10x10, .f32⟩ : BufTy).Contents (Elt F) → (⟨S5x10, .f32⟩ : BufTy).Contents (Elt F)),
    StableHlo.binary main_v64 main_v62 main_v65 ((fun l r => Host.dotGeneral dot_S5x10_S10x5_S5x5_1_0_0_1_n_n none l r) : (⟨S5x10, .f32⟩ : BufTy).Contents (Elt F) → (⟨S10x5, .f32⟩ : BufTy).Contents (Elt F) → (⟨S5x5, .f32⟩ : BufTy).Contents (Elt F)),
    StableHlo.unary main_v62 main_v66 ((transpose S5x10 [1, 0] · transposes_S10x5_S5x10_1_0) : (⟨S10x5, .f32⟩ : BufTy).Contents (Elt F) → (⟨S5x10, .f32⟩ : BufTy).Contents (Elt F)),
    StableHlo.binary main_v66 main_v59 main_v67 ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)),
    StableHlo.binary main_v67 main_arg5 main_v68 ((fun l r => Host.dotGeneral dot_S5x768_S768x768_S5x768_1_0_0_1_n_n none l r) : (⟨S5x768, .f32⟩ : BufTy).Contents (Elt F) → (⟨S768x768, .f32⟩ : BufTy).Contents (Elt F) → (⟨S5x768, .f32⟩ : BufTy).Contents (Elt F)),
    StableHlo.unary main_v59 main_v69 ((transpose S768x10 [1, 0] · transposes_S10x768_S768x10_1_0) : (⟨S10x768, .f32⟩ : BufTy).Contents (Elt F) → (⟨S768x10, .f32⟩ : BufTy).Contents (Elt F)),
    StableHlo.binary main_v68 main_v69 main_v70 ((fun l r => Host.dotGeneral dot_S5x768_S768x10_S5x10_1_0_0_1_n_n none l r) : (⟨S5x768, .f32⟩ : BufTy).Contents (Elt F) → (⟨S768x10, .f32⟩ : BufTy).Contents (Elt F) → (⟨S5x10, .f32⟩ : BufTy).Contents (Elt F)),
    StableHlo.nullary main_cst_12 (constant S_ .f32 0x3F800000#32),
    StableHlo.unary main_cst_12 main_v71 (broadcastInDim S10x5 ![] bcast_S_S10x5 : (⟨S_, .f32⟩ : BufTy).Contents (Elt F) → (⟨S10x5, .f32⟩ : BufTy).Contents (Elt F)),
    StableHlo.binary main_v71 main_v62 main_v72 (subf : (⟨S10x5, .f32⟩ : BufTy).Contents (Elt F) → (⟨S10x5, .f32⟩ : BufTy).Contents (Elt F) → (⟨S10x5, .f32⟩ : BufTy).Contents (Elt F)),
    StableHlo.unary main_v72 main_v73 ((transpose S5x10 [1, 0] · transposes_S10x5_S5x10_1_0) : (⟨S10x5, .f32⟩ : BufTy).Contents (Elt F) → (⟨S5x10, .f32⟩ : BufTy).Contents (Elt F)),
    StableHlo.binary main_v70 main_v73 main_v74 (mulf : (⟨S5x10, .f32⟩ : BufTy).Contents (Elt F) → (⟨S5x10, .f32⟩ : BufTy).Contents (Elt F) → (⟨S5x10, .f32⟩ : BufTy).Contents (Elt F)),
    StableHlo.nullary main_cst_13 (constant S_ .f32 0xFF800000#32),
    StableHlo.binary main_v74 main_cst_13 main_v75 ((fun x v => Host.reduce FloatOps.maximumf x v reducesTo_S5x10_S5_d1 h_S_) : (⟨S5x10, .f32⟩ : BufTy).Contents (Elt F) → (⟨S_, .f32⟩ : BufTy).Contents (Elt F) → (⟨S5, .f32⟩ : BufTy).Contents (Elt F)),
    StableHlo.nullary main_cst_14 (constant S_ .f32 0xFF800000#32),
    StableHlo.unary main_cst_14 main_v76 (broadcastInDim S5 ![] bcast_S_S5 : (⟨S_, .f32⟩ : BufTy).Contents (Elt F) → (⟨S5, .f32⟩ : BufTy).Contents (Elt F)),
    StableHlo.binary main_v76 main_v75 main_v77 (maximumf : (⟨S5, .f32⟩ : BufTy).Contents (Elt F) → (⟨S5, .f32⟩ : BufTy).Contents (Elt F) → (⟨S5, .f32⟩ : BufTy).Contents (Elt F)),
    StableHlo.unary main_v77 main_v78 (broadcastInDim S5x1 ![0] bcast_S5_S5x1_0 : (⟨S5, .f32⟩ : BufTy).Contents (Elt F) → (⟨S5x1, .f32⟩ : BufTy).Contents (Elt F)),
    StableHlo.unary main_v78 main_v79 (broadcastInDim S5x10 ![0, 1] bcast_S5x1_S5x10_0_1 : (⟨S5x1, .f32⟩ : BufTy).Contents (Elt F) → (⟨S5x10, .f32⟩ : BufTy).Contents (Elt F)),
    StableHlo.binary main_v74 main_v79 main_v80 (subf : (⟨S5x10, .f32⟩ : BufTy).Contents (Elt F) → (⟨S5x10, .f32⟩ : BufTy).Contents (Elt F) → (⟨S5x10, .f32⟩ : BufTy).Contents (Elt F)),
    StableHlo.unary main_v80 main_v81 (Host.exp : (⟨S5x10, .f32⟩ : BufTy).Contents (Elt F) → (⟨S5x10, .f32⟩ : BufTy).Contents (Elt F)),
    StableHlo.nullary main_cst_15 (constant S_ .f32 0x00000000#32),
    StableHlo.binary main_v81 main_cst_15 main_v82 ((fun x v => Host.reduceAdd x v reducesTo_S5x10_S5_d1 h_S_) : (⟨S5x10, .f32⟩ : BufTy).Contents (Elt F) → (⟨S_, .f32⟩ : BufTy).Contents (Elt F) → (⟨S5, .f32⟩ : BufTy).Contents (Elt F)),
    StableHlo.unary main_v82 main_v83 (broadcastInDim S5x1 ![0] bcast_S5_S5x1_0 : (⟨S5, .f32⟩ : BufTy).Contents (Elt F) → (⟨S5x1, .f32⟩ : BufTy).Contents (Elt F)),
    StableHlo.unary main_v83 main_v84 (broadcastInDim S5x10 ![0, 1] bcast_S5x1_S5x10_0_1 : (⟨S5x1, .f32⟩ : BufTy).Contents (Elt F) → (⟨S5x10, .f32⟩ : BufTy).Contents (Elt F)),
    StableHlo.binary main_v81 main_v84 main_v85 (Host.divf : (⟨S5x10, .f32⟩ : BufTy).Contents (Elt F) → (⟨S5x10, .f32⟩ : BufTy).Contents (Elt F) → (⟨S5x10, .f32⟩ : BufTy).Contents (Elt F)),
    StableHlo.binary main_v85 main_v59 main_v86 ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)),
    StableHlo.binary main_v86 main_v67 main_v87 (addf : (⟨S5x768, .f32⟩ : BufTy).Contents (Elt F) → (⟨S5x768, .f32⟩ : BufTy).Contents (Elt F) → (⟨S5x768, .f32⟩ : BufTy).Contents (Elt F)),
    StableHlo.nullary main_v88 (iotaInDim S5 32 0),
    StableHlo.nullary main_c_16 (constantI S_ 32 0#32),
    StableHlo.unary main_c_16 main_v89 (broadcastInDim S5 ![] bcast_S_S5 : (⟨S_, .i32⟩ : BufTy).Contents (Elt F) → (⟨S5, .i32⟩ : BufTy).Contents (Elt F)),
    StableHlo.binary main_v88 main_v89 main_v90 (cmpi .slt : (⟨S5, .i32⟩ : BufTy).Contents (Elt F) → (⟨S5, .i32⟩ : BufTy).Contents (Elt F) → (⟨S5, .i1⟩ : BufTy).Contents (Elt F)),
    StableHlo.nullary main_c_17 (constantI S_ 32 5#32),
    StableHlo.unary main_c_17 main_v91 (broadcastInDim S5 ![] bcast_S_S5 : (⟨S_, .i32⟩ : BufTy).Contents (Elt F) → (⟨S5, .i32⟩ : BufTy).Contents (Elt F)),
    StableHlo.binary main_v88 main_v91 main_v92 (addi : (⟨S5, .i32⟩ : BufTy).Contents (Elt F) → (⟨S5, .i32⟩ : BufTy).Contents (Elt F) → (⟨S5, .i32⟩ : BufTy).Contents (Elt F)),
    StableHlo.ternary main_v90 main_v92 main_v88 main_v93 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.nullary main_c_18 (constantI S_ 32 0#32),
    StableHlo.unary main_c_18 main_v94 (broadcastInDim S5 ![] bcast_S_S5 : (⟨S_, .i32⟩ : BufTy).Contents (Elt F) → (⟨S5, .i32⟩ : BufTy).Contents (Elt F)),
    StableHlo.binary main_v88 main_v94 main_v95 (cmpi .slt : (⟨S5, .i32⟩ : BufTy).Contents (Elt F) → (⟨S5, .i32⟩ : BufTy).Contents (Elt F) → (⟨S5, .i1⟩ : BufTy).Contents (Elt F)),
    StableHlo.nullary main_c_19 (constantI S_ 32 5#32),
    StableHlo.unary main_c_19 main_v96 (broadcastInDim S5 ![] bcast_S_S5 : (⟨S_, .i32⟩ : BufTy).Contents (Elt F) → (⟨S5, .i32⟩ : BufTy).Contents (Elt F)),
    StableHlo.binary main_v88 main_v96 main_v97 (addi : (⟨S5, .i32⟩ : BufTy).Contents (Elt F) → (⟨S5, .i32⟩ : BufTy).Contents (Elt F) → (⟨S5, .i32⟩ : BufTy).Contents (Elt F)) ]

theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., binary_bufs_sub .., unary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

/-- The operations of @main's window 2 (35 of them). -/
abbrev ops2 : List (HloOp τ sig (Elt F)) :=
  [ StableHlo.ternary main_v95 main_v97 main_v88 main_v98 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v93 main_v99 (broadcastInDim S5x1 ![0] bcast_S5_S5x1_0 : (⟨S5, .i32⟩ : BufTy).Contents (Elt F) → (⟨S5x1, .i32⟩ : BufTy).Contents (Elt F)),
    StableHlo.unary main_v98 main_v100 (broadcastInDim S5x1 ![0] bcast_S5_S5x1_0 : (⟨S5, .i32⟩ : BufTy).Contents (Elt F) → (⟨S5x1, .i32⟩ : BufTy).Contents (Elt F)),
    StableHlo.binary main_v99 main_v100 main_v101 ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)),
    StableHlo.nullary main_cst_20 (constant S_ .f32 0x3F800000#32),
    StableHlo.unary main_cst_20 main_v102 (broadcastInDim S5 ![] bcast_S_S5 : (⟨S_, .f32⟩ : BufTy).Contents (Elt F) → (⟨S5, .f32⟩ : BufTy).Contents (Elt F)),
    StableHlo.ternary main_v65 main_v101 main_v102 main_v103 ((fun x i u => Host.scatter scatter_S5x5_S5x2_S5_n_01_01_1 (fun _ b => b) x i u) : (⟨S5x5, .f32⟩ : BufTy).Contents (Elt F) → (⟨S5x2, .i32⟩ : BufTy).Contents (Elt F) → (⟨S5, .f32⟩ : BufTy).Contents (Elt F) → (⟨S5x5, .f32⟩ : BufTy).Contents (Elt F)),
    StableHlo.nullary main_cst_21 (constant S_ .f32 0x00000000#32),
    StableHlo.binary main_v103 main_cst_21 main_v104 ((fun x v => Host.reduceAdd x v reducesTo_S5x5_S5_d1 h_S_) : (⟨S5x5, .f32⟩ : BufTy).Contents (Elt F) → (⟨S_, .f32⟩ : BufTy).Contents (Elt F) → (⟨S5, .f32⟩ : BufTy).Contents (Elt F)),
    StableHlo.nullary main_cst_22 (constant S_ .f32 0x3F800000#32),
    StableHlo.TRef.unary (.of main_cst_22 : StableHlo.TRef sig ⟨S_, .f32⟩) main_call6.v0 id,
    StableHlo.TRef.unary main_call6.v0 main_call6.v1 (broadcastInDim S5 ![] bcast_S_S5),
    StableHlo.TRef.binary main_call6.v1 (.of main_v104 : StableHlo.TRef sig ⟨S5, .f32⟩) main_call6.v2 maximumf,
    StableHlo.nullary main_cst_23 (constant S_ .f32 0xBF000000#32),
    StableHlo.unary main_cst_23 main_v106 (broadcastInDim S5 ![] bcast_S_S5 : (⟨S_, .f32⟩ : BufTy).Contents (Elt F) → (⟨S5, .f32⟩ : BufTy).Contents (Elt F)),
    StableHlo.binary main_v105 main_v106 main_v107 (Host.powf : (⟨S5, .f32⟩ : BufTy).Contents (Elt F) → (⟨S5, .f32⟩ : BufTy).Contents (Elt F) → (⟨S5, .f32⟩ : BufTy).Contents (Elt F)),
    StableHlo.unary main_v107 main_v108 (broadcastInDim S5x1 ![0] bcast_S5_S5x1_0 : (⟨S5, .f32⟩ : BufTy).Contents (Elt F) → (⟨S5x1, .f32⟩ : BufTy).Contents (Elt F)),
    StableHlo.unary main_v108 main_v109 (broadcastInDim S5x5 ![0, 1] bcast_S5x1_S5x5_0_1 : (⟨S5x1, .f32⟩ : BufTy).Contents (Elt F) → (⟨S5x5, .f32⟩ : BufTy).Contents (Elt F)),
    StableHlo.binary main_v109 main_v103 main_v110 (mulf : (⟨S5x5, .f32⟩ : BufTy).Contents (Elt F) → (⟨S5x5, .f32⟩ : BufTy).Contents (Elt F) → (⟨S5x5, .f32⟩ : BufTy).Contents (Elt F)),
    StableHlo.unary main_v107 main_v111 (broadcastInDim S1x5 ![1] bcast_S5_S1x5_1 : (⟨S5, .f32⟩ : BufTy).Contents (Elt F) → (⟨S1x5, .f32⟩ : BufTy).Contents (Elt F)),
    StableHlo.unary main_v111 main_v112 (broadcastInDim S5x5 ![0, 1] bcast_S1x5_S5x5_0_1 : (⟨S1x5, .f32⟩ : BufTy).Contents (Elt F) → (⟨S5x5, .f32⟩ : BufTy).Contents (Elt F)),
    StableHlo.binary main_v110 main_v112 main_v113 (mulf : (⟨S5x5, .f32⟩ : BufTy).Contents (Elt F) → (⟨S5x5, .f32⟩ : BufTy).Contents (Elt F) → (⟨S5x5, .f32⟩ : BufTy).Contents (Elt F)),
    StableHlo.binary main_v87 main_arg6 main_v114 ((fun l r => Host.dotGeneral dot_S5x768_S768x768_S5x768_1_0_0_1_n_n none l r) : (⟨S5x768, .f32⟩ : BufTy).Contents (Elt F) → (⟨S768x768, .f32⟩ : BufTy).Contents (Elt F) → (⟨S5x768, .f32⟩ : BufTy).Contents (Elt F)),
    StableHlo.binary main_v113 main_v114 main_v115 ((fun l r => Host.dotGeneral dot_S5x5_S5x768_S5x768_1_0_0_1_n_n none l r) : (⟨S5x5, .f32⟩ : BufTy).Contents (Elt F) → (⟨S5x768, .f32⟩ : BufTy).Contents (Elt F) → (⟨S5x768, .f32⟩ : BufTy).Contents (Elt F)),
    StableHlo.unary main_arg7 main_v116 (broadcastInDim S1x768 ![1] bcast_S768_S1x768_1 : (⟨S768, .f32⟩ : BufTy).Contents (Elt F) → (⟨S1x768, .f32⟩ : BufTy).Contents (Elt F)),
    StableHlo.unary main_v116 main_v117 (broadcastInDim S5x768 ![0, 1] bcast_S1x768_S5x768_0_1 : (⟨S1x768, .f32⟩ : BufTy).Contents (Elt F) → (⟨S5x768, .f32⟩ : BufTy).Contents (Elt F)),
    StableHlo.binary main_v115 main_v117 main_v118 (addf : (⟨S5x768, .f32⟩ : BufTy).Contents (Elt F) → (⟨S5x768, .f32⟩ : BufTy).Contents (Elt F) → (⟨S5x768, .f32⟩ : BufTy).Contents (Elt F)),
    StableHlo.TRef.nullary main_call7.cst (constant S_ .f32 0x00000000#32),
    StableHlo.TRef.unary main_call7.cst main_call7.v0 (broadcastInDim S5x768 ![] bcast_S_S5x768),
    StableHlo.TRef.binary (.of main_v118 : StableHlo.TRef sig ⟨S5x768, .f32⟩) main_call7.v0 main_call7.v1 maximumf,
    StableHlo.nullary main_cst_24 (constant S_ .f32 0x00000000#32),
    StableHlo.binary main_v119 main_cst_24 main_v120 ((fun x v => Host.reduceAdd x v reducesTo_S5x768_S768_d0 h_S_) : (⟨S5x768, .f32⟩ : BufTy).Contents (Elt F) → (⟨S_, .f32⟩ : BufTy).Contents (Elt F) → (⟨S768, .f32⟩ : BufTy).Contents (Elt F)),
    StableHlo.nullary main_cst_25 (constant S_ .f32 0x40A00000#32),
    StableHlo.unary main_cst_25 main_v121 (broadcastInDim S768 ![] bcast_S_S768 : (⟨S_, .f32⟩ : BufTy).Contents (Elt F) → (⟨S768, .f32⟩ : BufTy).Contents (Elt F)),
    StableHlo.binary main_v120 main_v121 main_v122 (Host.divf : (⟨S768, .f32⟩ : BufTy).Contents (Elt F) → (⟨S768, .f32⟩ : BufTy).Contents (Elt F) → (⟨S768, .f32⟩ : BufTy).Contents (Elt F)) ]

theorem ops2_sub : (ops2 : List (HloOp τ sig (Elt F))).Forall fun op => op.bufs ⊆ tcRefs τ sig :=
  ⟨ternary_bufs_sub .., unary_bufs_sub .., unary_bufs_sub .., binary_bufs_sub .., nullary_bufs_sub .., unary_bufs_sub .., ternary_bufs_sub .., nullary_bufs_sub .., binary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub ..⟩

end Cert.ReferenceIdeal.RefRun

end
-- ==== Proof.RefRun.lean ====
/-
  The reference program runs to the end. Its @main is a straight line of host operations: 152 printed statements in
  three windows, eight of them calls of outlined functions (the two integer floor divisions with their selects, the
  two one-hot comparisons, the two clamps from below and the two rectifiers), 201 operations once every call is
  replaced by its callee's operations. Such a line always terminates without a fault, and afterwards every buffer of
  a core holds the fold of the operations' results over the launch contents; no operation of the line writes an
  argument buffer, so each argument ends as launched.
-/
import proofs.«114392_j58480274702406_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line: the three windows' operations in order. -/
abbrev ops : List (HloOp τ sig (Elt F)) := ops0 ++ (ops1 ++ ops2)

/-- The contents after two lines run in order are the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Window 0 of @main is its operations in order: the callees' definitions opened at their calls, and the
    sequencing reassociated, leave one chain of steps on both sides. -/
theorem part0_eq (c : Dev nD) : main_part0 (F := F) c = seq ops0 := by
  simp only [main_part0, fn_floor_divide.body, fn_where.body, fn_one_hot.body, fn_clip.body, seq, bind_assoc, pure_bind]
  rfl

theorem part1_eq (c : Dev nD) : main_part1 (F := F) c = seq ops1 := by
  simp only [main_part1, fn_relu.body, fn_floor_divide_0.body, fn_where_1.body, fn_one_hot_2.body, seq, bind_assoc, pure_bind]
  rfl

theorem part2_eq (c : Dev nD) : main_part2 (F := F) c = seq ops2 := by
  simp only [main_part2, fn_clip_3.body, fn_relu_4.body, seq, bind_assoc, pure_bind]

/-- @main is the whole line. -/
theorem main_eq (c : Dev nD) : main (F := F) c = seq ops := by
  show (main_part0 (F := F) c >>= fun _ => main_part1 (F := F) c >>= fun _ => main_part2 (F := F) c) = _
  rw [part0_eq, part1_eq, part2_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, ops2_sub⟩⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- No operation of the line allocates: each determines its results. -/
theorem ops_fresh : ∀ op ∈ (ops : List (HloOp τ sig (Elt F))), op.fresh = ∅ :=
  List.forall_iff_forall_mem.mp (List.forall_append.mpr ⟨ops0_fresh, List.forall_append.mpr ⟨ops1_fresh, ops2_fresh⟩⟩)

/-- On every core, from any memory with zero counters: every weakly fair execution of @main terminates without a
    fault, and every final state has each buffer at the fold of the line's results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefFrame.lean ====
/-
  The reference program's frame: it runs to the end without a fault and its eight argument arrays end as launched.
  The run is the straight line of RefRun.lean; an argument buffer is written by none of the line's operations (each
  writes its own result buffer, and those are all distinct from the arguments), so the fold of the results over the
  launch contents leaves it alone, window by window.
-/
import proofs.«114392_j58480274702406_2_alg».proof.Proof.RefRun
import proofs.«114392_j58480274702406_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No operation of window 0 writes an argument buffer. -/
theorem kept0 (V : Valuation τ sig (Elt F)) :
    after ops0 V (Proc.devRef .tc main_arg0) = V (Proc.devRef .tc main_arg0)
    ∧ after ops0 V (Proc.devRef .tc main_arg1) = V (Proc.devRef .tc main_arg1)
    ∧ after ops0 V (Proc.devRef .tc main_arg2) = V (Proc.devRef .tc main_arg2)
    ∧ after ops0 V (Proc.devRef .tc main_arg3) = V (Proc.devRef .tc main_arg3)
    ∧ after ops0 V (Proc.devRef .tc main_arg4) = V (Proc.devRef .tc main_arg4)
    ∧ after ops0 V (Proc.devRef .tc main_arg5) = V (Proc.devRef .tc main_arg5)
    ∧ after ops0 V (Proc.devRef .tc main_arg6) = V (Proc.devRef .tc main_arg6)
    ∧ after ops0 V (Proc.devRef .tc main_arg7) = V (Proc.devRef .tc main_arg7) := by
  refine ⟨?_, ?_, ?_, ?_, ?_, ?_, ?_, ?_⟩ <;> after_results_simp

/-- No operation of window 1 writes an argument buffer. -/
theorem kept1 (V : Valuation τ sig (Elt F)) :
    after ops1 V (Proc.devRef .tc main_arg0) = V (Proc.devRef .tc main_arg0)
    ∧ after ops1 V (Proc.devRef .tc main_arg1) = V (Proc.devRef .tc main_arg1)
    ∧ after ops1 V (Proc.devRef .tc main_arg2) = V (Proc.devRef .tc main_arg2)
    ∧ after ops1 V (Proc.devRef .tc main_arg3) = V (Proc.devRef .tc main_arg3)
    ∧ after ops1 V (Proc.devRef .tc main_arg4) = V (Proc.devRef .tc main_arg4)
    ∧ after ops1 V (Proc.devRef .tc main_arg5) = V (Proc.devRef .tc main_arg5)
    ∧ after ops1 V (Proc.devRef .tc main_arg6) = V (Proc.devRef .tc main_arg6)
    ∧ after ops1 V (Proc.devRef .tc main_arg7) = V (Proc.devRef .tc main_arg7) := by
  refine ⟨?_, ?_, ?_, ?_, ?_, ?_, ?_, ?_⟩ <;> after_results_simp

/-- No operation of window 2 writes an argument buffer. -/
theorem kept2 (V : Valuation τ sig (Elt F)) :
    after ops2 V (Proc.devRef .tc main_arg0) = V (Proc.devRef .tc main_arg0)
    ∧ after ops2 V (Proc.devRef .tc main_arg1) = V (Proc.devRef .tc main_arg1)
    ∧ after ops2 V (Proc.devRef .tc main_arg2) = V (Proc.devRef .tc main_arg2)
    ∧ after ops2 V (Proc.devRef .tc main_arg3) = V (Proc.devRef .tc main_arg3)
    ∧ after ops2 V (Proc.devRef .tc main_arg4) = V (Proc.devRef .tc main_arg4)
    ∧ after ops2 V (Proc.devRef .tc main_arg5) = V (Proc.devRef .tc main_arg5)
    ∧ after ops2 V (Proc.devRef .tc main_arg6) = V (Proc.devRef .tc main_arg6)
    ∧ after ops2 V (Proc.devRef .tc main_arg7) = V (Proc.devRef .tc main_arg7) := by
  refine ⟨?_, ?_, ?_, ?_, ?_, ?_, ?_, ?_⟩ <;> after_results_simp

/-- The whole line leaves every argument buffer as it found it. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  simp only [ops, after_append]
  obtain ⟨a0, a1, a2, a3, a4, a5, a6, a7⟩ := kept0 (F := F) V
  obtain ⟨b0, b1, b2, b3, b4, b5, b6, b7⟩ := kept1 (F := F) (after ops0 V)
  obtain ⟨c0, c1, c2, c3, c4, c5, c6, c7⟩ := kept2 (F := F) (after ops1 (after ops0 V))
  exact ⟨c0.trans (b0.trans a0), c1.trans (b1.trans a1), c2.trans (b2.trans a2), c3.trans (b3.trans a3),
    c4.trans (b4.trans a4), c5.trans (b5.trans a5), c6.trans (b6.trans a6), c7.trans (b7.trans a7)⟩

end Cert.ReferenceIdeal.RefRun

namespace Cert.Proof.Ref

open Idealize.ShloMosaic Idealize.SL.Sem Idealize.ShloMosaic.StableHlo Cert.ReferenceIdeal.RefRun

/-- The reference runs, faults nowhere, and returns its arguments unchanged. -/
theorem frame_ri [hR : Cert.ReferenceIdeal.Facts] [hP : Cert.Pre_finite_inputs.Facts] : Cert.frame_ReferenceIdeal := fun m ρ _ =>
  (θ_run Cert.ReferenceIdeal.defs _ _).mono (fun r h c => by
    obtain ⟨k0, k1, k2, k3, k4, k5, k6, k7⟩ := kept (F := Ideal) (launchContents m c)
    exact ⟨(h c _).trans k0, (h c _).trans k1, (h c _).trans k2, (h c _).trans k3, (h c _).trans k4, (h c _).trans k5,
      (h c _).trans k6, (h c _).trans k7⟩)
    (run_main (F := Ideal) m ρ)

end Cert.Proof.Ref

end
-- ==== Proof.RefValueHead.lean ====
/-
  The first stage of the reference computation, statement by statement, as functions of the arrays it reads.
  The low-to-mid mapping is computed from no input (an iota, a floor division by 820, a comparison with a column
  iota, the bit read as a float). The mid-level adjacency is two matrix products around the node adjacency. The
  mid-level representation is the clusters' attention over all nodes: the scores, their row maxima, the
  exponentials, the row sums, the quotients, and the product with the node features added to the cluster sums.
-/
import proofs.«114392_j58480274702406_2_alg».proof.Proof.RefFrame

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

set_option maxHeartbeats 1000000

section Stages
variable {F : FTy → Type} [FloatOps F]

/-- The comparison behind the low-to-mid mapping: entry (s, p) is the one-bit word 1 when the floor quotient s / 820 (computed as the truncated quotient, lowered by one when the signs differ and the remainder is not zero) equals p. -/
def m1Bits  :
    (⟨S8192x10, .i1⟩ : BufTy).Contents (Elt F) :=
  let v0 : (⟨S8192, .i32⟩ : BufTy).Contents (Elt F) := (iotaInDim S8192 32 0)
  let c : (⟨S_, .i32⟩ : BufTy).Contents (Elt F) := (constantI S_ 32 820#32)
  let call0_v0 : (⟨S_, .i32⟩ : BufTy).Contents (Elt F) := id c
  let call0_v1 : (⟨S8192, .i32⟩ : BufTy).Contents (Elt F) := (broadcastInDim S8192 ![] bcast_S_S8192) call0_v0
  let call0_v2 : (⟨S8192, .i32⟩ : BufTy).Contents (Elt F) := Host.divsi v0 call0_v1
  let call0_v3 : (⟨S8192, .i32⟩ : BufTy).Contents (Elt F) := signi v0
  let call0_v4 : (⟨S_, .i32⟩ : BufTy).Contents (Elt F) := signi call0_v0
  let call0_v5 : (⟨S8192, .i32⟩ : BufTy).Contents (Elt F) := (broadcastInDim S8192 ![] bcast_S_S8192) call0_v4
  let call0_v6 : (⟨S8192, .i1⟩ : BufTy).Contents (Elt F) := (cmpi .ne) call0_v3 call0_v5
  let call0_v7 : (⟨S8192, .i32⟩ : BufTy).Contents (Elt F) := (broadcastInDim S8192 ![] bcast_S_S8192) call0_v0
  let call0_v8 : (⟨S8192, .i32⟩ : BufTy).Contents (Elt F) := Host.remsi v0 call0_v7
  let call0_c : (⟨S_, .i32⟩ : BufTy).Contents (Elt F) := (constantI S_ 32 0#32)
  let call0_v9 : (⟨S8192, .i32⟩ : BufTy).Contents (Elt F) := (broadcastInDim S8192 ![] bcast_S_S8192) call0_c
  let call0_v10 : (⟨S8192, .i1⟩ : BufTy).Contents (Elt F) := (cmpi .ne) call0_v8 call0_v9
  let call0_v11 : (⟨S8192, .i1⟩ : BufTy).Contents (Elt F) := andi call0_v6 call0_v10
  let call0_c_0 : (⟨S_, .i32⟩ : BufTy).Contents (Elt F) := (constantI S_ 32 1#32)
  let call0_v12 : (⟨S8192, .i32⟩ : BufTy).Contents (Elt F) := (broadcastInDim S8192 ![] bcast_S_S8192) call0_c_0
  let call0_v13 : (⟨S8192, .i32⟩ : BufTy).Contents (Elt F) := subi call0_v2 call0_v12
  let v1 : (⟨S8192, .i32⟩ : BufTy).Contents (Elt F) := select call0_v11 call0_v13 call0_v2
  let call1_v0 : (⟨S8192x1, .i32⟩ : BufTy).Contents (Elt F) := (broadcastInDim S8192x1 ![0] bcast_S8192_S8192x1_0) v1
  let call1_v1 : (⟨S1x10, .i32⟩ : BufTy).Contents (Elt F) := (iotaInDim S1x10 32 1)
  let call1_v2 : (⟨S8192x10, .i32⟩ : BufTy).Contents (Elt F) := (broadcastInDim S8192x10 ![0, 1] bcast_S8192x1_S8192x10_0_1) call1_v0
  let call1_v3 : (⟨S8192x10, .i32⟩ : BufTy).Contents (Elt F) := (broadcastInDim S8192x10 ![0, 1] bcast_S1x10_S8192x10_0_1) call1_v1
  let call1_v4 : (⟨S8192x10, .i1⟩ : BufTy).Contents (Elt F) := (cmpi .eq) call1_v2 call1_v3
  call1_v4

/-- The low-to-mid mapping: the comparison bit read as a float, 0 or 1. -/
def m1Val (call1_v4 : (⟨S8192x10, .i1⟩ : BufTy).Contents (Elt F)) :
    (⟨S8192x10, .f32⟩ : BufTy).Contents (Elt F) :=
  let v2 : (⟨S8192x10, .f32⟩ : BufTy).Contents (Elt F) := (uitofp .f32) call1_v4
  v2

/-- The mid-level adjacency: the mapping's transpose times the adjacency, times the mapping. -/
def midAdjOf (v2 : (⟨S8192x10, .f32⟩ : BufTy).Contents (Elt F)) (a1 : (⟨S8192x8192, .f32⟩ : BufTy).Contents (Elt F)) :
    (⟨S10x10, .f32⟩ : BufTy).Contents (Elt F) :=
  let v3 : (⟨S10x8192, .f32⟩ : BufTy).Contents (Elt F) := ((transpose S10x8192 [1, 0] · transposes_S8192x10_S10x8192_1_0) : (⟨S8192x10, .f32⟩ : BufTy).Contents (Elt F) → (⟨S10x8192, .f32⟩ : BufTy).Contents (Elt F)) v2
  let v4 : (⟨S10x8192, .f32⟩ : BufTy).Contents (Elt F) := ((fun l r => Host.dotGeneral dot_S10x8192_S8192x8192_S10x8192_1_0_0_1_n_n none l r) : (⟨S10x8192, .f32⟩ : BufTy).Contents (Elt F) → (⟨S8192x8192, .f32⟩ : BufTy).Contents (Elt F) → (⟨S10x8192, .f32⟩ : BufTy).Contents (Elt F)) v3 a1
  let v5 : (⟨S10x10, .f32⟩ : BufTy).Contents (Elt F) := ((fun l r => Host.dotGeneral dot_S10x8192_S8192x10_S10x10_1_0_0_1_n_n none l r) : (⟨S10x8192, .f32⟩ : BufTy).Contents (Elt F) → (⟨S8192x10, .f32⟩ : BufTy).Contents (Elt F) → (⟨S10x10, .f32⟩ : BufTy).Contents (Elt F)) v4 v2
  v5

/-- The clusters' sums of the node features: the mapping's transpose times the features. -/
def midOf (v2 : (⟨S8192x10, .f32⟩ : BufTy).Contents (Elt F)) (a0 : (⟨S8192x768, .f32⟩ : BufTy).Contents (Elt F)) :
    (⟨S10x768, .f32⟩ : BufTy).Contents (Elt F) :=
  let v6 : (⟨S10x8192, .f32⟩ : BufTy).Contents (Elt F) := ((transpose S10x8192 [1, 0] · transposes_S8192x10_S10x8192_1_0) : (⟨S8192x10, .f32⟩ : BufTy).Contents (Elt F) → (⟨S10x8192, .f32⟩ : BufTy).Contents (Elt F)) v2
  let v7 : (⟨S10x768, .f32⟩ : BufTy).Contents (Elt F) := ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)) v6 a0
  v7

/-- The attention scores: the cluster sums times the attention matrix times the features' transpose, each entry multiplied by one minus the mapping (zero on a node's own cluster). -/
def scoreOf (v7 : (⟨S10x768, .f32⟩ : BufTy).Contents (Elt F)) (a2 : (⟨S768x768, .f32⟩ : BufTy).Contents (Elt F)) (a0 : (⟨S8192x768, .f32⟩ : BufTy).Contents (Elt F)) (v2 : (⟨S8192x10, .f32⟩ : BufTy).Contents (Elt F)) :
    (⟨S10x8192, .f32⟩ : BufTy).Contents (Elt F) :=
  let v8 : (⟨S10x768, .f32⟩ : BufTy).Contents (Elt F) := ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)) v7 a2
  let v9 : (⟨S768x8192, .f32⟩ : BufTy).Contents (Elt F) := ((transpose S768x8192 [1, 0] · transposes_S8192x768_S768x8192_1_0) : (⟨S8192x768, .f32⟩ : BufTy).Contents (Elt F) → (⟨S768x8192, .f32⟩ : BufTy).Contents (Elt F)) a0
  let v10 : (⟨S10x8192, .f32⟩ : BufTy).Contents (Elt F) := ((fun l r => Host.dotGeneral dot_S10x768_S768x8192_S10x8192_1_0_0_1_n_n none l r) : (⟨S10x768, .f32⟩ : BufTy).Contents (Elt F) → (⟨S768x8192, .f32⟩ : BufTy).Contents (Elt F) → (⟨S10x8192, .f32⟩ : BufTy).Contents (Elt F)) v8 v9
  let cst : (⟨S_, .f32⟩ : BufTy).Contents (Elt F) := (constant S_ .f32 0x3F800000#32)
  let v11 : (⟨S8192x10, .f32⟩ : BufTy).Contents (Elt F) := (broadcastInDim S8192x10 ![] bcast_S_S8192x10 : (⟨S_, .f32⟩ : BufTy).Contents (Elt F) → (⟨S8192x10, .f32⟩ : BufTy).Contents (Elt F)) cst
  let v12 : (⟨S8192x10, .f32⟩ : BufTy).Contents (Elt F) := (subf : (⟨S8192x10, .f32⟩ : BufTy).Contents (Elt F) → (⟨S8192x10, .f32⟩ : BufTy).Contents (Elt F) → (⟨S8192x10, .f32⟩ : BufTy).Contents (Elt F)) v11 v2
  let v13 : (⟨S10x8192, .f32⟩ : BufTy).Contents (Elt F) := ((transpose S10x8192 [1, 0] · transposes_S8192x10_S10x8192_1_0) : (⟨S8192x10, .f32⟩ : BufTy).Contents (Elt F) → (⟨S10x8192, .f32⟩ : BufTy).Contents (Elt F)) v12
  let v14 : (⟨S10x8192, .f32⟩ : BufTy).Contents (Elt F) := (mulf : (⟨S10x8192, .f32⟩ : BufTy).Contents (Elt F) → (⟨S10x8192, .f32⟩ : BufTy).Contents (Elt F) → (⟨S10x8192, .f32⟩ : BufTy).Contents (Elt F)) v10 v13
  v14

/-- Each row's maximum, folded from minus infinity and joined with minus infinity once more. -/
def maxOf (v14 : (⟨S10x8192, .f32⟩ : BufTy).Contents (Elt F)) :
    (⟨S10, .f32⟩ : BufTy).Contents (Elt F) :=
  let cst_0 : (⟨S_, .f32⟩ : BufTy).Contents (Elt F) := (constant S_ .f32 0xFF800000#32)
  let v15 : (⟨S10, .f32⟩ : BufTy).Contents (Elt F) := ((fun x v => Host.reduce FloatOps.maximumf x v reducesTo_S10x8192_S10_d1 h_S_) : (⟨S10x8192, .f32⟩ : BufTy).Contents (Elt F) → (⟨S_, .f32⟩ : BufTy).Contents (Elt F) → (⟨S10, .f32⟩ : BufTy).Contents (Elt F)) v14 cst_0
  let cst_1 : (⟨S_, .f32⟩ : BufTy).Contents (Elt F) := (constant S_ .f32 0xFF800000#32)
  let v16 : (⟨S10, .f32⟩ : BufTy).Contents (Elt F) := (broadcastInDim S10 ![] bcast_S_S10 : (⟨S_, .f32⟩ : BufTy).Contents (Elt F) → (⟨S10, .f32⟩ : BufTy).Contents (Elt F)) cst_1
  let v17 : (⟨S10, .f32⟩ : BufTy).Contents (Elt F) := (maximumf : (⟨S10, .f32⟩ : BufTy).Contents (Elt F) → (⟨S10, .f32⟩ : BufTy).Contents (Elt F) → (⟨S10, .f32⟩ : BufTy).Contents (Elt F)) v16 v15
  v17

/-- The exponentials of the scores less their row's maximum. -/
def expOf (v17 : (⟨S10, .f32⟩ : BufTy).Contents (Elt F)) (v14 : (⟨S10x8192, .f32⟩ : BufTy).Contents (Elt F)) :
    (⟨S10x8192, .f32⟩ : BufTy).Contents (Elt F) :=
  let v18 : (⟨S10x1, .f32⟩ : BufTy).Contents (Elt F) := (broadcastInDim S10x1 ![0] bcast_S10_S10x1_0 : (⟨S10, .f32⟩ : BufTy).Contents (Elt F) → (⟨S10x1, .f32⟩ : BufTy).Contents (Elt F)) v17
  let v19 : (⟨S10x8192, .f32⟩ : BufTy).Contents (Elt F) := (broadcastInDim S10x8192 ![0, 1] bcast_S10x1_S10x8192_0_1 : (⟨S10x1, .f32⟩ : BufTy).Contents (Elt F) → (⟨S10x8192, .f32⟩ : BufTy).Contents (Elt F)) v18
  let v20 : (⟨S10x8192, .f32⟩ : BufTy).Contents (Elt F) := (subf : (⟨S10x8192, .f32⟩ : BufTy).Contents (Elt F) → (⟨S10x8192, .f32⟩ : BufTy).Contents (Elt F) → (⟨S10x8192, .f32⟩ : BufTy).Contents (Elt F)) v14 v19
  let v21 : (⟨S10x8192, .f32⟩ : BufTy).Contents (Elt F) := (Host.exp : (⟨S10x8192, .f32⟩ : BufTy).Contents (Elt F) → (⟨S10x8192, .f32⟩ : BufTy).Contents (Elt F)) v20
  v21

/-- Each row's sum of exponentials, from zero. -/
def normOf (v21 : (⟨S10x8192, .f32⟩ : BufTy).Contents (Elt F)) :
    (⟨S10, .f32⟩ : BufTy).Contents (Elt F) :=
  let cst_2 : (⟨S_, .f32⟩ : BufTy).Contents (Elt F) := (constant S_ .f32 0x00000000#32)
  let v22 : (⟨S10, .f32⟩ : BufTy).Contents (Elt F) := ((fun x v => Host.reduceAdd x v reducesTo_S10x8192_S10_d1 h_S_) : (⟨S10x8192, .f32⟩ : BufTy).Contents (Elt F) → (⟨S_, .f32⟩ : BufTy).Contents (Elt F) → (⟨S10, .f32⟩ : BufTy).Contents (Elt F)) v21 cst_2
  v22

/-- The mid-level representation: each exponential divided by its row's sum, times the features, plus the cluster sums. -/
def repOf (v22 : (⟨S10, .f32⟩ : BufTy).Contents (Elt F)) (v21 : (⟨S10x8192, .f32⟩ : BufTy).Contents (Elt F)) (a0 : (⟨S8192x768, .f32⟩ : BufTy).Contents (Elt F)) (v7 : (⟨S10x768, .f32⟩ : BufTy).Contents (Elt F)) :
    (⟨S10x768, .f32⟩ : BufTy).Contents (Elt F) :=
  let v23 : (⟨S10x1, .f32⟩ : BufTy).Contents (Elt F) := (broadcastInDim S10x1 ![0] bcast_S10_S10x1_0 : (⟨S10, .f32⟩ : BufTy).Contents (Elt F) → (⟨S10x1, .f32⟩ : BufTy).Contents (Elt F)) v22
  let v24 : (⟨S10x8192, .f32⟩ : BufTy).Contents (Elt F) := (broadcastInDim S10x8192 ![0, 1] bcast_S10x1_S10x8192_0_1 : (⟨S10x1, .f32⟩ : BufTy).Contents (Elt F) → (⟨S10x8192, .f32⟩ : BufTy).Contents (Elt F)) v23
  let v25 : (⟨S10x8192, .f32⟩ : BufTy).Contents (Elt F) := (Host.divf : (⟨S10x8192, .f32⟩ : BufTy).Contents (Elt F) → (⟨S10x8192, .f32⟩ : BufTy).Contents (Elt F) → (⟨S10x8192, .f32⟩ : BufTy).Contents (Elt F)) v21 v24
  let v26 : (⟨S10x768, .f32⟩ : BufTy).Contents (Elt F) := ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)) v25 a0
  let v27 : (⟨S10x768, .f32⟩ : BufTy).Contents (Elt F) := (addf : (⟨S10x768, .f32⟩ : BufTy).Contents (Elt F) → (⟨S10x768, .f32⟩ : BufTy).Contents (Elt F) → (⟨S10x768, .f32⟩ : BufTy).Contents (Elt F)) v26 v7
  v27

end Stages

end Cert.ReferenceIdeal.RefValue

end
-- ==== Proof.RefValueSplit.lean ====
/-
  Window 0 of the reference's line cut after the mid-level representation: the 54 operations that compute the
  low-to-mid mapping, the mid-level adjacency and the mid-level representation, and the 29 that follow.
  No later operation writes the two mid-level arrays, and none of the first 54 writes an argument.
-/
import proofs.«114392_j58480274702406_2_alg».proof.Proof.RefFrame

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

section Lists
variable {F : FTy → Type} [FloatOps F]

/-- Window 0 up to and including the mid-level representation (54 operations). -/
abbrev opsA : List (HloOp τ sig (Elt F)) :=
  [ StableHlo.nullary main_v0 (iotaInDim S8192 32 0),
    StableHlo.nullary main_c (constantI S_ 32 820#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_v0 : StableHlo.TRef sig ⟨S8192, .i32⟩) main_call0.v1 main_call0.v2 Host.divsi,
    StableHlo.TRef.unary (.of main_v0 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v0 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.TRef.unary (.of main_v1 : StableHlo.TRef sig ⟨S8192, .i32⟩) main_call1.v0 (broadcastInDim S8192x1 ![0] bcast_S8192_S8192x1_0),
    StableHlo.TRef.nullary main_call1.v1 (iotaInDim S1x10 32 1),
    StableHlo.TRef.unary main_call1.v0 main_call1.v2 (broadcastInDim S8192x10 ![0, 1] bcast_S8192x1_S8192x10_0_1),
    StableHlo.TRef.unary main_call1.v1 main_call1.v3 (broadcastInDim S8192x10 ![0, 1] bcast_S1x10_S8192x10_0_1),
    StableHlo.TRef.binary main_call1.v2 main_call1.v3 main_call1.v4 (cmpi .eq),
    StableHlo.TRef.unary main_call1.v4 main_call1.v5 (uitofp .f32),
    StableHlo.unary main_v2 main_v3 ((transpose S10x8192 [1, 0] · transposes_S8192x10_S10x8192_1_0) : (⟨S8192x10, .f32⟩ : BufTy).Contents (Elt F) → (⟨S10x8192, .f32⟩ : BufTy).Contents (Elt F)),
    StableHlo.binary main_v3 main_arg1 main_v4 ((fun l r => Host.dotGeneral dot_S10x8192_S8192x8192_S10x8192_1_0_0_1_n_n none l r) : (⟨S10x8192, .f32⟩ : BufTy).Contents (Elt F) → (⟨S8192x8192, .f32⟩ : BufTy).Contents (Elt F) → (⟨S10x8192, .f32⟩ : BufTy).Contents (Elt F)),
    StableHlo.binary main_v4 main_v2 main_v5 ((fun l r => Host.dotGeneral dot_S10x8192_S8192x10_S10x10_1_0_0_1_n_n none l r) : (⟨S10x8192, .f32⟩ : BufTy).Contents (Elt F) → (⟨S8192x10, .f32⟩ : BufTy).Contents (Elt F) → (⟨S10x10, .f32⟩ : BufTy).Contents (Elt F)),
    StableHlo.unary main_v2 main_v6 ((transpose S10x8192 [1, 0] · transposes_S8192x10_S10x8192_1_0) : (⟨S8192x10, .f32⟩ : BufTy).Contents (Elt F) → (⟨S10x8192, .f32⟩ : BufTy).Contents (Elt F)),
    StableHlo.binary main_v6 main_arg0 main_v7 ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)),
    StableHlo.binary main_v7 main_arg2 main_v8 ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)),
    StableHlo.unary main_arg0 main_v9 ((transpose S768x8192 [1, 0] · transposes_S8192x768_S768x8192_1_0) : (⟨S8192x768, .f32⟩ : BufTy).Contents (Elt F) → (⟨S768x8192, .f32⟩ : BufTy).Contents (Elt F)),
    StableHlo.binary main_v8 main_v9 main_v10 ((fun l r => Host.dotGeneral dot_S10x768_S768x8192_S10x8192_1_0_0_1_n_n none l r) : (⟨S10x768, .f32⟩ : BufTy).Contents (Elt F) → (⟨S768x8192, .f32⟩ : BufTy).Contents (Elt F) → (⟨S10x8192, .f32⟩ : BufTy).Contents (Elt F)),
    StableHlo.nullary main_cst (constant S_ .f32 0x3F800000#32),
    StableHlo.unary main_cst main_v11 (broadcastInDim S8192x10 ![] bcast_S_S8192x10 : (⟨S_, .f32⟩ : BufTy).Contents (Elt F) → (⟨S8192x10, .f32⟩ : BufTy).Contents (Elt F)),
    StableHlo.binary main_v11 main_v2 main_v12 (subf : (⟨S8192x10, .f32⟩ : BufTy).Contents (Elt F) → (⟨S8192x10, .f32⟩ : BufTy).Contents (Elt F) → (⟨S8192x10, .f32⟩ : BufTy).Contents (Elt F)),
    StableHlo.unary main_v12 main_v13 ((transpose S10x8192 [1, 0] · transposes_S8192x10_S10x8192_1_0) : (⟨S8192x10, .f32⟩ : BufTy).Contents (Elt F) → (⟨S10x8192, .f32⟩ : BufTy).Contents (Elt F)),
    StableHlo.binary main_v10 main_v13 main_v14 (mulf : (⟨S10x8192, .f32⟩ : BufTy).Contents (Elt F) → (⟨S10x8192, .f32⟩ : BufTy).Contents (Elt F) → (⟨S10x8192, .f32⟩ : BufTy).Contents (Elt F)),
    StableHlo.nullary main_cst_0 (constant S_ .f32 0xFF800000#32),
    StableHlo.binary main_v14 main_cst_0 main_v15 ((fun x v => Host.reduce FloatOps.maximumf x v reducesTo_S10x8192_S10_d1 h_S_) : (⟨S10x8192, .f32⟩ : BufTy).Contents (Elt F) → (⟨S_, .f32⟩ : BufTy).Contents (Elt F) → (⟨S10, .f32⟩ : BufTy).Contents (Elt F)),
    StableHlo.nullary main_cst_1 (constant S_ .f32 0xFF800000#32),
    StableHlo.unary main_cst_1 main_v16 (broadcastInDim S10 ![] bcast_S_S10 : (⟨S_, .f32⟩ : BufTy).Contents (Elt F) → (⟨S10, .f32⟩ : BufTy).Contents (Elt F)),
    StableHlo.binary main_v16 main_v15 main_v17 (maximumf : (⟨S10, .f32⟩ : BufTy).Contents (Elt F) → (⟨S10, .f32⟩ : BufTy).Contents (Elt F) → (⟨S10, .f32⟩ : BufTy).Contents (Elt F)),
    StableHlo.unary main_v17 main_v18 (broadcastInDim S10x1 ![0] bcast_S10_S10x1_0 : (⟨S10, .f32⟩ : BufTy).Contents (Elt F) → (⟨S10x1, .f32⟩ : BufTy).Contents (Elt F)),
    StableHlo.unary main_v18 main_v19 (broadcastInDim S10x8192 ![0, 1] bcast_S10x1_S10x8192_0_1 : (⟨S10x1, .f32⟩ : BufTy).Contents (Elt F) → (⟨S10x8192, .f32⟩ : BufTy).Contents (Elt F)),
    StableHlo.binary main_v14 main_v19 main_v20 (subf : (⟨S10x8192, .f32⟩ : BufTy).Contents (Elt F) → (⟨S10x8192, .f32⟩ : BufTy).Contents (Elt F) → (⟨S10x8192, .f32⟩ : BufTy).Contents (Elt F)),
    StableHlo.unary main_v20 main_v21 (Host.exp : (⟨S10x8192, .f32⟩ : BufTy).Contents (Elt F) → (⟨S10x8192, .f32⟩ : BufTy).Contents (Elt F)),
    StableHlo.nullary main_cst_2 (constant S_ .f32 0x00000000#32),
    StableHlo.binary main_v21 main_cst_2 main_v22 ((fun x v => Host.reduceAdd x v reducesTo_S10x8192_S10_d1 h_S_) : (⟨S10x8192, .f32⟩ : BufTy).Contents (Elt F) → (⟨S_, .f32⟩ : BufTy).Contents (Elt F) → (⟨S10, .f32⟩ : BufTy).Contents (Elt F)),
    StableHlo.unary main_v22 main_v23 (broadcastInDim S10x1 ![0] bcast_S10_S10x1_0 : (⟨S10, .f32⟩ : BufTy).Contents (Elt F) → (⟨S10x1, .f32⟩ : BufTy).Contents (Elt F)),
    StableHlo.unary main_v23 main_v24 (broadcastInDim S10x8192 ![0, 1] bcast_S10x1_S10x8192_0_1 : (⟨S10x1, .f32⟩ : BufTy).Contents (Elt F) → (⟨S10x8192, .f32⟩ : BufTy).Contents (Elt F)),
    StableHlo.binary main_v21 main_v24 main_v25 (Host.divf : (⟨S10x8192, .f32⟩ : BufTy).Contents (Elt F) → (⟨S10x8192, .f32⟩ : BufTy).Contents (Elt F) → (⟨S10x8192, .f32⟩ : BufTy).Contents (Elt F)),
    StableHlo.binary main_v25 main_arg0 main_v26 ((fun l r => Host.dotGeneral dot_S10x8192_S8192x768_S10x768_1_0_0_1_n_n none l r) : (⟨S10x8192, .f32⟩ : BufTy).Contents (Elt F) → (⟨S8192x768, .f32⟩ : BufTy).Contents (Elt F) → (⟨S10x768, .f32⟩ : BufTy).Contents (Elt F)),
    StableHlo.binary main_v26 main_v7 main_v27 (addf : (⟨S10x768, .f32⟩ : BufTy).Contents (Elt F) → (⟨S10x768, .f32⟩ : BufTy).Contents (Elt F) → (⟨S10x768, .f32⟩ : BufTy).Contents (Elt F)) ]

/-- The rest of window 0 (29 operations). -/
abbrev opsB : List (HloOp τ sig (Elt F)) :=
  [ StableHlo.nullary main_v28 (iotaInDim S10 32 0),
    StableHlo.nullary main_c_3 (constantI S_ 32 0#32),
    StableHlo.unary main_c_3 main_v29 (broadcastInDim S10 ![] bcast_S_S10 : (⟨S_, .i32⟩ : BufTy).Contents (Elt F) → (⟨S10, .i32⟩ : BufTy).Contents (Elt F)),
    StableHlo.binary main_v28 main_v29 main_v30 (cmpi .slt : (⟨S10, .i32⟩ : BufTy).Contents (Elt F) → (⟨S10, .i32⟩ : BufTy).Contents (Elt F) → (⟨S10, .i1⟩ : BufTy).Contents (Elt F)),
    StableHlo.nullary main_c_4 (constantI S_ 32 10#32),
    StableHlo.unary main_c_4 main_v31 (broadcastInDim S10 ![] bcast_S_S10 : (⟨S_, .i32⟩ : BufTy).Contents (Elt F) → (⟨S10, .i32⟩ : BufTy).Contents (Elt F)),
    StableHlo.binary main_v28 main_v31 main_v32 (addi : (⟨S10, .i32⟩ : BufTy).Contents (Elt F) → (⟨S10, .i32⟩ : BufTy).Contents (Elt F) → (⟨S10, .i32⟩ : BufTy).Contents (Elt F)),
    StableHlo.ternary main_v30 main_v32 main_v28 main_v33 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.nullary main_c_5 (constantI S_ 32 0#32),
    StableHlo.unary main_c_5 main_v34 (broadcastInDim S10 ![] bcast_S_S10 : (⟨S_, .i32⟩ : BufTy).Contents (Elt F) → (⟨S10, .i32⟩ : BufTy).Contents (Elt F)),
    StableHlo.binary main_v28 main_v34 main_v35 (cmpi .slt : (⟨S10, .i32⟩ : BufTy).Contents (Elt F) → (⟨S10, .i32⟩ : BufTy).Contents (Elt F) → (⟨S10, .i1⟩ : BufTy).Contents (Elt F)),
    StableHlo.nullary main_c_6 (constantI S_ 32 10#32),
    StableHlo.unary main_c_6 main_v36 (broadcastInDim S10 ![] bcast_S_S10 : (⟨S_, .i32⟩ : BufTy).Contents (Elt F) → (⟨S10, .i32⟩ : BufTy).Contents (Elt F)),
    StableHlo.binary main_v28 main_v36 main_v37 (addi : (⟨S10, .i32⟩ : BufTy).Contents (Elt F) → (⟨S10, .i32⟩ : BufTy).Contents (Elt F) → (⟨S10, .i32⟩ : BufTy).Contents (Elt F)),
    StableHlo.ternary main_v35 main_v37 main_v28 main_v38 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v33 main_v39 (broadcastInDim S10x1 ![0] bcast_S10_S10x1_0 : (⟨S10, .i32⟩ : BufTy).Contents (Elt F) → (⟨S10x1, .i32⟩ : BufTy).Contents (Elt F)),
    StableHlo.unary main_v38 main_v40 (broadcastInDim S10x1 ![0] bcast_S10_S10x1_0 : (⟨S10, .i32⟩ : BufTy).Contents (Elt F) → (⟨S10x1, .i32⟩ : BufTy).Contents (Elt F)),
    StableHlo.binary main_v39 main_v40 main_v41 ((fun a b => concatenate S10x2 1 [⟨S10x1, a⟩, ⟨S10x1, b⟩] concatenates_S10x1_S10x1_S10x2_d1) : (⟨S10x1, .i32⟩ : BufTy).Contents (Elt F) → (⟨S10x1, .i32⟩ : BufTy).Contents (Elt F) → (⟨S10x2, .i32⟩ : BufTy).Contents (Elt F)),
    StableHlo.nullary main_cst_7 (constant S_ .f32 0x3F800000#32),
    StableHlo.unary main_cst_7 main_v42 (broadcastInDim S10 ![] bcast_S_S10 : (⟨S_, .f32⟩ : BufTy).Contents (Elt F) → (⟨S10, .f32⟩ : BufTy).Contents (Elt F)),
    StableHlo.ternary main_v5 main_v41 main_v42 main_v43 ((fun x i u => Host.scatter scatter_S10x10_S10x2_S10_n_01_01_1 (fun _ b => b) x i u) : (⟨S10x10, .f32⟩ : BufTy).Contents (Elt F) → (⟨S10x2, .i32⟩ : BufTy).Contents (Elt F) → (⟨S10, .f32⟩ : BufTy).Contents (Elt F) → (⟨S10x10, .f32⟩ : BufTy).Contents (Elt F)),
    StableHlo.nullary main_cst_8 (constant S_ .f32 0x00000000#32),
    StableHlo.binary main_v43 main_cst_8 main_v44 ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F)),
    StableHlo.nullary main_cst_9 (constant S_ .f32 0x3F800000#32),
    StableHlo.TRef.unary (.of main_cst_9 : StableHlo.TRef sig ⟨S_, .f32⟩) main_call2.v0 id,
    StableHlo.TRef.unary main_call2.v0 main_call2.v1 (broadcastInDim S10 ![] bcast_S_S10),
    StableHlo.TRef.binary main_call2.v1 (.of main_v44 : StableHlo.TRef sig ⟨S10, .f32⟩) main_call2.v2 maximumf,
    StableHlo.nullary main_cst_10 (constant S_ .f32 0xBF000000#32),
    StableHlo.unary main_cst_10 main_v46 (broadcastInDim S10 ![] bcast_S_S10 : (⟨S_, .f32⟩ : BufTy).Contents (Elt F) → (⟨S10, .f32⟩ : BufTy).Contents (Elt F)) ]

/-- Window 0 is the two pieces in order. -/
theorem ops0_split : (ops0 : List (HloOp τ sig (Elt F))) = opsA ++ opsB := rfl

/-- The whole line, cut after the mid-level representation. -/
theorem ops_split : (ops : List (HloOp τ sig (Elt F))) = opsA ++ (opsB ++ (ops1 ++ ops2)) := by
  show ops0 ++ (ops1 ++ ops2) = _
  rw [ops0_split, List.append_assoc]

/-- None of the first 54 operations writes an argument buffer. -/
theorem keptA (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7) := by
  refine ⟨?_, ?_, ?_, ?_, ?_, ?_, ?_, ?_⟩ <;> after_results_simp

/-- No operation after the 54th writes the mid-level adjacency or the mid-level representation, or an argument. -/
theorem keptB (W : Valuation τ sig (Elt F)) :
    after opsB W (Proc.devRef .tc main_v5) = W (Proc.devRef .tc main_v5)
    ∧ after opsB W (Proc.devRef .tc main_v27) = W (Proc.devRef .tc main_v27) := by
  refine ⟨?_, ?_⟩ <;> after_results_simp
theorem kept1' (W : Valuation τ sig (Elt F)) :
    after ops1 W (Proc.devRef .tc main_v5) = W (Proc.devRef .tc main_v5)
    ∧ after ops1 W (Proc.devRef .tc main_v27) = W (Proc.devRef .tc main_v27) := by
  refine ⟨?_, ?_⟩ <;> after_results_simp
theorem kept2' (W : Valuation τ sig (Elt F)) :
    after ops2 W (Proc.devRef .tc main_v5) = W (Proc.devRef .tc main_v5)
    ∧ after ops2 W (Proc.devRef .tc main_v27) = W (Proc.devRef .tc main_v27) := by
  refine ⟨?_, ?_⟩ <;> after_results_simp

/-- After the 54th operation the two mid-level arrays stay as they are to the end of the line. -/
theorem late (W : Valuation τ sig (Elt F)) :
    after (opsB ++ (ops1 ++ ops2)) W (Proc.devRef .tc main_v5) = W (Proc.devRef .tc main_v5)
    ∧ after (opsB ++ (ops1 ++ ops2)) W (Proc.devRef .tc main_v27) = W (Proc.devRef .tc main_v27) := by
  simp only [after_append]
  obtain ⟨b5, b27⟩ := keptB (F := F) W
  obtain ⟨c5, c27⟩ := kept1' (F := F) (after opsB W)
  obtain ⟨d5, d27⟩ := kept2' (F := F) (after ops1 (after opsB W))
  exact ⟨d5.trans (c5.trans b5), d27.trans (c27.trans b27)⟩

end Lists

end Cert.ReferenceIdeal.RefValue

end
-- ==== Proof.RefValueHeadEq.lean ====
/-
  What the line's fold leaves in the three buffers that matter: the mid-level adjacency and the mid-level
  representation are the first stage's functions of the low-to-mid mapping and of the arguments, and the result is
  the last stage's function of those two arrays and of the five remaining arguments. Each is read off the fold of the
  literal operations, the line cut after the mid-level representation.
-/
import proofs.«114392_j58480274702406_2_alg».proof.Proof.RefValueHead
import proofs.«114392_j58480274702406_2_alg».proof.Proof.RefValueSplit

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The low-to-mid mapping as an array: the comparison bits read as floats. It depends on no input. -/
def m1Arr : S8192x10.Idx → EReal := m1Val (F := Ideal) (m1Bits (F := Ideal))

/-- The mid-level representation as a function of a mapping `m1`, the features `x` and the attention matrix `att`:
    the cluster sums, the scores, their row maxima, the exponentials, their row sums, and the weighted sums added
    to the cluster sums. -/
def midRepOf (m1 : S8192x10.Idx → EReal) (x : S8192x768.Idx → EReal) (att : S768x768.Idx → EReal) : S10x768.Idx → EReal :=
  repOf (F := Ideal) (normOf (F := Ideal) (expOf (F := Ideal) (maxOf (F := Ideal) (scoreOf (F := Ideal) (midOf (F := Ideal) m1 x) att x m1))
      (scoreOf (F := Ideal) (midOf (F := Ideal) m1 x) att x m1)))
    (expOf (F := Ideal) (maxOf (F := Ideal) (scoreOf (F := Ideal) (midOf (F := Ideal) m1 x) att x m1)) (scoreOf (F := Ideal) (midOf (F := Ideal) m1 x) att x m1))
    x (midOf (F := Ideal) m1 x)

/-- After the first 54 operations: the mapping's buffer holds the mapping, whatever the contents were. -/
theorem head_m1 (V : Valuation τ sig (Elt Ideal)) :
    (after opsA V (Proc.devRef .tc main_v2) : S8192x10.Idx → EReal) = m1Arr := by
  after_results_simp
  rfl

/-- After the first 54 operations: the mid-level adjacency is the first stage's function of the mapping and the
    adjacency argument. -/
theorem head_midAdj (V : Valuation τ sig (Elt Ideal)) :
    (after opsA V (Proc.devRef .tc main_v5) : S10x10.Idx → EReal) = midAdjOf (F := Ideal) m1Arr (V (Proc.devRef .tc main_arg1)) := by
  after_results_simp
  rfl

/-- After the first 54 operations: the mid-level representation is the first stage's function of the mapping, the
    features and the attention matrix. -/
theorem head_midRep (V : Valuation τ sig (Elt Ideal)) :
    (after opsA V (Proc.devRef .tc main_v27) : S10x768.Idx → EReal)
      = midRepOf m1Arr (V (Proc.devRef .tc main_arg0)) (V (Proc.devRef .tc main_arg2)) := by
  after_results_simp
  rfl

end Cert.ReferenceIdeal.RefValue

end
-- ==== Proof.Spec.lean ====
/-
  The two intermediate arrays of the computation, written twice as plain formulas over the extended reals.

  Inputs: the node features `x` (8192 × 768), the adjacency matrix `adj` (8192 × 8192), the attention matrix
  `att` (768 × 768), and the low-to-mid mapping `m1` (8192 × 10, the one-hot of `s / 820`; here any matrix).
  The two arrays: the mid-level adjacency `m1ᵀ · adj · m1` (10 × 10) and the mid-level representation
  `softmax(scores) · x + mid` (10 × 768), where `mid = m1ᵀ · x` and
  `scores p s = ((mid · att) · xᵀ) p s * (1 - m1 s p)`, the softmax along `s`.

  The reference forms (`r…`) are the textbook ones: whole sums over the 8192 nodes, the softmax as
  `e^(score - max) / ∑ e^(score - max)` with the maximum started from `-∞`.
  The kernel forms (`k…`) are the tiled ones. The adjacency product is associated the other way,
  `m1ᵀ · (adj · m1)`, over row tiles of 256, the tiles split between two halves (16 tiles each) that are summed at
  the end. `mid` is summed over row tiles of 512, 8 tiles per half. The softmax is streamed: each half walks its 8
  tiles of 512 keys carrying a running maximum, a normaliser and a weighted sum (`kStep`), and the two halves'
  states are merged at the common maximum before the one division.
-/
import Idealize.ShloMosaic.PureOps.Ideal

noncomputable section

namespace Cert.Spec

open Idealize.ShloMosaic

/-- A matrix of extended reals. -/
abbrev Mat (a b : ℕ) : Type := Fin a → Fin b → EReal

/-- Row `r` of the `i`-th tile of 256 rows of half `c` (16 tiles per half). -/
def row256 (c : Fin 2) (i : Fin 16) (r : Fin 256) : Fin 8192 := ⟨256 * (16 * c.val + i.val) + r.val, by omega⟩

/-- Row `r` of the `n`-th tile of 512 rows of half `c` (8 tiles per half; `n` a natural number so that a
    recursion over the tiles can be stated, the index wrapped into range, which changes nothing for `n < 8`). -/
def row512 (c : Fin 2) (n : ℕ) (r : Fin 512) : Fin 8192 :=
  ⟨(512 * (8 * c.val + n) + r.val) % 8192, Nat.mod_lt _ (by norm_num)⟩

variable (m1 : Mat 8192 10) (x : Mat 8192 768) (adj : Mat 8192 8192) (att : Mat 768 768)

/-! ## The reference forms -/

/-- `(m1ᵀ · adj) · m1`. -/
def rMidAdj (a j : Fin 10) : EReal := ∑ t : Fin 8192, (∑ s : Fin 8192, m1 s a * adj s t) * m1 t j

/-- `m1ᵀ · x`. -/
def rMid (p : Fin 10) (d : Fin 768) : EReal := ∑ s : Fin 8192, m1 s p * x s d

/-- `((mid · att) · xᵀ) p s`, the own-cluster entries multiplied by zero. -/
def rScore (p : Fin 10) (s : Fin 8192) : EReal :=
  (∑ e : Fin 768, (∑ d : Fin 768, rMid m1 x p d * att d e) * x s e) * (1 - m1 s p)

/-- The row maximum, folded from `-∞`, then once more joined with `-∞` (as the reference's softmax does). -/
def rMax (p : Fin 10) : EReal := max ⊥ ((Finset.univ : Finset (Fin 8192)).fold max ⊥ (rScore m1 x att p))

def rExp (p : Fin 10) (s : Fin 8192) : EReal := Ideal.exp (rScore m1 x att p s - rMax m1 x att p)

/-- The normaliser: zero plus the sum of the exponentials. -/
def rNorm (p : Fin 10) : EReal := 0 + ∑ s : Fin 8192, rExp m1 x att p s

/-- `softmax(scores) · x + mid`: every weight divided first, then the product with `x`. -/
def rMidRep (p : Fin 10) (d : Fin 768) : EReal :=
  (∑ s : Fin 8192, Ideal.div (rExp m1 x att p s) (rNorm m1 x att p) * x s d) + rMid m1 x p d

/-! ## The kernel forms -/

/-- One 256-row tile's contribution to `m1ᵀ · (adj · m1)`. -/
def kContrib (c : Fin 2) (i : Fin 16) (a j : Fin 10) : EReal :=
  ∑ r : Fin 256, m1 (row256 c i r) a * ∑ k : Fin 8192, adj (row256 c i r) k * m1 k j

/-- The two halves' sums of their 16 tiles, added. -/
def kMidAdj (a j : Fin 10) : EReal :=
  (∑ i : Fin 16, kContrib m1 adj 0 i a j) + (∑ i : Fin 16, kContrib m1 adj 1 i a j)

/-- One half's sum of `m1ᵀ · x` over its 8 tiles of 512 rows. -/
def kMidHalf (c : Fin 2) (p : Fin 10) (d : Fin 768) : EReal :=
  ∑ i : Fin 8, ∑ r : Fin 512, m1 (row512 c i.val r) p * x (row512 c i.val r) d

def kMid (p : Fin 10) (d : Fin 768) : EReal := kMidHalf m1 x 0 p d + kMidHalf m1 x 1 p d

def kScore (p : Fin 10) (s : Fin 8192) : EReal :=
  (∑ e : Fin 768, (∑ d : Fin 768, kMid m1 x p d * att d e) * x s e) * (1 - m1 s p)

/-- The streamed state of one row: running maximum, normaliser, weighted sum (one entry per feature). -/
abbrev State : Type := EReal × EReal × (Fin 768 → EReal)

/-- One tile of 512 keys with scores `sc` and values `xb`: the new maximum, the old sums rescaled to it, the
    tile's exponentials added. -/
def kStep (st : State) (sc : Fin 512 → EReal) (xb : Fin 512 → Fin 768 → EReal) : State :=
  let M' := max st.1 ((Finset.univ : Finset (Fin 512)).fold max ⊥ sc)
  (M', Ideal.exp (st.1 - M') * st.2.1 + ∑ r : Fin 512, Ideal.exp (sc r - M'),
    fun d => Ideal.exp (st.1 - M') * st.2.2 d + ∑ r : Fin 512, Ideal.exp (sc r - M') * xb r d)

/-- Row `p`'s state on half `c` after its first `n` tiles. -/
def kState (c : Fin 2) (p : Fin 10) : ℕ → State
  | 0 => (⊥, 0, fun _ => 0)
  | n + 1 => kStep (kState c p n) (fun r => kScore m1 x att p (row512 c n r)) (fun r d => x (row512 c n r) d)

/-- The two halves' final states merged at the common maximum, then the one division. -/
def kAttn (p : Fin 10) (d : Fin 768) : EReal :=
  let s0 := kState m1 x att 0 p 8
  let s1 := kState m1 x att 1 p 8
  let M := max s0.1 s1.1
  Ideal.div (Ideal.exp (s0.1 - M) * s0.2.2 d + Ideal.exp (s1.1 - M) * s1.2.2 d)
    (Ideal.exp (s0.1 - M) * s0.2.1 + Ideal.exp (s1.1 - M) * s1.2.1)

def kMidRep (p : Fin 10) (d : Fin 768) : EReal := kMid m1 x p d + kAttn m1 x att p d

end Cert.Spec

end
-- ==== Proof.RefValueMid.lean ====
/-
  The first stage of the reference computation read entry by entry. Every matrix product is the sum over the
  contracted coordinate of the products of the entries; a transpose swaps the coordinates; a broadcast of a scalar, of
  a vector into a column, or of a column along the rows reads the one entry it copies; a reduction along the rows is
  the fold (for the maximum, from minus infinity) or the sum (from zero) over the row. Chained, the mid-level
  adjacency is `(m1ᵀ · adj) · m1` and the mid-level representation is the softmax-weighted sum of the features plus
  the cluster sums, each in the textbook form of the specification.
-/
import proofs.«114392_j58480274702406_2_alg».proof.Proof.RefValueHead
import proofs.«114392_j58480274702406_2_alg».proof.Proof.Spec
import Idealize.ShloMosaic.Lib.StackMember
import Idealize.ShloMosaic.Lib.IdealHost
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.StackMember
open scoped BigOperators

/-! ## Matrix products read at an entry

Each product of the first stage contracts the left factor's columns with the right factor's rows: its entry is the
sum over the contracted coordinate of the products of the entries. -/

theorem dot_adj1_apply (A : FVec Ideal S10x8192 .f32) (B : FVec Ideal S8192x8192 .f32) (a : Fin 10) (t : Fin 8192) :
    Host.dotGeneral (F := Ideal) dot_S10x8192_S8192x8192_S10x8192_1_0_0_1_n_n none A B (ix2 a t) = ∑ s : Fin 8192, A (ix2 a s) * B (ix2 s t) :=
  dotGeneral_plain_apply none A B a t

theorem dot_adj2_apply (A : FVec Ideal S10x8192 .f32) (B : FVec Ideal S8192x10 .f32) (a j : Fin 10) :
    Host.dotGeneral (F := Ideal) dot_S10x8192_S8192x10_S10x10_1_0_0_1_n_n none A B (ix2 a j) = ∑ t : Fin 8192, A (ix2 a t) * B (ix2 t j) :=
  dotGeneral_plain_apply none A B a j

theorem dot_mid_apply (A : FVec Ideal S10x8192 .f32) (B : FVec Ideal S8192x768 .f32) (p : Fin 10) (d : Fin 768) :
    Host.dotGeneral (F := Ideal) dot_S10x8192_S8192x768_S10x768_1_0_0_1_n_n none A B (ix2 p d) = ∑ s : Fin 8192, A (ix2 p s) * B (ix2 s d) :=
  dotGeneral_plain_apply none A B p d

theorem dot_att_apply (A : FVec Ideal S10x768 .f32) (B : FVec Ideal S768x768 .f32) (p : Fin 10) (e : Fin 768) :
    Host.dotGeneral (F := Ideal) dot_S10x768_S768x768_S10x768_1_0_0_1_n_n none A B (ix2 p e) = ∑ d : Fin 768, A (ix2 p d) * B (ix2 d e) :=
  dotGeneral_plain_apply none A B p e

theorem dot_xt_apply (A : FVec Ideal S10x768 .f32) (B : FVec Ideal S768x8192 .f32) (p : Fin 10) (s : Fin 8192) :
    Host.dotGeneral (F := Ideal) dot_S10x768_S768x8192_S10x8192_1_0_0_1_n_n none A B (ix2 p s) = ∑ e : Fin 768, A (ix2 p e) * B (ix2 e s) :=
  dotGeneral_plain_apply none A B p s

/-! ## Transposes and broadcasts read at an entry -/

theorem transpose_m1_apply (m1 : S8192x10.Idx → EReal) (p : Fin 10) (s : Fin 8192) :
    transpose S10x8192 [1, 0] m1 transposes_S8192x10_S10x8192_1_0 (ix2 p s) = m1 (ix2 s p) :=
  transpose_ix2_apply m1 _ p s

theorem transpose_x_apply (x : S8192x768.Idx → EReal) (e : Fin 768) (s : Fin 8192) :
    transpose S768x8192 [1, 0] x transposes_S8192x768_S768x8192_1_0 (ix2 e s) = x (ix2 s e) :=
  transpose_ix2_apply x _ e s

/-- A vector made a column reads its entry. -/
theorem bcast_col_apply (v : S10.Idx → EReal) (p : Fin 10) (u : Fin 1) :
    broadcastInDim S10x1 ![0] bcast_S10_S10x1_0 v (ix2 p u) = v (ix1 p) :=
  broadcastInDim_apply _ _ v _ (ix1 p) fun a => match a with | ⟨0, _⟩ => rfl

/-- A column copied along the rows reads the row's entry. -/
theorem bcast_row_apply (w : S10x1.Idx → EReal) (p : Fin 10) (s : Fin 8192) :
    broadcastInDim S10x8192 ![0, 1] bcast_S10x1_S10x8192_0_1 w (ix2 p s) = w (ix2 p (0 : Fin 1)) :=
  broadcastInDim_apply _ _ w _ (ix2 p (0 : Fin 1)) fun a => match a with | ⟨0, _⟩ => rfl | ⟨1, _⟩ => rfl

/-- Summing or folding a 10 × 8192 array along its rows drops the second coordinate. -/
theorem reduces_rows : S10x8192.Reduces [1] S10 := by decide

/-- The row index `p` with the column `s` put back is the entry `(p, s)`. -/
theorem lift_rows (p : Fin 10) (s : Fin 8192) : reduces_rows.lift (ix1 p) s = ix2 p s := by
  funext c
  match c with
  | ⟨0, _⟩ => rfl
  | ⟨1, _⟩ => rfl

theorem ofBits_neg_inf : Ideal.ofBits .f32 0xFF800000#32 = (⊥ : EReal) := by
  simp [Ideal.ofBits, Ideal.ieee]

/-- The host's exponential at an entry is the exponential of the entry. -/
theorem hostExp_apply {S : Shape} (a : FVec Ideal S .f32) (i : S.Idx) : Host.exp (F := Ideal) a i = Ideal.exp (a i) := rfl

/-! ## The stages read at an entry -/

theorem midAdjOf_apply (m1 : S8192x10.Idx → EReal) (adj : S8192x8192.Idx → EReal) (a j : Fin 10) :
    midAdjOf (F := Ideal) m1 adj (ix2 a j) = Cert.Spec.rMidAdj (fun s p => m1 (ix2 s p)) (fun s t => adj (ix2 s t)) a j := by
  unfold midAdjOf Cert.Spec.rMidAdj
  dsimp only
  rw [dot_adj2_apply]
  refine Finset.sum_congr rfl fun t _ => ?_
  rw [dot_adj1_apply]
  congr 1
  refine Finset.sum_congr rfl fun s _ => ?_
  rw [transpose_m1_apply]

theorem midOf_apply (m1 : S8192x10.Idx → EReal) (x : S8192x768.Idx → EReal) (p : Fin 10) (d : Fin 768) :
    midOf (F := Ideal) m1 x (ix2 p d) = ∑ s : Fin 8192, m1 (ix2 s p) * x (ix2 s d) := by
  unfold midOf
  dsimp only
  rw [dot_mid_apply]
  refine Finset.sum_congr rfl fun s _ => ?_
  rw [transpose_m1_apply]

theorem scoreOf_apply (mid : S10x768.Idx → EReal) (att : S768x768.Idx → EReal) (x : S8192x768.Idx → EReal) (m1 : S8192x10.Idx → EReal)
    (p : Fin 10) (s : Fin 8192) :
    scoreOf (F := Ideal) mid att x m1 (ix2 p s)
      = (∑ e : Fin 768, (∑ d : Fin 768, mid (ix2 p d) * att (ix2 d e)) * x (ix2 s e)) * (1 - m1 (ix2 s p)) := by
  unfold scoreOf
  dsimp only
  rw [mulf_apply, dot_xt_apply, transpose_m1_apply, subf_apply, broadcastInDim_scalar_apply, constant_apply, Ideal.ofBits_one_f32]
  congr 1
  refine Finset.sum_congr rfl fun e _ => ?_
  rw [dot_att_apply, transpose_x_apply]

theorem maxOf_apply (sc : S10x8192.Idx → EReal) (p : Fin 10) :
    maxOf (F := Ideal) sc (ix1 p) = max ⊥ ((Finset.univ : Finset (Fin 8192)).fold max ⊥ fun s => sc (ix2 p s)) := by
  unfold maxOf
  dsimp only
  rw [maximumf_apply, broadcastInDim_scalar_apply, constant_apply, ofBits_neg_inf,
    Host.reduce_eq_fold_single _ _ _ reducesTo_S10x8192_S10_d1 reduces_rows, constant_apply, ofBits_neg_inf]
  have e : (sc ∘ reduces_rows.lift (ix1 p)) = fun s : Fin 8192 => sc (ix2 p s) := funext fun s => congrArg sc (lift_rows p s)
  rw [e]
  rfl

theorem expOf_apply (mx : S10.Idx → EReal) (sc : S10x8192.Idx → EReal) (p : Fin 10) (s : Fin 8192) :
    expOf (F := Ideal) mx sc (ix2 p s) = Ideal.exp (sc (ix2 p s) - mx (ix1 p)) := by
  unfold expOf
  dsimp only
  rw [hostExp_apply, subf_apply, bcast_row_apply, bcast_col_apply]

theorem normOf_apply (ex : S10x8192.Idx → EReal) (p : Fin 10) :
    normOf (F := Ideal) ex (ix1 p) = 0 + ∑ s : Fin 8192, ex (ix2 p s) := by
  unfold normOf
  dsimp only
  rw [hostReduceAdd_apply, Ideal.hostReduceAdd_single reducesTo_S10x8192_S10_d1 reduces_rows, constant_apply, Ideal.ofBits_zero_f32]
  congr 1
  exact Finset.sum_congr rfl fun s _ => congrArg ex (lift_rows p s)

theorem repOf_apply (nm : S10.Idx → EReal) (ex : S10x8192.Idx → EReal) (x : S8192x768.Idx → EReal) (mid : S10x768.Idx → EReal)
    (p : Fin 10) (d : Fin 768) :
    repOf (F := Ideal) nm ex x mid (ix2 p d)
      = (∑ s : Fin 8192, Ideal.div (ex (ix2 p s)) (nm (ix1 p)) * x (ix2 s d)) + mid (ix2 p d) := by
  unfold repOf
  dsimp only
  rw [addf_apply, dot_mid_apply]
  congr 1
  refine Finset.sum_congr rfl fun s _ => ?_
  rw [hostDivf_apply, bcast_row_apply, bcast_col_apply]

/-- The composed first stage at an entry is the textbook formula: the softmax of the masked scores along the nodes,
    every weight divided first, times the features, plus the cluster sums. -/
theorem midRep_formula (m1 : S8192x10.Idx → EReal) (x : S8192x768.Idx → EReal) (att : S768x768.Idx → EReal) (p : Fin 10) (d : Fin 768) :
    repOf (F := Ideal) (normOf (F := Ideal) (expOf (F := Ideal) (maxOf (F := Ideal) (scoreOf (F := Ideal) (midOf (F := Ideal) m1 x) att x m1))
        (scoreOf (F := Ideal) (midOf (F := Ideal) m1 x) att x m1)))
      (expOf (F := Ideal) (maxOf (F := Ideal) (scoreOf (F := Ideal) (midOf (F := Ideal) m1 x) att x m1)) (scoreOf (F := Ideal) (midOf (F := Ideal) m1 x) att x m1))
      x (midOf (F := Ideal) m1 x) (ix2 p d)
      = Cert.Spec.rMidRep (fun s p => m1 (ix2 s p)) (fun s e => x (ix2 s e)) (fun e f => att (ix2 e f)) p d := by
  simp only [repOf_apply, normOf_apply, expOf_apply, maxOf_apply, scoreOf_apply, midOf_apply]
  simp only [Cert.Spec.rMidRep, Cert.Spec.rNorm, Cert.Spec.rExp, Cert.Spec.rMax, Cert.Spec.rScore, Cert.Spec.rMid]
  rfl

end Cert.ReferenceIdeal.RefValue

end
-- ==== Proof.RefValueTail.lean ====
/-
  The last stage of the reference computation as one function of the two mid-level arrays.
  After the mid-level adjacency (10 × 10) and the mid-level representation (10 × 768) are formed, the program
  never reads the node features or the node adjacency again: the graph convolution on the ten mid-level nodes
  (unit diagonal, inverse square roots of the clamped degrees on both sides, the weights and bias, the rectifier),
  the grouping of the ten nodes into five with its attention and softmax, the second graph convolution and the
  mean over the five rows are all computed from those two arrays and the five remaining parameter arrays.
  `tail` is that composition, statement by statement; `value_eq` says the result buffer holds it.
-/
import proofs.«114392_j58480274702406_2_alg».proof.Proof.RefFrame

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

set_option maxHeartbeats 1000000

section Stages
variable {F : FTy → Type} [FloatOps F]

/-- The mid-level adjacency with unit diagonal, each entry scaled by the inverse square roots of its row's and its column's degree (the row sums clamped below at one). -/
def normAdjMid (v5 : (⟨S10x10, .f32⟩ : BufTy).Contents (Elt F)) :
    (⟨S10x10, .f32⟩ : BufTy).Contents (Elt F) :=
  let v28 : (⟨S10, .i32⟩ : BufTy).Contents (Elt F) := (iotaInDim S10 32 0)
  let c_3 : (⟨S_, .i32⟩ : BufTy).Contents (Elt F) := (constantI S_ 32 0#32)
  let v29 : (⟨S10, .i32⟩ : BufTy).Contents (Elt F) := (broadcastInDim S10 ![] bcast_S_S10 : (⟨S_, .i32⟩ : BufTy).Contents (Elt F) → (⟨S10, .i32⟩ : BufTy).Contents (Elt F)) c_3
  let v30 : (⟨S10, .i1⟩ : BufTy).Contents (Elt F) := (cmpi .slt : (⟨S10, .i32⟩ : BufTy).Contents (Elt F) → (⟨S10, .i32⟩ : BufTy).Contents (Elt F) → (⟨S10, .i1⟩ : BufTy).Contents (Elt F)) v28 v29
  let c_4 : (⟨S_, .i32⟩ : BufTy).Contents (Elt F) := (constantI S_ 32 10#32)
  let v31 : (⟨S10, .i32⟩ : BufTy).Contents (Elt F) := (broadcastInDim S10 ![] bcast_S_S10 : (⟨S_, .i32⟩ : BufTy).Contents (Elt F) → (⟨S10, .i32⟩ : BufTy).Contents (Elt F)) c_4
  let v32 : (⟨S10, .i32⟩ : BufTy).Contents (Elt F) := (addi : (⟨S10, .i32⟩ : BufTy).Contents (Elt F) → (⟨S10, .i32⟩ : BufTy).Contents (Elt F) → (⟨S10, .i32⟩ : BufTy).Contents (Elt F)) v28 v31
  let v33 : (⟨S10, .i32⟩ : BufTy).Contents (Elt F) := (select : (⟨S10, .i1⟩ : BufTy).Contents (Elt F) → (⟨S10, .i32⟩ : BufTy).Contents (Elt F) → (⟨S10, .i32⟩ : BufTy).Contents (Elt F) → (⟨S10, .i32⟩ : BufTy).Contents (Elt F)) v30 v32 v28
  let c_5 : (⟨S_, .i32⟩ : BufTy).Contents (Elt F) := (constantI S_ 32 0#32)
  let v34 : (⟨S10, .i32⟩ : BufTy).Contents (Elt F) := (broadcastInDim S10 ![] bcast_S_S10 : (⟨S_, .i32⟩ : BufTy).Contents (Elt F) → (⟨S10, .i32⟩ : BufTy).Contents (Elt F)) c_5
  let v35 : (⟨S10, .i1⟩ : BufTy).Contents (Elt F) := (cmpi .slt : (⟨S10, .i32⟩ : BufTy).Contents (Elt F) → (⟨S10, .i32⟩ : BufTy).Contents (Elt F) → (⟨S10, .i1⟩ : BufTy).Contents (Elt F)) v28 v34
  let c_6 : (⟨S_, .i32⟩ : BufTy).Contents (Elt F) := (constantI S_ 32 10#32)
  let v36 : (⟨S10, .i32⟩ : BufTy).Contents (Elt F) := (broadcastInDim S10 ![] bcast_S_S10 : (⟨S_, .i32⟩ : BufTy).Contents (Elt F) → (⟨S10, .i32⟩ : BufTy).Contents (Elt F)) c_6
  let v37 : (⟨S10, .i32⟩ : BufTy).Contents (Elt F) := (addi : (⟨S10, .i32⟩ : BufTy).Contents (Elt F) → (⟨S10, .i32⟩ : BufTy).Contents (Elt F) → (⟨S10, .i32⟩ : BufTy).Contents (Elt F)) v28 v36
  let v38 : (⟨S10, .i32⟩ : BufTy).Contents (Elt F) := (select : (⟨S10, .i1⟩ : BufTy).Contents (Elt F) → (⟨S10, .i32⟩ : BufTy).Contents (Elt F) → (⟨S10, .i32⟩ : BufTy).Contents (Elt F) → (⟨S10, .i32⟩ : BufTy).Contents (Elt F)) v35 v37 v28
  let v39 : (⟨S10x1, .i32⟩ : BufTy).Contents (Elt F) := (broadcastInDim S10x1 ![0] bcast_S10_S10x1_0 : (⟨S10, .i32⟩ : BufTy).Contents (Elt F) → (⟨S10x1, .i32⟩ : BufTy).Contents (Elt F)) v33
  let v40 : (⟨S10x1, .i32⟩ : BufTy).Contents (Elt F) := (broadcastInDim S10x1 ![0] bcast_S10_S10x1_0 : (⟨S10, .i32⟩ : BufTy).Contents (Elt F) → (⟨S10x1, .i32⟩ : BufTy).Contents (Elt F)) v38
  let v41 : (⟨S10x2, .i32⟩ : BufTy).Contents (Elt F) := ((fun a b => concatenate S10x2 1 [⟨S10x1, a⟩, ⟨S10x1, b⟩] concatenates_S10x1_S10x1_S10x2_d1) : (⟨S10x1, .i32⟩ : BufTy).Contents (Elt F) → (⟨S10x1, .i32⟩ : BufTy).Contents (Elt F) → (⟨S10x2, .i32⟩ : BufTy).Contents (Elt F)) v39 v40
  let cst_7 : (⟨S_, .f32⟩ : BufTy).Contents (Elt F) := (constant S_ .f32 0x3F800000#32)
  let v42 : (⟨S10, .f32⟩ : BufTy).Contents (Elt F) := (broadcastInDim S10 ![] bcast_S_S10 : (⟨S_, .f32⟩ : BufTy).Contents (Elt F) → (⟨S10, .f32⟩ : BufTy).Contents (Elt F)) cst_7
  let v43 : (⟨S10x10, .f32⟩ : BufTy).Contents (Elt F) := ((fun x i u => Host.scatter scatter_S10x10_S10x2_S10_n_01_01_1 (fun _ b => b) x i u) : (⟨S10x10, .f32⟩ : BufTy).Contents (Elt F) → (⟨S10x2, .i32⟩ : BufTy).Contents (Elt F) → (⟨S10, .f32⟩ : BufTy).Contents (Elt F) → (⟨S10x10, .f32⟩ : BufTy).Contents (Elt F)) v5 v41 v42
  let cst_8 : (⟨S_, .f32⟩ : BufTy).Contents (Elt F) := (constant S_ .f32 0x00000000#32)
  let v44 : (⟨S10, .f32⟩ : BufTy).Contents (Elt F) := ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F)) v43 cst_8
  let cst_9 : (⟨S_, .f32⟩ : BufTy).Contents (Elt F) := (constant S_ .f32 0x3F800000#32)
  let call2_v0 : (⟨S_, .f32⟩ : BufTy).Contents (Elt F) := id cst_9
  let call2_v1 : (⟨S10, .f32⟩ : BufTy).Contents (Elt F) := (broadcastInDim S10 ![] bcast_S_S10) call2_v0
  let v45 : (⟨S10, .f32⟩ : BufTy).Contents (Elt F) := maximumf call2_v1 v44
  let cst_10 : (⟨S_, .f32⟩ : BufTy).Contents (Elt F) := (constant S_ .f32 0xBF000000#32)
  let v46 : (⟨S10, .f32⟩ : BufTy).Contents (Elt F) := (broadcastInDim S10 ![] bcast_S_S10 : (⟨S_, .f32⟩ : BufTy).Contents (Elt F) → (⟨S10, .f32⟩ : BufTy).Contents (Elt F)) cst_10
  let v47 : (⟨S10, .f32⟩ : BufTy).Contents (Elt F) := (Host.powf : (⟨S10, .f32⟩ : BufTy).Contents (Elt F) → (⟨S10, .f32⟩ : BufTy).Contents (Elt F) → (⟨S10, .f32⟩ : BufTy).Contents (Elt F)) v45 v46
  let v48 : (⟨S10x1, .f32⟩ : BufTy).Contents (Elt F) := (broadcastInDim S10x1 ![0] bcast_S10_S10x1_0 : (⟨S10, .f32⟩ : BufTy).Contents (Elt F) → (⟨S10x1, .f32⟩ : BufTy).Contents (Elt F)) v47
  let v49 : (⟨S10x10, .f32⟩ : BufTy).Contents (Elt F) := (broadcastInDim S10x10 ![0, 1] bcast_S10x1_S10x10_0_1 : (⟨S10x1, .f32⟩ : BufTy).Contents (Elt F) → (⟨S10x10, .f32⟩ : BufTy).Contents (Elt F)) v48
  let v50 : (⟨S10x10, .f32⟩ : BufTy).Contents (Elt F) := (mulf : (⟨S10x10, .f32⟩ : BufTy).Contents (Elt F) → (⟨S10x10, .f32⟩ : BufTy).Contents (Elt F) → (⟨S10x10, .f32⟩ : BufTy).Contents (Elt F)) v49 v43
  let v51 : (⟨S1x10, .f32⟩ : BufTy).Contents (Elt F) := (broadcastInDim S1x10 ![1] bcast_S10_S1x10_1 : (⟨S10, .f32⟩ : BufTy).Contents (Elt F) → (⟨S1x10, .f32⟩ : BufTy).Contents (Elt F)) v47
  let v52 : (⟨S10x10, .f32⟩ : BufTy).Contents (Elt F) := (broadcastInDim S10x10 ![0, 1] bcast_S1x10_S10x10_0_1 : (⟨S1x10, .f32⟩ : BufTy).Contents (Elt F) → (⟨S10x10, .f32⟩ : BufTy).Contents (Elt F)) v51
  let v53 : (⟨S10x10, .f32⟩ : BufTy).Contents (Elt F) := (mulf : (⟨S10x10, .f32⟩ : BufTy).Contents (Elt F) → (⟨S10x10, .f32⟩ : BufTy).Contents (Elt F) → (⟨S10x10, .f32⟩ : BufTy).Contents (Elt F)) v50 v52
  v53

/-- The first graph convolution: the normalised adjacency times (the mid-level representation times the weights), plus the bias, rectified. -/
def xMid (v27 : (⟨S10x768, .f32⟩ : BufTy).Contents (Elt F)) (a3 : (⟨S768x768, .f32⟩ : BufTy).Contents (Elt F)) (v53 : (⟨S10x10, .f32⟩ : BufTy).Contents (Elt F)) (a4 : (⟨S768, .f32⟩ : BufTy).Contents (Elt F)) :
    (⟨S10x768, .f32⟩ : BufTy).Contents (Elt F) :=
  let v54 : (⟨S10x768, .f32⟩ : BufTy).Contents (Elt F) := ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)) v27 a3
  let v55 : (⟨S10x768, .f32⟩ : BufTy).Contents (Elt F) := ((fun l r => Host.dotGeneral dot_S10x10_S10x768_S10x768_1_0_0_1_n_n none l r) : (⟨S10x10, .f32⟩ : BufTy).Contents (Elt F) → (⟨S10x768, .f32⟩ : BufTy).Contents (Elt F) → (⟨S10x768, .f32⟩ : BufTy).Contents (Elt F)) v53 v54
  let v56 : (⟨S1x768, .f32⟩ : BufTy).Contents (Elt F) := (broadcastInDim S1x768 ![1] bcast_S768_S1x768_1 : (⟨S768, .f32⟩ : BufTy).Contents (Elt F) → (⟨S1x768, .f32⟩ : BufTy).Contents (Elt F)) a4
  let v57 : (⟨S10x768, .f32⟩ : BufTy).Contents (Elt F) := (broadcastInDim S10x768 ![0, 1] bcast_S1x768_S10x768_0_1 : (⟨S1x768, .f32⟩ : BufTy).Contents (Elt F) → (⟨S10x768, .f32⟩ : BufTy).Contents (Elt F)) v56
  let v58 : (⟨S10x768, .f32⟩ : BufTy).Contents (Elt F) := (addf : (⟨S10x768, .f32⟩ : BufTy).Contents (Elt F) → (⟨S10x768, .f32⟩ : BufTy).Contents (Elt F) → (⟨S10x768, .f32⟩ : BufTy).Contents (Elt F)) v55 v57
  let call3_cst : (⟨S_, .f32⟩ : BufTy).Contents (Elt F) := (constant S_ .f32 0x00000000#32)
  let call3_v0 : (⟨S10x768, .f32⟩ : BufTy).Contents (Elt F) := (broadcastInDim S10x768 ![] bcast_S_S10x768) call3_cst
  let v59 : (⟨S10x768, .f32⟩ : BufTy).Contents (Elt F) := maximumf v58 call3_v0
  v59

/-- The mid-to-high mapping: the one-hot of (p / 2) over five columns. -/
def m2  :
    (⟨S10x5, .f32⟩ : BufTy).Contents (Elt F) :=
  let v60 : (⟨S10, .i32⟩ : BufTy).Contents (Elt F) := (iotaInDim S10 32 0)
  let c_11 : (⟨S_, .i32⟩ : BufTy).Contents (Elt F) := (constantI S_ 32 2#32)
  let call4_v0 : (⟨S_, .i32⟩ : BufTy).Contents (Elt F) := id c_11
  let call4_v1 : (⟨S10, .i32⟩ : BufTy).Contents (Elt F) := (broadcastInDim S10 ![] bcast_S_S10) call4_v0
  let call4_v2 : (⟨S10, .i32⟩ : BufTy).Contents (Elt F) := Host.divsi v60 call4_v1
  let call4_v3 : (⟨S10, .i32⟩ : BufTy).Contents (Elt F) := signi v60
  let call4_v4 : (⟨S_, .i32⟩ : BufTy).Contents (Elt F) := signi call4_v0
  let call4_v5 : (⟨S10, .i32⟩ : BufTy).Contents (Elt F) := (broadcastInDim S10 ![] bcast_S_S10) call4_v4
  let call4_v6 : (⟨S10, .i1⟩ : BufTy).Contents (Elt F) := (cmpi .ne) call4_v3 call4_v5
  let call4_v7 : (⟨S10, .i32⟩ : BufTy).Contents (Elt F) := (broadcastInDim S10 ![] bcast_S_S10) call4_v0
  let call4_v8 : (⟨S10, .i32⟩ : BufTy).Contents (Elt F) := Host.remsi v60 call4_v7
  let call4_c : (⟨S_, .i32⟩ : BufTy).Contents (Elt F) := (constantI S_ 32 0#32)
  let call4_v9 : (⟨S10, .i32⟩ : BufTy).Contents (Elt F) := (broadcastInDim S10 ![] bcast_S_S10) call4_c
  let call4_v10 : (⟨S10, .i1⟩ : BufTy).Contents (Elt F) := (cmpi .ne) call4_v8 call4_v9
  let call4_v11 : (⟨S10, .i1⟩ : BufTy).Contents (Elt F) := andi call4_v6 call4_v10
  let call4_c_0 : (⟨S_, .i32⟩ : BufTy).Contents (Elt F) := (constantI S_ 32 1#32)
  let call4_v12 : (⟨S10, .i32⟩ : BufTy).Contents (Elt F) := (broadcastInDim S10 ![] bcast_S_S10) call4_c_0
  let call4_v13 : (⟨S10, .i32⟩ : BufTy).Contents (Elt F) := subi call4_v2 call4_v12
  let v61 : (⟨S10, .i32⟩ : BufTy).Contents (Elt F) := select call4_v11 call4_v13 call4_v2
  let call5_v0 : (⟨S10x1, .i32⟩ : BufTy).Contents (Elt F) := (broadcastInDim S10x1 ![0] bcast_S10_S10x1_0) v61
  let call5_v1 : (⟨S1x5, .i32⟩ : BufTy).Contents (Elt F) := (iotaInDim S1x5 32 1)
  let call5_v2 : (⟨S10x5, .i32⟩ : BufTy).Contents (Elt F) := (broadcastInDim S10x5 ![0, 1] bcast_S10x1_S10x5_0_1) call5_v0
  let call5_v3 : (⟨S10x5, .i32⟩ : BufTy).Contents (Elt F) := (broadcastInDim S10x5 ![0, 1] bcast_S1x5_S10x5_0_1) call5_v1
  let call5_v4 : (⟨S10x5, .i1⟩ : BufTy).Contents (Elt F) := (cmpi .eq) call5_v2 call5_v3
  let v62 : (⟨S10x5, .f32⟩ : BufTy).Contents (Elt F) := (uitofp .f32) call5_v4
  v62

/-- The high-level adjacency: the mapping's transpose times the mid-level adjacency times the mapping. -/
def highAdj (v62 : (⟨S10x5, .f32⟩ : BufTy).Contents (Elt F)) (v5 : (⟨S10x10, .f32⟩ : BufTy).Contents (Elt F)) :
    (⟨S5x5, .f32⟩ : BufTy).Contents (Elt F) :=
  let v63 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v62
  let v64 : (⟨S5x10, .f32⟩ : BufTy).Contents (Elt F) := ((fun l r => Host.dotGeneral dot_S5x10_S10x10_S5x10_1_0_0_1_n_n none l r) : (⟨S5x10, .f32⟩ : BufTy).Contents (Elt F) → (⟨S10x10, .f32⟩ : BufTy).Contents (Elt F) → (⟨S5x10, .f32⟩ : BufTy).Contents (Elt F)) v63 v5
  let v65 : (⟨S5x5, .f32⟩ : BufTy).Contents (Elt F) := ((fun l r => Host.dotGeneral dot_S5x10_S10x5_S5x5_1_0_0_1_n_n none l r) : (⟨S5x10, .f32⟩ : BufTy).Contents (Elt F) → (⟨S10x5, .f32⟩ : BufTy).Contents (Elt F) → (⟨S5x5, .f32⟩ : BufTy).Contents (Elt F)) v64 v62
  v65

/-- The high-level representation: the attention of the five groups over the ten mid-level nodes (own-group scores multiplied by zero, softmax along the nodes) applied to the convolved features, plus the groups' sums. -/
def highRep (v62 : (⟨S10x5, .f32⟩ : BufTy).Contents (Elt F)) (v59 : (⟨S10x768, .f32⟩ : BufTy).Contents (Elt F)) (a5 : (⟨S768x768, .f32⟩ : BufTy).Contents (Elt F)) :
    (⟨S5x768, .f32⟩ : BufTy).Contents (Elt F) :=
  let v66 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v62
  let v67 : (⟨S5x768, .f32⟩ : BufTy).Contents (Elt F) := ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)) v66 v59
  let v68 : (⟨S5x768, .f32⟩ : BufTy).Contents (Elt F) := ((fun l r => Host.dotGeneral dot_S5x768_S768x768_S5x768_1_0_0_1_n_n none l r) : (⟨S5x768, .f32⟩ : BufTy).Contents (Elt F) → (⟨S768x768, .f32⟩ : BufTy).Contents (Elt F) → (⟨S5x768, .f32⟩ : BufTy).Contents (Elt F)) v67 a5
  let v69 : (⟨S768x10, .f32⟩ : BufTy).Contents (Elt F) := ((transpose S768x10 [1, 0] · transposes_S10x768_S768x10_1_0) : (⟨S10x768, .f32⟩ : BufTy).Contents (Elt F) → (⟨S768x10, .f32⟩ : BufTy).Contents (Elt F)) v59
  let v70 : (⟨S5x10, .f32⟩ : BufTy).Contents (Elt F) := ((fun l r => Host.dotGeneral dot_S5x768_S768x10_S5x10_1_0_0_1_n_n none l r) : (⟨S5x768, .f32⟩ : BufTy).Contents (Elt F) → (⟨S768x10, .f32⟩ : BufTy).Contents (Elt F) → (⟨S5x10, .f32⟩ : BufTy).Contents (Elt F)) v68 v69
  let cst_12 : (⟨S_, .f32⟩ : BufTy).Contents (Elt F) := (constant S_ .f32 0x3F800000#32)
  let v71 : (⟨S10x5, .f32⟩ : BufTy).Contents (Elt F) := (broadcastInDim S10x5 ![] bcast_S_S10x5 : (⟨S_, .f32⟩ : BufTy).Contents (Elt F) → (⟨S10x5, .f32⟩ : BufTy).Contents (Elt F)) cst_12
  let v72 : (⟨S10x5, .f32⟩ : BufTy).Contents (Elt F) := (subf : (⟨S10x5, .f32⟩ : BufTy).Contents (Elt F) → (⟨S10x5, .f32⟩ : BufTy).Contents (Elt F) → (⟨S10x5, .f32⟩ : BufTy).Contents (Elt F)) v71 v62
  let v73 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v72
  let v74 : (⟨S5x10, .f32⟩ : BufTy).Contents (Elt F) := (mulf : (⟨S5x10, .f32⟩ : BufTy).Contents (Elt F) → (⟨S5x10, .f32⟩ : BufTy).Contents (Elt F) → (⟨S5x10, .f32⟩ : BufTy).Contents (Elt F)) v70 v73
  let cst_13 : (⟨S_, .f32⟩ : BufTy).Contents (Elt F) := (constant S_ .f32 0xFF800000#32)
  let v75 : (⟨S5, .f32⟩ : BufTy).Contents (Elt F) := ((fun x v => Host.reduce FloatOps.maximumf x v reducesTo_S5x10_S5_d1 h_S_) : (⟨S5x10, .f32⟩ : BufTy).Contents (Elt F) → (⟨S_, .f32⟩ : BufTy).Contents (Elt F) → (⟨S5, .f32⟩ : BufTy).Contents (Elt F)) v74 cst_13
  let cst_14 : (⟨S_, .f32⟩ : BufTy).Contents (Elt F) := (constant S_ .f32 0xFF800000#32)
  let v76 : (⟨S5, .f32⟩ : BufTy).Contents (Elt F) := (broadcastInDim S5 ![] bcast_S_S5 : (⟨S_, .f32⟩ : BufTy).Contents (Elt F) → (⟨S5, .f32⟩ : BufTy).Contents (Elt F)) cst_14
  let v77 : (⟨S5, .f32⟩ : BufTy).Contents (Elt F) := (maximumf : (⟨S5, .f32⟩ : BufTy).Contents (Elt F) → (⟨S5, .f32⟩ : BufTy).Contents (Elt F) → (⟨S5, .f32⟩ : BufTy).Contents (Elt F)) v76 v75
  let v78 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v77
  let v79 : (⟨S5x10, .f32⟩ : BufTy).Contents (Elt F) := (broadcastInDim S5x10 ![0, 1] bcast_S5x1_S5x10_0_1 : (⟨S5x1, .f32⟩ : BufTy).Contents (Elt F) → (⟨S5x10, .f32⟩ : BufTy).Contents (Elt F)) v78
  let v80 : (⟨S5x10, .f32⟩ : BufTy).Contents (Elt F) := (subf : (⟨S5x10, .f32⟩ : BufTy).Contents (Elt F) → (⟨S5x10, .f32⟩ : BufTy).Contents (Elt F) → (⟨S5x10, .f32⟩ : BufTy).Contents (Elt F)) v74 v79
  let v81 : (⟨S5x10, .f32⟩ : BufTy).Contents (Elt F) := (Host.exp : (⟨S5x10, .f32⟩ : BufTy).Contents (Elt F) → (⟨S5x10, .f32⟩ : BufTy).Contents (Elt F)) v80
  let cst_15 : (⟨S_, .f32⟩ : BufTy).Contents (Elt F) := (constant S_ .f32 0x00000000#32)
  let v82 : (⟨S5, .f32⟩ : BufTy).Contents (Elt F) := ((fun x v => Host.reduceAdd x v reducesTo_S5x10_S5_d1 h_S_) : (⟨S5x10, .f32⟩ : BufTy).Contents (Elt F) → (⟨S_, .f32⟩ : BufTy).Contents (Elt F) → (⟨S5, .f32⟩ : BufTy).Contents (Elt F)) v81 cst_15
  let v83 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v82
  let v84 : (⟨S5x10, .f32⟩ : BufTy).Contents (Elt F) := (broadcastInDim S5x10 ![0, 1] bcast_S5x1_S5x10_0_1 : (⟨S5x1, .f32⟩ : BufTy).Contents (Elt F) → (⟨S5x10, .f32⟩ : BufTy).Contents (Elt F)) v83
  let v85 : (⟨S5x10, .f32⟩ : BufTy).Contents (Elt F) := (Host.divf : (⟨S5x10, .f32⟩ : BufTy).Contents (Elt F) → (⟨S5x10, .f32⟩ : BufTy).Contents (Elt F) → (⟨S5x10, .f32⟩ : BufTy).Contents (Elt F)) v81 v84
  let v86 : (⟨S5x768, .f32⟩ : BufTy).Contents (Elt F) := ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)) v85 v59
  let v87 : (⟨S5x768, .f32⟩ : BufTy).Contents (Elt F) := (addf : (⟨S5x768, .f32⟩ : BufTy).Contents (Elt F) → (⟨S5x768, .f32⟩ : BufTy).Contents (Elt F) → (⟨S5x768, .f32⟩ : BufTy).Contents (Elt F)) v86 v67
  v87

/-- The high-level adjacency with unit diagonal, scaled by the inverse square roots of the clamped degrees. -/
def normAdjHigh (v65 : (⟨S5x5, .f32⟩ : BufTy).Contents (Elt F)) :
    (⟨S5x5, .f32⟩ : BufTy).Contents (Elt F) :=
  let v88 : (⟨S5, .i32⟩ : BufTy).Contents (Elt F) := (iotaInDim S5 32 0)
  let c_16 : (⟨S_, .i32⟩ : BufTy).Contents (Elt F) := (constantI S_ 32 0#32)
  let v89 : (⟨S5, .i32⟩ : BufTy).Contents (Elt F) := (broadcastInDim S5 ![] bcast_S_S5 : (⟨S_, .i32⟩ : BufTy).Contents (Elt F) → (⟨S5, .i32⟩ : BufTy).Contents (Elt F)) c_16
  let v90 : (⟨S5, .i1⟩ : BufTy).Contents (Elt F) := (cmpi .slt : (⟨S5, .i32⟩ : BufTy).Contents (Elt F) → (⟨S5, .i32⟩ : BufTy).Contents (Elt F) → (⟨S5, .i1⟩ : BufTy).Contents (Elt F)) v88 v89
  let c_17 : (⟨S_, .i32⟩ : BufTy).Contents (Elt F) := (constantI S_ 32 5#32)
  let v91 : (⟨S5, .i32⟩ : BufTy).Contents (Elt F) := (broadcastInDim S5 ![] bcast_S_S5 : (⟨S_, .i32⟩ : BufTy).Contents (Elt F) → (⟨S5, .i32⟩ : BufTy).Contents (Elt F)) c_17
  let v92 : (⟨S5, .i32⟩ : BufTy).Contents (Elt F) := (addi : (⟨S5, .i32⟩ : BufTy).Contents (Elt F) → (⟨S5, .i32⟩ : BufTy).Contents (Elt F) → (⟨S5, .i32⟩ : BufTy).Contents (Elt F)) v88 v91
  let v93 : (⟨S5, .i32⟩ : BufTy).Contents (Elt F) := (select : (⟨S5, .i1⟩ : BufTy).Contents (Elt F) → (⟨S5, .i32⟩ : BufTy).Contents (Elt F) → (⟨S5, .i32⟩ : BufTy).Contents (Elt F) → (⟨S5, .i32⟩ : BufTy).Contents (Elt F)) v90 v92 v88
  let c_18 : (⟨S_, .i32⟩ : BufTy).Contents (Elt F) := (constantI S_ 32 0#32)
  let v94 : (⟨S5, .i32⟩ : BufTy).Contents (Elt F) := (broadcastInDim S5 ![] bcast_S_S5 : (⟨S_, .i32⟩ : BufTy).Contents (Elt F) → (⟨S5, .i32⟩ : BufTy).Contents (Elt F)) c_18
  let v95 : (⟨S5, .i1⟩ : BufTy).Contents (Elt F) := (cmpi .slt : (⟨S5, .i32⟩ : BufTy).Contents (Elt F) → (⟨S5, .i32⟩ : BufTy).Contents (Elt F) → (⟨S5, .i1⟩ : BufTy).Contents (Elt F)) v88 v94
  let c_19 : (⟨S_, .i32⟩ : BufTy).Contents (Elt F) := (constantI S_ 32 5#32)
  let v96 : (⟨S5, .i32⟩ : BufTy).Contents (Elt F) := (broadcastInDim S5 ![] bcast_S_S5 : (⟨S_, .i32⟩ : BufTy).Contents (Elt F) → (⟨S5, .i32⟩ : BufTy).Contents (Elt F)) c_19
  let v97 : (⟨S5, .i32⟩ : BufTy).Contents (Elt F) := (addi : (⟨S5, .i32⟩ : BufTy).Contents (Elt F) → (⟨S5, .i32⟩ : BufTy).Contents (Elt F) → (⟨S5, .i32⟩ : BufTy).Contents (Elt F)) v88 v96
  let v98 : (⟨S5, .i32⟩ : BufTy).Contents (Elt F) := (select : (⟨S5, .i1⟩ : BufTy).Contents (Elt F) → (⟨S5, .i32⟩ : BufTy).Contents (Elt F) → (⟨S5, .i32⟩ : BufTy).Contents (Elt F) → (⟨S5, .i32⟩ : BufTy).Contents (Elt F)) v95 v97 v88
  let v99 : (⟨S5x1, .i32⟩ : BufTy).Contents (Elt F) := (broadcastInDim S5x1 ![0] bcast_S5_S5x1_0 : (⟨S5, .i32⟩ : BufTy).Contents (Elt F) → (⟨S5x1, .i32⟩ : BufTy).Contents (Elt F)) v93
  let v100 : (⟨S5x1, .i32⟩ : BufTy).Contents (Elt F) := (broadcastInDim S5x1 ![0] bcast_S5_S5x1_0 : (⟨S5, .i32⟩ : BufTy).Contents (Elt F) → (⟨S5x1, .i32⟩ : BufTy).Contents (Elt F)) v98
  let v101 : (⟨S5x2, .i32⟩ : BufTy).Contents (Elt F) := ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)) v99 v100
  let cst_20 : (⟨S_, .f32⟩ : BufTy).Contents (Elt F) := (constant S_ .f32 0x3F800000#32)
  let v102 : (⟨S5, .f32⟩ : BufTy).Contents (Elt F) := (broadcastInDim S5 ![] bcast_S_S5 : (⟨S_, .f32⟩ : BufTy).Contents (Elt F) → (⟨S5, .f32⟩ : BufTy).Contents (Elt F)) cst_20
  let v103 : (⟨S5x5, .f32⟩ : BufTy).Contents (Elt F) := ((fun x i u => Host.scatter scatter_S5x5_S5x2_S5_n_01_01_1 (fun _ b => b) x i u) : (⟨S5x5, .f32⟩ : BufTy).Contents (Elt F) → (⟨S5x2, .i32⟩ : BufTy).Contents (Elt F) → (⟨S5, .f32⟩ : BufTy).Contents (Elt F) → (⟨S5x5, .f32⟩ : BufTy).Contents (Elt F)) v65 v101 v102
  let cst_21 : (⟨S_, .f32⟩ : BufTy).Contents (Elt F) := (constant S_ .f32 0x00000000#32)
  let v104 : (⟨S5, .f32⟩ : BufTy).Contents (Elt F) := ((fun x v => Host.reduceAdd x v reducesTo_S5x5_S5_d1 h_S_) : (⟨S5x5, .f32⟩ : BufTy).Contents (Elt F) → (⟨S_, .f32⟩ : BufTy).Contents (Elt F) → (⟨S5, .f32⟩ : BufTy).Contents (Elt F)) v103 cst_21
  let cst_22 : (⟨S_, .f32⟩ : BufTy).Contents (Elt F) := (constant S_ .f32 0x3F800000#32)
  let call6_v0 : (⟨S_, .f32⟩ : BufTy).Contents (Elt F) := id cst_22
  let call6_v1 : (⟨S5, .f32⟩ : BufTy).Contents (Elt F) := (broadcastInDim S5 ![] bcast_S_S5) call6_v0
  let v105 : (⟨S5, .f32⟩ : BufTy).Contents (Elt F) := maximumf call6_v1 v104
  let cst_23 : (⟨S_, .f32⟩ : BufTy).Contents (Elt F) := (constant S_ .f32 0xBF000000#32)
  let v106 : (⟨S5, .f32⟩ : BufTy).Contents (Elt F) := (broadcastInDim S5 ![] bcast_S_S5 : (⟨S_, .f32⟩ : BufTy).Contents (Elt F) → (⟨S5, .f32⟩ : BufTy).Contents (Elt F)) cst_23
  let v107 : (⟨S5, .f32⟩ : BufTy).Contents (Elt F) := (Host.powf : (⟨S5, .f32⟩ : BufTy).Contents (Elt F) → (⟨S5, .f32⟩ : BufTy).Contents (Elt F) → (⟨S5, .f32⟩ : BufTy).Contents (Elt F)) v105 v106
  let v108 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v107
  let v109 : (⟨S5x5, .f32⟩ : BufTy).Contents (Elt F) := (broadcastInDim S5x5 ![0, 1] bcast_S5x1_S5x5_0_1 : (⟨S5x1, .f32⟩ : BufTy).Contents (Elt F) → (⟨S5x5, .f32⟩ : BufTy).Contents (Elt F)) v108
  let v110 : (⟨S5x5, .f32⟩ : BufTy).Contents (Elt F) := (mulf : (⟨S5x5, .f32⟩ : BufTy).Contents (Elt F) → (⟨S5x5, .f32⟩ : BufTy).Contents (Elt F) → (⟨S5x5, .f32⟩ : BufTy).Contents (Elt F)) v109 v103
  let v111 : (⟨S1x5, .f32⟩ : BufTy).Contents (Elt F) := (broadcastInDim S1x5 ![1] bcast_S5_S1x5_1 : (⟨S5, .f32⟩ : BufTy).Contents (Elt F) → (⟨S1x5, .f32⟩ : BufTy).Contents (Elt F)) v107
  let v112 : (⟨S5x5, .f32⟩ : BufTy).Contents (Elt F) := (broadcastInDim S5x5 ![0, 1] bcast_S1x5_S5x5_0_1 : (⟨S1x5, .f32⟩ : BufTy).Contents (Elt F) → (⟨S5x5, .f32⟩ : BufTy).Contents (Elt F)) v111
  let v113 : (⟨S5x5, .f32⟩ : BufTy).Contents (Elt F) := (mulf : (⟨S5x5, .f32⟩ : BufTy).Contents (Elt F) → (⟨S5x5, .f32⟩ : BufTy).Contents (Elt F) → (⟨S5x5, .f32⟩ : BufTy).Contents (Elt F)) v110 v112
  v113

/-- The second graph convolution, rectified, and the mean over the five rows. -/
def tailOut (v87 : (⟨S5x768, .f32⟩ : BufTy).Contents (Elt F)) (a6 : (⟨S768x768, .f32⟩ : BufTy).Contents (Elt F)) (v113 : (⟨S5x5, .f32⟩ : BufTy).Contents (Elt F)) (a7 : (⟨S768, .f32⟩ : BufTy).Contents (Elt F)) :
    (⟨S768, .f32⟩ : BufTy).Contents (Elt F) :=
  let v114 : (⟨S5x768, .f32⟩ : BufTy).Contents (Elt F) := ((fun l r => Host.dotGeneral dot_S5x768_S768x768_S5x768_1_0_0_1_n_n none l r) : (⟨S5x768, .f32⟩ : BufTy).Contents (Elt F) → (⟨S768x768, .f32⟩ : BufTy).Contents (Elt F) → (⟨S5x768, .f32⟩ : BufTy).Contents (Elt F)) v87 a6
  let v115 : (⟨S5x768, .f32⟩ : BufTy).Contents (Elt F) := ((fun l r => Host.dotGeneral dot_S5x5_S5x768_S5x768_1_0_0_1_n_n none l r) : (⟨S5x5, .f32⟩ : BufTy).Contents (Elt F) → (⟨S5x768, .f32⟩ : BufTy).Contents (Elt F) → (⟨S5x768, .f32⟩ : BufTy).Contents (Elt F)) v113 v114
  let v116 : (⟨S1x768, .f32⟩ : BufTy).Contents (Elt F) := (broadcastInDim S1x768 ![1] bcast_S768_S1x768_1 : (⟨S768, .f32⟩ : BufTy).Contents (Elt F) → (⟨S1x768, .f32⟩ : BufTy).Contents (Elt F)) a7
  let v117 : (⟨S5x768, .f32⟩ : BufTy).Contents (Elt F) := (broadcastInDim S5x768 ![0, 1] bcast_S1x768_S5x768_0_1 : (⟨S1x768, .f32⟩ : BufTy).Contents (Elt F) → (⟨S5x768, .f32⟩ : BufTy).Contents (Elt F)) v116
  let v118 : (⟨S5x768, .f32⟩ : BufTy).Contents (Elt F) := (addf : (⟨S5x768, .f32⟩ : BufTy).Contents (Elt F) → (⟨S5x768, .f32⟩ : BufTy).Contents (Elt F) → (⟨S5x768, .f32⟩ : BufTy).Contents (Elt F)) v115 v117
  let call7_cst : (⟨S_, .f32⟩ : BufTy).Contents (Elt F) := (constant S_ .f32 0x00000000#32)
  let call7_v0 : (⟨S5x768, .f32⟩ : BufTy).Contents (Elt F) := (broadcastInDim S5x768 ![] bcast_S_S5x768) call7_cst
  let v119 : (⟨S5x768, .f32⟩ : BufTy).Contents (Elt F) := maximumf v118 call7_v0
  let cst_24 : (⟨S_, .f32⟩ : BufTy).Contents (Elt F) := (constant S_ .f32 0x00000000#32)
  let v120 : (⟨S768, .f32⟩ : BufTy).Contents (Elt F) := ((fun x v => Host.reduceAdd x v reducesTo_S5x768_S768_d0 h_S_) : (⟨S5x768, .f32⟩ : BufTy).Contents (Elt F) → (⟨S_, .f32⟩ : BufTy).Contents (Elt F) → (⟨S768, .f32⟩ : BufTy).Contents (Elt F)) v119 cst_24
  let cst_25 : (⟨S_, .f32⟩ : BufTy).Contents (Elt F) := (constant S_ .f32 0x40A00000#32)
  let v121 : (⟨S768, .f32⟩ : BufTy).Contents (Elt F) := (broadcastInDim S768 ![] bcast_S_S768 : (⟨S_, .f32⟩ : BufTy).Contents (Elt F) → (⟨S768, .f32⟩ : BufTy).Contents (Elt F)) cst_25
  let v122 : (⟨S768, .f32⟩ : BufTy).Contents (Elt F) := (Host.divf : (⟨S768, .f32⟩ : BufTy).Contents (Elt F) → (⟨S768, .f32⟩ : BufTy).Contents (Elt F) → (⟨S768, .f32⟩ : BufTy).Contents (Elt F)) v120 v121
  v122

end Stages

/-- Everything computed after the mid-level adjacency `midAdj` and the mid-level representation `midRep`:
    the first graph convolution with weights `w1` and bias `b1`, the second-level attention with `attMH`,
    the second graph convolution with `w2` and `b2`, and the mean over the five high-level rows. -/
def tail (midAdj : S10x10.Idx → EReal) (midRep : S10x768.Idx → EReal) (w1 : S768x768.Idx → EReal) (b1 : S768.Idx → EReal)
    (attMH : S768x768.Idx → EReal) (w2 : S768x768.Idx → EReal) (b2 : S768.Idx → EReal) : S768.Idx → EReal :=
  let normAdjMidV := normAdjMid (F := Ideal) midAdj
  let xMidV := xMid (F := Ideal) midRep w1 normAdjMidV b1
  let m2V := m2 (F := Ideal)
  let highAdjV := highAdj (F := Ideal) m2V midAdj
  let highRepV := highRep (F := Ideal) m2V xMidV attMH
  let normAdjHighV := normAdjHigh (F := Ideal) highAdjV
  tailOut (F := Ideal) highRepV w2 normAdjHighV b2

end Cert.ReferenceIdeal.RefValue

end
-- ==== Proof.RefValueTailEq.lean ====
/-
  What the line's fold leaves in the three buffers that matter: the mid-level adjacency and the mid-level
  representation are the first stage's functions of the low-to-mid mapping and of the arguments, and the result is
  the last stage's function of those two arrays and of the five remaining arguments. Each is read off the fold of the
  literal operations, the line cut after the mid-level representation.
-/
import proofs.«114392_j58480274702406_2_alg».proof.Proof.RefValueTail
import proofs.«114392_j58480274702406_2_alg».proof.Proof.RefValueSplit

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

set_option maxHeartbeats 4000000

/-- From any contents, the fold of the operations after the 54th, read at the result buffer, is the last stage's
    function of the contents' two mid-level arrays and five parameter arrays. -/
theorem tail_eq (W : Valuation τ sig (Elt Ideal)) :
    (after (opsB ++ (ops1 ++ ops2)) W (Proc.devRef .tc main_v122) : S768.Idx → EReal)
      = tail (W (Proc.devRef .tc main_v5)) (W (Proc.devRef .tc main_v27)) (W (Proc.devRef .tc main_arg3)) (W (Proc.devRef .tc main_arg4)) (W (Proc.devRef .tc main_arg5)) (W (Proc.devRef .tc main_arg6)) (W (Proc.devRef .tc main_arg7)) := by
  simp only [after_append]
  after_results_simp
  rfl

/-- The result buffer after the whole line: the last stage's function of what the line leaves in the two mid-level
    buffers, and of the five parameter arrays as launched. -/
theorem value_eq (V : Valuation τ sig (Elt Ideal)) :
    (after ops V (Proc.devRef .tc main_v122) : S768.Idx → EReal)
      = tail (after ops V (Proc.devRef .tc main_v5)) (after ops V (Proc.devRef .tc main_v27)) (V (Proc.devRef .tc main_arg3)) (V (Proc.devRef .tc main_arg4)) (V (Proc.devRef .tc main_arg5)) (V (Proc.devRef .tc main_arg6)) (V (Proc.devRef .tc main_arg7)) := by
  obtain ⟨_, _, _, k3, k4, k5, k6, k7⟩ := keptA (F := Ideal) V
  obtain ⟨l5, l27⟩ := late (F := Ideal) (after opsA V)
  rw [ops_split, after_append, tail_eq, l5, l27, k3, k4, k5, k6, k7]

end Cert.ReferenceIdeal.RefValue

end
-- ==== Proof.RefValueRun.lean ====
/-
  The reference's run, with its result named: every execution terminates without a fault; on each core the result
  buffer ends holding the last stage's function of what the line's fold leaves in the two mid-level buffers and of the
  five remaining parameter arrays as launched, and the eight argument arrays end as launched.
-/
import proofs.«114392_j58480274702406_2_alg».proof.Proof.RefValueTailEq

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- On every core, from any memory with zero counters: @main terminates without a fault, the result is `tail` of
    the two mid-level arrays (as the fold of the line computes them from the launch contents) and the launched
    parameters, and every argument is unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122)
          = tail (after ops (launchContents m c) (Proc.devRef .tc main_v5)) (after ops (launchContents m c) (Proc.devRef .tc main_v27))
              (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨k0, k1, k2, k3, k4, k5, k6, k7⟩ := kept (F := Ideal) (launchContents m c)
    exact ⟨(h c _).trans (value_eq (launchContents m c)), (h c _).trans k0, (h c _).trans k1, (h c _).trans k2, (h c _).trans k3,
      (h c _).trans k4, (h c _).trans k5, (h c _).trans k6, (h c _).trans k7⟩)
    (run_main (F := Ideal) m ρ)

end Cert.ReferenceIdeal.RefValue

end
-- ==== Proof.RefValue.lean ====
/-
  The reference's value, in three parts. The low-to-mid mapping `M1` is a fixed 0/1 matrix, computed from no input.
  The two mid-level arrays the line's fold leaves are the specification's reference forms over `M1` and the
  arguments, entry by entry: the mid-level adjacency is `(M1ᵀ · adj) · M1`, the mid-level representation is the
  softmax attention of the clusters over the nodes plus the cluster sums. The result is the last stage's function
  `tail` of those two arrays and the five remaining parameter arrays (`value_eq`, `run_value`).
-/
import proofs.«114392_j58480274702406_2_alg».proof.Proof.RefValueHeadEq
import proofs.«114392_j58480274702406_2_alg».proof.Proof.RefValueMid
import proofs.«114392_j58480274702406_2_alg».proof.Proof.RefValueRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

open Idealize.ShloMosaic.ValueIdx

/-- The low-to-mid mapping: entry `(s, p)` of the one-hot of `s / 820` over ten columns, as the program computes it
    (from an iota, a floor division, a comparison with the column number, the bit read as a float). -/
def M1 : Cert.Spec.Mat 8192 10 := fun s p => m1Arr (ix2 s p)

/-- Every entry of the mapping is a real number: it is a one-bit word read as a float, 0 or 1. -/
theorem M1_real : ∀ (s : Fin 8192) (p : Fin 10), ∃ r : ℝ, M1 s p = (r : EReal) :=
  fun s p => ⟨((m1Bits (F := Ideal) (ix2 s p)).toNat : ℝ), rfl⟩

/-- The mapping's buffer after the whole line holds the mapping. -/
theorem m1_fold (V : Valuation τ sig (Elt Ideal)) (s : Fin 8192) (p : Fin 10) :
    (after opsA V (Proc.devRef .tc main_v2) : S8192x10.Idx → EReal) (ix2 s p) = M1 s p := by
  rw [head_m1]; rfl

/-- What the whole line leaves in the mid-level adjacency's buffer. -/
theorem midAdj_fold (V : Valuation τ sig (Elt Ideal)) :
    (after ops V (Proc.devRef .tc main_v5) : S10x10.Idx → EReal) = midAdjOf (F := Ideal) m1Arr (V (Proc.devRef .tc main_arg1)) := by
  rw [ops_split, after_append, (late (F := Ideal) (after opsA V)).1, head_midAdj]

/-- What the whole line leaves in the mid-level representation's buffer. -/
theorem midRep_fold (V : Valuation τ sig (Elt Ideal)) :
    (after ops V (Proc.devRef .tc main_v27) : S10x768.Idx → EReal)
      = midRepOf m1Arr (V (Proc.devRef .tc main_arg0)) (V (Proc.devRef .tc main_arg2)) := by
  rw [ops_split, after_append, (late (F := Ideal) (after opsA V)).2, head_midRep]

/-- The mid-level adjacency the line computes is `(M1ᵀ · adj) · M1`, entry by entry. -/
theorem midAdj_apply (V : Valuation τ sig (Elt Ideal)) (a j : Fin 10) :
    (after ops V (Proc.devRef .tc main_v5) : S10x10.Idx → EReal) (ix2 a j)
      = Cert.Spec.rMidAdj M1 (fun s t => (V (Proc.devRef .tc main_arg1) : S8192x8192.Idx → EReal) (ix2 s t)) a j := by
  rw [midAdj_fold, midAdjOf_apply]
  rfl

/-- The mid-level representation the line computes is the specification's reference form, entry by entry. -/
theorem midRep_apply (V : Valuation τ sig (Elt Ideal)) (p : Fin 10) (d : Fin 768) :
    (after ops V (Proc.devRef .tc main_v27) : S10x768.Idx → EReal) (ix2 p d)
      = Cert.Spec.rMidRep M1 (fun s e => (V (Proc.devRef .tc main_arg0) : S8192x768.Idx → EReal) (ix2 s e))
          (fun e f => (V (Proc.devRef .tc main_arg2) : S768x768.Idx → EReal) (ix2 e f)) p d := by
  rw [midRep_fold]
  unfold midRepOf
  rw [midRep_formula]
  rfl

end Cert.ReferenceIdeal.RefValue

end
-- ==== Proof.K0Run.lean ====
/-
  The first kernel region (m1ᵀ · (adj · m1) over row tiles of the adjacency matrix), its body at one grid point.
  The grid is two halves of sixteen points; at the first point of a half the output block is set to zero and the
  tile's product added to it, at every later point the product is added to what the point before left. Run on
  whole staging buffers, the body leaves its three input blocks as it found them and the output's buffer at its
  stores; which stores, the run itself finds.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the inner grid coordinate is zero. -/
abbrev cond0_0 (i : grid0.Coords) : Prop := (Scalar.cmpi .ne (Scalar.extui (Scalar.cmpi .eq (BitVec.ofNat 32 (i 1).val) 0#32)) 0#32) = 1#1
/-- It holds at the first point of each half of the grid. -/
theorem hcond0_0 : ∀ t : Fin cfg0.N, cond0_0 (grid0.coords t) ↔ t.val % 16 = 0 :=
  (by decide +kernel : ∀ t : Fin grid0.N, cond0_0 (grid0.coords t) ↔ t.val % 16 = 0)

abbrev VO0_3 : View sig .tc .vmem S1x128x128 .f32 := (Memref.whole cc0_stg3_0 : Memref sig .tc .vmem S1x128x128 .f32).view
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)

omit V in
set_option maxHeartbeats 4000000 in
/-- The body where the output block is reset first: what its stores leave in the output's buffer, as pieces, with the
    proof that on whole staging memrefs the body runs to the end holding the inputs as they were. -/
noncomputable def kernelRun0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__mid_adj_kernel i arg2 harg2 arg3 harg3 arg4 harg4 arg5 harg5) K } := by
  refine ⟨?_, fun E K => ?run⟩
  case run =>
    simp only [cc0__mid_adj_kernel_eq_skeleton]; unfold cc0__mid_adj_kernel_skel
    unfold owns
    iintro ⟨⟨%f0, %hf0, H0⟩, ⟨%f1, %hf1, H1⟩, ⟨%f2, %hf2, H2⟩, ⟨%dO, %fO, -, HO⟩, Hk⟩
    obtain rfl := harg2.eq_unread hf0
    obtain rfl := harg3.eq_unread hf1
    obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HO

omit V in
set_option maxHeartbeats 4000000 in
/-- The body where the output block is added to: it reads the block (`xo`) before covering it. -/
noncomputable def kernelRun0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__mid_adj_kernel i arg2 harg2 arg3 harg3 arg4 harg4 arg5 harg5) K } := by
  refine ⟨?_, fun E K => ?run⟩
  case run =>
    simp only [cc0__mid_adj_kernel_eq_skeleton]; unfold cc0__mid_adj_kernel_skel
    unfold owns
    iintro ⟨⟨%f0, %hf0, H0⟩, ⟨%f1, %hf1, H1⟩, ⟨%f2, %hf2, H2⟩, ⟨%fO, %hfO, HO⟩, Hk⟩
    obtain rfl := harg2.eq_unread hf0
    obtain rfl := harg3.eq_unread hf1
    obtain rfl := harg4.eq_unread hf2
    obtain rfl := harg5.eq_unread hfO
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HO

end Cert.Kernel.Hand

end
-- ==== Proof.K0Dat.lean ====
/-
  The first kernel region's proof data and body obligation. After the body at a grid point the three input windows'
  buffers hold their blocks, untouched, and the output window's buffer holds the accumulation: the reset case's stores
  at the first point of a half of the grid, the adding case's over the previous point's contents elsewhere (the block is
  written back only after the last point of a half). The obligation at a point is that case's run.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.K0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- The reset case's stores tile the output block, so they cover it. -/
theorem cover0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) (y : S1x128x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x128x128.size (by sl_kernel_rfl) y

omit V in
/-- What the reset case leaves in the output's staging buffer. -/
def out0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) : Vec F S1x128x128 .f32 :=
  VO0_3.read (Elt F) (VO0_3.writes (Elt F) VO0_3.junk (kernelRun0_A c i arg2 harg2 arg3 harg3 arg4 harg4 arg5 harg5 hc0 x0 x1 x2).1)

omit V in
/-- The adding case's store covers the output block. -/
theorem cover0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) (y : S1x128x128.Idx) :
    ∃ pc ∈ (kernelRun0_B c i arg2 harg2 arg3 harg3 arg4 harg4 arg5 harg5 hc0 x0 x1 x2 xo).1, y ∈ pc.1.set :=
  View.cover_of_tiledL (kernelRun0_B c i arg2 harg2 arg3 harg3 arg4 harg4 arg5 harg5 hc0 x0 x1 x2 xo).1 S1x128x128.size (by sl_kernel_rfl) y

omit V in
/-- What the adding case leaves in the output's staging buffer, given what it found there. -/
def out0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) : Vec F S1x128x128 .f32 :=
  VO0_3.read (Elt F) (VO0_3.writes (Elt F) VO0_3.junk (kernelRun0_B c i arg2 harg2 arg3 harg3 arg4 harg4 arg5 harg5 hc0 x0 x1 x2 xo).1)

/-- The accumulation: what the output's staging buffer holds after the body at position `n`. At the first point of a
    half of the grid the reset case's contents; at any other point the adding case's, over what the point before left. -/
def outsAt0 (c : Dev nD) : (n : ℕ) → n < cfg0.N → Vec F S1x128x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 16 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

theorem outsAt0_A (c : Dev nD) (t : Fin cfg0.N) (h0 : t.val % 16 = 0) :
    outsAt0 V c t.val t.isLt = out0_A c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at its
    block and the output's at the accumulation; nothing owed; the mapping's array, staged through two windows, held half by each of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At an adding point the output's buffer holds what the body left at the point before: it was not written back between. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' buffers hold their blocks; the point is a reset point or an adding point, and at an
    adding point the output's buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  have hN : t.val < 32 := lt_of_lt_of_eq t.isLt (show cfg0.N = 32 from N_0)
  by_cases h0 : t.val % 16 = 0
  · rw [outsAt0_A V c t h0]
    unfold out0_A
    iintro ⟨HΦ, Ho, ⟨%d0, H0⟩, ⟨%d1, H1⟩, ⟨%d2, H2⟩, ⟨%dO, HO⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [HO]; · iexists _; iexact HO
    iintro ⟨H0, H1, H2, ⟨%eO, HO⟩⟩
    isplitl [HΦ]; · iexact HΦ
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (cover0_A c _ _ _ _ _ _ _ _ _ _ _ _ _)
  · rw [outsAt0_B V c t h0]
    simp only [before0_3_B V c t h0]
    unfold out0_B
    iintro ⟨HΦ, Ho, ⟨%d0, H0⟩, ⟨%d1, H1⟩, ⟨%d2, H2⟩, ⟨%dO, HO⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [HO]; · iexact HO
    iintro ⟨H0, H1, H2, ⟨%eO, HO⟩⟩
    isplitl [HΦ]; · iexact HΦ
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (cover0_B c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K1Run.lean ====
/-
  The second kernel region (the sum of m1ᵀ · x over row tiles), its body at one grid point.
  The grid is two halves of eight points; at the first point of a half the output block is set to zero and the
  tile's product added to it, at every later point the product is added to what the point before left. Run on
  whole staging buffers, the body leaves the two input blocks as it found them and the output's buffer at its
  stores; which stores, the run itself finds.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition: the inner grid coordinate is zero. -/
abbrev cond1_0 (i : grid1.Coords) : Prop := (Scalar.cmpi .ne (Scalar.extui (Scalar.cmpi .eq (BitVec.ofNat 32 (i 1).val) 0#32)) 0#32) = 1#1
/-- It holds at the first point of each half of the grid. -/
theorem hcond1_0 : ∀ t : Fin cfg1.N, cond1_0 (grid1.coords t) ↔ t.val % 8 = 0 :=
  (by decide +kernel : ∀ t : Fin grid1.N, cond1_0 (grid1.coords t) ↔ t.val % 8 = 0)

abbrev VO1_2 : View sig .tc .vmem S1x128x768 .f32 := (Memref.whole cc1_stg2_0 : Memref sig .tc .vmem S1x128x768 .f32).view
abbrev ms1_0 (t : Fin cfg1.N) : Memref sig .tc .vmem S512x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x768 .f32 := win1_2.stage (cfg1.slots t 2)
abbrev hs1_2 (t : Fin cfg1.N) : (ms1_2 t).IsWhole := hstage1_2 ((cfg1.slots t 2).cast nbuf1_2)

omit V in
set_option maxHeartbeats 4000000 in
/-- The body where the output block is reset first: what its stores leave in the output's buffer, as pieces, with the
    proof that on whole staging memrefs the body runs to the end holding the inputs as they were. -/
noncomputable def kernelRun1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) :
    { L : List (View.Piece (Elt F) S1x128x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__mid_pad_kernel i arg2 harg2 arg3 harg3 arg4 harg4) K } := by
  refine ⟨?_, fun E K => ?run⟩
  case run =>
    simp only [cc1__mid_pad_kernel_eq_skeleton]; unfold cc1__mid_pad_kernel_skel
    unfold owns
    iintro ⟨⟨%f0, %hf0, H0⟩, ⟨%f1, %hf1, H1⟩, ⟨%dO, %fO, -, HO⟩, Hk⟩
    obtain rfl := harg2.eq_unread hf0
    obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact HO

omit V in
set_option maxHeartbeats 4000000 in
/-- The body where the output block is added to: it reads the block (`xo`) before covering it. -/
noncomputable def kernelRun1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) :
    { L : List (View.Piece (Elt F) S1x128x768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__mid_pad_kernel i arg2 harg2 arg3 harg3 arg4 harg4) K } := by
  refine ⟨?_, fun E K => ?run⟩
  case run =>
    simp only [cc1__mid_pad_kernel_eq_skeleton]; unfold cc1__mid_pad_kernel_skel
    unfold owns
    iintro ⟨⟨%f0, %hf0, H0⟩, ⟨%f1, %hf1, H1⟩, ⟨%fO, %hfO, HO⟩, Hk⟩
    obtain rfl := harg2.eq_unread hf0
    obtain rfl := harg3.eq_unread hf1
    obtain rfl := harg4.eq_unread hfO
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact HO

end Cert.Kernel.Hand

end
-- ==== Proof.K1Dat.lean ====
/-
  The second kernel region's proof data and body obligation. After the body at a grid point the two input windows'
  buffers hold their blocks, untouched, and the output window's buffer holds the accumulation: the reset case's stores
  at the first point of a half of the grid, the adding case's over the previous point's contents elsewhere (the block is
  written back only after the last point of a half, so between two points of a half the buffer keeps what the body
  left). The obligation at a point is that case's run.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.K1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- The reset case's stores tile the output block, so they cover it. -/
theorem cover1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) (y : S1x128x768.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128x768.size (by sl_kernel_rfl) y

omit V in
/-- What the reset case leaves in the output's staging buffer. -/
def out1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) : Vec F S1x128x768 .f32 :=
  VO1_2.read (Elt F) (VO1_2.writes (Elt F) VO1_2.junk (kernelRun1_A c i arg2 harg2 arg3 harg3 arg4 harg4 hc0 x0 x1).1)

omit V in
/-- The adding case's store covers the output block. -/
theorem cover1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) (y : S1x128x768.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S1x128x768.size (by sl_kernel_rfl) y

omit V in
/-- What the adding case leaves in the output's staging buffer, given what it found there. -/
def out1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) : Vec F S1x128x768 .f32 :=
  VO1_2.read (Elt F) (VO1_2.writes (Elt F) VO1_2.junk (kernelRun1_B c i arg2 harg2 arg3 harg3 arg4 harg4 hc0 x0 x1 xo).1)

/-- The accumulation: what the output's staging buffer holds after the body at position `n`. At the first point of a
    half of the grid the reset case's contents; at any other point the adding case's, over what the point before left. -/
def outsAt1 (c : Dev nD) : (n : ℕ) → n < cfg1.N → Vec F S1x128x768 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at its
    block and the output's at the accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At an adding point the output's buffer holds what the body left at the point before: it was not written back between. -/
theorem before1_2_B (c : Dev nD) (t : Fin cfg1.N) (h0 : ¬t.val % 8 = 0) (d) :
    (dat1 V c).before 2 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the point is a reset point or an adding point, and at an
    adding point the output's buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 8 = 0
  · rw [outsAt1_A V c t h0]
    unfold out1_A
    iintro ⟨HΦ, Ho, ⟨%d0, H0⟩, ⟨%d1, H1⟩, ⟨%dO, HO⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [HO]; · iexists _; iexact HO
    iintro ⟨H0, H1, ⟨%eO, HO⟩⟩
    isplitl [HΦ]; · iexact HΦ
    isplitl [Ho]; · iexact Ho
    isplitl [H0]; · iexact H0
    isplitl [H1]; · iexact H1
    unfold owns; iexists _; isplitr
    swap; · iexact HO
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%dO, HO⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [HO]; · iexact HO
    iintro ⟨H0, H1, ⟨%eO, HO⟩⟩
    isplitl [HΦ]; · iexact HΦ
    isplitl [Ho]; · iexact Ho
    isplitl [H0]; · iexact H0
    isplitl [H1]; · iexact H1
    unfold owns; iexists _; isplitr
    swap; · iexact HO
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KSeg1.lean ====
/-
  The first two kernel regions as segments of @main. Between two items of @main a core holds every unscoped buffer
  whole, at the contents the items before left, beside its generator register and its (empty) debts. A region takes the
  buffers behind its windows' arrays out of that state at entry and puts them back at exit, the output array then at
  what the region's write-backs left and every other buffer as it was.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.K0Dat
import proofs.«114392_j58480274702406_2_alg».proof.Proof.K1Dat
import proofs.«114392_j58480274702406_2_alg».proof.Proof.Gen.Kernel.Regions
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

/-- The buffer contents at the three regions' entries, read at the TensorCore's references. -/
abbrev U6 (c : Dev nD) (b : Ref sig .tc) : Buf (Elt F) ((c : Thread nD τ).loc b) := V6 m c b
abbrev U8 (c : Dev nD) (b : Ref sig .tc) : Buf (Elt F) ((c : Thread nD τ).loc b) := V8 m outs c b
abbrev U9 (c : Dev nD) (b : Ref sig .tc) : Buf (Elt F) ((c : Thread nD τ).loc b) := V9 m outs c b
abbrev U10 (c : Dev nD) (b : Ref sig .tc) : Buf (Elt F) ((c : Thread nD τ).loc b) := V10 m outs c b

variable (d2 : (c : Dev nD) → Dat τ (Elt F) Unit ℕ (UR sig nD τ) ℕ cfg2 c)

/-- Every region's proof data, each at its region's entry contents (the third region's a parameter here). -/
def pdatsG : (p : Fin 3) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U8 m outs) c
  | ⟨2, _⟩ => fun c => d2 c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- At the second region's exit each of its arrays holds what the next item's contents say: the two inputs as entered,
    the output what the write-backs left (`h9`). -/
theorem hF1 (h9 : ∀ c, outs 9 main_v12 c = (dat1 (U8 m outs) c).arrAt 2 cfg1.N) (c : Dev nD) (w : Fin cfg1.W) :
    (dat1 (U8 m outs) c).arrAt w cfg1.N = U9 m outs c (Pipeline.arrRef spec1 w) :=
  match w with
  | ⟨0, _⟩ => ((dat1 (U8 m outs) c).arrAt_in 0 rfl _).trans ((A_eq1 (U8 m outs) c 0).trans (V9_of m outs c main_arg0 (by decide)).symm)
  | ⟨1, _⟩ => ((dat1 (U8 m outs) c).arrAt_in 1 rfl _).trans ((A_eq1 (U8 m outs) c 1).trans (V9_of m outs c main_v3 (by decide)).symm)
  | ⟨2, _⟩ => (h9 c).symm.trans (Function.update_self (Proc.devRef .tc main_v12 : DevRef τ sig) (outs 9 main_v12 c) (V8 m outs c)).symm

theorem hrest1 (c : Dev nD) : ∀ b, b ∉ Finset.univ.image (Pipeline.arrRef spec1) → U9 m outs c b = U8 m outs c b :=
  fun b hb => V9_of m outs c b fun h => hb (by
    rw [List.mem_singleton] at h; subst h; exact Finset.mem_image.mpr ⟨2, Finset.mem_univ _, rfl⟩)

set_option backward.isDefEq.respectTransparency.types false in
/-- The second region over the thread state: entered from every unscoped buffer at the contents before it, left at the
    contents after it. -/
def reg1 (h9 : ∀ c, outs 9 main_v12 c = (dat1 (U8 m outs) c).arrAt 2 cfg1.N) :
    RegionSeg (pcfgs (F := F)) adm (pdatsG m outs d2) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U8 m outs) c).loose
  hwaits := Pipeline.hwaits_of_owed_zero _ _ _ _ L lv 1 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec1 c (U8 m outs c)
  hentry c := by
    rw [Pipeline.ownSems0_none]
    have hsplit := Pipeline.arrays_of_unscopedBufs (p := 1) (pcfgs (F := F)) adm (pdatsG m outs d2) launch1.win launch1.arr_whole c
      ((pdatsG m outs d2 1 c).share_full fun _ => rfl) (U8 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG m outs d2 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsG m outs d2 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsG m outs d2) ((pdatsG m outs d2 1 c).share_full fun _ => rfl)
      (U8 m outs c) (U9 m outs c) ((pdatsG m outs d2 1 c).arrAt · cfg1.N) (hF1 m outs h9 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg0.lean ====
/-
  The first kernel region as a segment of @main. Its four windows stand on three buffers: the adjacency matrix, the
  mapping's low-precision copy — staged twice, whole through one window and tile by tile through another — and the output.
  At entry the mapping's buffer, held whole, is split into two halves, one per window; at exit the halves, still at
  the same contents, are joined again. Everything else is as for a region whose windows stand on distinct buffers.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.KSeg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

abbrev U7 (c : Dev nD) (b : Ref sig .tc) : Buf (Elt F) ((c : Thread nD τ).loc b) := V7 m outs c b

omit m outs in
/-- The three buffers behind the first region's four windows, each held whole at contents `V`, are the windows'
    holdings at those contents: the adjacency and the output whole, the mapping half through each of its two windows. -/
theorem arrays0_iff (c : Dev nD) (V : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (Fn : (w : Fin cfg0.W) → Buf (Elt F) ((cfg0.win w).arr.view.loc (c.tc : Thread nD τ)))
    (h0 : Fn 0 = V main_arg1) (h1 : Fn 1 = V main_v4) (h2 : Fn 2 = V main_v4) (h3 : Fn 3 = V main_v5) :
    (Pipeline.arrBufs (Ix := Unit) (Name := ℕ) (U := UR sig nD τ) (Lvl := ℕ) spec0 c V : sProp 𝕄) ⊣⊢ dat.arrays Fn := by
  unfold Pipeline.arrBufs Pipeline.Dat.arrays
  rw [show (Finset.univ.image (Pipeline.arrRef spec0)) = insert main_arg1 (insert main_v4 {main_v5}) from by decide,
    bigSep_insert (by decide), bigSep_insert (by decide), bigSep_singleton, bigSep_W0]
  have s0 : dat.share 0 = fullShare := by unfold Pipeline.Dat.share; rw [if_neg (by decide)]; exact hq0
  have s1 : dat.share 1 = fullShare.left := by unfold Pipeline.Dat.share; rw [if_neg (by decide)]; exact hq1
  have s2 : dat.share 2 = fullShare.right := by unfold Pipeline.Dat.share; rw [if_neg (by decide)]; exact hq2
  have s3 : dat.share 3 = fullShare := by unfold Pipeline.Dat.share; rw [if_pos (by decide)]
  rw [s0, s1, s2, s3, h0, h1, h2, h3, (arr_whole0 0).set_eq_univ, (arr_whole0 1).set_eq_univ, (arr_whole0 3).set_eq_univ]
  have hs : ((c.tc : Thread nD τ).loc main_v4 ↦{fullShare} V main_v4 : sProp 𝕄)
      ⊣⊢ iprop(((c.tc : Thread nD τ).loc main_v4 ↦{fullShare.left} V main_v4) ∗ (c.tc : Thread nD τ).loc main_v4 ↦{fullShare.right} V main_v4) :=
    pointsTo_share (PosShare.mem_left_op_right fullShare)
  have hsp := hs.1
  have hjn := hs.2
  show (iprop(((c.tc : Thread nD τ).loc main_arg1 ↦{fullShare} V main_arg1) ∗ ((c.tc : Thread nD τ).loc main_v4 ↦{fullShare} V main_v4)
      ∗ ((c.tc : Thread nD τ).loc main_v5 ↦{fullShare} V main_v5)) : sProp 𝕄)
    ⊣⊢ iprop(((c.tc : Thread nD τ).loc main_arg1 ↦{fullShare} V main_arg1) ∗ ((c.tc : Thread nD τ).loc main_v4 ↦{fullShare.left} V main_v4)
      ∗ ((c.tc : Thread nD τ).loc main_v4 ↦{fullShare.right} V main_v4) ∗ ((c.tc : Thread nD τ).loc main_v5 ↦{fullShare} V main_v5))
  constructor
  · iintro ⟨Ha, Hv, Ho⟩
    ihave H := hsp $$ Hv
    icases H with ⟨Hl, Hr⟩
    isplitl [Ha]; · iexact Ha
    isplitl [Hl]; · iexact Hl
    isplitl [Hr]; · iexact Hr
    iexact Ho
  · iintro ⟨Ha, Hl, Hr, Ho⟩
    isplitl [Ha]; · iexact Ha
    isplitl [Hl Hr]
    · iapply hjn; isplitl [Hl] <;> iassumption
    iexact Ho

omit m outs in
/-- Entry: a core's unscoped buffers at contents `V` are the first region's windows' holdings at `V` and the rest. -/
theorem entry0_split (c : Dev nD) (V : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays0_iff c V dat hq0 hq1 hq2 _ (hA 0) (hA 1) (hA 2) (hA 3)).1 .rfl

omit m outs in
/-- Exit: the windows' holdings at contents `Fn` and the rest at `V` are the unscoped buffers at any contents `V'` that
    has the windows' arrays at `Fn` and agrees with `V` elsewhere. -/
theorem exit0_join (c : Dev nD) (V V' : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (Fn : (w : Fin cfg0.W) → Buf (Elt F) ((cfg0.win w).arr.view.loc (c.tc : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [Pipeline.unscopedBufs_split₀ cfgs 0 winFacts₀0.arr_unscoped c V']
  refine sep_mono (arrays0_iff c V' dat hq0 hq1 hq2 Fn (hF 0) (hF 1) (hF 2) (hF 3)).2 (Entails.of_eq ?_)
  unfold Pipeline.unscopedRest
  exact bigSep_congr fun b hb => by rw [hrest b (Finset.mem_sdiff.mp hb).2]

/-- At the first region's exit each of its windows' arrays holds what the next item's contents say: the inputs as
    entered, the output what the write-backs left (`h7`). -/
theorem hF0 (h7 : ∀ c, outs 7 main_v5 c = (dat0 (U6 m) c).arrAt 3 cfg0.N) (c : Dev nD) (w : Fin cfg0.W) :
    (dat0 (U6 m) c).arrAt w cfg0.N = U7 m outs c (Pipeline.arrRef spec0 w) :=
  match w with
  | ⟨0, _⟩ => ((dat0 (U6 m) c).arrAt_in 0 rfl _).trans ((A_eq0 (U6 m) c 0).trans (V7_of m outs c main_arg1 (by decide)).symm)
  | ⟨1, _⟩ => ((dat0 (U6 m) c).arrAt_in 1 rfl _).trans ((A_eq0 (U6 m) c 1).trans (V7_of m outs c main_v4 (by decide)).symm)
  | ⟨2, _⟩ => ((dat0 (U6 m) c).arrAt_in 2 rfl _).trans ((A_eq0 (U6 m) c 2).trans (V7_of m outs c main_v4 (by decide)).symm)
  | ⟨3, _⟩ => (h7 c).symm.trans (Function.update_self (Proc.devRef .tc main_v5 : DevRef τ sig) (outs 7 main_v5 c) (V6 m c)).symm

theorem hrest0 (c : Dev nD) : ∀ b, b ∉ Finset.univ.image (Pipeline.arrRef spec0) → U7 m outs c b = U6 m c b :=
  fun b hb => V7_of m outs c b fun h => hb (by
    rw [List.mem_singleton] at h; subst h; exact Finset.mem_image.mpr ⟨3, Finset.mem_univ _, rfl⟩)

variable (d2 : (c : Dev nD) → Dat τ (Elt F) Unit ℕ (UR sig nD τ) ℕ cfg2 c)

set_option backward.isDefEq.respectTransparency.types false in
/-- The first region over the thread state: entered from every unscoped buffer at the contents before it, left at the
    contents after it. -/
def reg0 (h7 : ∀ c, outs 7 main_v5 c = (dat0 (U6 m) c).arrAt 3 cfg0.N) :
    RegionSeg (pcfgs (F := F)) adm (pdatsG m outs d2) () defs₀ 𝒱₀ L lv 0 where
  win := winFacts₀0
  block_pos := block_pos0
  stage_whole := stage_whole0
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := entry0_split c (U6 m c) (pdatsG m outs d2 0 c) rfl rfl rfl (fun w => A_eq0 (U6 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG m outs d2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsG m outs d2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0_join c (U6 m c) (U7 m outs c) (pdatsG m outs d2 0 c) rfl rfl rfl ((pdatsG m outs d2 0 c).arrAt · cfg0.N)
      (hF0 m outs h7 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K2Run.lean ====
/-
  The third kernel region (the streamed softmax-weighted sum), its body at one grid point.
  The grid is two halves of eight points. Three buffers are carried from point to point of a half: the running row
  maximum, the normaliser and the weighted sum. At the first point of a half they are set to their start values
  before being read; at every point one tile of 512 keys is streamed into them; at the last point of a half the three
  output blocks are stored from them, and nowhere else. Run on whole staging buffers, the body leaves the three input
  blocks as it found them; which stores each carried buffer and each output block ends with, the run itself finds.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first branch condition: the inner grid coordinate is zero. -/
abbrev cond2_0 (i : grid2.Coords) : Prop := (Scalar.cmpi .ne (Scalar.extui (Scalar.cmpi .eq (BitVec.ofNat 32 (i 1).val) 0#32)) 0#32) = 1#1
/-- It holds at the first point of each half of the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The body's second branch condition: the inner grid coordinate is seven. -/
abbrev cond2_1 (i : grid2.Coords) : Prop := k2_cond2 i = 1#1
/-- It holds at the last point of each half of the grid. -/
theorem hcond2_1 : ∀ t : Fin cfg2.N, k2_cond2 (grid2.coords t) = 1#1 ↔ t.val % 8 = 7 :=
  (by decide +kernel : ∀ t : Fin grid2.N, k2_cond2 (grid2.coords t) = 1#1 ↔ t.val % 8 = 7)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point of a half the printed configuration calls output 3 idle: the body stores nothing into it there. -/
theorem idleAt2_3 : ∀ t : Fin cfg2.N, ¬cond2_1 (grid2.coords t) → cfg2.idle 3 (grid2.coords t) = true := by decide +kernel
/-- And the pipeline does not write its block back there. -/
theorem noFlush2_3 : ∀ t : Fin cfg2.N, ¬cond2_1 (grid2.coords t) → (cfg2.win 3).flush t = false := by decide +kernel
/-- At the last point of a half output 3 is live: the body stores into it. -/
theorem liveAt2_3 : ∀ t : Fin cfg2.N, cond2_1 (grid2.coords t) → cfg2.idle 3 (grid2.coords t) = false := by decide +kernel
/-- Away from the last point of a half the printed configuration calls output 4 idle: the body stores nothing into it there. -/
theorem idleAt2_4 : ∀ t : Fin cfg2.N, ¬cond2_1 (grid2.coords t) → cfg2.idle 4 (grid2.coords t) = true := by decide +kernel
/-- And the pipeline does not write its block back there. -/
theorem noFlush2_4 : ∀ t : Fin cfg2.N, ¬cond2_1 (grid2.coords t) → (cfg2.win 4).flush t = false := by decide +kernel
/-- At the last point of a half output 4 is live: the body stores into it. -/
theorem liveAt2_4 : ∀ t : Fin cfg2.N, cond2_1 (grid2.coords t) → cfg2.idle 4 (grid2.coords t) = false := by decide +kernel
/-- Away from the last point of a half the printed configuration calls output 5 idle: the body stores nothing into it there. -/
theorem idleAt2_5 : ∀ t : Fin cfg2.N, ¬cond2_1 (grid2.coords t) → cfg2.idle 5 (grid2.coords t) = true := by decide +kernel
/-- And the pipeline does not write its block back there. -/
theorem noFlush2_5 : ∀ t : Fin cfg2.N, ¬cond2_1 (grid2.coords t) → (cfg2.win 5).flush t = false := by decide +kernel
/-- At the last point of a half output 5 is live: the body stores into it. -/
theorem liveAt2_5 : ∀ t : Fin cfg2.N, cond2_1 (grid2.coords t) → cfg2.idle 5 (grid2.coords t) = false := by decide +kernel

/-- One staging buffer of each output window, through which its contents are stated. -/
abbrev VO2_3 : View sig .tc .vmem S1x128x1 .f32 := (Memref.whole cc2_stg3_0 : Memref sig .tc .vmem S1x128x1 .f32).view
abbrev VO2_4 : View sig .tc .vmem S1x128x1 .f32 := (Memref.whole cc2_stg4_0 : Memref sig .tc .vmem S1x128x1 .f32).view
abbrev VO2_5 : View sig .tc .vmem S1x128x768 .f32 := (Memref.whole cc2_stg5_0 : Memref sig .tc .vmem S1x128x768 .f32).view
/-- Each window's current staging memref at point `t`, and its wholeness. -/
abbrev ms2_0 (t : Fin cfg2.N) : Memref sig .tc .vmem S512x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x768 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128x768 .f32 := win2_5.stage (cfg2.slots t 5)
abbrev hs2_5 (t : Fin cfg2.N) : (ms2_5 t).IsWhole := hstage2_5 ((cfg2.slots t 5).cast nbuf2_5)
/-- The three carried buffers (running maximum, normaliser, weighted sum) as memrefs and as views. -/
abbrev scM2_0 : Memref sig .tc .vmem S128x1 .f32 := Memref.whole cc2_scratch0
abbrev scM2_1 : Memref sig .tc .vmem S128x1 .f32 := Memref.whole cc2_scratch1
abbrev scM2_2 : Memref sig .tc .vmem S128x768 .f32 := Memref.whole cc2_scratch2
abbrev VS2_0 : View sig .tc .vmem S128x1 .f32 := scM2_0.view
abbrev VS2_1 : View sig .tc .vmem S128x1 .f32 := scM2_1.view
abbrev VS2_2 : View sig .tc .vmem S128x768 .f32 := scM2_2.view

omit V in
set_option maxHeartbeats 8000000 in
/-- The body at the first point of a half (the inner coordinate is zero): the three carried buffers, whatever they held, are set
    to their start values before anything reads them, then one tile is streamed into them. The three output blocks are not
    touched and are handed back as found. The pieces each carried buffer ends with are what the run finds. -/
noncomputable def kernelRun2_A (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) :
    Σ' (LS0 : List (View.Piece (Elt F) S128x1 .f32)) (LS1 : List (View.Piece (Elt F) S128x1 .f32)), { LS2 : List (View.Piece (Elt F) S128x768 .f32) //
      ∀ (xi3 : Vec F S1x128x1 .f32) (xi4 : Vec F S1x128x1 .f32) (xi5 : Vec F S1x128x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

omit V in
set_option maxHeartbeats 8000000 in
/-- The body at a middle point of a half: one tile is streamed into the three carried buffers, found at what the point before
    left; the three output blocks are not touched and are handed back as found. -/
noncomputable def kernelRun2_B (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) :
    Σ' (LS0 : List (View.Piece (Elt F) S128x1 .f32)) (LS1 : List (View.Piece (Elt F) S128x1 .f32)), { LS2 : List (View.Piece (Elt F) S128x768 .f32) //
      ∀ (xi3 : Vec F S1x128x1 .f32) (xi4 : Vec F S1x128x1 .f32) (xi5 : Vec F S1x128x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

omit V in
set_option maxHeartbeats 8000000 in
/-- The body at the last point of a half (the inner coordinate is seven): one tile is streamed into the three carried buffers,
    found at what the point before left, and the three output blocks, whatever they held, are stored from them. -/
noncomputable def kernelRun2_C (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    Σ' (L3 : List (View.Piece (Elt F) S1x128x1 .f32)) (L4 : List (View.Piece (Elt F) S1x128x1 .f32)) (L5 : List (View.Piece (Elt F) S1x128x768 .f32)) (LS0 : List (View.Piece (Elt F) S128x1 .f32)) (LS1 : List (View.Piece (Elt F) S128x1 .f32)), { LS2 : List (View.Piece (Elt F) S128x768 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Hand

end
-- ==== Proof.K2Dat.lean ====
/-
  The third kernel region's proof data and body obligation. After the body at a grid point the three input windows'
  buffers hold their blocks, untouched; the three carried buffers (running maximum, normaliser, weighted sum) hold the
  streamed accumulation: the start case's stores at the first point of a half of the grid, the streaming case's over the
  previous point's contents elsewhere; the three output windows' buffers hold the body's stores at the last point of a
  half and are left as found elsewhere (they are written back only after the last point of a half). The region
  invariant carries the three buffers' contents from point to point. The obligation at a point is that case's run.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.K2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- At the first point of a half the stores into carried buffer 0 cover it. -/
theorem scover2_A_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x1.Idx) :
    ∃ pc ∈ (kernelRun2_A c i arg2 harg2 arg3 harg3 arg4 harg4 arg5 harg5 arg6 harg6 arg7 harg7 arg8 harg8 arg9 harg9 arg10 harg10 hc0 hc1 x0 x1 x2).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).1 S128x1.size (by sl_kernel_rfl) y

omit V in
/-- What the body leaves in carried buffer 0 at the first point of a half: its stores read back. -/
def sout2_A_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2).1)

omit V in
/-- At the first point of a half the stores into carried buffer 1 cover it. -/
theorem scover2_A_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x1.Idx) :
    ∃ pc ∈ (kernelRun2_A c i arg2 harg2 arg3 harg3 arg4 harg4 arg5 harg5 arg6 harg6 arg7 harg7 arg8 harg8 arg9 harg9 arg10 harg10 hc0 hc1 x0 x1 x2).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).2.1 S128x1.size (by sl_kernel_rfl) y

omit V in
/-- What the body leaves in carried buffer 1 at the first point of a half: its stores read back. -/
def sout2_A_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 x0 x1 x2).2.1)

omit V in
/-- At the first point of a half the stores into carried buffer 2 cover it. -/
theorem scover2_A_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x768.Idx) :
    ∃ pc ∈ (kernelRun2_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).2.2.1 S128x768.size (by sl_kernel_rfl) y

omit V in
/-- What the body leaves in carried buffer 2 at the first point of a half: its stores read back. -/
def sout2_A_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x768 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 x0 x1 x2).2.2.1)

omit V in
/-- At a middle point of a half the stores into carried buffer 0 cover it. -/
theorem scover2_B_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).1 S128x1.size (by sl_kernel_rfl) y

omit V in
/-- What the body leaves in carried buffer 0 at a middle point of a half: its stores read back. -/
def sout2_B_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 xs0 xs1 xs2).1)

omit V in
/-- At a middle point of a half the stores into carried buffer 1 cover it. -/
theorem scover2_B_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).2.1 S128x1.size (by sl_kernel_rfl) y

omit V in
/-- What the body leaves in carried buffer 1 at a middle point of a half: its stores read back. -/
def sout2_B_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 x0 x1 x2 xs0 xs1 xs2).2.1)

omit V in
/-- At a middle point of a half the stores into carried buffer 2 cover it. -/
theorem scover2_B_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x768.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).2.2.1 S128x768.size (by sl_kernel_rfl) y

omit V in
/-- What the body leaves in carried buffer 2 at a middle point of a half: its stores read back. -/
def sout2_B_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x768 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 x0 x1 x2 xs0 xs1 xs2).2.2.1)

omit V in
/-- At the last point of a half the stores into output 3 tile its block, so they cover it. -/
theorem cover2_C_3 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).1 S1x128x1.size (by sl_kernel_rfl) y

omit V in
/-- What the body leaves in output 3's staging buffer at the last point of a half: its stores read back. -/
def out2_C_3 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x1 .f32 :=
  VO2_3.read (Elt F) (VO2_3.writes (Elt F) VO2_3.junk (kernelRun2_C c i arg2 harg2 arg3 harg3 arg4 harg4 arg5 harg5 arg6 harg6 arg7 harg7 arg8 harg8 arg9 harg9 arg10 harg10 hc0 hc1 x0 x1 x2 xs0 xs1 xs2).1)

omit V in
/-- At the last point of a half the stores into output 4 tile its block, so they cover it. -/
theorem cover2_C_4 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.1 S1x128x1.size (by sl_kernel_rfl) y

omit V in
/-- What the body leaves in output 4's staging buffer at the last point of a half: its stores read back. -/
def out2_C_4 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 hc0 hc1 x0 x1 x2 xs0 xs1 xs2).2.1)

omit V in
/-- At the last point of a half the stores into output 5 tile its block, so they cover it. -/
theorem cover2_C_5 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x768.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.1 S1x128x768.size (by sl_kernel_rfl) y

omit V in
/-- What the body leaves in output 5's staging buffer at the last point of a half: its stores read back. -/
def out2_C_5 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x768 .f32 :=
  VO2_5.read (Elt F) (VO2_5.writes (Elt F) VO2_5.junk (kernelRun2_C c i arg2 harg2 arg3 harg3 arg4 harg4 arg5 harg5 arg6 harg6 arg7 harg7 arg8 harg8 arg9 harg9 arg10 harg10 hc0 hc1 x0 x1 x2 xs0 xs1 xs2).2.2.1)

omit V in
/-- At the last point of a half the stores into carried buffer 0 cover it. -/
theorem scover2_C_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.1 S128x1.size (by sl_kernel_rfl) y

omit V in
/-- What the body leaves in carried buffer 0 at the last point of a half: its stores read back. -/
def sout2_C_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 xs0 xs1 xs2).2.2.2.1)

omit V in
/-- At the last point of a half the stores into carried buffer 1 cover it. -/
theorem scover2_C_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.2.1 S128x1.size (by sl_kernel_rfl) y

omit V in
/-- What the body leaves in carried buffer 1 at the last point of a half: its stores read back. -/
def sout2_C_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 x0 x1 x2 xs0 xs1 xs2).2.2.2.2.1)

omit V in
/-- At the last point of a half the stores into carried buffer 2 cover it. -/
theorem scover2_C_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x768.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.2.2.1 S128x768.size (by sl_kernel_rfl) y

omit V in
/-- What the body leaves in carried buffer 2 at the last point of a half: its stores read back. -/
def sout2_C_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x768 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 x0 x1 x2 xs0 xs1 xs2).2.2.2.2.2.1)

/-- Placeholders for an output's buffer away from the last point of a half: nothing consults them. -/
def out2_idle_3 : Vec F S1x128x1 .f32 := VO2_3.read (Elt F) VO2_3.junk
def out2_idle_4 : Vec F S1x128x1 .f32 := VO2_4.read (Elt F) VO2_4.junk
def out2_idle_5 : Vec F S1x128x768 .f32 := VO2_5.read (Elt F) VO2_5.junk

/-- THE ACCUMULATION. What the three outputs' staging buffers and the three carried buffers hold after the body at position
    `n` (a tuple: the outputs in window order, then the carried buffers): the case the position is in, run at the point's
    memrefs and input blocks, the carried buffers found at what this leaves at `n - 1`. An output's component away from
    the last point of a half is a placeholder nothing consults. -/
def outsAt2 (c : Dev nD) : (n : ℕ) → n < cfg2.N → Vec F S1x128x1 .f32 × Vec F S1x128x1 .f32 × Vec F S1x128x768 .f32 × Vec F S128x1 .f32 × Vec F S128x1 .f32 × Vec F S128x768 .f32
  | 0, hn => (out2_idle_3 (F := F),
        out2_idle_4 (F := F),
        out2_idle_5 (F := F),
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
        sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_idle_3 (F := F),
        out2_idle_4 (F := F),
        out2_idle_5 (F := F),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
        sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2)
      else
        (out2_idle_3 (F := F),
        out2_idle_4 (F := F),
        out2_idle_5 (F := F),
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2)

/-- `outsAt2` at the first point of a half. -/
theorem outsAt2_A (c : Dev nD) (t : Fin cfg2.N) (h0 : t.val % 8 = 0) (h1 : ¬t.val % 8 = 7) :
    outsAt2 V c t.val t.isLt = (out2_idle_3 (F := F),
        out2_idle_4 (F := F),
        out2_idle_5 (F := F),
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t),
        sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle point of a half: over what the point before left. -/
theorem outsAt2_B (c : Dev nD) (t : Fin cfg2.N) (h0 : ¬t.val % 8 = 0) (h1 : ¬t.val % 8 = 7) :
    outsAt2 V c t.val t.isLt = (out2_idle_3 (F := F),
        out2_idle_4 (F := F),
        out2_idle_5 (F := F),
        sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a half: over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the core that are no staging buffer and no carried buffer of this region (the other regions'
    staging buffers), each whole at some contents. -/
def oth2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the region, with the three carried buffers as memrefs owned at some contents. -/
theorem PhiA2_eq (c : Dev nD) :
    (Pipeline.ΦA spec2 c : sProp 𝕄)
      = iprop(oth2 (F := F) c ∗ (∃ d, owns (c : Thread nD τ) scM2_0 fullShare d) ∗ (∃ d, owns (c : Thread nD τ) scM2_1 fullShare d) ∗ (∃ d, owns (c : Thread nD τ) scM2_2 fullShare d) ∗ (∃ r, prngReg c r)) := by
  have h₁ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f)) ∗ ∃ r, prngReg c r) : sProp 𝕄)
      ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ ∃ r, prngReg c r) := by
    iintro ⟨⟨A1, A2, A3, A4, A5, A6, A7, A8, A9, A10, A11, A12, A13, S0, S1, S2⟩, Hg⟩
    isplitl [A1 A2 A3 A4 A5 A6 A7 A8 A9 A10 A11 A12 A13]
    ·
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    isplitl [S0]; · iexact S0
    isplitl [S1]; · iexact S1
    isplitl [S2]; · iexact S2
    iexact Hg
  have h₂ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ ∃ r, prngReg c r) : sProp 𝕄)
      ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f)) ∗ ∃ r, prngReg c r) := by
    iintro ⟨⟨A1, A2, A3, A4, A5, A6, A7, A8, A9, A10, A11, A12, A13⟩, S0, S1, S2, Hg⟩
    isplitr [Hg]
    ·
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [S0]; · iexact S0
      isplitl [S1]; · iexact S1
      iexact S2
    iexact Hg
  unfold Pipeline.ΦA; rw [scopedRest2_eq]; simp only [scM2_0, scM2_1, scM2_2, owns_whole]; unfold oth2
  exact BI.equiv_iff.mp ⟨h₁, h₂⟩

/-- The region invariant before position `n`: before the first point what the launch hands over (every carried buffer at
    anything); afterwards the other scoped buffers at anything, each carried buffer at what the point before left in it,
    and the generator register at some state. -/
def PhiS2 (c : Dev nD) : (n : ℕ) → n ≤ cfg2.N → sProp 𝕄
  | 0, _ => Pipeline.ΦA spec2 c
  | n + 1, hn => iprop(oth2 (F := F) c ∗ owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2 ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried buffers at that point's contents. -/
theorem PhiS2_succ (c : Dev nD) (n : ℕ) (hn : n < cfg2.N) :
    PhiS2 V c (n + 1) hn = iprop(oth2 (F := F) c ∗ owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2 ∗ (∃ r, prngReg c r)) := rfl

/-- Before a point that is not the first: the carried buffers at what the point before left. -/
theorem PhiS2_pos (c : Dev nD) (n : ℕ) (h : n ≤ cfg2.N) (hz : n ≠ 0) :
    PhiS2 V c n h = iprop(oth2 (F := F) c ∗ owns (c : Thread nD τ) scM2_0 fullShare (outsAt2 V c (n - 1) (by omega)).2.2.2.1 ∗ owns (c : Thread nD τ) scM2_1 fullShare (outsAt2 V c (n - 1) (by omega)).2.2.2.2.1 ∗ owns (c : Thread nD τ) scM2_2 fullShare (outsAt2 V c (n - 1) (by omega)).2.2.2.2.2 ∗ (∃ r, prngReg c r)) := by
  cases n with
  | zero => exact absurd rfl hz
  | succ n => rfl

/-- The region's proof data on core `c`: the arrays as the region finds them; after the body each input's buffer at its
    block and each output's at the accumulation's component; the invariant carrying the three buffers; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks. The point is the first, a middle or the last point of a
    half; the invariant hands the body the carried buffers at what the point before left (at anything at the very first
    point, and at the first point of the second half their contents are not used) and takes them back at this point's
    contents; away from the last point of a half the outputs' buffers are handed back as found, at the last point they
    are left at the body's stores. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A_0 sout2_A_1 sout2_A_2; (try dsimp only)
    by_cases hz : t.val = 0
    ·
      rw [PhiS2_castSucc V c t, PhiS2_zero V c _ _ hz, PhiA2_eq]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    ·
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 8 = 7
    ·
      rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_3 out2_C_4 out2_C_5 sout2_C_0 sout2_C_1 sout2_C_2; (try dsimp only)
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_C_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _ _ _)
    ·
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0 sout2_B_1 sout2_B_2; (try dsimp only)
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_B_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is what the launch hands the region. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-- After any point but the first the invariant gives back what the launch handed over: the carried buffers' named contents
    are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

/-- The same after the last point. -/
theorem Phi2_last (c : Dev nD) : (dat2 V c).Φ (Fin.last cfg2.N) ⊢ Pipeline.ΦA spec2 c :=
  Phi2_out V c _ (by rw [Fin.val_last]; have : cfg2.N = 16 := N_2; omega)

end Cert.Kernel.Hand

end
-- ==== Proof.KRun.lean ====
/-
  The whole kernel program's run. @main is host operations, three kernel regions with host operations between them, and
  host operations to the end. The regions' outputs are defined in order, each from the buffer contents the items before
  it leave: the first region's from the launch contents, the second's from the contents after the first region and the
  operations that follow it, the third's likewise. With every region's segment and every stretch of host operations in
  place, every weakly fair execution terminates without a fault, every buffer ends at the last item's contents; no item writes an argument.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.KSeg0
import proofs.«114392_j58480274702406_2_alg».proof.Proof.K2Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

abbrev U11 (c : Dev nD) (b : Ref sig .tc) : Buf (Elt F) ((c : Thread nD τ).loc b) := V11 m outs c b

/-- Every region's proof data, each at its region's entry contents. -/
abbrev pdats : (p : Fin 3) → (c : Dev nD) → Dat τ (Elt F) Unit ℕ (UR sig nD τ) ℕ (Pipeline.pin (pcfgs (F := F)) adm p) c :=
  pdatsG m outs (fun c => dat2 (U10 m outs) c)

/-- At the third region's exit each of its windows' arrays holds what the next item's contents say. -/
theorem hF2 (ha : ∀ c, outs 11 main_v22_0 c = (dat2 (U10 m outs) c).arrAt 3 cfg2.N)
    (hb : ∀ c, outs 11 main_v22_1 c = (dat2 (U10 m outs) c).arrAt 4 cfg2.N)
    (hc : ∀ c, outs 11 main_v22_2 c = (dat2 (U10 m outs) c).arrAt 5 cfg2.N) (c : Dev nD) (w : Fin cfg2.W) :
    (dat2 (U10 m outs) c).arrAt w cfg2.N = U11 m outs c (Pipeline.arrRef spec2 w) :=
  match w with
  | ⟨0, _⟩ => ((dat2 (U10 m outs) c).arrAt_in 0 rfl _).trans ((A_eq2 (U10 m outs) c 0).trans (V11_of m outs c main_arg0 (by decide)).symm)
  | ⟨1, _⟩ => ((dat2 (U10 m outs) c).arrAt_in 1 rfl _).trans ((A_eq2 (U10 m outs) c 1).trans (V11_of m outs c main_v21 (by decide)).symm)
  | ⟨2, _⟩ => ((dat2 (U10 m outs) c).arrAt_in 2 rfl _).trans ((A_eq2 (U10 m outs) c 2).trans (V11_of m outs c main_v18 (by decide)).symm)
  | ⟨3, _⟩ => (ha c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_0)
      rw [Function.update_of_ne (StableHlo.devRef_ne_of_ne (by decide)), Function.update_of_ne (StableHlo.devRef_ne_of_ne (by decide)),
        Function.update_self])
  | ⟨4, _⟩ => (hb c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_1)
      rw [Function.update_of_ne (StableHlo.devRef_ne_of_ne (by decide)), Function.update_self])
  | ⟨5, _⟩ => (hc c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_2)
      rw [Function.update_self])

theorem hrest2 (c : Dev nD) : ∀ b, b ∉ Finset.univ.image (Pipeline.arrRef spec2) → U11 m outs c b = U10 m outs c b :=
  fun b hb => V11_of m outs c b fun h => hb (by
    simp only [List.mem_cons, List.mem_singleton, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

set_option backward.isDefEq.respectTransparency.types false in
/-- The third region over the thread state. Its invariant holds the three carried scratch buffers; before the first
    point and after the last one they are scoped buffers at some contents like any other. -/
def reg2 (ha : ∀ c, outs 11 main_v22_0 c = (dat2 (U10 m outs) c).arrAt 3 cfg2.N)
    (hb : ∀ c, outs 11 main_v22_1 c = (dat2 (U10 m outs) c).arrAt 4 cfg2.N)
    (hc : ∀ c, outs 11 main_v22_2 c = (dat2 (U10 m outs) c).arrAt 5 cfg2.N) :
    RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U10 m outs) c).loose
  hwaits := Pipeline.hwaits_of_owed_zero _ _ _ _ L lv 2 fun _ _ => rfl
  pre c := iprop(StableHlo.held (c : Thread nD τ) (Pipeline.ucRefs τ sig) (V10 m outs c) ∗ R c)
  post c := iprop(StableHlo.held (c : Thread nD τ) (Pipeline.ucRefs τ sig) (V11 m outs c) ∗ R c)
  X c := iprop(∃ r, prngReg c r)
  Y c := iprop(∃ r, prngReg c r)
  Z c := Pipeline.unscopedRest (Ix := Unit) (Name := ℕ) (U := UR sig nD τ) (Lvl := ℕ) spec2 c (U10 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (U10 m outs c) (fun w => A_eq2 (U10 m outs) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from Phi2_first (U10 m outs) c]; unfold Pipeline.ΦA
    iintro ⟨Hp, -, Hr⟩
    isplitl [Hr]; · iexact Hr
    iexact Hp
  hout c := by
    rw [Pipeline.ownSems0_none]
    refine (show (pdats m outs 2 c).Φ (Fin.last _) ⊢ Pipeline.ΦA spec2 c from Phi2_last (U10 m outs) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (U10 m outs c) (U11 m outs c) ((pdats m outs 2 c).arrAt · cfg2.N) (hF2 m outs ha hb hc c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five equations that say the family `outs` is what the three regions leave in their output arrays. -/
structure Leaves : Prop where
  h7 : ∀ c, outs 7 main_v5 c = (dat0 (U6 m) c).arrAt 3 cfg0.N
  h9 : ∀ c, outs 9 main_v12 c = (dat1 (U8 m outs) c).arrAt 2 cfg1.N
  ha : ∀ c, outs 11 main_v22_0 c = (dat2 (U10 m outs) c).arrAt 3 cfg2.N
  hb : ∀ c, outs 11 main_v22_1 c = (dat2 (U10 m outs) c).arrAt 4 cfg2.N
  hc : ∀ c, outs 11 main_v22_2 c = (dat2 (U10 m outs) c).arrAt 5 cfg2.N

set_option backward.isDefEq.respectTransparency.types false in
/-- The run, for any family that is what the regions leave. -/
theorem run_of_leaves (ρ : Dev nD → PrngReg) (h : Leaves m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (Ix := Unit) (U := UR sig nD τ) (Lvl := ℕ) emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m outs (fun c => dat2 (U10 m outs) c) h.h7) (fun _ => .rfl) (fun _ => .rfl)
    (reg1 m outs (fun c => dat2 (U10 m outs) c) h.h9) (fun _ => .rfl) (fun _ => .rfl)
    (reg2 m outs h.ha h.hb h.hc) (fun _ => .rfl) (fun _ => .rfl)

end Cert.Kernel.Hand

end
-- ==== Proof.KOuts.lean ====
/-
  What the three regions leave, as one concrete family. It is built in order: the first region's output from the launch
  contents; the second's from the contents after the first region; the third's from the contents after the second. Each
  stage changes the family only at its own item, so the contents an earlier region is entered from do not move.
-/
import proofs.«114392_j58480274702406_2_alg».proof.Proof.Gen.Kernel.Launch
import proofs.«114392_j58480274702406_2_alg».proof.Proof.Gen.Kernel.Skeleton
import proofs.«114392_j58480274702406_2_alg».proof.Proof.Gen.Kernel.Points
import proofs.«114392_j58480274702406_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Stage one: the first region's output array after its run; elsewhere, for definiteness, the contents before it. -/
def outsA : Outs (F := F) := fun _ r c =>
  Function.update (V6 m c) (Proc.devRef .tc main_v5) ((dat0 (U6 m) c).arrAt 3 cfg0.N) (Proc.devRef .tc r)

theorem outsA_7 (c : Dev nD) : outsA m 7 main_v5 c = (dat0 (U6 m) c).arrAt 3 cfg0.N :=
  Function.update_self (Proc.devRef .tc main_v5 : DevRef τ sig) _ (V6 m c)

/-- Stage two: at the second region's item, its output array after its run. -/
def outsB : Outs (F := F) := fun n r c =>
  if n = 9 then Function.update (V8 m (outsA m) c) (Proc.devRef .tc main_v12) ((dat1 (U8 m (outsA m)) c).arrAt 2 cfg1.N) (Proc.devRef .tc r)
  else outsA m n r c

theorem outsB_7 (c : Dev nD) : outsB m 7 main_v5 c = outsA m 7 main_v5 c := if_neg (by decide)

theorem V8_B (c : Dev nD) : V8 m (outsB m) c = V8 m (outsA m) c := by
  show StableHlo.after hostOps1 (Function.update (V6 m c) (Proc.devRef .tc main_v5) (outsB m 7 main_v5 c))
    = StableHlo.after hostOps1 (Function.update (V6 m c) (Proc.devRef .tc main_v5) (outsA m 7 main_v5 c))
  rw [outsB_7]

theorem U8_B : U8 m (outsB m) = U8 m (outsA m) := funext fun c => funext fun b => congrFun (V8_B m c) _

theorem outsB_9 (c : Dev nD) : outsB m 9 main_v12 c = (dat1 (U8 m (outsB m)) c).arrAt 2 cfg1.N := by
  rw [U8_B]
  exact (if_pos rfl).trans (Function.update_self (Proc.devRef .tc main_v12 : DevRef τ sig) _ (V8 m (outsA m) c))

/-- Stage three: at the third region's item, its three output arrays after its run. -/
def outsC : Outs (F := F) := fun n r c =>
  if n = 11 then
    Function.update (Function.update (Function.update (V10 m (outsB m) c)
      (Proc.devRef .tc main_v22_0) ((dat2 (U10 m (outsB m)) c).arrAt 3 cfg2.N))
      (Proc.devRef .tc main_v22_1) ((dat2 (U10 m (outsB m)) c).arrAt 4 cfg2.N))
      (Proc.devRef .tc main_v22_2) ((dat2 (U10 m (outsB m)) c).arrAt 5 cfg2.N) (Proc.devRef .tc r)
  else outsB m n r c

theorem outsC_7 (c : Dev nD) : outsC m 7 main_v5 c = outsB m 7 main_v5 c := if_neg (by decide)
theorem outsC_9 (c : Dev nD) : outsC m 9 main_v12 c = outsB m 9 main_v12 c := if_neg (by decide)

theorem V8_C (c : Dev nD) : V8 m (outsC m) c = V8 m (outsB m) c := by
  show StableHlo.after hostOps1 (Function.update (V6 m c) (Proc.devRef .tc main_v5) (outsC m 7 main_v5 c))
    = StableHlo.after hostOps1 (Function.update (V6 m c) (Proc.devRef .tc main_v5) (outsB m 7 main_v5 c))
  rw [outsC_7]

theorem U8_C : U8 m (outsC m) = U8 m (outsB m) := funext fun c => funext fun b => congrFun (V8_C m c) _

theorem V10_C (c : Dev nD) : V10 m (outsC m) c = V10 m (outsB m) c := by
  show StableHlo.after hostOps2 (Function.update (V8 m (outsC m) c) (Proc.devRef .tc main_v12) (outsC m 9 main_v12 c))
    = StableHlo.after hostOps2 (Function.update (V8 m (outsB m) c) (Proc.devRef .tc main_v12) (outsB m 9 main_v12 c))
  rw [V8_C, outsC_9]

theorem U10_C : U10 m (outsC m) = U10 m (outsB m) := funext fun c => funext fun b => congrFun (V10_C m c) _

/-- The family is what the regions leave. -/
theorem leaves : Leaves m (outsC m) where
  h7 c := (outsC_7 m c).trans ((outsB_7 m c).trans (outsA_7 m c))
  h9 c := by rw [U8_C]; exact (outsC_9 m c).trans (outsB_9 m c)
  ha c := by
    rw [U10_C]
    refine (if_pos rfl).trans ?_
    rw [Function.update_of_ne (StableHlo.devRef_ne_of_ne (by decide)), Function.update_of_ne (StableHlo.devRef_ne_of_ne (by decide)),
      Function.update_self]
  hb c := by
    rw [U10_C]
    refine (if_pos rfl).trans ?_
    rw [Function.update_of_ne (StableHlo.devRef_ne_of_ne (by decide)), Function.update_self]
  hc c := by
    rw [U10_C]
    refine (if_pos rfl).trans ?_
    rw [Function.update_self]

end Cert.Kernel.Hand

end
-- ==== Proof.KI0Run.lean ====
/-
  The first kernel region (m1ᵀ · (adj · m1) over row tiles of the adjacency matrix), its body at one grid point.
  The grid is two halves of sixteen points; at the first point of a half the output block is set to zero and the
  tile's product added to it, at every later point the product is added to what the point before left. Run on
  whole staging buffers, the body leaves its three input blocks as it found them and the output's buffer at its
  stores; which stores, the run itself finds.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the inner grid coordinate is zero. -/
abbrev cond0_0 (i : grid0.Coords) : Prop := (Scalar.cmpi .ne (Scalar.extui (Scalar.cmpi .eq (BitVec.ofNat 32 (i 1).val) 0#32)) 0#32) = 1#1
/-- It holds at the first point of each half of the grid. -/
theorem hcond0_0 : ∀ t : Fin cfg0.N, cond0_0 (grid0.coords t) ↔ t.val % 16 = 0 :=
  (by decide +kernel : ∀ t : Fin grid0.N, cond0_0 (grid0.coords t) ↔ t.val % 16 = 0)

abbrev VO0_3 : View sig .tc .vmem S1x128x128 .f32 := (Memref.whole cc0_stg3_0 : Memref sig .tc .vmem S1x128x128 .f32).view
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)

omit V in
set_option maxHeartbeats 4000000 in
/-- The body where the output block is reset first: what its stores leave in the output's buffer, as pieces, with the
    proof that on whole staging memrefs the body runs to the end holding the inputs as they were. -/
noncomputable def kernelRun0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__mid_adj_kernel i arg2 harg2 arg3 harg3 arg4 harg4 arg5 harg5) K } := by
  refine ⟨?_, fun E K => ?run⟩
  case run =>
    simp only [cc0__mid_adj_kernel_eq_skeleton]; unfold cc0__mid_adj_kernel_skel
    unfold owns
    iintro ⟨⟨%f0, %hf0, H0⟩, ⟨%f1, %hf1, H1⟩, ⟨%f2, %hf2, H2⟩, ⟨%dO, %fO, -, HO⟩, Hk⟩
    obtain rfl := harg2.eq_unread hf0
    obtain rfl := harg3.eq_unread hf1
    obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HO

omit V in
set_option maxHeartbeats 4000000 in
/-- The body where the output block is added to: it reads the block (`xo`) before covering it. -/
noncomputable def kernelRun0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__mid_adj_kernel i arg2 harg2 arg3 harg3 arg4 harg4 arg5 harg5) K } := by
  refine ⟨?_, fun E K => ?run⟩
  case run =>
    simp only [cc0__mid_adj_kernel_eq_skeleton]; unfold cc0__mid_adj_kernel_skel
    unfold owns
    iintro ⟨⟨%f0, %hf0, H0⟩, ⟨%f1, %hf1, H1⟩, ⟨%f2, %hf2, H2⟩, ⟨%fO, %hfO, HO⟩, Hk⟩
    obtain rfl := harg2.eq_unread hf0
    obtain rfl := harg3.eq_unread hf1
    obtain rfl := harg4.eq_unread hf2
    obtain rfl := harg5.eq_unread hfO
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HO

end Cert.KernelIdeal.Hand

end
-- ==== Proof.KI0Dat.lean ====
/-
  The first kernel region's proof data and body obligation. After the body at a grid point the three input windows'
  buffers hold their blocks, untouched, and the output window's buffer holds the accumulation: the reset case's stores
  at the first point of a half of the grid, the adding case's over the previous point's contents elsewhere (the block is
  written back only after the last point of a half). The obligation at a point is that case's run.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KI0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- The reset case's stores tile the output block, so they cover it. -/
theorem cover0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) (y : S1x128x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x128x128.size (by sl_kernel_rfl) y

omit V in
/-- What the reset case leaves in the output's staging buffer. -/
def out0_A (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) : Vec F S1x128x128 .f32 :=
  VO0_3.read (Elt F) (VO0_3.writes (Elt F) VO0_3.junk (kernelRun0_A c i arg2 harg2 arg3 harg3 arg4 harg4 arg5 harg5 hc0 x0 x1 x2).1)

omit V in
/-- The adding case's store covers the output block. -/
theorem cover0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) (y : S1x128x128.Idx) :
    ∃ pc ∈ (kernelRun0_B c i arg2 harg2 arg3 harg3 arg4 harg4 arg5 harg5 hc0 x0 x1 x2 xo).1, y ∈ pc.1.set :=
  View.cover_of_tiledL (kernelRun0_B c i arg2 harg2 arg3 harg3 arg4 harg4 arg5 harg5 hc0 x0 x1 x2 xo).1 S1x128x128.size (by sl_kernel_rfl) y

omit V in
/-- What the adding case leaves in the output's staging buffer, given what it found there. -/
def out0_B (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) : Vec F S1x128x128 .f32 :=
  VO0_3.read (Elt F) (VO0_3.writes (Elt F) VO0_3.junk (kernelRun0_B c i arg2 harg2 arg3 harg3 arg4 harg4 arg5 harg5 hc0 x0 x1 x2 xo).1)

/-- The accumulation: what the output's staging buffer holds after the body at position `n`. At the first point of a
    half of the grid the reset case's contents; at any other point the adding case's, over what the point before left. -/
def outsAt0 (c : Dev nD) : (n : ℕ) → n < cfg0.N → Vec F S1x128x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 16 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn))

theorem outsAt0_A (c : Dev nD) (t : Fin cfg0.N) (h0 : t.val % 16 = 0) :
    outsAt0 V c t.val t.isLt = out0_A c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (iblk0 V c 2 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at its
    block and the output's at the accumulation; nothing owed; the mapping's array, staged through two windows, held half by each of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At an adding point the output's buffer holds what the body left at the point before: it was not written back between. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' buffers hold their blocks; the point is a reset point or an adding point, and at an
    adding point the output's buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  have hN : t.val < 32 := lt_of_lt_of_eq t.isLt (show cfg0.N = 32 from N_0)
  by_cases h0 : t.val % 16 = 0
  · rw [outsAt0_A V c t h0]
    unfold out0_A
    iintro ⟨HΦ, Ho, ⟨%d0, H0⟩, ⟨%d1, H1⟩, ⟨%d2, H2⟩, ⟨%dO, HO⟩⟩
    iapply ((kernelRun0_A c (grid0.coords t) _ _ _ _ _ _ _ _ ((hcond0_0 t).mpr h0) (iblk0 V c 0 t) (iblk0 V c 1 t) (iblk0 V c 2 t)).2 Set.univ _)
    isplitl [H0]; · iexact H0
    isplitl [H1]; · iexact H1
    isplitl [H2]; · iexact H2
    isplitl [HO]; · iexists _; iexact HO
    iintro ⟨H0, H1, H2, ⟨%eO, HO⟩⟩
    isplitl [HΦ]; · iexact HΦ
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (cover0_A c _ _ _ _ _ _ _ _ _ _ _ _ _)
  · rw [outsAt0_B V c t h0]
    simp only [before0_3_B V c t h0]
    unfold out0_B
    iintro ⟨HΦ, Ho, ⟨%d0, H0⟩, ⟨%d1, H1⟩, ⟨%d2, H2⟩, ⟨%dO, HO⟩⟩
    iapply ((kernelRun0_B c (grid0.coords t) _ _ _ _ _ _ _ _ (fun h => h0 ((hcond0_0 t).mp h)) (iblk0 V c 0 t) (iblk0 V c 1 t) (iblk0 V c 2 t) _).2 Set.univ _)
    isplitl [H0]; · iexact H0
    isplitl [H1]; · iexact H1
    isplitl [H2]; · iexact H2
    isplitl [HO]; · iexact HO
    iintro ⟨H0, H1, H2, ⟨%eO, HO⟩⟩
    isplitl [HΦ]; · iexact HΦ
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (cover0_B c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI1Run.lean ====
/-
  The second kernel region (the sum of m1ᵀ · x over row tiles), its body at one grid point.
  The grid is two halves of eight points; at the first point of a half the output block is set to zero and the
  tile's product added to it, at every later point the product is added to what the point before left. Run on
  whole staging buffers, the body leaves the two input blocks as it found them and the output's buffer at its
  stores; which stores, the run itself finds.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition: the inner grid coordinate is zero. -/
abbrev cond1_0 (i : grid1.Coords) : Prop := (Scalar.cmpi .ne (Scalar.extui (Scalar.cmpi .eq (BitVec.ofNat 32 (i 1).val) 0#32)) 0#32) = 1#1
/-- It holds at the first point of each half of the grid. -/
theorem hcond1_0 : ∀ t : Fin cfg1.N, cond1_0 (grid1.coords t) ↔ t.val % 8 = 0 :=
  (by decide +kernel : ∀ t : Fin grid1.N, cond1_0 (grid1.coords t) ↔ t.val % 8 = 0)

abbrev VO1_2 : View sig .tc .vmem S1x128x768 .f32 := (Memref.whole cc1_stg2_0 : Memref sig .tc .vmem S1x128x768 .f32).view
abbrev ms1_0 (t : Fin cfg1.N) : Memref sig .tc .vmem S512x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x768 .f32 := win1_2.stage (cfg1.slots t 2)
abbrev hs1_2 (t : Fin cfg1.N) : (ms1_2 t).IsWhole := hstage1_2 ((cfg1.slots t 2).cast nbuf1_2)

omit V in
set_option maxHeartbeats 4000000 in
/-- The body where the output block is reset first: what its stores leave in the output's buffer, as pieces, with the
    proof that on whole staging memrefs the body runs to the end holding the inputs as they were. -/
noncomputable def kernelRun1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) :
    { L : List (View.Piece (Elt F) S1x128x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__mid_pad_kernel i arg2 harg2 arg3 harg3 arg4 harg4) K } := by
  refine ⟨?_, fun E K => ?run⟩
  case run =>
    simp only [cc1__mid_pad_kernel_eq_skeleton]; unfold cc1__mid_pad_kernel_skel
    unfold owns
    iintro ⟨⟨%f0, %hf0, H0⟩, ⟨%f1, %hf1, H1⟩, ⟨%dO, %fO, -, HO⟩, Hk⟩
    obtain rfl := harg2.eq_unread hf0
    obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact HO

omit V in
set_option maxHeartbeats 4000000 in
/-- The body where the output block is added to: it reads the block (`xo`) before covering it. -/
noncomputable def kernelRun1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) :
    { L : List (View.Piece (Elt F) S1x128x768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__mid_pad_kernel i arg2 harg2 arg3 harg3 arg4 harg4) K } := by
  refine ⟨?_, fun E K => ?run⟩
  case run =>
    simp only [cc1__mid_pad_kernel_eq_skeleton]; unfold cc1__mid_pad_kernel_skel
    unfold owns
    iintro ⟨⟨%f0, %hf0, H0⟩, ⟨%f1, %hf1, H1⟩, ⟨%fO, %hfO, HO⟩, Hk⟩
    obtain rfl := harg2.eq_unread hf0
    obtain rfl := harg3.eq_unread hf1
    obtain rfl := harg4.eq_unread hfO
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact HO

end Cert.KernelIdeal.Hand

end
-- ==== Proof.KI1Dat.lean ====
/-
  The second kernel region's proof data and body obligation. After the body at a grid point the two input windows'
  buffers hold their blocks, untouched, and the output window's buffer holds the accumulation: the reset case's stores
  at the first point of a half of the grid, the adding case's over the previous point's contents elsewhere (the block is
  written back only after the last point of a half, so between two points of a half the buffer keeps what the body
  left). The obligation at a point is that case's run.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KI1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- The reset case's stores tile the output block, so they cover it. -/
theorem cover1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) (y : S1x128x768.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128x768.size (by sl_kernel_rfl) y

omit V in
/-- What the reset case leaves in the output's staging buffer. -/
def out1_A (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) : Vec F S1x128x768 .f32 :=
  VO1_2.read (Elt F) (VO1_2.writes (Elt F) VO1_2.junk (kernelRun1_A c i arg2 harg2 arg3 harg3 arg4 harg4 hc0 x0 x1).1)

omit V in
/-- The adding case's store covers the output block. -/
theorem cover1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) (y : S1x128x768.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S1x128x768.size (by sl_kernel_rfl) y

omit V in
/-- What the adding case leaves in the output's staging buffer, given what it found there. -/
def out1_B (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) : Vec F S1x128x768 .f32 :=
  VO1_2.read (Elt F) (VO1_2.writes (Elt F) VO1_2.junk (kernelRun1_B c i arg2 harg2 arg3 harg3 arg4 harg4 hc0 x0 x1 xo).1)

/-- The accumulation: what the output's staging buffer holds after the body at position `n`. At the first point of a
    half of the grid the reset case's contents; at any other point the adding case's, over what the point before left. -/
def outsAt1 (c : Dev nD) : (n : ℕ) → n < cfg1.N → Vec F S1x128x768 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 8 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 8 = 0) :
    outsAt1 V c t.val t.isLt = out1_A c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body each input's buffer at its
    block and the output's at the accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At an adding point the output's buffer holds what the body left at the point before: it was not written back between. -/
theorem before1_2_B (c : Dev nD) (t : Fin cfg1.N) (h0 : ¬t.val % 8 = 0) (d) :
    (dat1 V c).before 2 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks; the point is a reset point or an adding point, and at an
    adding point the output's buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 16 := lt_of_lt_of_eq t.isLt (show cfg1.N = 16 from N_1)
  by_cases h0 : t.val % 8 = 0
  · rw [outsAt1_A V c t h0]
    unfold out1_A
    iintro ⟨HΦ, Ho, ⟨%d0, H0⟩, ⟨%d1, H1⟩, ⟨%dO, HO⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [HO]; · iexists _; iexact HO
    iintro ⟨H0, H1, ⟨%eO, HO⟩⟩
    isplitl [HΦ]; · iexact HΦ
    isplitl [Ho]; · iexact Ho
    isplitl [H0]; · iexact H0
    isplitl [H1]; · iexact H1
    unfold owns; iexists _; isplitr
    swap; · iexact HO
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%dO, HO⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [HO]; · iexact HO
    iintro ⟨H0, H1, ⟨%eO, HO⟩⟩
    isplitl [HΦ]; · iexact HΦ
    isplitl [Ho]; · iexact Ho
    isplitl [H0]; · iexact H0
    isplitl [H1]; · iexact H1
    unfold owns; iexists _; isplitr
    swap; · iexact HO
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KISeg1.lean ====
/-
  The first two kernel regions as segments of @main. Between two items of @main a core holds every unscoped buffer
  whole, at the contents the items before left, beside its generator register and its (empty) debts. A region takes the
  buffers behind its windows' arrays out of that state at entry and puts them back at exit, the output array then at
  what the region's write-backs left and every other buffer as it was.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KI0Dat
import proofs.«114392_j58480274702406_2_alg».proof.Proof.KI1Dat
import proofs.«114392_j58480274702406_2_alg».proof.Proof.Gen.KernelIdeal.Regions
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

/-- The buffer contents at the three regions' entries, read at the TensorCore's references. -/
abbrev U6 (c : Dev nD) (b : Ref sig .tc) : Buf (Elt F) ((c : Thread nD τ).loc b) := V6 m c b
abbrev U8 (c : Dev nD) (b : Ref sig .tc) : Buf (Elt F) ((c : Thread nD τ).loc b) := V8 m outs c b
abbrev U9 (c : Dev nD) (b : Ref sig .tc) : Buf (Elt F) ((c : Thread nD τ).loc b) := V9 m outs c b
abbrev U10 (c : Dev nD) (b : Ref sig .tc) : Buf (Elt F) ((c : Thread nD τ).loc b) := V10 m outs c b

variable (d2 : (c : Dev nD) → Dat τ (Elt F) Unit ℕ (UR sig nD τ) ℕ cfg2 c)

/-- Every region's proof data, each at its region's entry contents (the third region's a parameter here). -/
def pdatsG : (p : Fin 3) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U8 m outs) c
  | ⟨2, _⟩ => fun c => d2 c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- At the second region's exit each of its arrays holds what the next item's contents say: the two inputs as entered,
    the output what the write-backs left (`h9`). -/
theorem hF1 (h9 : ∀ c, outs 9 main_v12 c = (dat1 (U8 m outs) c).arrAt 2 cfg1.N) (c : Dev nD) (w : Fin cfg1.W) :
    (dat1 (U8 m outs) c).arrAt w cfg1.N = U9 m outs c (Pipeline.arrRef spec1 w) :=
  match w with
  | ⟨0, _⟩ => ((dat1 (U8 m outs) c).arrAt_in 0 rfl _).trans ((A_eq1 (U8 m outs) c 0).trans (V9_of m outs c main_arg0 (by decide)).symm)
  | ⟨1, _⟩ => ((dat1 (U8 m outs) c).arrAt_in 1 rfl _).trans ((A_eq1 (U8 m outs) c 1).trans (V9_of m outs c main_v3 (by decide)).symm)
  | ⟨2, _⟩ => (h9 c).symm.trans (Function.update_self (Proc.devRef .tc main_v12 : DevRef τ sig) (outs 9 main_v12 c) (V8 m outs c)).symm

theorem hrest1 (c : Dev nD) : ∀ b, b ∉ Finset.univ.image (Pipeline.arrRef spec1) → U9 m outs c b = U8 m outs c b :=
  fun b hb => V9_of m outs c b fun h => hb (by
    rw [List.mem_singleton] at h; subst h; exact Finset.mem_image.mpr ⟨2, Finset.mem_univ _, rfl⟩)

set_option backward.isDefEq.respectTransparency.types false in
/-- The second region over the thread state: entered from every unscoped buffer at the contents before it, left at the
    contents after it. -/
def reg1 (h9 : ∀ c, outs 9 main_v12 c = (dat1 (U8 m outs) c).arrAt 2 cfg1.N) :
    RegionSeg (pcfgs (F := F)) adm (pdatsG m outs d2) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U8 m outs) c).loose
  hwaits := Pipeline.hwaits_of_owed_zero _ _ _ _ L lv 1 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec1 c (U8 m outs c)
  hentry c := by
    rw [Pipeline.ownSems0_none]
    have hsplit := Pipeline.arrays_of_unscopedBufs (p := 1) (pcfgs (F := F)) adm (pdatsG m outs d2) launch1.win launch1.arr_whole c
      ((pdatsG m outs d2 1 c).share_full fun _ => rfl) (U8 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG m outs d2 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsG m outs d2 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsG m outs d2) ((pdatsG m outs d2 1 c).share_full fun _ => rfl)
      (U8 m outs c) (U9 m outs c) ((pdatsG m outs d2 1 c).arrAt · cfg1.N) (hF1 m outs h9 c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg0.lean ====
/-
  The first kernel region as a segment of @main. Its four windows stand on three buffers: the adjacency matrix, the
  mapping's low-precision copy — staged twice, whole through one window and tile by tile through another — and the output.
  At entry the mapping's buffer, held whole, is split into two halves, one per window; at exit the halves, still at
  the same contents, are joined again. Everything else is as for a region whose windows stand on distinct buffers.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KISeg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

abbrev U7 (c : Dev nD) (b : Ref sig .tc) : Buf (Elt F) ((c : Thread nD τ).loc b) := V7 m outs c b

omit m outs in
/-- The three buffers behind the first region's four windows, each held whole at contents `V`, are the windows'
    holdings at those contents: the adjacency and the output whole, the mapping half through each of its two windows. -/
theorem arrays0_iff (c : Dev nD) (V : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (Fn : (w : Fin cfg0.W) → Buf (Elt F) ((cfg0.win w).arr.view.loc (c.tc : Thread nD τ)))
    (h0 : Fn 0 = V main_arg1) (h1 : Fn 1 = V main_v4) (h2 : Fn 2 = V main_v4) (h3 : Fn 3 = V main_v5) :
    (Pipeline.arrBufs (Ix := Unit) (Name := ℕ) (U := UR sig nD τ) (Lvl := ℕ) spec0 c V : sProp 𝕄) ⊣⊢ dat.arrays Fn := by
  unfold Pipeline.arrBufs Pipeline.Dat.arrays
  rw [show (Finset.univ.image (Pipeline.arrRef spec0)) = insert main_arg1 (insert main_v4 {main_v5}) from by decide,
    bigSep_insert (by decide), bigSep_insert (by decide), bigSep_singleton, bigSep_W0]
  have s0 : dat.share 0 = fullShare := by unfold Pipeline.Dat.share; rw [if_neg (by decide)]; exact hq0
  have s1 : dat.share 1 = fullShare.left := by unfold Pipeline.Dat.share; rw [if_neg (by decide)]; exact hq1
  have s2 : dat.share 2 = fullShare.right := by unfold Pipeline.Dat.share; rw [if_neg (by decide)]; exact hq2
  have s3 : dat.share 3 = fullShare := by unfold Pipeline.Dat.share; rw [if_pos (by decide)]
  rw [s0, s1, s2, s3, h0, h1, h2, h3, (arr_whole0 0).set_eq_univ, (arr_whole0 1).set_eq_univ, (arr_whole0 3).set_eq_univ]
  have hs : ((c.tc : Thread nD τ).loc main_v4 ↦{fullShare} V main_v4 : sProp 𝕄)
      ⊣⊢ iprop(((c.tc : Thread nD τ).loc main_v4 ↦{fullShare.left} V main_v4) ∗ (c.tc : Thread nD τ).loc main_v4 ↦{fullShare.right} V main_v4) :=
    pointsTo_share (PosShare.mem_left_op_right fullShare)
  have hsp := hs.1
  have hjn := hs.2
  show (iprop(((c.tc : Thread nD τ).loc main_arg1 ↦{fullShare} V main_arg1) ∗ ((c.tc : Thread nD τ).loc main_v4 ↦{fullShare} V main_v4)
      ∗ ((c.tc : Thread nD τ).loc main_v5 ↦{fullShare} V main_v5)) : sProp 𝕄)
    ⊣⊢ iprop(((c.tc : Thread nD τ).loc main_arg1 ↦{fullShare} V main_arg1) ∗ ((c.tc : Thread nD τ).loc main_v4 ↦{fullShare.left} V main_v4)
      ∗ ((c.tc : Thread nD τ).loc main_v4 ↦{fullShare.right} V main_v4) ∗ ((c.tc : Thread nD τ).loc main_v5 ↦{fullShare} V main_v5))
  constructor
  · iintro ⟨Ha, Hv, Ho⟩
    ihave H := hsp $$ Hv
    icases H with ⟨Hl, Hr⟩
    isplitl [Ha]; · iexact Ha
    isplitl [Hl]; · iexact Hl
    isplitl [Hr]; · iexact Hr
    iexact Ho
  · iintro ⟨Ha, Hl, Hr, Ho⟩
    isplitl [Ha]; · iexact Ha
    isplitl [Hl Hr]
    · iapply hjn; isplitl [Hl] <;> iassumption
    iexact Ho

omit m outs in
/-- Entry: a core's unscoped buffers at contents `V` are the first region's windows' holdings at `V` and the rest. -/
theorem entry0_split (c : Dev nD) (V : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (hA : ∀ w, dat.A w = V (Pipeline.arrRef spec0 w)) :
    (unscopedBufs c V : sProp 𝕄) ⊢ iprop(dat.arrays (dat.arrAt · 0) ∗ Pipeline.unscopedRest spec0 c V) := by
  rw [Pipeline.unscopedBufs_split₀ cfgs 0 winFacts₀0.arr_unscoped c V]
  exact sep_mono (arrays0_iff c V dat hq0 hq1 hq2 _ (hA 0) (hA 1) (hA 2) (hA 3)).1 .rfl

omit m outs in
/-- Exit: the windows' holdings at contents `Fn` and the rest at `V` are the unscoped buffers at any contents `V'` that
    has the windows' arrays at `Fn` and agrees with `V` elsewhere. -/
theorem exit0_join (c : Dev nD) (V V' : (b : Ref sig .tc) → Buf (Elt F) ((c : Thread nD τ).loc b))
    (dat : Dat τ (Elt F) Unit ℕ (UR sig nD τ) ℕ cfg0 c)
    (hq0 : dat.q 0 = fullShare) (hq1 : dat.q 1 = fullShare.left) (hq2 : dat.q 2 = fullShare.right)
    (Fn : (w : Fin cfg0.W) → Buf (Elt F) ((cfg0.win w).arr.view.loc (c.tc : Thread nD τ)))
    (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  rw [Pipeline.unscopedBufs_split₀ cfgs 0 winFacts₀0.arr_unscoped c V']
  refine sep_mono (arrays0_iff c V' dat hq0 hq1 hq2 Fn (hF 0) (hF 1) (hF 2) (hF 3)).2 (Entails.of_eq ?_)
  unfold Pipeline.unscopedRest
  exact bigSep_congr fun b hb => by rw [hrest b (Finset.mem_sdiff.mp hb).2]

/-- At the first region's exit each of its windows' arrays holds what the next item's contents say: the inputs as
    entered, the output what the write-backs left (`h7`). -/
theorem hF0 (h7 : ∀ c, outs 7 main_v5 c = (dat0 (U6 m) c).arrAt 3 cfg0.N) (c : Dev nD) (w : Fin cfg0.W) :
    (dat0 (U6 m) c).arrAt w cfg0.N = U7 m outs c (Pipeline.arrRef spec0 w) :=
  match w with
  | ⟨0, _⟩ => ((dat0 (U6 m) c).arrAt_in 0 rfl _).trans ((A_eq0 (U6 m) c 0).trans (V7_of m outs c main_arg1 (by decide)).symm)
  | ⟨1, _⟩ => ((dat0 (U6 m) c).arrAt_in 1 rfl _).trans ((A_eq0 (U6 m) c 1).trans (V7_of m outs c main_v4 (by decide)).symm)
  | ⟨2, _⟩ => ((dat0 (U6 m) c).arrAt_in 2 rfl _).trans ((A_eq0 (U6 m) c 2).trans (V7_of m outs c main_v4 (by decide)).symm)
  | ⟨3, _⟩ => (h7 c).symm.trans (Function.update_self (Proc.devRef .tc main_v5 : DevRef τ sig) (outs 7 main_v5 c) (V6 m c)).symm

theorem hrest0 (c : Dev nD) : ∀ b, b ∉ Finset.univ.image (Pipeline.arrRef spec0) → U7 m outs c b = U6 m c b :=
  fun b hb => V7_of m outs c b fun h => hb (by
    rw [List.mem_singleton] at h; subst h; exact Finset.mem_image.mpr ⟨3, Finset.mem_univ _, rfl⟩)

variable (d2 : (c : Dev nD) → Dat τ (Elt F) Unit ℕ (UR sig nD τ) ℕ cfg2 c)

set_option backward.isDefEq.respectTransparency.types false in
/-- The first region over the thread state: entered from every unscoped buffer at the contents before it, left at the
    contents after it. -/
def reg0 (h7 : ∀ c, outs 7 main_v5 c = (dat0 (U6 m) c).arrAt 3 cfg0.N) :
    RegionSeg (pcfgs (F := F)) adm (pdatsG m outs d2) () defs₀ 𝒱₀ L lv 0 where
  win := winFacts₀0
  block_pos := block_pos0
  stage_whole := stage_whole0
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := entry0_split c (U6 m c) (pdatsG m outs d2 0 c) rfl rfl rfl (fun w => A_eq0 (U6 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsG m outs d2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsG m outs d2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0_join c (U6 m c) (U7 m outs c) (pdatsG m outs d2 0 c) rfl rfl rfl ((pdatsG m outs d2 0 c).arrAt · cfg0.N)
      (hF0 m outs h7 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI2Run.lean ====
/-
  The third kernel region (the streamed softmax-weighted sum), its body at one grid point.
  The grid is two halves of eight points. Three buffers are carried from point to point of a half: the running row
  maximum, the normaliser and the weighted sum. At the first point of a half they are set to their start values
  before being read; at every point one tile of 512 keys is streamed into them; at the last point of a half the three
  output blocks are stored from them, and nowhere else. Run on whole staging buffers, the body leaves the three input
  blocks as it found them; which stores each carried buffer and each output block ends with, the run itself finds.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first branch condition: the inner grid coordinate is zero. -/
abbrev cond2_0 (i : grid2.Coords) : Prop := (Scalar.cmpi .ne (Scalar.extui (Scalar.cmpi .eq (BitVec.ofNat 32 (i 1).val) 0#32)) 0#32) = 1#1
/-- It holds at the first point of each half of the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The body's second branch condition: the inner grid coordinate is seven. -/
abbrev cond2_1 (i : grid2.Coords) : Prop := k2_cond2 i = 1#1
/-- It holds at the last point of each half of the grid. -/
theorem hcond2_1 : ∀ t : Fin cfg2.N, k2_cond2 (grid2.coords t) = 1#1 ↔ t.val % 8 = 7 :=
  (by decide +kernel : ∀ t : Fin grid2.N, k2_cond2 (grid2.coords t) = 1#1 ↔ t.val % 8 = 7)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point of a half the printed configuration calls output 3 idle: the body stores nothing into it there. -/
theorem idleAt2_3 : ∀ t : Fin cfg2.N, ¬cond2_1 (grid2.coords t) → cfg2.idle 3 (grid2.coords t) = true := by decide +kernel
/-- And the pipeline does not write its block back there. -/
theorem noFlush2_3 : ∀ t : Fin cfg2.N, ¬cond2_1 (grid2.coords t) → (cfg2.win 3).flush t = false := by decide +kernel
/-- At the last point of a half output 3 is live: the body stores into it. -/
theorem liveAt2_3 : ∀ t : Fin cfg2.N, cond2_1 (grid2.coords t) → cfg2.idle 3 (grid2.coords t) = false := by decide +kernel
/-- Away from the last point of a half the printed configuration calls output 4 idle: the body stores nothing into it there. -/
theorem idleAt2_4 : ∀ t : Fin cfg2.N, ¬cond2_1 (grid2.coords t) → cfg2.idle 4 (grid2.coords t) = true := by decide +kernel
/-- And the pipeline does not write its block back there. -/
theorem noFlush2_4 : ∀ t : Fin cfg2.N, ¬cond2_1 (grid2.coords t) → (cfg2.win 4).flush t = false := by decide +kernel
/-- At the last point of a half output 4 is live: the body stores into it. -/
theorem liveAt2_4 : ∀ t : Fin cfg2.N, cond2_1 (grid2.coords t) → cfg2.idle 4 (grid2.coords t) = false := by decide +kernel
/-- Away from the last point of a half the printed configuration calls output 5 idle: the body stores nothing into it there. -/
theorem idleAt2_5 : ∀ t : Fin cfg2.N, ¬cond2_1 (grid2.coords t) → cfg2.idle 5 (grid2.coords t) = true := by decide +kernel
/-- And the pipeline does not write its block back there. -/
theorem noFlush2_5 : ∀ t : Fin cfg2.N, ¬cond2_1 (grid2.coords t) → (cfg2.win 5).flush t = false := by decide +kernel
/-- At the last point of a half output 5 is live: the body stores into it. -/
theorem liveAt2_5 : ∀ t : Fin cfg2.N, cond2_1 (grid2.coords t) → cfg2.idle 5 (grid2.coords t) = false := by decide +kernel

/-- One staging buffer of each output window, through which its contents are stated. -/
abbrev VO2_3 : View sig .tc .vmem S1x128x1 .f32 := (Memref.whole cc2_stg3_0 : Memref sig .tc .vmem S1x128x1 .f32).view
abbrev VO2_4 : View sig .tc .vmem S1x128x1 .f32 := (Memref.whole cc2_stg4_0 : Memref sig .tc .vmem S1x128x1 .f32).view
abbrev VO2_5 : View sig .tc .vmem S1x128x768 .f32 := (Memref.whole cc2_stg5_0 : Memref sig .tc .vmem S1x128x768 .f32).view
/-- Each window's current staging memref at point `t`, and its wholeness. -/
abbrev ms2_0 (t : Fin cfg2.N) : Memref sig .tc .vmem S512x768 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x768 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128x768 .f32 := win2_5.stage (cfg2.slots t 5)
abbrev hs2_5 (t : Fin cfg2.N) : (ms2_5 t).IsWhole := hstage2_5 ((cfg2.slots t 5).cast nbuf2_5)
/-- The three carried buffers (running maximum, normaliser, weighted sum) as memrefs and as views. -/
abbrev scM2_0 : Memref sig .tc .vmem S128x1 .f32 := Memref.whole cc2_scratch0
abbrev scM2_1 : Memref sig .tc .vmem S128x1 .f32 := Memref.whole cc2_scratch1
abbrev scM2_2 : Memref sig .tc .vmem S128x768 .f32 := Memref.whole cc2_scratch2
abbrev VS2_0 : View sig .tc .vmem S128x1 .f32 := scM2_0.view
abbrev VS2_1 : View sig .tc .vmem S128x1 .f32 := scM2_1.view
abbrev VS2_2 : View sig .tc .vmem S128x768 .f32 := scM2_2.view

omit V in
set_option maxHeartbeats 8000000 in
/-- The body at the first point of a half (the inner coordinate is zero): the three carried buffers, whatever they held, are set
    to their start values before anything reads them, then one tile is streamed into them. The three output blocks are not
    touched and are handed back as found. The pieces each carried buffer ends with are what the run finds. -/
noncomputable def kernelRun2_A (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) :
    Σ' (LS0 : List (View.Piece (Elt F) S128x1 .f32)) (LS1 : List (View.Piece (Elt F) S128x1 .f32)), { LS2 : List (View.Piece (Elt F) S128x768 .f32) //
      ∀ (xi3 : Vec F S1x128x1 .f32) (xi4 : Vec F S1x128x1 .f32) (xi5 : Vec F S1x128x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

omit V in
set_option maxHeartbeats 8000000 in
/-- The body at a middle point of a half: one tile is streamed into the three carried buffers, found at what the point before
    left; the three output blocks are not touched and are handed back as found. -/
noncomputable def kernelRun2_B (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) :
    Σ' (LS0 : List (View.Piece (Elt F) S128x1 .f32)) (LS1 : List (View.Piece (Elt F) S128x1 .f32)), { LS2 : List (View.Piece (Elt F) S128x768 .f32) //
      ∀ (xi3 : Vec F S1x128x1 .f32) (xi4 : Vec F S1x128x1 .f32) (xi5 : Vec F S1x128x768 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

omit V in
set_option maxHeartbeats 8000000 in
/-- The body at the last point of a half (the inner coordinate is seven): one tile is streamed into the three carried buffers,
    found at what the point before left, and the three output blocks, whatever they held, are stored from them. -/
noncomputable def kernelRun2_C (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    Σ' (L3 : List (View.Piece (Elt F) S1x128x1 .f32)) (L4 : List (View.Piece (Elt F) S1x128x1 .f32)) (L5 : List (View.Piece (Elt F) S1x128x768 .f32)) (LS0 : List (View.Piece (Elt F) S128x1 .f32)) (LS1 : List (View.Piece (Elt F) S128x1 .f32)), { LS2 : List (View.Piece (Elt F) S128x768 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.KI2Dat.lean ====
/-
  The third kernel region's proof data and body obligation. After the body at a grid point the three input windows'
  buffers hold their blocks, untouched; the three carried buffers (running maximum, normaliser, weighted sum) hold the
  streamed accumulation: the start case's stores at the first point of a half of the grid, the streaming case's over the
  previous point's contents elsewhere; the three output windows' buffers hold the body's stores at the last point of a
  half and are left as found elsewhere (they are written back only after the last point of a half). The region
  invariant carries the three buffers' contents from point to point. The obligation at a point is that case's run.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KI2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

omit V in
/-- At the first point of a half the stores into carried buffer 0 cover it. -/
theorem scover2_A_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x1.Idx) :
    ∃ pc ∈ (kernelRun2_A c i arg2 harg2 arg3 harg3 arg4 harg4 arg5 harg5 arg6 harg6 arg7 harg7 arg8 harg8 arg9 harg9 arg10 harg10 hc0 hc1 x0 x1 x2).1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).1 S128x1.size (by sl_kernel_rfl) y

omit V in
/-- What the body leaves in carried buffer 0 at the first point of a half: its stores read back. -/
def sout2_A_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2).1)

omit V in
/-- At the first point of a half the stores into carried buffer 1 cover it. -/
theorem scover2_A_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x1.Idx) :
    ∃ pc ∈ (kernelRun2_A c i arg2 harg2 arg3 harg3 arg4 harg4 arg5 harg5 arg6 harg6 arg7 harg7 arg8 harg8 arg9 harg9 arg10 harg10 hc0 hc1 x0 x1 x2).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).2.1 S128x1.size (by sl_kernel_rfl) y

omit V in
/-- What the body leaves in carried buffer 1 at the first point of a half: its stores read back. -/
def sout2_A_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 x0 x1 x2).2.1)

omit V in
/-- At the first point of a half the stores into carried buffer 2 cover it. -/
theorem scover2_A_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) (y : S128x768.Idx) :
    ∃ pc ∈ (kernelRun2_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2).2.2.1 S128x768.size (by sl_kernel_rfl) y

omit V in
/-- What the body leaves in carried buffer 2 at the first point of a half: its stores read back. -/
def sout2_A_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) : Vec F S128x768 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 x0 x1 x2).2.2.1)

omit V in
/-- At a middle point of a half the stores into carried buffer 0 cover it. -/
theorem scover2_B_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).1 S128x1.size (by sl_kernel_rfl) y

omit V in
/-- What the body leaves in carried buffer 0 at a middle point of a half: its stores read back. -/
def sout2_B_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 xs0 xs1 xs2).1)

omit V in
/-- At a middle point of a half the stores into carried buffer 1 cover it. -/
theorem scover2_B_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).2.1 S128x1.size (by sl_kernel_rfl) y

omit V in
/-- What the body leaves in carried buffer 1 at a middle point of a half: its stores read back. -/
def sout2_B_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 x0 x1 x2 xs0 xs1 xs2).2.1)

omit V in
/-- At a middle point of a half the stores into carried buffer 2 cover it. -/
theorem scover2_B_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x768.Idx) :
    ∃ pc ∈ (kernelRun2_B c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 xs0 xs1 xs2).2.2.1 S128x768.size (by sl_kernel_rfl) y

omit V in
/-- What the body leaves in carried buffer 2 at a middle point of a half: its stores read back. -/
def sout2_B_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x768 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 x0 x1 x2 xs0 xs1 xs2).2.2.1)

omit V in
/-- At the last point of a half the stores into output 3 tile its block, so they cover it. -/
theorem cover2_C_3 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).1 S1x128x1.size (by sl_kernel_rfl) y

omit V in
/-- What the body leaves in output 3's staging buffer at the last point of a half: its stores read back. -/
def out2_C_3 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x1 .f32 :=
  VO2_3.read (Elt F) (VO2_3.writes (Elt F) VO2_3.junk (kernelRun2_C c i arg2 harg2 arg3 harg3 arg4 harg4 arg5 harg5 arg6 harg6 arg7 harg7 arg8 harg8 arg9 harg9 arg10 harg10 hc0 hc1 x0 x1 x2 xs0 xs1 xs2).1)

omit V in
/-- At the last point of a half the stores into output 4 tile its block, so they cover it. -/
theorem cover2_C_4 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.1 S1x128x1.size (by sl_kernel_rfl) y

omit V in
/-- What the body leaves in output 4's staging buffer at the last point of a half: its stores read back. -/
def out2_C_4 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 hc0 hc1 x0 x1 x2 xs0 xs1 xs2).2.1)

omit V in
/-- At the last point of a half the stores into output 5 tile its block, so they cover it. -/
theorem cover2_C_5 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S1x128x768.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.1 S1x128x768.size (by sl_kernel_rfl) y

omit V in
/-- What the body leaves in output 5's staging buffer at the last point of a half: its stores read back. -/
def out2_C_5 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S1x128x768 .f32 :=
  VO2_5.read (Elt F) (VO2_5.writes (Elt F) VO2_5.junk (kernelRun2_C c i arg2 harg2 arg3 harg3 arg4 harg4 arg5 harg5 arg6 harg6 arg7 harg7 arg8 harg8 arg9 harg9 arg10 harg10 hc0 hc1 x0 x1 x2 xs0 xs1 xs2).2.2.1)

omit V in
/-- At the last point of a half the stores into carried buffer 0 cover it. -/
theorem scover2_C_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.1 S128x1.size (by sl_kernel_rfl) y

omit V in
/-- What the body leaves in carried buffer 0 at the last point of a half: its stores read back. -/
def sout2_C_0 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 xs0 xs1 xs2).2.2.2.1)

omit V in
/-- At the last point of a half the stores into carried buffer 1 cover it. -/
theorem scover2_C_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x1.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.2.1 S128x1.size (by sl_kernel_rfl) y

omit V in
/-- What the body leaves in carried buffer 1 at the last point of a half: its stores read back. -/
def sout2_C_1 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 x0 x1 x2 xs0 xs1 xs2).2.2.2.2.1)

omit V in
/-- At the last point of a half the stores into carried buffer 2 cover it. -/
theorem scover2_C_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) (y : S128x768.Idx) :
    ∃ pc ∈ (kernelRun2_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 xs0 xs1 xs2).2.2.2.2.2.1 S128x768.size (by sl_kernel_rfl) y

omit V in
/-- What the body leaves in carried buffer 2 at the last point of a half: its stores read back. -/
def sout2_C_2 (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) : Vec F S128x768 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 x0 x1 x2 xs0 xs1 xs2).2.2.2.2.2.1)

/-- Placeholders for an output's buffer away from the last point of a half: nothing consults them. -/
def out2_idle_3 : Vec F S1x128x1 .f32 := VO2_3.read (Elt F) VO2_3.junk
def out2_idle_4 : Vec F S1x128x1 .f32 := VO2_4.read (Elt F) VO2_4.junk
def out2_idle_5 : Vec F S1x128x768 .f32 := VO2_5.read (Elt F) VO2_5.junk

/-- THE ACCUMULATION. What the three outputs' staging buffers and the three carried buffers hold after the body at position
    `n` (a tuple: the outputs in window order, then the carried buffers): the case the position is in, run at the point's
    memrefs and input blocks, the carried buffers found at what this leaves at `n - 1`. An output's component away from
    the last point of a half is a placeholder nothing consults. -/
def outsAt2 (c : Dev nD) : (n : ℕ) → n < cfg2.N → Vec F S1x128x1 .f32 × Vec F S1x128x1 .f32 × Vec F S1x128x768 .f32 × Vec F S128x1 .f32 × Vec F S128x1 .f32 × Vec F S128x768 .f32
  | 0, hn => (out2_idle_3 (F := F),
        out2_idle_4 (F := F),
        out2_idle_5 (F := F),
        sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
        sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
        sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) scM2_2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_idle_3 (F := F),
        out2_idle_4 (F := F),
        out2_idle_5 (F := F),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
        sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
        sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2)
      else
        (out2_idle_3 (F := F),
        out2_idle_4 (F := F),
        out2_idle_5 (F := F),
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2,
        sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) scM2_2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2.1 (outsAt2 c n (Nat.lt_of_succ_lt hn)).2.2.2.2.2)

/-- `outsAt2` at the first point of a half. -/
theorem outsAt2_A (c : Dev nD) (t : Fin cfg2.N) (h0 : t.val % 8 = 0) (h1 : ¬t.val % 8 = 7) :
    outsAt2 V c t.val t.isLt = (out2_idle_3 (F := F),
        out2_idle_4 (F := F),
        out2_idle_5 (F := F),
        sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t),
        sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t),
        sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a middle point of a half: over what the point before left. -/
theorem outsAt2_B (c : Dev nD) (t : Fin cfg2.N) (h0 : ¬t.val % 8 = 0) (h1 : ¬t.val % 8 = 7) :
    outsAt2 V c t.val t.isLt = (out2_idle_3 (F := F),
        out2_idle_4 (F := F),
        out2_idle_5 (F := F),
        sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a half: over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2,
        sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The scoped buffers of the core that are no staging buffer and no carried buffer of this region (the other regions'
    staging buffers), each whole at some contents. -/
def oth2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the region, with the three carried buffers as memrefs owned at some contents. -/
theorem PhiA2_eq (c : Dev nD) :
    (Pipeline.ΦA spec2 c : sProp 𝕄)
      = iprop(oth2 (F := F) c ∗ (∃ d, owns (c : Thread nD τ) scM2_0 fullShare d) ∗ (∃ d, owns (c : Thread nD τ) scM2_1 fullShare d) ∗ (∃ d, owns (c : Thread nD τ) scM2_2 fullShare d) ∗ (∃ r, prngReg c r)) := by
  have h₁ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f)) ∗ ∃ r, prngReg c r) : sProp 𝕄)
      ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ ∃ r, prngReg c r) := by
    iintro ⟨⟨A1, A2, A3, A4, A5, A6, A7, A8, A9, A10, A11, A12, A13, S0, S1, S2⟩, Hg⟩
    isplitl [A1 A2 A3 A4 A5 A6 A7 A8 A9 A10 A11 A12 A13]
    ·
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    isplitl [S0]; · iexact S0
    isplitl [S1]; · iexact S1
    isplitl [S2]; · iexact S2
    iexact Hg
  have h₂ : (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ ∃ r, prngReg c r) : sProp 𝕄)
      ⊢ iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f)) ∗ ∃ r, prngReg c r) := by
    iintro ⟨⟨A1, A2, A3, A4, A5, A6, A7, A8, A9, A10, A11, A12, A13⟩, S0, S1, S2, Hg⟩
    isplitr [Hg]
    ·
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [S0]; · iexact S0
      isplitl [S1]; · iexact S1
      iexact S2
    iexact Hg
  unfold Pipeline.ΦA; rw [scopedRest2_eq]; simp only [scM2_0, scM2_1, scM2_2, owns_whole]; unfold oth2
  exact BI.equiv_iff.mp ⟨h₁, h₂⟩

/-- The region invariant before position `n`: before the first point what the launch hands over (every carried buffer at
    anything); afterwards the other scoped buffers at anything, each carried buffer at what the point before left in it,
    and the generator register at some state. -/
def PhiS2 (c : Dev nD) : (n : ℕ) → n ≤ cfg2.N → sProp 𝕄
  | 0, _ => Pipeline.ΦA spec2 c
  | n + 1, hn => iprop(oth2 (F := F) c ∗ owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2 ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried buffers at that point's contents. -/
theorem PhiS2_succ (c : Dev nD) (n : ℕ) (hn : n < cfg2.N) :
    PhiS2 V c (n + 1) hn = iprop(oth2 (F := F) c ∗ owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2 ∗ (∃ r, prngReg c r)) := rfl

/-- Before a point that is not the first: the carried buffers at what the point before left. -/
theorem PhiS2_pos (c : Dev nD) (n : ℕ) (h : n ≤ cfg2.N) (hz : n ≠ 0) :
    PhiS2 V c n h = iprop(oth2 (F := F) c ∗ owns (c : Thread nD τ) scM2_0 fullShare (outsAt2 V c (n - 1) (by omega)).2.2.2.1 ∗ owns (c : Thread nD τ) scM2_1 fullShare (outsAt2 V c (n - 1) (by omega)).2.2.2.2.1 ∗ owns (c : Thread nD τ) scM2_2 fullShare (outsAt2 V c (n - 1) (by omega)).2.2.2.2.2 ∗ (∃ r, prngReg c r)) := by
  cases n with
  | zero => exact absurd rfl hz
  | succ n => rfl

/-- The region's proof data on core `c`: the arrays as the region finds them; after the body each input's buffer at its
    block and each output's at the accumulation's component; the invariant carrying the three buffers; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The inputs' buffers hold their blocks. The point is the first, a middle or the last point of a
    half; the invariant hands the body the carried buffers at what the point before left (at anything at the very first
    point, and at the first point of the second half their contents are not used) and takes them back at this point's
    contents; away from the last point of a half the outputs' buffers are handed back as found, at the last point they
    are left at the body's stores. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A_0 sout2_A_1 sout2_A_2; (try dsimp only)
    by_cases hz : t.val = 0
    ·
      rw [PhiS2_castSucc V c t, PhiS2_zero V c _ _ hz, PhiA2_eq]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    ·
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 8 = 7
    ·
      rw [show (dat2 V c).leavesExact 3 t = owns (c : Thread nD τ) (ms2_3 t) fullShare ((dat2 V c).after 3 t) from by
        unfold Dat.leavesExact; rw [liveAt2_3 t ((hcond2_1 t).mpr h1)], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_3 out2_C_4 out2_C_5 sout2_C_0 sout2_C_1 sout2_C_2; (try dsimp only)
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_C_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_C_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _ _ _)
    ·
      rw [Dat.leavesExact_idle (dat2 V c) 3 t (idleAt2_3 t (fun h => h1 ((hcond2_1 t).mp h))) (noFlush2_3 t (fun h => h1 ((hcond2_1 t).mp h)))]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0 sout2_B_1 sout2_B_2; (try dsimp only)
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_B_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is what the launch hands the region. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-- After any point but the first the invariant gives back what the launch handed over: the carried buffers' named contents
    are forgotten. -/
theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

/-- The same after the last point. -/
theorem Phi2_last (c : Dev nD) : (dat2 V c).Φ (Fin.last cfg2.N) ⊢ Pipeline.ΦA spec2 c :=
  Phi2_out V c _ (by rw [Fin.val_last]; have : cfg2.N = 16 := N_2; omega)

end Cert.KernelIdeal.Hand

end
-- ==== Proof.KHostFrame.lean ====
/- The conditional value statement of the program: given one segment record per kernel region, entered from the
   buffer contents before it and left at the contents after it, every weakly fair execution of the program terminates
   and the result buffer ends holding the last valuation's contents of it, while every argument array ends holding
   its launch contents. -/
import proofs.«114392_j58480274702406_2_alg».proof.Proof.Gen.KernelIdeal.Regions

set_option maxRecDepth 1556

noncomputable section

namespace Cert.KernelIdeal.KHost

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the run lemma's implicit arguments are found by unifying its conclusion with this one, which takes unfolding
-- plain definitions in a metavariable's type
set_option backward.isDefEq.respectTransparency.types false in
/-- For any contents the regions leave and any proof data: given, per region, a segment record entered from the
    buffer contents before it and left at the contents after it, every weakly fair execution of the program from
    memory `m` with zero counters terminates, and every final memory holds in the result buffer the last valuation's
    contents and in each argument array its launch contents. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V10 m outs c) ∗ E 2 c) ⊢ R2.pre c)
    (hpost2 : ∀ c : Dev nD, R2.post c ⊢ iprop(StableHlo.held (c : Thread nD τ) (Pipeline.ucRefs τ sig) (V11 m outs c) ∗ E 3 c)) :
    θ_run defs (onTc (τ := τ) (main (F := F))) ⟨m, fun _ => 0, ρ⟩ (fun r => ∀ c : Dev nD,
      r.2.mem ((c.tc : Thread nD τ).loc main_v146) = V23 m outs c main_v146
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          StableHlo.seq hostOps3_9,
          StableHlo.seq hostOps3_10,
          StableHlo.seq hostOps3_11 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V23 m outs c))
    (hch := fun c => ⟨.rfl, .rfl, .rfl, .rfl, .rfl, .rfl, hpre0 c, hpost0 c, hpre1 c, hpost1 c, hpre2 c, hpost2 c, .rfl, .rfl, .rfl, .rfl, .rfl, .rfl, .rfl, .rfl, .rfl, .rfl, .rfl, sep_mono .rfl (hE3 c)⟩)
    (hinit := ?_) (QY := fun c s => s.mem ((c.tc : Thread nD τ).loc main_v146) = V23 m outs c main_v146 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's buffer read off the last valuation
    unfold StableHlo.held
    iintro ⟨Hh, HSI⟩
    ihave Hr := (pointsTo_read_all (Pipeline.ucRefs τ sig) (fun b => ((c : Thread nD τ).1, b)) (V23 m outs c) s') $$ [Hh HSI]
    · isplitl [Hh] <;> iassumption
    icases Hr with ⟨%h, HSI⟩
    imodintro
    isplitr
    · ipureintro
      exact ⟨h (Proc.devRef .tc main_v146) (Finset.mem_filter.mpr ⟨StableHlo.devRef_mem_tcRefs main_v146, by decide⟩),
        (h (Proc.devRef .tc main_arg0) (Finset.mem_filter.mpr ⟨StableHlo.devRef_mem_tcRefs main_arg0, by decide⟩)).trans (V23_main_arg0 m outs c),
        (h (Proc.devRef .tc main_arg1) (Finset.mem_filter.mpr ⟨StableHlo.devRef_mem_tcRefs main_arg1, by decide⟩)).trans (V23_main_arg1 m outs c),
        (h (Proc.devRef .tc main_arg2) (Finset.mem_filter.mpr ⟨StableHlo.devRef_mem_tcRefs main_arg2, by decide⟩)).trans (V23_main_arg2 m outs c),
        (h (Proc.devRef .tc main_arg3) (Finset.mem_filter.mpr ⟨StableHlo.devRef_mem_tcRefs main_arg3, by decide⟩)).trans (V23_main_arg3 m outs c),
        (h (Proc.devRef .tc main_arg4) (Finset.mem_filter.mpr ⟨StableHlo.devRef_mem_tcRefs main_arg4, by decide⟩)).trans (V23_main_arg4 m outs c),
        (h (Proc.devRef .tc main_arg5) (Finset.mem_filter.mpr ⟨StableHlo.devRef_mem_tcRefs main_arg5, by decide⟩)).trans (V23_main_arg5 m outs c),
        (h (Proc.devRef .tc main_arg6) (Finset.mem_filter.mpr ⟨StableHlo.devRef_mem_tcRefs main_arg6, by decide⟩)).trans (V23_main_arg6 m outs c),
        (h (Proc.devRef .tc main_arg7) (Finset.mem_filter.mpr ⟨StableHlo.devRef_mem_tcRefs main_arg7, by decide⟩)).trans (V23_main_arg7 m outs c)⟩
    · iexact HSI

end Cert.KernelIdeal.KHost

end
-- ==== Proof.KIRun.lean ====
/-
  The whole kernel program's run. @main is host operations, three kernel regions with host operations between them, and
  host operations to the end. The regions' outputs are defined in order, each from the buffer contents the items before
  it leave: the first region's from the launch contents, the second's from the contents after the first region and the
  operations that follow it, the third's likewise. With every region's segment and every stretch of host operations in
  place, every weakly fair execution terminates without a fault, every buffer ends at the last item's contents, and in
  particular the result buffer does; no item writes an argument.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KISeg0
import proofs.«114392_j58480274702406_2_alg».proof.Proof.KI2Dat
import proofs.«114392_j58480274702406_2_alg».proof.Proof.KHostFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (outs : Outs (F := F))

abbrev U11 (c : Dev nD) (b : Ref sig .tc) : Buf (Elt F) ((c : Thread nD τ).loc b) := V11 m outs c b

/-- Every region's proof data, each at its region's entry contents. -/
abbrev pdats : (p : Fin 3) → (c : Dev nD) → Dat τ (Elt F) Unit ℕ (UR sig nD τ) ℕ (Pipeline.pin (pcfgs (F := F)) adm p) c :=
  pdatsG m outs (fun c => dat2 (U10 m outs) c)

/-- At the third region's exit each of its windows' arrays holds what the next item's contents say. -/
theorem hF2 (ha : ∀ c, outs 11 main_v22_0 c = (dat2 (U10 m outs) c).arrAt 3 cfg2.N)
    (hb : ∀ c, outs 11 main_v22_1 c = (dat2 (U10 m outs) c).arrAt 4 cfg2.N)
    (hc : ∀ c, outs 11 main_v22_2 c = (dat2 (U10 m outs) c).arrAt 5 cfg2.N) (c : Dev nD) (w : Fin cfg2.W) :
    (dat2 (U10 m outs) c).arrAt w cfg2.N = U11 m outs c (Pipeline.arrRef spec2 w) :=
  match w with
  | ⟨0, _⟩ => ((dat2 (U10 m outs) c).arrAt_in 0 rfl _).trans ((A_eq2 (U10 m outs) c 0).trans (V11_of m outs c main_arg0 (by decide)).symm)
  | ⟨1, _⟩ => ((dat2 (U10 m outs) c).arrAt_in 1 rfl _).trans ((A_eq2 (U10 m outs) c 1).trans (V11_of m outs c main_v21 (by decide)).symm)
  | ⟨2, _⟩ => ((dat2 (U10 m outs) c).arrAt_in 2 rfl _).trans ((A_eq2 (U10 m outs) c 2).trans (V11_of m outs c main_v18 (by decide)).symm)
  | ⟨3, _⟩ => (ha c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_0)
      rw [Function.update_of_ne (StableHlo.devRef_ne_of_ne (by decide)), Function.update_of_ne (StableHlo.devRef_ne_of_ne (by decide)),
        Function.update_self])
  | ⟨4, _⟩ => (hb c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_1)
      rw [Function.update_of_ne (StableHlo.devRef_ne_of_ne (by decide)), Function.update_self])
  | ⟨5, _⟩ => (hc c).symm.trans (by
      show _ = Function.update (Function.update (Function.update (V10 m outs c) (Proc.devRef .tc main_v22_0) (outs 11 main_v22_0 c))
        (Proc.devRef .tc main_v22_1) (outs 11 main_v22_1 c)) (Proc.devRef .tc main_v22_2) (outs 11 main_v22_2 c) (Proc.devRef .tc main_v22_2)
      rw [Function.update_self])

theorem hrest2 (c : Dev nD) : ∀ b, b ∉ Finset.univ.image (Pipeline.arrRef spec2) → U11 m outs c b = U10 m outs c b :=
  fun b hb => V11_of m outs c b fun h => hb (by
    simp only [List.mem_cons, List.mem_singleton, List.not_mem_nil, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩)

set_option backward.isDefEq.respectTransparency.types false in
/-- The third region over the thread state. Its invariant holds the three carried scratch buffers; before the first
    point and after the last one they are scoped buffers at some contents like any other. -/
def reg2 (ha : ∀ c, outs 11 main_v22_0 c = (dat2 (U10 m outs) c).arrAt 3 cfg2.N)
    (hb : ∀ c, outs 11 main_v22_1 c = (dat2 (U10 m outs) c).arrAt 4 cfg2.N)
    (hc : ∀ c, outs 11 main_v22_2 c = (dat2 (U10 m outs) c).arrAt 5 cfg2.N) :
    RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U10 m outs) c).loose
  hwaits := Pipeline.hwaits_of_owed_zero _ _ _ _ L lv 2 fun _ _ => rfl
  pre c := iprop(StableHlo.held (c : Thread nD τ) (Pipeline.ucRefs τ sig) (V10 m outs c) ∗ R c)
  post c := iprop(StableHlo.held (c : Thread nD τ) (Pipeline.ucRefs τ sig) (V11 m outs c) ∗ R c)
  X c := iprop(∃ r, prngReg c r)
  Y c := iprop(∃ r, prngReg c r)
  Z c := Pipeline.unscopedRest (Ix := Unit) (Name := ℕ) (U := UR sig nD τ) (Lvl := ℕ) spec2 c (U10 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (U10 m outs c) (fun w => A_eq2 (U10 m outs) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from Phi2_first (U10 m outs) c]; unfold Pipeline.ΦA
    iintro ⟨Hp, -, Hr⟩
    isplitl [Hr]; · iexact Hr
    iexact Hp
  hout c := by
    rw [Pipeline.ownSems0_none]
    refine (show (pdats m outs 2 c).Φ (Fin.last _) ⊢ Pipeline.ΦA spec2 c from Phi2_last (U10 m outs) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (U10 m outs c) (U11 m outs c) ((pdats m outs 2 c).arrAt · cfg2.N) (hF2 m outs ha hb hc c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The five equations that say the family `outs` is what the three regions leave in their output arrays. -/
structure Leaves : Prop where
  h7 : ∀ c, outs 7 main_v5 c = (dat0 (U6 m) c).arrAt 3 cfg0.N
  h9 : ∀ c, outs 9 main_v12 c = (dat1 (U8 m outs) c).arrAt 2 cfg1.N
  ha : ∀ c, outs 11 main_v22_0 c = (dat2 (U10 m outs) c).arrAt 3 cfg2.N
  hb : ∀ c, outs 11 main_v22_1 c = (dat2 (U10 m outs) c).arrAt 4 cfg2.N
  hc : ∀ c, outs 11 main_v22_2 c = (dat2 (U10 m outs) c).arrAt 5 cfg2.N

set_option backward.isDefEq.respectTransparency.types false in
/-- The run, for any family that is what the regions leave. -/
theorem run_of_leaves (ρ : Dev nD → PrngReg) (h : Leaves m outs) :
    θ_run defs (onTc (τ := τ) (main (F := F))) ⟨m, fun _ => 0, ρ⟩ (fun r => ∀ c : Dev nD,
      r.2.mem ((c.tc : Thread nD τ).loc main_v146) = V23 m outs c main_v146
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Cert.KernelIdeal.KHost.value_cond m (Ix := Unit) (U := UR sig nD τ) (Lvl := ℕ) emb₁ () 𝒱₀ L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m outs (fun c => dat2 (U10 m outs) c) h.h7) (fun _ => .rfl) (fun _ => .rfl)
    (reg1 m outs (fun c => dat2 (U10 m outs) c) h.h9) (fun _ => .rfl) (fun _ => .rfl)
    (reg2 m outs h.ha h.hb h.hc) (fun _ => .rfl) (fun _ => .rfl)

end Cert.KernelIdeal.Hand

end
-- ==== Proof.KIOuts.lean ====
/-
  What the three regions leave, as one concrete family. It is built in order: the first region's output from the launch
  contents; the second's from the contents after the first region; the third's from the contents after the second. Each
  stage changes the family only at its own item, so the contents an earlier region is entered from do not move.
-/
import proofs.«114392_j58480274702406_2_alg».proof.Proof.Gen.KernelIdeal.Launch
import proofs.«114392_j58480274702406_2_alg».proof.Proof.Gen.KernelIdeal.Skeleton
import proofs.«114392_j58480274702406_2_alg».proof.Proof.Gen.KernelIdeal.Points
import proofs.«114392_j58480274702406_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Stage one: the first region's output array after its run; elsewhere, for definiteness, the contents before it. -/
def outsA : Outs (F := F) := fun _ r c =>
  Function.update (V6 m c) (Proc.devRef .tc main_v5) ((dat0 (U6 m) c).arrAt 3 cfg0.N) (Proc.devRef .tc r)

theorem outsA_7 (c : Dev nD) : outsA m 7 main_v5 c = (dat0 (U6 m) c).arrAt 3 cfg0.N :=
  Function.update_self (Proc.devRef .tc main_v5 : DevRef τ sig) _ (V6 m c)

/-- Stage two: at the second region's item, its output array after its run. -/
def outsB : Outs (F := F) := fun n r c =>
  if n = 9 then Function.update (V8 m (outsA m) c) (Proc.devRef .tc main_v12) ((dat1 (U8 m (outsA m)) c).arrAt 2 cfg1.N) (Proc.devRef .tc r)
  else outsA m n r c

theorem outsB_7 (c : Dev nD) : outsB m 7 main_v5 c = outsA m 7 main_v5 c := if_neg (by decide)

theorem V8_B (c : Dev nD) : V8 m (outsB m) c = V8 m (outsA m) c := by
  show StableHlo.after hostOps1 (Function.update (V6 m c) (Proc.devRef .tc main_v5) (outsB m 7 main_v5 c))
    = StableHlo.after hostOps1 (Function.update (V6 m c) (Proc.devRef .tc main_v5) (outsA m 7 main_v5 c))
  rw [outsB_7]

theorem U8_B : U8 m (outsB m) = U8 m (outsA m) := funext fun c => funext fun b => congrFun (V8_B m c) _

theorem outsB_9 (c : Dev nD) : outsB m 9 main_v12 c = (dat1 (U8 m (outsB m)) c).arrAt 2 cfg1.N := by
  rw [U8_B]
  exact (if_pos rfl).trans (Function.update_self (Proc.devRef .tc main_v12 : DevRef τ sig) _ (V8 m (outsA m) c))

/-- Stage three: at the third region's item, its three output arrays after its run. -/
def outsC : Outs (F := F) := fun n r c =>
  if n = 11 then
    Function.update (Function.update (Function.update (V10 m (outsB m) c)
      (Proc.devRef .tc main_v22_0) ((dat2 (U10 m (outsB m)) c).arrAt 3 cfg2.N))
      (Proc.devRef .tc main_v22_1) ((dat2 (U10 m (outsB m)) c).arrAt 4 cfg2.N))
      (Proc.devRef .tc main_v22_2) ((dat2 (U10 m (outsB m)) c).arrAt 5 cfg2.N) (Proc.devRef .tc r)
  else outsB m n r c

theorem outsC_7 (c : Dev nD) : outsC m 7 main_v5 c = outsB m 7 main_v5 c := if_neg (by decide)
theorem outsC_9 (c : Dev nD) : outsC m 9 main_v12 c = outsB m 9 main_v12 c := if_neg (by decide)

theorem V8_C (c : Dev nD) : V8 m (outsC m) c = V8 m (outsB m) c := by
  show StableHlo.after hostOps1 (Function.update (V6 m c) (Proc.devRef .tc main_v5) (outsC m 7 main_v5 c))
    = StableHlo.after hostOps1 (Function.update (V6 m c) (Proc.devRef .tc main_v5) (outsB m 7 main_v5 c))
  rw [outsC_7]

theorem U8_C : U8 m (outsC m) = U8 m (outsB m) := funext fun c => funext fun b => congrFun (V8_C m c) _

theorem V10_C (c : Dev nD) : V10 m (outsC m) c = V10 m (outsB m) c := by
  show StableHlo.after hostOps2 (Function.update (V8 m (outsC m) c) (Proc.devRef .tc main_v12) (outsC m 9 main_v12 c))
    = StableHlo.after hostOps2 (Function.update (V8 m (outsB m) c) (Proc.devRef .tc main_v12) (outsB m 9 main_v12 c))
  rw [V8_C, outsC_9]

theorem U10_C : U10 m (outsC m) = U10 m (outsB m) := funext fun c => funext fun b => congrFun (V10_C m c) _

/-- The family is what the regions leave. -/
theorem leaves : Leaves m (outsC m) where
  h7 c := (outsC_7 m c).trans ((outsB_7 m c).trans (outsA_7 m c))
  h9 c := by rw [U8_C]; exact (outsC_9 m c).trans (outsB_9 m c)
  ha c := by
    rw [U10_C]
    refine (if_pos rfl).trans ?_
    rw [Function.update_of_ne (StableHlo.devRef_ne_of_ne (by decide)), Function.update_of_ne (StableHlo.devRef_ne_of_ne (by decide)),
      Function.update_self]
  hb c := by
    rw [U10_C]
    refine (if_pos rfl).trans ?_
    rw [Function.update_of_ne (StableHlo.devRef_ne_of_ne (by decide)), Function.update_self]
  hc c := by
    rw [U10_C]
    refine (if_pos rfl).trans ?_
    rw [Function.update_self]

end Cert.KernelIdeal.Hand

end
-- ==== Proof.LibOnlineSoftmax.lean ====
/-
  Online softmax over the extended reals.

  A softmax-weighted sum over a finite set of keys, with real scores `s k` and real values `x k`, is
  `∑ k, (e^(s k - M) / ∑ j, e^(s j - M)) * x k` with `M` the largest score. A streaming kernel never holds all the
  scores at once: it carries a triple (running maximum `M`, normaliser `L`, weighted sum `A`) and, for
  each new block of keys, rescales the old triple by `e^(M - M')` to the new maximum `M'` before adding the
  block's terms. Before the first block the maximum is `-∞` and the two sums are zero; there the rescaling factor
  is `e^(-∞) = 0` and `0 * 0 = 0`, so the empty state needs no special case.

  `Holds s x S M L A` says that the triple `(M, L, A)` represents the key set `S`: `M` is the supremum of the
  scores of `S` in the extended reals (`-∞` when `S` is empty), `L = ∑ k ∈ S, e^(s k - M)` and
  `A = ∑ k ∈ S, e^(s k - M) * x k`. The lemmas:
  * `holds_empty`: the start state `(-∞, 0, 0)` represents the empty set;
  * `Holds.step`: one streamed block `T` (disjoint from `S`, not empty) takes a state of `S` to a state of `S ∪ T`;
  * `Holds.merge`: two states over disjoint key sets (two halves of the key axis accumulated apart) combine,
    each rescaled to the common maximum, into a state of the union;
  * `Holds.normalise`: for a nonempty `S` the quotient `A / L` is the softmax-weighted sum over `S`, each
    weight `e^(s k - M) / L` formed first and then multiplied by the value — the order in which a plain
    `softmax(scores) @ x` computes it.
  Exponential, product, sum and quotient are the extended reals' (`Ideal.exp`, `Ideal.div`); every quantity
  met after the first block is a real number, and the proofs move to the reals and back.
-/
import Idealize.ShloMosaic.PureOps.Ideal

noncomputable section

namespace Cert.OnlineSoftmax

open Finset Idealize.ShloMosaic

variable {κ : Type} [DecidableEq κ]

/-- A finite sum of reals, seen in the extended reals, is the sum of the images. -/
theorem coe_sum (S : Finset κ) (f : κ → ℝ) : ((∑ k ∈ S, f k : ℝ) : EReal) = ∑ k ∈ S, (f k : EReal) := by
  induction S using Finset.induction_on with
  | empty => simp
  | insert a S ha ih => rw [Finset.sum_insert ha, Finset.sum_insert ha, EReal.coe_add, ih]

/-- The larger of two reals, seen in the extended reals, is the larger of the images. -/
theorem coe_max (a b : ℝ) : ((max a b : ℝ) : EReal) = max (a : EReal) (b : EReal) :=
  EReal.coe_strictMono.monotone.map_max

/-- The supremum, in the extended reals, of the scores of a nonempty finite set is a real number: the
    largest score. -/
theorem sup_coe_of_nonempty (s : κ → ℝ) {S : Finset κ} (hS : S.Nonempty) :
    (S.sup fun k => (s k : EReal)) = ((S.sup' hS s : ℝ) : EReal) := by
  rw [← Finset.sup'_eq_sup hS]
  exact (Finset.comp_sup'_eq_sup'_comp hS (fun r : ℝ => (r : EReal)) coe_max).symm

/-- The exponential of a difference of two reals. -/
theorem exp_sub_coe (a b : ℝ) : Ideal.exp ((a : EReal) - (b : EReal)) = ((Real.exp (a - b) : ℝ) : EReal) := by
  rw [← EReal.coe_sub, Ideal.exp_coe]

/-- Rescaling a sum of exponentials from the reference point `m` to `m'`: over the reals,
    `e^(m - m') * ∑ e^(s k - m) * w k = ∑ e^(s k - m') * w k`. -/
theorem real_rescale (s w : κ → ℝ) (S : Finset κ) (m m' : ℝ) :
    Real.exp (m - m') * ∑ k ∈ S, Real.exp (s k - m) * w k = ∑ k ∈ S, Real.exp (s k - m') * w k := by
  rw [Finset.mul_sum]
  refine Finset.sum_congr rfl fun k _ => ?_
  rw [← mul_assoc, ← Real.exp_add]
  congr 2
  ring

/-- The triple `(M, L, A)` represents the key set `S`. -/
structure Holds (s x : κ → ℝ) (S : Finset κ) (M L A : EReal) : Prop where
  max_eq : M = S.sup fun k => (s k : EReal)
  norm_eq : L = ∑ k ∈ S, Ideal.exp ((s k : EReal) - M)
  acc_eq : A = ∑ k ∈ S, Ideal.exp ((s k : EReal) - M) * (x k : EReal)

variable {s x : κ → ℝ}

/-- The start state: maximum `-∞`, both sums zero. -/
theorem holds_empty : Holds s x ∅ ⊥ 0 0 := ⟨by simp, by simp, by simp⟩

/-- A state of a nonempty set has a real maximum. -/
theorem Holds.max_real {S : Finset κ} {M L A : EReal} (h : Holds s x S M L A) (hS : S.Nonempty) :
    ∃ m : ℝ, M = (m : EReal) := ⟨_, h.max_eq.trans (sup_coe_of_nonempty s hS)⟩

/-- Both sums of a state over a real maximum, as real sums. -/
theorem sums_coe (S : Finset κ) (m : ℝ) :
    (∑ k ∈ S, Ideal.exp ((s k : EReal) - (m : EReal))) = ((∑ k ∈ S, Real.exp (s k - m) * 1 : ℝ) : EReal) ∧
    (∑ k ∈ S, Ideal.exp ((s k : EReal) - (m : EReal)) * (x k : EReal))
      = ((∑ k ∈ S, Real.exp (s k - m) * x k : ℝ) : EReal) := by
  constructor
  · rw [coe_sum]; exact Finset.sum_congr rfl fun k _ => by rw [exp_sub_coe, mul_one]
  · rw [coe_sum]; exact Finset.sum_congr rfl fun k _ => by rw [exp_sub_coe, EReal.coe_mul]

/-- Rescaling a state to any real reference point `m'`: the factor `e^(M - m')` turns its two sums into the
    sums of `S` taken at `m'`. For the empty state the factor is `e^(-∞) = 0` and both sides are zero. -/
theorem Holds.rescale {S : Finset κ} {M L A : EReal} (h : Holds s x S M L A) (m' : ℝ) :
    Ideal.exp (M - (m' : EReal)) * L = ∑ k ∈ S, Ideal.exp ((s k : EReal) - (m' : EReal)) ∧
    Ideal.exp (M - (m' : EReal)) * A = ∑ k ∈ S, Ideal.exp ((s k : EReal) - (m' : EReal)) * (x k : EReal) := by
  rcases S.eq_empty_or_nonempty with rfl | hS
  · rw [h.norm_eq, h.acc_eq]; simp
  · obtain ⟨m, hm⟩ := h.max_real hS
    rw [h.norm_eq, h.acc_eq, hm, (sums_coe (s := s) (x := x) S m).1, (sums_coe (s := s) (x := x) S m).2,
      (sums_coe (s := s) (x := x) S m').1, (sums_coe (s := s) (x := x) S m').2, exp_sub_coe,
      ← EReal.coe_mul, ← EReal.coe_mul, real_rescale, real_rescale]
    exact ⟨rfl, rfl⟩

/-- One streamed block. From a state of `S` and a nonempty block `T` of new keys: the new maximum is the
    larger of the old one and the block's, the old sums are rescaled to it and the block's terms, taken at the
    new maximum, are added. The result is a state of `S ∪ T`. -/
theorem Holds.step {S T : Finset κ} {M L A M' : EReal} (h : Holds s x S M L A) (hST : Disjoint S T)
    (hT : T.Nonempty) (hM' : M' = max M (T.sup fun k => (s k : EReal))) :
    Holds s x (S ∪ T) M'
      (Ideal.exp (M - M') * L + ∑ k ∈ T, Ideal.exp ((s k : EReal) - M'))
      (Ideal.exp (M - M') * A + ∑ k ∈ T, Ideal.exp ((s k : EReal) - M') * (x k : EReal)) := by
  have hsup : M' = (S ∪ T).sup fun k => (s k : EReal) := by
    rw [hM', h.max_eq, Finset.sup_union]
  obtain ⟨m', hm'⟩ : ∃ m' : ℝ, M' = (m' : EReal) :=
    ⟨_, hsup.trans (sup_coe_of_nonempty s (hT.mono Finset.subset_union_right))⟩
  obtain ⟨hL, hA⟩ := h.rescale m'
  refine ⟨hsup, ?_, ?_⟩
  · rw [hm', hL, Finset.sum_union hST]
  · rw [hm', hA, Finset.sum_union hST]

/-- Two states over disjoint key sets, accumulated apart, combine: each is rescaled to the larger of the two
    maxima and the sums are added. The result is a state of the union. -/
theorem Holds.merge {S T : Finset κ} {M₀ L₀ A₀ M₁ L₁ A₁ : EReal} (h₀ : Holds s x S M₀ L₀ A₀)
    (h₁ : Holds s x T M₁ L₁ A₁) (hST : Disjoint S T) (hne : (S ∪ T).Nonempty) :
    Holds s x (S ∪ T) (max M₀ M₁)
      (Ideal.exp (M₀ - max M₀ M₁) * L₀ + Ideal.exp (M₁ - max M₀ M₁) * L₁)
      (Ideal.exp (M₀ - max M₀ M₁) * A₀ + Ideal.exp (M₁ - max M₀ M₁) * A₁) := by
  have hsup : max M₀ M₁ = (S ∪ T).sup fun k => (s k : EReal) := by
    rw [h₀.max_eq, h₁.max_eq, Finset.sup_union]
  obtain ⟨m', hm'⟩ : ∃ m' : ℝ, max M₀ M₁ = (m' : EReal) := ⟨_, hsup.trans (sup_coe_of_nonempty s hne)⟩
  obtain ⟨hL₀, hA₀⟩ := h₀.rescale m'
  obtain ⟨hL₁, hA₁⟩ := h₁.rescale m'
  refine ⟨hsup, ?_, ?_⟩
  · rw [hm', hL₀, hL₁, Finset.sum_union hST]
  · rw [hm', hA₀, hA₁, Finset.sum_union hST]

/-- The normaliser of a state of a nonempty set is a positive real. -/
theorem Holds.norm_pos {S : Finset κ} {M L A : EReal} (h : Holds s x S M L A) (hS : S.Nonempty) :
    ∃ ℓ : ℝ, 0 < ℓ ∧ L = (ℓ : EReal) := by
  obtain ⟨m, hm⟩ := h.max_real hS
  refine ⟨∑ k ∈ S, Real.exp (s k - m) * 1, ?_, ?_⟩
  · exact Finset.sum_pos (fun k _ => by rw [mul_one]; exact Real.exp_pos _) hS
  · rw [h.norm_eq, hm, (sums_coe (s := s) (x := x) S m).1]

/-- Normalising: for a nonempty key set the quotient of the weighted sum by the normaliser is the
    softmax-weighted sum, every weight `e^(s k - M) / L` formed first. -/
theorem Holds.normalise {S : Finset κ} {M L A : EReal} (h : Holds s x S M L A) (hS : S.Nonempty) :
    Ideal.div A L = ∑ k ∈ S, Ideal.div (Ideal.exp ((s k : EReal) - M)) L * (x k : EReal) := by
  obtain ⟨m, hm⟩ := h.max_real hS
  obtain ⟨ℓ, hℓ, hL⟩ := h.norm_pos hS
  have hA : A = ((∑ k ∈ S, Real.exp (s k - m) * x k : ℝ) : EReal) := by
    rw [h.acc_eq, hm, (sums_coe (s := s) (x := x) S m).2]
  rw [hL, hA, hm, Ideal.div_coe hℓ.ne', ← EReal.coe_mul, Finset.sum_mul, coe_sum]
  refine Finset.sum_congr rfl fun k _ => ?_
  rw [Ideal.div_coe hℓ.ne', exp_sub_coe, ← EReal.coe_mul, ← EReal.coe_mul]
  congr 1
  ring

end Cert.OnlineSoftmax

end
-- ==== Proof.SpecMathIndex.lean ====
/-
  Re-indexing the 8192 rows by (half, tile, row inside the tile).

  With tiles of 256 rows, 16 tiles per half, the row `256 * (16 * c + i) + r` runs through every row below
  8192 exactly once as `(c, i, r)` runs through `Fin 2 × Fin 16 × Fin 256`; likewise with tiles of 512 rows,
  8 tiles per half. Hence a sum over all rows, with values in any commutative additive monoid, is the triple
  sum over halves, tiles and rows of a tile. The second part names the set of rows met by the first `n` tiles
  of 512 rows of one half, and records that one more tile is disjoint from them, that the two halves' sets are
  disjoint and that together they are all the rows.
-/
import proofs.«114392_j58480274702406_2_alg».proof.Proof.Spec

namespace Cert.Spec

open Finset

/-- Different (half, tile, row) triples give different rows (tiles of 256). -/
theorem row256_injective :
    Function.Injective (fun q : Fin 2 × Fin 16 × Fin 256 => row256 q.1 q.2.1 q.2.2) := by
  rintro ⟨c, i, r⟩ ⟨c', i', r'⟩ h
  simp only [row256, Fin.mk.injEq] at h
  have h1 : c.val = c'.val := by omega
  have h2 : i.val = i'.val := by omega
  have h3 : r.val = r'.val := by omega
  rw [Prod.mk.injEq, Prod.mk.injEq]
  exact ⟨Fin.ext h1, Fin.ext h2, Fin.ext h3⟩

/-- A sum over all rows is the sum over halves, tiles of 256 and rows of a tile. -/
theorem sum_row256 {M : Type*} [AddCommMonoid M] (f : Fin 8192 → M) :
    ∑ s, f s = ∑ c : Fin 2, ∑ i : Fin 16, ∑ r : Fin 256, f (row256 c i r) := by
  have hb : Function.Bijective (fun q : Fin 2 × Fin 16 × Fin 256 => row256 q.1 q.2.1 q.2.2) :=
    (Fintype.bijective_iff_injective_and_card _).2 ⟨row256_injective, by simp⟩
  rw [← Fintype.sum_bijective _ hb (fun q => f (row256 q.1 q.2.1 q.2.2)) f (fun _ => rfl)]
  rw [Fintype.sum_prod_type]
  refine Finset.sum_congr rfl fun c _ => ?_
  rw [Fintype.sum_prod_type]

/-- Below 8 tiles per half, different (half, tile, row) triples give different rows (tiles of 512). -/
theorem row512_inj {c c' : Fin 2} {n n' : ℕ} {r r' : Fin 512} (hn : n < 8) (hn' : n' < 8)
    (h : row512 c n r = row512 c' n' r') : c = c' ∧ n = n' ∧ r = r' := by
  simp only [row512, Fin.mk.injEq] at h
  have h1 : c.val = c'.val := by omega
  have h2 : n = n' := by omega
  have h3 : r.val = r'.val := by omega
  exact ⟨Fin.ext h1, h2, Fin.ext h3⟩

/-- Every row lies in some tile of 512 of some half. -/
theorem row512_surj (s : Fin 8192) : ∃ c : Fin 2, ∃ n : ℕ, n < 8 ∧ ∃ r : Fin 512, row512 c n r = s := by
  refine ⟨⟨s.val / 4096, by omega⟩, (s.val / 512) % 8, by omega, ⟨s.val % 512, by omega⟩, ?_⟩
  apply Fin.ext
  simp only [row512]
  omega

theorem row512_injective :
    Function.Injective (fun q : Fin 2 × Fin 8 × Fin 512 => row512 q.1 q.2.1.val q.2.2) := by
  rintro ⟨c, i, r⟩ ⟨c', i', r'⟩ h
  obtain ⟨h1, h2, h3⟩ := row512_inj i.isLt i'.isLt h
  rw [Prod.mk.injEq, Prod.mk.injEq]
  exact ⟨h1, Fin.ext h2, h3⟩

/-- A sum over all rows is the sum over halves, tiles of 512 and rows of a tile. -/
theorem sum_row512 {M : Type*} [AddCommMonoid M] (f : Fin 8192 → M) :
    ∑ s, f s = ∑ c : Fin 2, ∑ i : Fin 8, ∑ r : Fin 512, f (row512 c i.val r) := by
  have hb : Function.Bijective (fun q : Fin 2 × Fin 8 × Fin 512 => row512 q.1 q.2.1.val q.2.2) :=
    (Fintype.bijective_iff_injective_and_card _).2 ⟨row512_injective, by simp⟩
  rw [← Fintype.sum_bijective _ hb (fun q => f (row512 q.1 q.2.1.val q.2.2)) f (fun _ => rfl)]
  rw [Fintype.sum_prod_type]
  refine Finset.sum_congr rfl fun c _ => ?_
  rw [Fintype.sum_prod_type]

/-- The rows of the `n`-th tile of 512 of half `c`. -/
def tile (c : Fin 2) (n : ℕ) : Finset (Fin 8192) := (Finset.univ : Finset (Fin 512)).image (row512 c n)

/-- The rows of the first `n` tiles of 512 of half `c`. -/
def keys (c : Fin 2) (n : ℕ) : Finset (Fin 8192) := (Finset.range n).biUnion (tile c)

theorem mem_tile {c : Fin 2} {n : ℕ} {s : Fin 8192} : s ∈ tile c n ↔ ∃ r, row512 c n r = s := by
  simp [tile]

theorem mem_keys {c : Fin 2} {n : ℕ} {s : Fin 8192} :
    s ∈ keys c n ↔ ∃ i, i < n ∧ ∃ r, row512 c i r = s := by
  simp [keys, tile]

theorem keys_zero (c : Fin 2) : keys c 0 = ∅ := by simp [keys]

theorem keys_succ (c : Fin 2) (n : ℕ) : keys c (n + 1) = keys c n ∪ tile c n := by
  rw [keys, Finset.range_add_one, Finset.biUnion_insert, Finset.union_comm]; rfl

theorem tile_nonempty (c : Fin 2) (n : ℕ) : (tile c n).Nonempty :=
  ⟨row512 c n 0, mem_tile.2 ⟨0, rfl⟩⟩

theorem row512_tile_injective (c : Fin 2) {n : ℕ} (hn : n < 8) : Function.Injective (row512 c n) :=
  fun _ _ h => (row512_inj hn hn h).2.2

/-- A further tile of the same half is disjoint from the tiles before it. -/
theorem disjoint_keys_tile (c : Fin 2) {n : ℕ} (hn : n < 8) : Disjoint (keys c n) (tile c n) := by
  rw [Finset.disjoint_left]
  intro s hs ht
  obtain ⟨i, hi, r, rfl⟩ := mem_keys.1 hs
  obtain ⟨r', h⟩ := mem_tile.1 ht
  have := (row512_inj hn (by omega) h).2.1
  omega

/-- The two halves' rows are disjoint. -/
theorem disjoint_keys_halves : Disjoint (keys 0 8) (keys 1 8) := by
  rw [Finset.disjoint_left]
  intro s hs ht
  obtain ⟨i, hi, r, rfl⟩ := mem_keys.1 hs
  obtain ⟨i', hi', r', h⟩ := mem_keys.1 ht
  have := (row512_inj hi' hi h).1
  exact absurd this (by decide)

/-- The two halves' rows are all the rows. -/
theorem keys_union_halves : keys 0 8 ∪ keys 1 8 = Finset.univ := by
  ext s
  simp only [Finset.mem_union, Finset.mem_univ, iff_true]
  obtain ⟨c, n, hn, r, h⟩ := row512_surj s
  have hc : c = 0 ∨ c = 1 := by omega
  rcases hc with rfl | rfl
  · exact Or.inl (mem_keys.2 ⟨n, hn, r, h⟩)
  · exact Or.inr (mem_keys.2 ⟨n, hn, r, h⟩)

end Cert.Spec
-- ==== Proof.SpecMathAdj.lean ====
/-
  The mid-level adjacency `m1ᵀ · adj · m1`: the two ways of associating the product agree.

  The tiled form sums `m1 s a * ∑ k, adj s k * m1 k j` over the rows `s`, arranged by half, tile of 256 and
  row of the tile; re-indexed, this is the plain sum over all rows. With real entries every product and sum is
  a real one, and over the reals `∑ s, A s * ∑ k, B s k * C k = ∑ t, (∑ s, A s * B s t) * C t` by
  distributivity and exchanging the two sums.
-/
import proofs.«114392_j58480274702406_2_alg».proof.Proof.Spec
import proofs.«114392_j58480274702406_2_alg».proof.Proof.LibOnlineSoftmax
import proofs.«114392_j58480274702406_2_alg».proof.Proof.SpecMathIndex

namespace Cert.Spec

open Finset Cert.OnlineSoftmax

/-- Associativity of a triple product of real matrices, entry by entry. -/
theorem real_assoc {ι κ : Type} [Fintype ι] [Fintype κ] (A : ι → ℝ) (B : ι → κ → ℝ) (C : κ → ℝ) :
    ∑ s, A s * ∑ k, B s k * C k = ∑ t, (∑ s, A s * B s t) * C t := by
  simp only [Finset.mul_sum, Finset.sum_mul]
  rw [Finset.sum_comm]
  refine Finset.sum_congr rfl fun t _ => Finset.sum_congr rfl fun s _ => ?_
  ring

/-- The tiled adjacency product is the plain sum over all rows (any entries). -/
theorem kMidAdj_eq_sum (m1 : Mat 8192 10) (adj : Mat 8192 8192) (a j : Fin 10) :
    kMidAdj m1 adj a j = ∑ s : Fin 8192, m1 s a * ∑ k : Fin 8192, adj s k * m1 k j := by
  rw [sum_row256 (fun s => m1 s a * ∑ k : Fin 8192, adj s k * m1 k j), Fin.sum_univ_two]
  rfl

/-- With real entries the two associations of `m1ᵀ · adj · m1` agree. -/
theorem sum_assoc_of_real (m1 : Mat 8192 10) (adj : Mat 8192 8192)
    (hm1 : ∀ s p, ∃ r : ℝ, m1 s p = (r : EReal)) (hadj : ∀ s t, ∃ r : ℝ, adj s t = (r : EReal))
    (a j : Fin 10) :
    (∑ s : Fin 8192, m1 s a * ∑ k : Fin 8192, adj s k * m1 k j) = rMidAdj m1 adj a j := by
  choose m1R hm1R using hm1
  choose adjR hadjR using hadj
  have hl : (∑ s : Fin 8192, m1 s a * ∑ k : Fin 8192, adj s k * m1 k j)
      = ((∑ s, m1R s a * ∑ k, adjR s k * m1R k j : ℝ) : EReal) := by
    simp only [hm1R, hadjR, EReal.coe_mul, coe_sum]
  have hr : rMidAdj m1 adj a j = ((∑ t, (∑ s, m1R s a * adjR s t) * m1R t j : ℝ) : EReal) := by
    simp only [rMidAdj, hm1R, hadjR, EReal.coe_mul, coe_sum]
  rw [hl, hr, real_assoc]

end Cert.Spec
-- ==== Proof.SpecMathMid.lean ====
/-
  The mid-level features `mid = m1ᵀ · x` and the scores built from them.

  The tiled `mid` sums `m1 s p * x s d` over the rows arranged by half, tile of 512 and row of the tile;
  re-indexed, it is the plain sum over all rows, so the tiled and the plain `mid` agree, and so do the scores,
  which are the same formula in `mid`. With real entries every score is a real number.
-/
import proofs.«114392_j58480274702406_2_alg».proof.Proof.Spec
import proofs.«114392_j58480274702406_2_alg».proof.Proof.LibOnlineSoftmax
import proofs.«114392_j58480274702406_2_alg».proof.Proof.SpecMathIndex

namespace Cert.Spec

open Finset Cert.OnlineSoftmax

/-- The tiled `m1ᵀ · x` is the plain one. -/
theorem kMid_eq (m1 : Mat 8192 10) (x : Mat 8192 768) : kMid m1 x = rMid m1 x := by
  funext p d
  rw [rMid, sum_row512 (fun s => m1 s p * x s d), Fin.sum_univ_two]
  rfl

/-- Hence the scores agree. -/
theorem kScore_eq (m1 : Mat 8192 10) (x : Mat 8192 768) (att : Mat 768 768) :
    kScore m1 x att = rScore m1 x att := by
  funext p s
  rw [kScore, rScore, kMid_eq]

/-- With real entries every score is a real number. -/
theorem rScore_real (m1 : Mat 8192 10) (x : Mat 8192 768) (att : Mat 768 768)
    (hm1 : ∀ s p, ∃ r : ℝ, m1 s p = (r : EReal)) (hx : ∀ s d, ∃ r : ℝ, x s d = (r : EReal))
    (hatt : ∀ d e, ∃ r : ℝ, att d e = (r : EReal)) (p : Fin 10) :
    ∃ sR : Fin 8192 → ℝ, ∀ s, rScore m1 x att p s = (sR s : EReal) := by
  choose m1R hm1R using hm1
  choose xR hxR using hx
  choose attR hattR using hatt
  refine ⟨fun s => (∑ e, (∑ d, (∑ t, m1R t p * xR t d) * attR d e) * xR s e) * (1 - m1R s p), fun s => ?_⟩
  simp only [rScore, rMid, hm1R, hxR, hattR, EReal.coe_mul, coe_sum, EReal.coe_sub, EReal.coe_one]

end Cert.Spec
-- ==== Proof.SpecMathStream.lean ====
/-
  The streamed softmax of one half.

  Row `p`'s state on half `c` after `n ≤ 8` tiles of 512 keys represents, in the sense of the online-softmax
  invariant, the set of keys of those `n` tiles: its first component is the supremum of their scores, its second
  the sum of the exponentials of the scores taken at that supremum, its third (feature by feature) the sum of
  the exponentials times the values. The proof is the induction over the tiles: one more tile is one streamed
  block. The largest score of a tile, computed as a fold of `max` from `-∞`, is the supremum over the tile's keys,
  and sums over the tile's keys are sums over the 512 positions of the tile, because the position-to-row map of
  a tile is injective.
-/
import proofs.«114392_j58480274702406_2_alg».proof.Proof.Spec
import proofs.«114392_j58480274702406_2_alg».proof.Proof.LibOnlineSoftmax
import proofs.«114392_j58480274702406_2_alg».proof.Proof.SpecMathIndex

namespace Cert.Spec

open Finset Cert.OnlineSoftmax Idealize.ShloMosaic

/-- A fold of `max` from `-∞` is the supremum. -/
theorem fold_max_eq_sup {ι : Type} (S : Finset ι) (f : ι → EReal) : S.fold max ⊥ f = S.sup f := rfl

variable (m1 : Mat 8192 10) (x : Mat 8192 768) (att : Mat 768 768)

/-- After `n ≤ 8` tiles the state of half `c` represents the keys of those tiles. -/
theorem kState_holds (sR : Fin 8192 → ℝ) (xR : Fin 8192 → Fin 768 → ℝ) (p : Fin 10)
    (hs : ∀ s, kScore m1 x att p s = (sR s : EReal)) (hx : ∀ s d, x s d = (xR s d : EReal))
    (c : Fin 2) (d : Fin 768) :
    ∀ n, n ≤ 8 → Holds sR (fun s => xR s d) (keys c n) (kState m1 x att c p n).1
      (kState m1 x att c p n).2.1 ((kState m1 x att c p n).2.2 d)
  | 0, _ => by
      rw [keys_zero]
      exact holds_empty
  | n + 1, hn => by
      have hn' : n < 8 := hn
      have ih := kState_holds sR xR p hs hx c d n (by omega)
      have hinj := row512_tile_injective c hn'
      have hsup : (tile c n).sup (fun k => (sR k : EReal))
          = (Finset.univ : Finset (Fin 512)).fold max ⊥ (fun r => kScore m1 x att p (row512 c n r)) := by
        rw [tile, Finset.sup_image, fold_max_eq_sup]
        exact congrArg _ (funext fun r => (hs _).symm)
      have h := ih.step (disjoint_keys_tile c hn') (tile_nonempty c n)
        (M' := max (kState m1 x att c p n).1 ((tile c n).sup fun k => (sR k : EReal))) rfl
      rw [hsup, tile, Finset.sum_image (fun a _ b _ h => hinj h),
        Finset.sum_image (fun a _ b _ h => hinj h)] at h
      simp only [← hs, ← hx] at h
      rw [keys_succ]
      exact h

end Cert.Spec
-- ==== Proof.SpecMath.lean ====
/-
  The tiled forms of the two intermediate arrays equal the textbook forms, for real entries.

  The mid-level adjacency: the tiled sum is the plain sum over all rows, and over the reals the two
  associations of `m1ᵀ · adj · m1` agree.

  The mid-level representation: the tiled `mid` and scores equal the plain ones. Each half's streamed state
  after its 8 tiles represents that half's keys; the two halves' key sets are disjoint and together are all the
  keys, so the merged state represents all keys, and its quotient is the softmax-weighted sum with every weight
  `e^(score - M) / L` formed first, `M` the supremum of all scores and `L` the sum of the exponentials. The
  textbook form has the same `M` (a maximum folded from `-∞` and joined once more with `-∞`) and the same `L`
  (with a zero added in front). The two summands `mid` and the attention output appear in the other order.
-/
import proofs.«114392_j58480274702406_2_alg».proof.Proof.Spec
import proofs.«114392_j58480274702406_2_alg».proof.Proof.LibOnlineSoftmax
import proofs.«114392_j58480274702406_2_alg».proof.Proof.SpecMathIndex
import proofs.«114392_j58480274702406_2_alg».proof.Proof.SpecMathAdj
import proofs.«114392_j58480274702406_2_alg».proof.Proof.SpecMathMid
import proofs.«114392_j58480274702406_2_alg».proof.Proof.SpecMathStream

namespace Cert.Spec

open Finset Cert.OnlineSoftmax Idealize.ShloMosaic

/-- The tiled mid-level adjacency equals `(m1ᵀ · adj) · m1`. -/
theorem midAdj_eq (m1 : Mat 8192 10) (adj : Mat 8192 8192)
    (hm1 : ∀ s p, ∃ r : ℝ, m1 s p = (r : EReal)) (hadj : ∀ s t, ∃ r : ℝ, adj s t = (r : EReal)) (a j : Fin 10) :
    kMidAdj m1 adj a j = rMidAdj m1 adj a j := by
  rw [kMidAdj_eq_sum, sum_assoc_of_real m1 adj hm1 hadj]

/-- The merged and normalised streamed softmax is the softmax-weighted sum over all keys. -/
theorem kAttn_eq (m1 : Mat 8192 10) (x : Mat 8192 768) (att : Mat 768 768)
    (sR : Fin 8192 → ℝ) (xR : Fin 8192 → Fin 768 → ℝ) (p : Fin 10)
    (hs : ∀ s, kScore m1 x att p s = (sR s : EReal)) (hx : ∀ s d, x s d = (xR s d : EReal)) (d : Fin 768) :
    kAttn m1 x att p d = ∑ k : Fin 8192,
      Ideal.div (Ideal.exp ((sR k : EReal) - Finset.univ.sup fun t => (sR t : EReal)))
        (∑ t : Fin 8192, Ideal.exp ((sR t : EReal) - Finset.univ.sup fun u => (sR u : EReal))) * (xR k d : EReal) := by
  have h0 := kState_holds m1 x att sR xR p hs hx 0 d 8 le_rfl
  have h1 := kState_holds m1 x att sR xR p hs hx 1 d 8 le_rfl
  have hne : (keys 0 8 ∪ keys 1 8).Nonempty := by rw [keys_union_halves]; exact Finset.univ_nonempty
  have hm := h0.merge h1 disjoint_keys_halves hne
  rw [keys_union_halves] at hm
  have hk : kAttn m1 x att p d = _ := hm.normalise Finset.univ_nonempty
  rw [hk, hm.norm_eq, hm.max_eq]

/-- The tiled mid-level representation equals `softmax(scores) · x + mid`. -/
theorem midRep_eq (m1 : Mat 8192 10) (x : Mat 8192 768) (att : Mat 768 768)
    (hm1 : ∀ s p, ∃ r : ℝ, m1 s p = (r : EReal)) (hx : ∀ s d, ∃ r : ℝ, x s d = (r : EReal))
    (hatt : ∀ d e, ∃ r : ℝ, att d e = (r : EReal)) (p : Fin 10) (d : Fin 768) :
    kMidRep m1 x att p d = rMidRep m1 x att p d := by
  obtain ⟨sR, hsR⟩ := rScore_real m1 x att hm1 hx hatt p
  choose xR hxR using hx
  have hs : ∀ s, kScore m1 x att p s = (sR s : EReal) := fun s => by rw [kScore_eq]; exact hsR s
  have hfun : rScore m1 x att p = fun s => (sR s : EReal) := funext hsR
  rw [kMidRep, rMidRep, kAttn_eq m1 x att sR xR p hs hxR d, kMid_eq, add_comm (rMid m1 x p d)]
  simp only [rExp, rNorm, rMax, hfun, hxR, zero_add, fold_max_eq_sup, max_bot_left]

end Cert.Spec
-- ==== Proof.BridgeEnd.lean ====
/-
  The end of the bridge between the two programs. Suppose the kernel program's result is the last stage's function
  of its two mid-level arrays and of the five remaining parameter arrays, and those two arrays are, entry by entry,
  the tiled forms of the specification over the low-to-mid mapping and the first three arguments. Over real
  entries the tiled forms equal the textbook forms, and the textbook forms are what the reference's line leaves in
  its two mid-level buffers; the arguments agree. So the kernel program's result is the value the reference's run
  ends with.
-/
import proofs.«114392_j58480274702406_2_alg».proof.Proof.Gen.KernelIdeal.Regions
import proofs.«114392_j58480274702406_2_alg».proof.Proof.RefValue
import proofs.«114392_j58480274702406_2_alg».proof.Proof.SpecMath

noncomputable section

namespace Cert.Bridge

open Idealize.ShloMosaic Idealize.ShloMosaic.TcCoe Idealize.SL.Sem Idealize.ShloMosaic.StableHlo Idealize.ShloMosaic.ValueIdx
open Cert.KernelIdeal.Gen (V8 V12 V23)

/-- If the kernel program's result is `tail` of its two mid-level arrays and the later parameters, and those arrays are
    the tiled forms over the mapping and the (real, agreeing) first three arguments, then the result is the reference's. -/
theorem bridge_end
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Cert.KernelIdeal.Gen.Outs (F := Ideal)) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hfin : (∀ i, ∃ r : ℝ, (m ((c.tc : Thread Cert.KernelIdeal.nD Cert.KernelIdeal.τ).loc Cert.KernelIdeal.main_arg0) : Cert.ReferenceIdeal.S8192x768.Idx → EReal) i = (r : EReal)) ∧ (∀ i, ∃ r : ℝ, (m ((c.tc : Thread Cert.KernelIdeal.nD Cert.KernelIdeal.τ).loc Cert.KernelIdeal.main_arg1) : Cert.ReferenceIdeal.S8192x8192.Idx → EReal) i = (r : EReal))
      ∧ (∀ i, ∃ r : ℝ, (m ((c.tc : Thread Cert.KernelIdeal.nD Cert.KernelIdeal.τ).loc Cert.KernelIdeal.main_arg2) : Cert.ReferenceIdeal.S768x768.Idx → EReal) i = (r : EReal)))
    (T : (Cert.ReferenceIdeal.S10x10.Idx → EReal) → (Cert.ReferenceIdeal.S10x768.Idx → EReal) → (Cert.ReferenceIdeal.S768x768.Idx → EReal) → (Cert.ReferenceIdeal.S768.Idx → EReal)
      → (Cert.ReferenceIdeal.S768x768.Idx → EReal) → (Cert.ReferenceIdeal.S768x768.Idx → EReal) → (Cert.ReferenceIdeal.S768.Idx → EReal) → Cert.ReferenceIdeal.S768.Idx → EReal)
    (hT : T = Cert.ReferenceIdeal.RefValue.tail)
    (htail : (V23 m outs c Cert.KernelIdeal.main_v146 : Cert.ReferenceIdeal.S768.Idx → EReal)
      = T (V8 m outs c Cert.KernelIdeal.main_v11) (V12 m outs c Cert.KernelIdeal.main_v51) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hAdj : ∀ a j : Fin 10, @Eq EReal (V8 m outs c Cert.KernelIdeal.main_v11 (ix2 a j))
      (Cert.Spec.kMidAdj Cert.ReferenceIdeal.RefValue.M1 (fun s t => (m ((c.tc : Thread Cert.KernelIdeal.nD Cert.KernelIdeal.τ).loc Cert.KernelIdeal.main_arg1) : Cert.ReferenceIdeal.S8192x8192.Idx → EReal) (ix2 s t)) a j))
    (hRep : ∀ (p : Fin 10) (d : Fin 768), @Eq EReal (V12 m outs c Cert.KernelIdeal.main_v51 (ix2 p d))
      (Cert.Spec.kMidRep Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p d)) :
    (V23 m outs c Cert.KernelIdeal.main_v146 : Cert.ReferenceIdeal.S768.Idx → EReal)
      = Cert.ReferenceIdeal.RefValue.tail (after Cert.ReferenceIdeal.RefRun.ops (launchContents m' c) (Proc.devRef .tc Cert.ReferenceIdeal.main_v5))
          (after Cert.ReferenceIdeal.RefRun.ops (launchContents m' c) (Proc.devRef .tc Cert.ReferenceIdeal.main_v27))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  obtain ⟨g0, g1, g2, g3, g4, g5, g6, g7⟩ := hagree
  obtain ⟨f0, f1, f2⟩ := hfin
  -- the reference's launch contents at the first three arguments are the kernel program's
  have e0 : (launchContents m' c (Proc.devRef .tc Cert.ReferenceIdeal.main_arg0) : Cert.ReferenceIdeal.S8192x768.Idx → EReal) = m ((c.tc : Thread Cert.KernelIdeal.nD Cert.KernelIdeal.τ).loc Cert.KernelIdeal.main_arg0) := g0
  have e1 : (launchContents m' c (Proc.devRef .tc Cert.ReferenceIdeal.main_arg1) : Cert.ReferenceIdeal.S8192x8192.Idx → EReal) = m ((c.tc : Thread Cert.KernelIdeal.nD Cert.KernelIdeal.τ).loc Cert.KernelIdeal.main_arg1) := g1
  have e2 : (launchContents m' c (Proc.devRef .tc Cert.ReferenceIdeal.main_arg2) : Cert.ReferenceIdeal.S768x768.Idx → EReal) = m ((c.tc : Thread Cert.KernelIdeal.nD Cert.KernelIdeal.τ).loc Cert.KernelIdeal.main_arg2) := g2
  have hA : (V8 m outs c Cert.KernelIdeal.main_v11 : Cert.ReferenceIdeal.S10x10.Idx → EReal)
      = after Cert.ReferenceIdeal.RefRun.ops (launchContents m' c) (Proc.devRef .tc Cert.ReferenceIdeal.main_v5) := by
    funext i
    obtain ⟨a, j, rfl⟩ : ∃ (a : Fin 10) (j : Fin 10), i = ix2 a j := ⟨i 0, i 1, eq_ix2 i⟩
    rw [Cert.ReferenceIdeal.RefValue.midAdj_apply (launchContents m' c) a j, e1]
    exact (hAdj a j).trans (Cert.Spec.midAdj_eq _ _ Cert.ReferenceIdeal.RefValue.M1_real (fun s t => f1 (ix2 s t)) a j)
  have hB : (V12 m outs c Cert.KernelIdeal.main_v51 : Cert.ReferenceIdeal.S10x768.Idx → EReal)
      = after Cert.ReferenceIdeal.RefRun.ops (launchContents m' c) (Proc.devRef .tc Cert.ReferenceIdeal.main_v27) := by
    funext i
    obtain ⟨p, d, rfl⟩ : ∃ (p : Fin 10) (d : Fin 768), i = ix2 p d := ⟨i 0, i 1, eq_ix2 i⟩
    rw [Cert.ReferenceIdeal.RefValue.midRep_apply (launchContents m' c) p d, e0, e2]
    exact (hRep p d).trans (Cert.Spec.midRep_eq _ _ _ Cert.ReferenceIdeal.RefValue.M1_real (fun s e => f0 (ix2 s e)) (fun e f => f2 (ix2 e f)) p d)
  rw [htail, hT, hA, hB, g3, g4, g5, g6, g7]

end Cert.Bridge

end
-- ==== Proof.KHostDefs.lean ====
/- Names for what the three kernel regions leave in their output arrays, read as functions of an index into the
   extended reals, and the embedding of the ten real rows among the 128 padded ones. -/
import proofs.«114392_j58480274702406_2_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Cert.KernelIdeal Cert.KernelIdeal.Gen
open Idealize.ShloMosaic Idealize.ShloMosaic.TcCoe

variable (outs : Outs (F := Ideal)) (c : Dev nD)

/-- The two halves' partial products mapᵀ · adjacency · map, as region 0 leaves them: [2, 128, 128]. -/
abbrev O5 : S2x128x128.Idx → EReal := outs 7 main_v5 c
/-- The two halves' partial products mapᵀ · x, as region 1 leaves them: [2, 128, 768]. -/
abbrev O12 : S2x128x768.Idx → EReal := outs 9 main_v12 c
/-- The two halves' running maxima, as region 2 leaves them: [2, 128, 1]. -/
abbrev OM : S2x128x1.Idx → EReal := outs 11 main_v22_0 c
/-- The two halves' normalisers, as region 2 leaves them: [2, 128, 1]. -/
abbrev OL : S2x128x1.Idx → EReal := outs 11 main_v22_1 c
/-- The two halves' weighted sums, as region 2 leaves them: [2, 128, 768]. -/
abbrev OA : S2x128x768.Idx → EReal := outs 11 main_v22_2 c

/-- One of the ten real rows as a row of the 128 padded ones. -/
abbrev up (p : Fin 10) : Fin 128 := Fin.castLE (by decide) p

end Cert.KernelIdeal.KHost

end
-- ==== Proof.KHostAdj.lean ====
/- The coarse adjacency the host reads off region 0's output: the two halves' partial products, added, and cut down to
   the ten real clusters. -/
import proofs.«114392_j58480274702406_2_alg».proof.Proof.KHostDefs

set_option maxRecDepth 4000

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-- mid_adj at (a, j) is the sum of the two halves' partial products at the same row and column of the padded 128 × 128
    tile: a slice [0:10, 0:10] of the sum of two reshaped slices [h:h+1, 0:128, 0:128], h = 0, 1. -/
theorem midAdj (a j : Fin 10) :
    @Eq EReal (V8 m outs c main_v11 (ix2 a j))
      (O5 outs c (ix3 (0 : Fin 2) (up a) (up j)) + O5 outs c (ix3 (1 : Fin 2) (up a) (up j))) := by
  show StableHlo.after hostOps1 (V7 m outs c) (Proc.devRef .tc main_v11) (ix2 a j) = _
  after_results
  simp only [V7, Function.update_self]
  -- the outer slice [0:10, 0:10] reads the padded tile at the same coordinates
  refine (extractStridedSlice_apply _ _ _ (ix2 a j) (ix2 (up a) (up j)) (fun b => ?_)).trans ?_
  · match b with
    | ⟨0, _⟩ => show a.val = 0 + a.val; omega
    | ⟨1, _⟩ => show j.val = 0 + j.val; omega
  rw [addf_apply]
  -- each summand: a reshape [1,128,128] → [128,128] of a slice [h:h+1] of the region's output
  refine congrArg₂ (· + ·) ?_ ?_
  · refine (shapeCast_apply _ _ (ix2 (up a) (up j)) (ix3 (0 : Fin 1) (up a) (up j)) ?_).trans ?_
    · rw [Shape.rowMajor_val_three, Shape.rowMajor_val_two]
      show (0 * 128 + a.val) * 128 + j.val = a.val * 128 + j.val; omega
    refine extractStridedSlice_apply _ _ _ _ (ix3 (0 : Fin 2) (up a) (up j)) (fun b => ?_)
    match b with
    | ⟨0, _⟩ => rfl
    | ⟨1, _⟩ => show a.val = 0 + a.val; omega
    | ⟨2, _⟩ => show j.val = 0 + j.val; omega
  · refine (shapeCast_apply _ _ (ix2 (up a) (up j)) (ix3 (0 : Fin 1) (up a) (up j)) ?_).trans ?_
    · rw [Shape.rowMajor_val_three, Shape.rowMajor_val_two]
      show (0 * 128 + a.val) * 128 + j.val = a.val * 128 + j.val; omega
    refine extractStridedSlice_apply _ _ _ _ (ix3 (1 : Fin 2) (up a) (up j)) (fun b => ?_)
    match b with
    | ⟨0, _⟩ => rfl
    | ⟨1, _⟩ => show a.val = 0 + a.val; omega
    | ⟨2, _⟩ => show j.val = 0 + j.val; omega

end Cert.KernelIdeal.KHost

end
-- ==== Proof.KHostMap.lean ====
/-
  The kernel program's low-to-mid mapping. Its first host operations are the reference's: an iota over the 8192 nodes,
  the floor quotient by 820, the comparison with the column number, the bit read as a float; so the 8192 × 10 array
  they leave is the reference's mapping. The program then pads it on the right to 128 columns with the integer zero
  read as a float, which is zero, and rewrites the padded array in a narrower float format, which at the exact
  reals changes nothing. None of these operations, and no operation up to the second region's entry, writes an argument.
-/
import proofs.«114392_j58480274702406_2_alg».proof.Proof.Gen.KernelIdeal.Regions
import proofs.«114392_j58480274702406_2_alg».proof.Proof.RefValue
import Idealize.ShloMosaic.Lib.KernelVsHost
import Idealize.ShloMosaic.Lib.ValueIdx

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-- The mapping's buffer at the first region's entry holds the reference's mapping: the same operations computed it. -/
theorem m1K : (V6 m c main_v2 : S8192x10.Idx → EReal) = Cert.ReferenceIdeal.RefValue.m1Arr := by
  refine (V6_of m c main_v2 (by decide)).trans <| (V5_of m c main_v2 (by decide)).trans <| (V4_of m c main_v2 (by decide)).trans ?_
  show StableHlo.after hostOps0_2 (StableHlo.after hostOps0_1 (StableHlo.after hostOps0 (V0 m c))) (Proc.devRef .tc main_v2) = _
  after_results_simp
  rfl

/-- The integer zero read as a float is zero. -/
theorem pad_value : (sitofp (F := Ideal) .f32 (constantI S_ 32 0#32) : S_.Idx → EReal) (Shape.Idx.first h_S_) = 0 := by
  show (((0#32 : BitVec 32).toInt : ℝ) : EReal) = 0
  simp

/-- The padded mapping at the first region's entry: column `q` of the mapping where `q < 10`, zero in the 118 columns
    added on the right. -/
theorem m1pad (s : Fin 8192) (q : Fin 128) :
    @Eq EReal (V6 m c main_v3 (ix2 s q)) (if h : q.val < 10 then Cert.ReferenceIdeal.RefValue.M1 s ⟨q.val, h⟩ else 0) := by
  have h2 : (V4 m c main_v2 : S8192x10.Idx → EReal) = Cert.ReferenceIdeal.RefValue.m1Arr :=
    ((V5_of m c main_v2 (by decide)).symm.trans (V6_of m c main_v2 (by decide)).symm).trans (m1K m c)
  have h0 : (V4 m c main_c_0 : S_.Idx → BitVec 32) = constantI S_ 32 0#32 := by
    show StableHlo.after hostOps0_3 (V3 m c) (Proc.devRef .tc main_c_0) = _
    generalize V3 m c = W3
    after_results_simp
  have e : (V6 m c main_v3 : S8192x128.Idx → EReal)
      = pad S8192x128 ![0, 0] ![0, 118] ![0, 0] (V4 m c main_v2 : S8192x10.Idx → EReal)
          (sitofp (F := Ideal) .f32 (V4 m c main_c_0 : S_.Idx → BitVec 32)) pads_S8192x10_S8192x128_000_01180 h_S_ := by
    refine (V6_of m c main_v3 (by decide)).trans ?_
    show StableHlo.after hostOps0_4 (V4 m c) (Proc.devRef .tc main_v3) = _
    generalize V4 m c = W4
    after_results_simp
    rfl
  rw [e, h2, h0]
  by_cases h : q.val < 10
  · rw [dif_pos h]
    refine (pad_apply_of_inside _ _ _ _ _ _ _ (ix2 s q) (ix2 s (⟨q.val, h⟩ : Fin 10)) (fun a => ?_)).trans rfl
    match a with
    | ⟨0, _⟩ => show s.val = 0 + s.val * (0 + 1); omega
    | ⟨1, _⟩ => show q.val = 0 + q.val * (0 + 1); omega
  · rw [dif_neg h]
    refine (pad_apply_of_not_inside _ _ _ _ _ _ _ (ix2 s q) (1 : Fin 2) ?_).trans pad_value
    show ¬(0 ≤ q.val ∧ (q.val - 0) % (0 + 1) = 0 ∧ (q.val - 0) / (0 + 1) < 10)
    omega

/-- Rewriting the padded mapping in the narrower float format changes nothing at the exact reals. -/
theorem m1bf16 : (V6 m c main_v4 : S8192x128.Idx → EReal) = V6 m c main_v3 := by
  show StableHlo.after hostOps0_5 (V5 m c) (Proc.devRef .tc main_v4) = StableHlo.after hostOps0_5 (V5 m c) (Proc.devRef .tc main_v3)
  generalize V5 m c = W5
  after_results_simp
  rfl

/-! ## The arrays the regions read are as launched, or as the first stretch left them -/

/-- The node adjacency at the first region's entry is as launched. -/
theorem V6_main_arg1 : V6 m c main_arg1 = m ((c : Thread nD τ).loc main_arg1) :=
  (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

/-- The node features at the second region's entry are as launched. -/
theorem V8_main_arg0 : V8 m outs c main_arg0 = m ((c : Thread nD τ).loc main_arg0) :=
  (V8_of m outs c main_arg0 (by decide)).trans <| (V7_of m outs c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

/-- The padded mapping is not written between the first region's entry and the second's. -/
theorem V8_main_v3 : V8 m outs c main_v3 = V6 m c main_v3 :=
  (V8_of m outs c main_v3 (by decide)).trans <| (V7_of m outs c main_v3 (by decide))

/-- The node features at the third region's entry are as launched. -/
theorem V10_main_arg0 : V10 m outs c main_arg0 = m ((c : Thread nD τ).loc main_arg0) :=
  (V10_of m outs c main_arg0 (by decide)).trans <| (V9_of m outs c main_arg0 (by decide)).trans <| (V8_of m outs c main_arg0 (by decide)).trans <| (V7_of m outs c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

end Cert.KernelIdeal.KHost

end
-- ==== Proof.KI0ValPiece.lean ====
/-
  What each of the two cases of the first region's body leaves in the output block's buffer, as one formula of the
  blocks it read: at a first point of a half, the payload over the zero block; at a later point, the payload over what
  the buffer held.
-/
import proofs.«114392_j58480274702406_2_alg».proof.Proof.KI0Dat
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a rank-two block. -/
theorem v0_hz2 : (![0, 0] : Fin 2 → Nat) = fun _ => 0 := funext fun a => by fin_cases a <;> rfl
/-- The zero offsets of a rank-three block. -/
theorem v0_hz3 : (![0, 0, 0] : Fin 3 → Nat) = fun _ => 0 := funext fun a => by fin_cases a <;> rfl

/-- At a later point of a half the body's one store covers the block: it leaves the old block plus the tile's product. -/
theorem out0_B_eq (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : ¬cond0_0 i)
    (x0 : Vec F S256x8192 .f32) (x1 : Vec F S8192x128 .bf16) (x2 : Vec F S256x128 .bf16) (xo : Vec F S1x128x128 .f32) :
    out0_B c i arg2 harg2 arg3 harg3 arg4 harg4 arg5 harg5 hc0 x0 x1 x2 xo = k0_pay2 x0 x1 x2 xo := by
  unfold out0_B
  rw [View.read_writes_eq_canon _ _ _ (cover0_B c i arg2 harg2 arg3 harg3 arg4 harg4 arg5 harg5 hc0 x0 x1 x2 xo)]
  unfold kernelRun0_B
  dsimp only
  rw [View.canon_unit_zero v0_hz3]
  simp only [View.readAt_eq_ld, harg2.read_unread, harg3.read_unread, harg4.read_unread, harg5.read_unread,
    View.ld_unit_zero (S := S256x8192) v0_hz2, View.ld_unit_zero (S := S8192x128) v0_hz2,
    View.ld_unit_zero (S := S256x128) v0_hz2, View.ld_unit_zero (S := S1x128x128) v0_hz3]

/-- At the first point of a half the body stores the zero block, reads it back, and leaves zero plus the tile's product. -/
theorem out0_A_eq (c : Dev nD) (i : grid0.Coords) (arg2 : Memref sig .tc .vmem S256x8192 .f32) (harg2 : arg2.IsWhole) (arg3 : Memref sig .tc .vmem S8192x128 .bf16) (harg3 : arg3.IsWhole) (arg4 : Memref sig .tc .vmem S256x128 .bf16) (harg4 : arg4.IsWhole) (arg5 : Memref sig .tc .vmem S1x128x128 .f32) (harg5 : arg5.IsWhole) (hc0 : cond0_0 i)
    (x0 : Vec F S256x8192 .f32) (x1 : Vec F S8192x128 .bf16) (x2 : Vec F S256x128 .bf16) :
    out0_A c i arg2 harg2 arg3 harg3 arg4 harg4 arg5 harg5 hc0 x0 x1 x2 = k0_pay2 x0 x1 x2 k0_pay1 := by
  unfold out0_A
  rw [View.read_writes_eq_canon _ _ _ (cover0_A c i arg2 harg2 arg3 harg3 arg4 harg4 arg5 harg5 hc0 x0 x1 x2)]
  unfold kernelRun0_A
  dsimp only
  sl_unfold_words
  rw [View.canon_cons_unit_zero (S := S1x128x128) v0_hz3, View.readCov_unit_zero (S := S1x128x128) _ v0_hz3]
  simp only [View.readAt_eq_ld, harg2.read_unread, harg3.read_unread, harg4.read_unread,
    View.ld_unit_zero (S := S256x8192) v0_hz2, View.ld_unit_zero (S := S8192x128) v0_hz2,
    View.ld_unit_zero (S := S256x128) v0_hz2]

end Cert.KernelIdeal.Hand

end
-- ==== Proof.KI0ValPay.lean ====
/-
  The first region's arithmetic, read at one entry over the extended reals (a change of float format is the identity
  there). The inner product adjtile · m1 at (r, j) is the sum over the 8192 nodes k of adjtile (r, k) · m1 (k, j); the
  outer product m1tileᵀ · (adjtile · m1) at (a, j) is the sum over the tile's 256 rows r of m1tile (r, a) times that; the
  payload adds it to the old block's entry; the reset block is zero everywhere.
-/
import proofs.«114392_j58480274702406_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The product of the 256 × 8192 tile with the 8192 × 128 matrix into the zero block, at (r, j): the sum over the
    contracted node k of the two entries' product. -/
theorem mm0a_apply (A : FVec Ideal S256x8192 .bf16) (B : FVec Ideal S8192x128 .bf16) (r : Fin 256) (j : Fin 128) :
    matmul dot_S256x8192_S8192x128_S256x128_1_0_0_1_n_n none A B (constant S256x128 .f32 0x00000000#32) (ix2 r j)
      = ∑ k : Fin 8192, A (ix2 r k) * B (ix2 k j) := by
  show FloatOps.matmul _ _ A B _ (ix2 r j) = _
  rw [Ideal.matmul_constant_zero_apply,
    ← Equiv.sum_comp (contrEquiv1 dot_S256x8192_S8192x128_S256x128_1_0_0_1_n_n 8192 rfl rfl).symm]
  refine Finset.sum_congr rfl fun k _ => ?_
  have c2 := contrEquiv1_symm_val dot_S256x8192_S8192x128_S256x128_1_0_0_1_n_n 8192 rfl rfl k
  have l2 : dot_S256x8192_S8192x128_S256x128_1_0_0_1_n_n.lhsIdx (ix2 r j)
      ((contrEquiv1 _ 8192 rfl rfl).symm k) = ix2 r k := by
    funext ax; apply Fin.ext
    match ax with
    | ⟨0, _⟩ => simp [DotDims.lhsIdx, dot_S256x8192_S8192x128_S256x128_1_0_0_1_n_n]; rfl
    | ⟨1, _⟩ => simp [DotDims.lhsIdx, dot_S256x8192_S8192x128_S256x128_1_0_0_1_n_n]; exact c2
  have r2 : dot_S256x8192_S8192x128_S256x128_1_0_0_1_n_n.rhsIdx (ix2 r j)
      ((contrEquiv1 _ 8192 rfl rfl).symm k) = ix2 k j := by
    funext ax; apply Fin.ext
    match ax with
    | ⟨0, _⟩ => simp [DotDims.rhsIdx, dot_S256x8192_S8192x128_S256x128_1_0_0_1_n_n]; exact c2
    | ⟨1, _⟩ => simp [DotDims.rhsIdx, dot_S256x8192_S8192x128_S256x128_1_0_0_1_n_n]; rfl
  rw [l2, r2]

/-- The product of the transposed 256 × 128 tile with a 256 × 128 matrix into the zero block, at (a, j): the sum over
    the contracted row r of the two entries' product. -/
theorem mm0b_apply (A : FVec Ideal S256x128 .bf16) (B : FVec Ideal S256x128 .bf16) (a j : Fin 128) :
    matmul dot_S256x128_S256x128_S128x128_0_0_1_1_n_n none A B (constant S128x128 .f32 0x00000000#32) (ix2 a j)
      = ∑ r : Fin 256, A (ix2 r a) * B (ix2 r j) := by
  show FloatOps.matmul _ _ A B _ (ix2 a j) = _
  rw [Ideal.matmul_constant_zero_apply,
    ← Equiv.sum_comp (contrEquiv1 dot_S256x128_S256x128_S128x128_0_0_1_1_n_n 256 rfl rfl).symm]
  refine Finset.sum_congr rfl fun r _ => ?_
  have c2 := contrEquiv1_symm_val dot_S256x128_S256x128_S128x128_0_0_1_1_n_n 256 rfl rfl r
  have l2 : dot_S256x128_S256x128_S128x128_0_0_1_1_n_n.lhsIdx (ix2 a j)
      ((contrEquiv1 _ 256 rfl rfl).symm r) = ix2 r a := by
    funext ax; apply Fin.ext
    match ax with
    | ⟨0, _⟩ => simp [DotDims.lhsIdx, dot_S256x128_S256x128_S128x128_0_0_1_1_n_n]; exact c2
    | ⟨1, _⟩ => simp [DotDims.lhsIdx, dot_S256x128_S256x128_S128x128_0_0_1_1_n_n]; rfl
  have r2 : dot_S256x128_S256x128_S128x128_0_0_1_1_n_n.rhsIdx (ix2 a j)
      ((contrEquiv1 _ 256 rfl rfl).symm r) = ix2 r j := by
    funext ax; apply Fin.ext
    match ax with
    | ⟨0, _⟩ => simp [DotDims.rhsIdx, dot_S256x128_S256x128_S128x128_0_0_1_1_n_n]; exact c2
    | ⟨1, _⟩ => simp [DotDims.rhsIdx, dot_S256x128_S256x128_S128x128_0_0_1_1_n_n]; rfl
  rw [l2, r2]

/-- Entry (h, a, j) of a 1 × 128 × 128 block and entry (a, j) of the 128 × 128 matrix sit at the same row-major place. -/
theorem v0_rm (h : Fin 1) (a j : Fin 128) :
    (S128x128.rowMajor (ix2 a j)).val = (S1x128x128.rowMajor (ix3 h a j)).val := by
  rw [Shape.rowMajor_val_three, Shape.rowMajor_val_two]
  have := h.isLt
  show a.val * 128 + j.val = (h.val * 128 + a.val) * 128 + j.val
  have h0 : h.val = 0 := by omega
  rw [h0]; omega

/-- The payload at entry (h, a, j): the old block's entry plus the tile's two-fold product there. -/
theorem k0_pay2_apply (x0 : Vec Ideal S256x8192 .f32) (x1 : Vec Ideal S8192x128 .bf16) (x2 : Vec Ideal S256x128 .bf16)
    (xo : Vec Ideal S1x128x128 .f32) (h : Fin 1) (a j : Fin 128) :
    k0_pay2 x0 x1 x2 xo (ix3 h a j)
      = xo (ix3 h a j) + ∑ r : Fin 256, x2 (ix2 r a) * ∑ k : Fin 8192, x0 (ix2 r k) * x1 (ix2 k j) := by
  unfold k0_pay2
  refine (shapeCast_apply _ _ (ix3 h a j) (ix2 a j) (v0_rm h a j)).trans ?_
  refine (addf_apply _ _ (ix2 a j)).trans ?_
  refine congrArg₂ (· + ·) ?_ ?_
  · exact shapeCast_apply _ _ (ix2 a j) (ix3 h a j) (v0_rm h a j).symm
  · rw [shapeCast_self, shapeCast_self]
    refine (mm0b_apply x2 _ a j).trans ?_
    refine Finset.sum_congr rfl fun r _ => ?_
    refine congrArg (fun z : EReal => x2 (ix2 r a) * z) ?_
    refine (truncf_apply (ψ := .bf16) _ bitsLt_bf16_f32 (ix2 r j)).trans ?_
    refine (mm0a_apply (truncf .bf16 x0 bitsLt_bf16_f32) x1 r j).trans ?_
    exact Finset.sum_congr rfl fun k _ => rfl

/-- The reset block is zero at every entry. -/
theorem k0_pay1_apply (h : Fin 1) (a j : Fin 128) : k0_pay1 (F := Ideal) (ix3 h a j) = 0 := by
  unfold k0_pay1
  refine (shapeCast_apply _ _ (ix3 h a j) (ix2 a j) (v0_rm h a j)).trans ?_
  exact Ideal.ofBits_zero_f32

end Cert.KernelIdeal.Hand

end
-- ==== Proof.KI0ValBlk.lean ====
/-
  The first region's three input blocks at a grid point, read at an entry. Point t of the thirty-two is tile t % 16 of
  half t / 16; the adjacency window's and the mapping-tile window's blocks at t are rows 256·t … 256·t + 255 of their
  arrays, which is row r of that tile of that half; the whole-mapping window's block is the whole padded mapping.
-/
import proofs.«114392_j58480274702406_2_alg».proof.Proof.KI0Run
import proofs.«114392_j58480274702406_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- The half of the grid a position lies in. -/
def half0 (n : ℕ) : Fin 2 := ⟨n / 16 % 2, Nat.mod_lt _ (by decide)⟩
/-- The tile of its half a position is. -/
def tileOf0 (n : ℕ) : Fin 16 := ⟨n % 16, Nat.mod_lt _ (by decide)⟩

/-- The printed index maps, decided over the grid: the adjacency window's and the mapping-tile window's block index at
    point t is (t, 0), the whole-mapping window's (0, 0), the output's (t / 16, 0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 16 ∧ win0_3.index t (1 : Fin 3) = 0 ∧ win0_3.index t (2 : Fin 3) = 0 :=
  (by decide +kernel : ∀ t : Fin grid0.N, _)

/-- The adjacency tile at point t, entry (r, k): the adjacency at row r of tile t % 16 of half t / 16, column k. -/
theorem iblk0_0_apply (c : Dev nD) (t : Fin cfg0.N) (r : Fin 256) (k : Fin 8192) :
    (iblk0 V c 0 t : Vec F S256x8192 .f32) (ix2 r k)
      = (V c main_arg1 : S8192x8192.Idx → Elt F .f32) (ix2 (Cert.Spec.row256 (half0 t.val) (tileOf0 t.val) r) k) := by
  have hN : t.val < 32 := lt_of_lt_of_eq t.isLt (show cfg0.N = 32 from N_0)
  obtain ⟨e0, e1, -⟩ := idx_facts0 t
  unfold iblk0
  rw [View.read_apply]
  show V c main_arg1 _ = V c main_arg1 _
  congr 1
  funext a
  apply Fin.ext
  match a with
  | ⟨0, _⟩ =>
    show win0_0.index t (0 : Fin 2) * 256 + 1 * r.val = 256 * (16 * (t.val / 16 % 2) + t.val % 16) + r.val
    rw [e0]; omega
  | ⟨1, _⟩ =>
    show win0_0.index t (1 : Fin 2) * 8192 + 1 * k.val = k.val
    rw [e1]; omega

/-- The whole-mapping window's block at any point, entry (k, j): the padded mapping at (k, j). -/
theorem iblk0_1_apply (c : Dev nD) (t : Fin cfg0.N) (k : Fin 8192) (j : Fin 128) :
    (iblk0 V c 1 t : Vec F S8192x128 .bf16) (ix2 k j) = (V c main_v4 : S8192x128.Idx → Elt F .bf16) (ix2 k j) := by
  obtain ⟨-, -, e0, e1, -⟩ := idx_facts0 t
  unfold iblk0
  rw [View.read_apply]
  show V c main_v4 _ = V c main_v4 _
  congr 1
  funext a
  apply Fin.ext
  match a with
  | ⟨0, _⟩ =>
    show win0_1.index t (0 : Fin 2) * 8192 + 1 * k.val = k.val
    rw [e0]; omega
  | ⟨1, _⟩ =>
    show win0_1.index t (1 : Fin 2) * 128 + 1 * j.val = j.val
    rw [e1]; omega

/-- The mapping tile at point t, entry (r, a): the padded mapping at row r of tile t % 16 of half t / 16, column a. -/
theorem iblk0_2_apply (c : Dev nD) (t : Fin cfg0.N) (r : Fin 256) (a : Fin 128) :
    (iblk0 V c 2 t : Vec F S256x128 .bf16) (ix2 r a)
      = (V c main_v4 : S8192x128.Idx → Elt F .bf16) (ix2 (Cert.Spec.row256 (half0 t.val) (tileOf0 t.val) r) a) := by
  have hN : t.val < 32 := lt_of_lt_of_eq t.isLt (show cfg0.N = 32 from N_0)
  obtain ⟨-, -, -, -, e0, e1, -⟩ := idx_facts0 t
  unfold iblk0
  rw [View.read_apply]
  show V c main_v4 _ = V c main_v4 _
  congr 1
  funext b
  apply Fin.ext
  match b with
  | ⟨0, _⟩ =>
    show win0_2.index t (0 : Fin 2) * 256 + 1 * r.val = 256 * (16 * (t.val / 16 % 2) + t.val % 16) + r.val
    rw [e0]; omega
  | ⟨1, _⟩ =>
    show win0_2.index t (1 : Fin 2) * 128 + 1 * a.val = a.val
    rw [e1]; omega

end Cert.KernelIdeal.Hand

end
-- ==== Proof.KI0Val.lean ====
/-
  What the first region leaves in its output array, entry by entry over the extended reals.

  Within a half of the grid the output block's buffer after the point at position n holds, at entry (a, j), the sum of
  the contributions of the half's tiles 0 … n % 16: the first point leaves zero plus its tile's contribution, every later
  point adds its own to what the point before left. A tile's contribution is the sum over its 256 rows r of
  m1 (row, a) · ∑ₖ adj (row, k) · m1 (k, j). The block of half h is written back once, after the half's last point, and the
  two halves' blocks are the two slabs of the 2 × 128 × 128 array.
-/
import proofs.«114392_j58480274702406_2_alg».proof.Proof.KI0ValPiece
import proofs.«114392_j58480274702406_2_alg».proof.Proof.KI0ValPay
import proofs.«114392_j58480274702406_2_alg».proof.Proof.KI0ValBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The extended reals' product and sum, named so that a buffer's entry is read as the extended real it is. -/
local notation:70 x:70 " *ₑ " y:71 => @HMul.hMul EReal EReal EReal instHMul x y
local notation:65 x:65 " +ₑ " y:66 => @HAdd.hAdd EReal EReal EReal instHAdd x y

/-- Tile i of half hh: its contribution to entry (a, j) of m1ᵀ · (adj · m1), the sum over the tile's 256 rows. -/
def tile0 (c : Dev nD) (hh : Fin 2) (i : Fin 16) (a j : Fin 128) : EReal :=
  ∑ r : Fin 256, V c main_v4 (ix2 (Cert.Spec.row256 hh i r) a)
    *ₑ ∑ k : Fin 8192, V c main_arg1 (ix2 (Cert.Spec.row256 hh i r) k) *ₑ V c main_v4 (ix2 k j)

/-- The payload over the three input blocks of point t: the old entry plus that point's tile's contribution. -/
theorem pay0_at (c : Dev nD) (t : Fin cfg0.N) (xo : Vec Ideal S1x128x128 .f32) (h : Fin 1) (a j : Fin 128) :
    @Eq EReal (k0_pay2 (iblk0 V c 0 t) (iblk0 V c 1 t) (iblk0 V c 2 t) xo (ix3 h a j))
      (xo (ix3 h a j) +ₑ tile0 V c (half0 t.val) (tileOf0 t.val) a j) := by
  refine (k0_pay2_apply (iblk0 V c 0 t) (iblk0 V c 1 t) (iblk0 V c 2 t) xo h a j).trans ?_
  refine congrArg (fun z : EReal => xo (ix3 h a j) +ₑ z) ?_
  unfold tile0
  refine Finset.sum_congr rfl fun r _ => ?_
  rw [iblk0_2_apply V c t r a]
  refine congrArg (fun z : EReal => V c main_v4 (ix2 (Cert.Spec.row256 (half0 t.val) (tileOf0 t.val) r) a) *ₑ z) ?_
  refine Finset.sum_congr rfl fun k _ => ?_
  rw [iblk0_0_apply V c t r k, iblk0_1_apply V c t k j]

/-- After the point at position n the output block's buffer holds, at (a, j), the contributions of tiles 0 … n % 16 of
    the half n lies in, added in order. -/
theorem outsAt0_apply (c : Dev nD) : ∀ (n : ℕ) (hn : n < cfg0.N) (h : Fin 1) (a j : Fin 128),
    @Eq EReal (outsAt0 V c n hn (ix3 h a j)) (∑ i ∈ Finset.range (n % 16 + 1), tile0 V c (half0 n) (tileOf0 i) a j) := by
  intro n
  induction n using Nat.strong_induction_on with
  | _ n ih =>
    intro hn h a j
    have et : tileOf0 n = tileOf0 (n % 16) := Fin.ext (by show n % 16 = n % 16 % 16; omega)
    by_cases h0 : n % 16 = 0
    · rw [outsAt0_A V c ⟨n, hn⟩ h0, out0_A_eq]
      refine (pay0_at V c ⟨n, hn⟩ (k0_pay1 (F := Ideal)) h a j).trans ?_
      rw [k0_pay1_apply h a j, zero_add]
      show tile0 V c (half0 n) (tileOf0 n) a j = _
      rw [et, h0, Finset.sum_range_one]
    · rw [outsAt0_B V c ⟨n, hn⟩ h0, out0_B_eq]
      refine (pay0_at V c ⟨n, hn⟩ _ h a j).trans ?_
      show outsAt0 V c (n - 1) _ (ix3 h a j) +ₑ tile0 V c (half0 n) (tileOf0 n) a j = _
      have e1 : (n - 1) % 16 + 1 = n % 16 := by omega
      have e2 : half0 (n - 1) = half0 n := Fin.ext (by show (n - 1) / 16 % 2 = n / 16 % 2; omega)
      rw [ih (n - 1) (by omega) _ h a j, e1, e2, et]
      exact (Finset.sum_range_succ _ _).symm

/-- One half's m1ᵀ · (adj · m1): entry (h, a, j) is the sum of the contributions of the sixteen tiles of half h. -/
def midAdj0 (c : Dev nD) : S2x128x128.Idx → EReal := fun y => ∑ i : Fin 16, tile0 V c (y 0) i (y 1) (y 2)

/-- The write-back after the last point of a half writes that half's slab of `midAdj0`. -/
theorem flushed0_eq (c : Dev nD) (t : Fin cfg0.N) (hf : (cfg0.win 3).flush t = true) :
    (dat0 V c).flushed 3 t = ((cfg0.win 3).blk t).view.read (Elt Ideal) (midAdj0 V c) := by
  have hN : t.val < 32 := lt_of_lt_of_eq t.isLt (show cfg0.N = 32 from N_0)
  have h15 : t.val % 16 = 15 := (flush0_3 t).mp hf
  obtain ⟨-, -, -, -, -, -, e0, e1, e2⟩ := idx_facts0 t
  show (cfg0.win 3).cut (grid0.coords t) ((dat0 V c).after 3 t) = _
  rw [after0_3]
  refine funext fun (y : S1x128x128.Idx) => ?_
  obtain ⟨h, a, j, rfl⟩ : ∃ (h : Fin 1) (a : Fin 128) (j : Fin 128), y = ix3 h a j := ⟨y 0, y 1, y 2, eq_ix3 y⟩
  show @Eq EReal (outsAt0 V c t.val t.isLt (ix3 h a j)) (midAdj0 V c (((cfg0.win 3).blk t).view.emb (ix3 h a j)))
  have hemb : ((cfg0.win 3).blk t).view.emb (ix3 h a j) = (ix3 (half0 t.val) a j : S2x128x128.Idx) := by
    funext b; apply Fin.ext
    match b with
    | ⟨0, _⟩ =>
      show win0_3.index t (0 : Fin 3) * 1 + 1 * h.val = t.val / 16 % 2
      have := h.isLt
      rw [e0]; omega
    | ⟨1, _⟩ => show win0_3.index t (1 : Fin 3) * 128 + 1 * a.val = a.val; rw [e1]; omega
    | ⟨2, _⟩ => show win0_3.index t (2 : Fin 3) * 128 + 1 * j.val = j.val; rw [e2]; omega
  rw [hemb, outsAt0_apply V c t.val t.isLt h a j, h15]
  show ∑ i ∈ Finset.range 16, tile0 V c (half0 t.val) (tileOf0 i) a j = ∑ i : Fin 16, tile0 V c (half0 t.val) i a j
  rw [Finset.sum_range]
  refine Finset.sum_congr rfl fun i _ => ?_
  rw [show tileOf0 i.val = i from Fin.ext (Nat.mod_eq_of_lt i.isLt)]

/-- Every entry of the array lies in the slab some half's last point writes back. -/
theorem cover0 (i : S2x128x128.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 128 := (i 1).isLt
  have h2 : (i 2).val < 128 := (i 2).isLt
  let t : Fin cfg0.N := ⟨16 * (i 0).val + 15, by omega⟩
  have ht : t.val = 16 * (i 0).val + 15 := rfl
  obtain ⟨-, -, -, -, -, -, e0, e1, e2⟩ := idx_facts0 t
  refine ⟨t, (flush0_3 t).mpr (by omega), ?_⟩
  show i ∈ ((View.whole main_v5).slice (win0_3.rect t)).set
  rw [View.set_slice_whole, Rect.mem_set_unit]
  intro b
  match b with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 128 ≤ (i 1).val ∧ (i 1).val < win0_3.index t (1 : Fin 3) * 128 + 128
    rw [e1]; omega
  | ⟨2, _⟩ =>
    show win0_3.index t (2 : Fin 3) * 128 ≤ (i 2).val ∧ (i 2).val < win0_3.index t (2 : Fin 3) * 128 + 128
    rw [e2]; omega

/-- The array after the region is `midAdj0`. -/
theorem final0 (c : Dev nD) : (dat0 V c).arrAt 3 cfg0.N = midAdj0 V c :=
  (dat0 V c).arrAt_eq_of_cover 3 (midAdj0 V c) (flushed0_eq V c) cover0

/-- Entry (h, a, j) of the first region's output array: the sum over the sixteen tiles i of half h and the 256 rows r of
    each of the padded mapping at (row, a) times the sum over all nodes k of the adjacency at (row, k) times the padded
    mapping at (k, j). -/
theorem value0 (c : Dev nD) (h : Fin 2) (a j : Fin 128) :
    @Eq EReal ((dat0 V c).arrAt 3 cfg0.N (ix3 h a j))
      (∑ i : Fin 16, ∑ r : Fin 256, V c main_v4 (ix2 (Cert.Spec.row256 h i r) a)
        *ₑ ∑ k : Fin 8192, V c main_arg1 (ix2 (Cert.Spec.row256 h i r) k) *ₑ V c main_v4 (ix2 k j)) :=
  congrFun (final0 V c) (ix3 h a j)

end Cert.KernelIdeal.Hand

end
-- ==== Proof.BridgeAdj.lean ====
/-
  The kernel program's mid-level adjacency in the specification's tiled form. The host adds the two halves' partial
  products that the first region leaves and keeps the ten real rows and columns of the padded 128. Each half's partial
  product at (a, j) is the sum over the half's sixteen tiles and each tile's 256 rows of
  map (row, a) · ∑ₖ adj (row, k) · map (k, j), over the padded mapping; at a real column the padded mapping, in either
  float format, is the low-to-mid mapping itself, and the adjacency at the region's entry is the launched one. So the
  entry is the sum of the two halves' sums of their tiles' contributions.
-/
import proofs.«114392_j58480274702406_2_alg».proof.Proof.KHostAdj
import proofs.«114392_j58480274702406_2_alg».proof.Proof.KHostMap
import proofs.«114392_j58480274702406_2_alg».proof.Proof.KISeg1
import proofs.«114392_j58480274702406_2_alg».proof.Proof.KI0Val
import proofs.«114392_j58480274702406_2_alg».proof.Proof.Spec

set_option maxRecDepth 16384

noncomputable section

namespace Cert.Bridge

open Idealize.ShloMosaic Idealize.ShloMosaic.TcCoe Idealize.SL.Sem Idealize.ShloMosaic.ValueIdx
open Cert.KernelIdeal.Gen (V6 V8)
open Cert.KernelIdeal.KHost (up O5)

/-- The extended reals' product, named so that a buffer's entry is read as the extended real it is. -/
local notation:70 x:70 " *ₑ " y:71 => @HMul.hMul EReal EReal EReal instHMul x y

variable (m : (ℓ : Loc Cert.KernelIdeal.nD Cert.KernelIdeal.τ Cert.KernelIdeal.sig) → Buf (Elt Ideal) ℓ)
  (outs : Cert.KernelIdeal.Gen.Outs (F := Ideal)) (c : Dev Cert.KernelIdeal.nD)

/-- At one of the ten real columns the padded mapping, rewritten in the narrower float format, is the mapping. -/
theorem map_up (s : Fin 8192) (a : Fin 10) :
    @Eq EReal (V6 m c Cert.KernelIdeal.main_v4 (ix2 s (up a))) (Cert.ReferenceIdeal.RefValue.M1 s a) := by
  refine (congrFun (Cert.KernelIdeal.KHost.m1bf16 m c) (ix2 s (up a))).trans ?_
  refine (Cert.KernelIdeal.KHost.m1pad m c s (up a)).trans ?_
  have h : (up a).val < 10 := a.isLt
  rw [dif_pos h]
  exact congrArg (Cert.ReferenceIdeal.RefValue.M1 s) (Fin.ext rfl)

/-- One half's partial product at a real entry (a, j): the sum of the contributions of the half's sixteen tiles. -/
theorem half_adj
    (h7 : outs 7 Cert.KernelIdeal.main_v5 c = (Cert.KernelIdeal.Hand.dat0 (Cert.KernelIdeal.Hand.U6 m) c).arrAt 3 Cert.KernelIdeal.cfg0.N)
    (hh : Fin 2) (a j : Fin 10) :
    @Eq EReal (O5 outs c (ix3 hh (up a) (up j)))
      (∑ i : Fin 16, Cert.Spec.kContrib Cert.ReferenceIdeal.RefValue.M1 (fun s t => (m ((c.tc : Thread Cert.KernelIdeal.nD Cert.KernelIdeal.τ).loc Cert.KernelIdeal.main_arg1) : Cert.ReferenceIdeal.S8192x8192.Idx → EReal) (ix2 s t)) hh i a j) := by
  refine (congrFun h7 (ix3 hh (up a) (up j))).trans ?_
  refine (Cert.KernelIdeal.Hand.value0 (Cert.KernelIdeal.Hand.U6 m) c hh (up a) (up j)).trans ?_
  refine Finset.sum_congr rfl fun i _ => ?_
  unfold Cert.Spec.kContrib
  refine Finset.sum_congr rfl fun r _ => ?_
  refine congrArg₂ (fun x y : EReal => x * y) (map_up m c (Cert.Spec.row256 hh i r) a) ?_
  refine Finset.sum_congr rfl fun k _ => ?_
  exact congrArg₂ (fun x y : EReal => x * y)
    (congrFun (Cert.KernelIdeal.KHost.V6_main_arg1 m c) (ix2 (Cert.Spec.row256 hh i r) k)) (map_up m c k j)

/-- The kernel program's mid-level adjacency at (a, j) is the tiled form of the specification over the low-to-mid mapping
    and the launched adjacency, given that the first region's output array holds what the region leaves. -/
theorem adjK
    (h7 : outs 7 Cert.KernelIdeal.main_v5 c = (Cert.KernelIdeal.Hand.dat0 (Cert.KernelIdeal.Hand.U6 m) c).arrAt 3 Cert.KernelIdeal.cfg0.N)
    (a j : Fin 10) :
    @Eq EReal (V8 m outs c Cert.KernelIdeal.main_v11 (ix2 a j))
      (Cert.Spec.kMidAdj Cert.ReferenceIdeal.RefValue.M1 (fun s t => (m ((c.tc : Thread Cert.KernelIdeal.nD Cert.KernelIdeal.τ).loc Cert.KernelIdeal.main_arg1) : Cert.ReferenceIdeal.S8192x8192.Idx → EReal) (ix2 s t)) a j) := by
  refine (Cert.KernelIdeal.KHost.midAdj m outs c a j).trans ?_
  unfold Cert.Spec.kMidAdj
  exact congrArg₂ (fun x y : EReal => x + y) (half_adj m outs c h7 0 a j) (half_adj m outs c h7 1 a j)

end Cert.Bridge

end
-- ==== Proof.KHostRep.lean ====
/- The cluster features the host reads off region 2's outputs: the two halves' running maxima, normalisers and weighted sums
   merged as two partial softmax sums are merged (each half's terms rescaled by the exponential of its maximum minus the common
   maximum), the merged weighted sum divided by the merged normaliser, added to the padded cluster features, and cut down to
   the ten real clusters. -/
import proofs.«114392_j58480274702406_2_alg».proof.Proof.KHostDefs

set_option maxRecDepth 4000

noncomputable section

namespace Cert.KernelIdeal.KHost

open Cert.KernelIdeal Cert.KernelIdeal.Gen
open Idealize.ShloMosaic Idealize.ShloMosaic.TcCoe Idealize.ShloMosaic.ValueIdx Idealize.ShloMosaic.StableHlo

section AnyInstance
variable {F : FTy → Type} [FloatOps F]

/-- The merge of the two halves, as one function of the two maxima columns `c0 c1`, the two normaliser columns `l0 l1`, the
    two weighted-sum tiles `a0 a1` and the padded cluster features `X`: with M the row-wise maximum of c0 and c1 and
    e_h = exp (c_h − M), the first ten rows of X + (e0 · a0 + e1 · a1) / (e0 · l0 + e1 · l1), the column factors broadcast along
    the 768 features. -/
def combine (c0 c1 l0 l1 : (⟨S128x1, .f32⟩ : BufTy).Contents (Elt F)) (a0 a1 X : (⟨S128x768, .f32⟩ : BufTy).Contents (Elt F)) : (⟨S10x768, .f32⟩ : BufTy).Contents (Elt F) :=
  let M : (⟨S128x1, .f32⟩ : BufTy).Contents (Elt F) := (maximumf : (⟨S128x1, .f32⟩ : BufTy).Contents (Elt F) → (⟨S128x1, .f32⟩ : BufTy).Contents (Elt F) → (⟨S128x1, .f32⟩ : BufTy).Contents (Elt F)) c0 c1
  let e0 : (⟨S128x1, .f32⟩ : BufTy).Contents (Elt F) := (Host.exp : (⟨S128x1, .f32⟩ : BufTy).Contents (Elt F) → (⟨S128x1, .f32⟩ : BufTy).Contents (Elt F)) ((subf : (⟨S128x1, .f32⟩ : BufTy).Contents (Elt F) → (⟨S128x1, .f32⟩ : BufTy).Contents (Elt F) → (⟨S128x1, .f32⟩ : BufTy).Contents (Elt F)) c0 M)
  let e1 : (⟨S128x1, .f32⟩ : BufTy).Contents (Elt F) := (Host.exp : (⟨S128x1, .f32⟩ : BufTy).Contents (Elt F) → (⟨S128x1, .f32⟩ : BufTy).Contents (Elt F)) ((subf : (⟨S128x1, .f32⟩ : BufTy).Contents (Elt F) → (⟨S128x1, .f32⟩ : BufTy).Contents (Elt F) → (⟨S128x1, .f32⟩ : BufTy).Contents (Elt F)) c1 M)
  let den : (⟨S128x1, .f32⟩ : BufTy).Contents (Elt F) := (addf : (⟨S128x1, .f32⟩ : BufTy).Contents (Elt F) → (⟨S128x1, .f32⟩ : BufTy).Contents (Elt F) → (⟨S128x1, .f32⟩ : BufTy).Contents (Elt F)) ((mulf : (⟨S128x1, .f32⟩ : BufTy).Contents (Elt F) → (⟨S128x1, .f32⟩ : BufTy).Contents (Elt F) → (⟨S128x1, .f32⟩ : BufTy).Contents (Elt F)) e0 l0) ((mulf : (⟨S128x1, .f32⟩ : BufTy).Contents (Elt F) → (⟨S128x1, .f32⟩ : BufTy).Contents (Elt F) → (⟨S128x1, .f32⟩ : BufTy).Contents (Elt F)) e1 l1)
  let num : (⟨S128x768, .f32⟩ : BufTy).Contents (Elt F) := (addf : (⟨S128x768, .f32⟩ : BufTy).Contents (Elt F) → (⟨S128x768, .f32⟩ : BufTy).Contents (Elt F) → (⟨S128x768, .f32⟩ : BufTy).Contents (Elt F)) ((mulf : (⟨S128x768, .f32⟩ : BufTy).Contents (Elt F) → (⟨S128x768, .f32⟩ : BufTy).Contents (Elt F) → (⟨S128x768, .f32⟩ : BufTy).Contents (Elt F)) ((broadcastInDim S128x768 ![0, 1] bcast_S128x1_S128x768_0_1 : (⟨S128x1, .f32⟩ : BufTy).Contents (Elt F) → (⟨S128x768, .f32⟩ : BufTy).Contents (Elt F)) e0) a0) ((mulf : (⟨S128x768, .f32⟩ : BufTy).Contents (Elt F) → (⟨S128x768, .f32⟩ : BufTy).Contents (Elt F) → (⟨S128x768, .f32⟩ : BufTy).Contents (Elt F)) ((broadcastInDim S128x768 ![0, 1] bcast_S128x1_S128x768_0_1 : (⟨S128x1, .f32⟩ : BufTy).Contents (Elt F) → (⟨S128x768, .f32⟩ : BufTy).Contents (Elt F)) e1) a1)
  ((extractStridedSlice S10x768 ![0, 0] · slices_S128x768_S10x768_0_0) : (⟨S128x768, .f32⟩ : BufTy).Contents (Elt F) → (⟨S10x768, .f32⟩ : BufTy).Contents (Elt F))
    ((addf : (⟨S128x768, .f32⟩ : BufTy).Contents (Elt F) → (⟨S128x768, .f32⟩ : BufTy).Contents (Elt F) → (⟨S128x768, .f32⟩ : BufTy).Contents (Elt F)) X ((Host.divf : (⟨S128x768, .f32⟩ : BufTy).Contents (Elt F) → (⟨S128x768, .f32⟩ : BufTy).Contents (Elt F) → (⟨S128x768, .f32⟩ : BufTy).Contents (Elt F)) num ((broadcastInDim S128x768 ![0, 1] bcast_S128x1_S128x768_0_1 : (⟨S128x1, .f32⟩ : BufTy).Contents (Elt F) → (⟨S128x768, .f32⟩ : BufTy).Contents (Elt F)) den)))

variable (m : (ℓ : Loc nD τ sig) → Buf (Elt F) ℓ) (outs : Outs (F := F)) (c : Dev nD)

set_option maxHeartbeats 2000000 in
/-- The cluster features are the merge of the six reshaped slices of region 2's outputs and the padded cluster features. -/
theorem v51_fun :
    V12 m outs c main_v51
      = combine (V12 m outs c main_v24) (V12 m outs c main_v26) (V12 m outs c main_v28) (V12 m outs c main_v30)
          (V12 m outs c main_v32) (V12 m outs c main_v34) (V12 m outs c main_v17) := by
  show StableHlo.after hostOps3 (V11 m outs c) (Proc.devRef .tc main_v51)
      = combine (StableHlo.after hostOps3 (V11 m outs c) (Proc.devRef .tc main_v24))
          (StableHlo.after hostOps3 (V11 m outs c) (Proc.devRef .tc main_v26))
          (StableHlo.after hostOps3 (V11 m outs c) (Proc.devRef .tc main_v28))
          (StableHlo.after hostOps3 (V11 m outs c) (Proc.devRef .tc main_v30))
          (StableHlo.after hostOps3 (V11 m outs c) (Proc.devRef .tc main_v32))
          (StableHlo.after hostOps3 (V11 m outs c) (Proc.devRef .tc main_v34))
          (StableHlo.after hostOps3 (V11 m outs c) (Proc.devRef .tc main_v17))
  generalize V11 m outs c = W
  after_results_simp
  rfl

end AnyInstance

section AtIdeal

/-- The host's quotient at an index is the quotient of the elements. -/
theorem hdivf_apply {s : Shape} {φ : FTy} (a b : FVec Ideal s φ) (i : s.Idx) : Host.divf a b i = Ideal.div (a i) (b i) := rfl
/-- The host's exponential at an index is the exponential of the element. -/
theorem hexp_apply {s : Shape} {φ : FTy} (a : FVec Ideal s φ) (i : s.Idx) : Host.exp a i = Ideal.exp (a i) := rfl

/-- A column [128, 1] broadcast along 768 features reads, at (q, d), the column at q. -/
theorem bcast_col_apply {α : Type} (v : S128x1.Idx → α) (q : Fin 128) (d : Fin 768) :
    broadcastInDim S128x768 ![0, 1] bcast_S128x1_S128x768_0_1 v (ix2 q d) = v (ix2 q (0 : Fin 1)) :=
  broadcastInDim_apply _ _ v (ix2 q d) (ix2 q (0 : Fin 1)) (fun a => match a with
    | ⟨0, _⟩ => rfl
    | ⟨1, _⟩ => rfl)

/-- The merge read at (p, d), p one of the ten real clusters. -/
theorem combine_apply (c0 c1 l0 l1 : S128x1.Idx → EReal) (a0 a1 X : S128x768.Idx → EReal) (p : Fin 10) (d : Fin 768) :
    combine (F := Ideal) c0 c1 l0 l1 a0 a1 X (ix2 p d)
      = X (ix2 (up p) d)
        + Ideal.div
            (Ideal.exp (c0 (ix2 (up p) (0 : Fin 1)) - max (c0 (ix2 (up p) (0 : Fin 1))) (c1 (ix2 (up p) (0 : Fin 1)))) * a0 (ix2 (up p) d)
              + Ideal.exp (c1 (ix2 (up p) (0 : Fin 1)) - max (c0 (ix2 (up p) (0 : Fin 1))) (c1 (ix2 (up p) (0 : Fin 1)))) * a1 (ix2 (up p) d))
            (Ideal.exp (c0 (ix2 (up p) (0 : Fin 1)) - max (c0 (ix2 (up p) (0 : Fin 1))) (c1 (ix2 (up p) (0 : Fin 1)))) * l0 (ix2 (up p) (0 : Fin 1))
              + Ideal.exp (c1 (ix2 (up p) (0 : Fin 1)) - max (c0 (ix2 (up p) (0 : Fin 1))) (c1 (ix2 (up p) (0 : Fin 1)))) * l1 (ix2 (up p) (0 : Fin 1))) := by
  unfold combine
  refine (extractStridedSlice_apply _ _ _ (ix2 p d) (ix2 (up p) d) (fun b => ?_)).trans ?_
  · match b with
    | ⟨0, _⟩ => show p.val = 0 + p.val; omega
    | ⟨1, _⟩ => show d.val = 0 + d.val; omega
  -- every operation but the broadcasts reads through pointwise; the three broadcasts read their column at row p'
  have hb : ∀ v : S128x1.Idx → EReal,
      broadcastInDim S128x768 ![0, 1] bcast_S128x1_S128x768_0_1 v (ix2 (up p) d) = v (ix2 (up p) (0 : Fin 1)) :=
    fun v => bcast_col_apply v (up p) d
  show X (ix2 (up p) d)
      + Ideal.div
          (broadcastInDim S128x768 ![0, 1] bcast_S128x1_S128x768_0_1 (fun i => Ideal.exp (c0 i - max (c0 i) (c1 i))) (ix2 (up p) d) * a0 (ix2 (up p) d)
            + broadcastInDim S128x768 ![0, 1] bcast_S128x1_S128x768_0_1 (fun i => Ideal.exp (c1 i - max (c0 i) (c1 i))) (ix2 (up p) d) * a1 (ix2 (up p) d))
          (broadcastInDim S128x768 ![0, 1] bcast_S128x1_S128x768_0_1 (fun i => Ideal.exp (c0 i - max (c0 i) (c1 i)) * l0 i + Ideal.exp (c1 i - max (c0 i) (c1 i)) * l1 i) (ix2 (up p) d)) = _
  rw [hb, hb, hb]

variable (m : (ℓ : Loc nD τ sig) → Buf (Elt Ideal) ℓ) (outs : Outs (F := Ideal)) (c : Dev nD)

/-- Region 2's three output arrays hold what the region leaves in them. -/
theorem V11_main_v22_2 : V11 m outs c main_v22_2 = outs 11 main_v22_2 c := by
  simp only [V11, Function.update_self]
theorem V11_main_v22_1 : V11 m outs c main_v22_1 = outs 11 main_v22_1 c := by
  simp only [V11, Function.update_of_ne (StableHlo.devRef_ne_of_ne (by decide) : (Proc.devRef .tc main_v22_1 : DevRef τ sig) ≠ Proc.devRef .tc main_v22_2), Function.update_self]
theorem V11_main_v22_0 : V11 m outs c main_v22_0 = outs 11 main_v22_0 c := by
  simp only [V11, Function.update_of_ne (StableHlo.devRef_ne_of_ne (by decide) : (Proc.devRef .tc main_v22_0 : DevRef τ sig) ≠ Proc.devRef .tc main_v22_2), Function.update_of_ne (StableHlo.devRef_ne_of_ne (by decide) : (Proc.devRef .tc main_v22_0 : DevRef τ sig) ≠ Proc.devRef .tc main_v22_1), Function.update_self]

/-- Neither region 2 nor its host stretch writes the padded cluster features. -/
theorem V12_main_v17 : V12 m outs c main_v17 = V10 m outs c main_v17 :=
  (V12_of m outs c main_v17 (by decide)).trans <| (V11_of m outs c main_v17 (by decide))

/-- The first half's maxima column: a reshape [1,128,1] → [128,1] of the slice [0:1] of region 2's maxima. -/
theorem v24_apply (q : Fin 128) :
    @Eq EReal (V12 m outs c main_v24 (ix2 q (0 : Fin 1))) (OM outs c (ix3 (0 : Fin 2) q (0 : Fin 1))) := by
  show StableHlo.after hostOps3 (V11 m outs c) (Proc.devRef .tc main_v24) (ix2 q (0 : Fin 1)) = _
  after_results_simp
  rw [V11_main_v22_0]
  refine (shapeCast_apply _ _ (ix2 q (0 : Fin 1)) (ix3 (0 : Fin 1) q (0 : Fin 1)) ?_).trans ?_
  · rw [Shape.rowMajor_val_three, Shape.rowMajor_val_two]
    show (0 * 128 + q.val) * 1 + 0 = q.val * 1 + 0; omega
  refine extractStridedSlice_apply _ _ _ _ (ix3 (0 : Fin 2) q (0 : Fin 1)) (fun b => ?_)
  match b with
  | ⟨0, _⟩ => rfl
  | ⟨1, _⟩ => show q.val = 0 + q.val; omega
  | ⟨2, _⟩ => show 0 = 0 + 0; omega

/-- The second half's maxima column. -/
theorem v26_apply (q : Fin 128) :
    @Eq EReal (V12 m outs c main_v26 (ix2 q (0 : Fin 1))) (OM outs c (ix3 (1 : Fin 2) q (0 : Fin 1))) := by
  show StableHlo.after hostOps3 (V11 m outs c) (Proc.devRef .tc main_v26) (ix2 q (0 : Fin 1)) = _
  after_results_simp
  rw [V11_main_v22_0]
  refine (shapeCast_apply _ _ (ix2 q (0 : Fin 1)) (ix3 (0 : Fin 1) q (0 : Fin 1)) ?_).trans ?_
  · rw [Shape.rowMajor_val_three, Shape.rowMajor_val_two]
    show (0 * 128 + q.val) * 1 + 0 = q.val * 1 + 0; omega
  refine extractStridedSlice_apply _ _ _ _ (ix3 (1 : Fin 2) q (0 : Fin 1)) (fun b => ?_)
  match b with
  | ⟨0, _⟩ => rfl
  | ⟨1, _⟩ => show q.val = 0 + q.val; omega
  | ⟨2, _⟩ => show 0 = 0 + 0; omega

/-- The first half's normaliser column. -/
theorem v28_apply (q : Fin 128) :
    @Eq EReal (V12 m outs c main_v28 (ix2 q (0 : Fin 1))) (OL outs c (ix3 (0 : Fin 2) q (0 : Fin 1))) := by
  show StableHlo.after hostOps3 (V11 m outs c) (Proc.devRef .tc main_v28) (ix2 q (0 : Fin 1)) = _
  after_results_simp
  rw [V11_main_v22_1]
  refine (shapeCast_apply _ _ (ix2 q (0 : Fin 1)) (ix3 (0 : Fin 1) q (0 : Fin 1)) ?_).trans ?_
  · rw [Shape.rowMajor_val_three, Shape.rowMajor_val_two]
    show (0 * 128 + q.val) * 1 + 0 = q.val * 1 + 0; omega
  refine extractStridedSlice_apply _ _ _ _ (ix3 (0 : Fin 2) q (0 : Fin 1)) (fun b => ?_)
  match b with
  | ⟨0, _⟩ => rfl
  | ⟨1, _⟩ => show q.val = 0 + q.val; omega
  | ⟨2, _⟩ => show 0 = 0 + 0; omega

/-- The second half's normaliser column. -/
theorem v30_apply (q : Fin 128) :
    @Eq EReal (V12 m outs c main_v30 (ix2 q (0 : Fin 1))) (OL outs c (ix3 (1 : Fin 2) q (0 : Fin 1))) := by
  show StableHlo.after hostOps3 (V11 m outs c) (Proc.devRef .tc main_v30) (ix2 q (0 : Fin 1)) = _
  after_results_simp
  rw [V11_main_v22_1]
  refine (shapeCast_apply _ _ (ix2 q (0 : Fin 1)) (ix3 (0 : Fin 1) q (0 : Fin 1)) ?_).trans ?_
  · rw [Shape.rowMajor_val_three, Shape.rowMajor_val_two]
    show (0 * 128 + q.val) * 1 + 0 = q.val * 1 + 0; omega
  refine extractStridedSlice_apply _ _ _ _ (ix3 (1 : Fin 2) q (0 : Fin 1)) (fun b => ?_)
  match b with
  | ⟨0, _⟩ => rfl
  | ⟨1, _⟩ => show q.val = 0 + q.val; omega
  | ⟨2, _⟩ => show 0 = 0 + 0; omega

/-- The first half's weighted sums: a reshape [1,128,768] → [128,768] of the slice [0:1] of region 2's weighted sums. -/
theorem v32_apply (q : Fin 128) (d : Fin 768) :
    @Eq EReal (V12 m outs c main_v32 (ix2 q d)) (OA outs c (ix3 (0 : Fin 2) q d)) := by
  show StableHlo.after hostOps3 (V11 m outs c) (Proc.devRef .tc main_v32) (ix2 q d) = _
  after_results_simp
  rw [V11_main_v22_2]
  refine (shapeCast_apply _ _ (ix2 q d) (ix3 (0 : Fin 1) q d) ?_).trans ?_
  · rw [Shape.rowMajor_val_three, Shape.rowMajor_val_two]
    show (0 * 128 + q.val) * 768 + d.val = q.val * 768 + d.val; omega
  refine extractStridedSlice_apply _ _ _ _ (ix3 (0 : Fin 2) q d) (fun b => ?_)
  match b with
  | ⟨0, _⟩ => rfl
  | ⟨1, _⟩ => show q.val = 0 + q.val; omega
  | ⟨2, _⟩ => show d.val = 0 + d.val; omega

/-- The second half's weighted sums. -/
theorem v34_apply (q : Fin 128) (d : Fin 768) :
    @Eq EReal (V12 m outs c main_v34 (ix2 q d)) (OA outs c (ix3 (1 : Fin 2) q d)) := by
  show StableHlo.after hostOps3 (V11 m outs c) (Proc.devRef .tc main_v34) (ix2 q d) = _
  after_results_simp
  rw [V11_main_v22_2]
  refine (shapeCast_apply _ _ (ix2 q d) (ix3 (0 : Fin 1) q d) ?_).trans ?_
  · rw [Shape.rowMajor_val_three, Shape.rowMajor_val_two]
    show (0 * 128 + q.val) * 768 + d.val = q.val * 768 + d.val; omega
  refine extractStridedSlice_apply _ _ _ _ (ix3 (1 : Fin 2) q d) (fun b => ?_)
  match b with
  | ⟨0, _⟩ => rfl
  | ⟨1, _⟩ => show q.val = 0 + q.val; omega
  | ⟨2, _⟩ => show d.val = 0 + d.val; omega

/-- The extended reals' sum, named so that a summand whose type is a buffer's contents at an index is read as the extended
    real it is. -/
local notation:65 x:65 " +ₑ " y:66 => @HAdd.hAdd EReal EReal EReal instHAdd x y

/-- mid_rep at (p, d), p one of the ten real clusters and p' its row among the 128: with m0, m1 the two halves' maxima at p',
    M their maximum, the padded cluster features at (p', d) plus the two halves' weighted sums at (p', d), each rescaled by
    exp (m_h − M), over the two halves' normalisers at p', rescaled the same way. -/
theorem midRep (p : Fin 10) (d : Fin 768) :
    @Eq EReal (V12 m outs c main_v51 (ix2 p d))
      (V10 m outs c main_v17 (ix2 (up p) d) +ₑ
        Ideal.div
          (Ideal.exp (OM outs c (ix3 (0 : Fin 2) (up p) (0 : Fin 1)) - max (OM outs c (ix3 (0 : Fin 2) (up p) (0 : Fin 1))) (OM outs c (ix3 (1 : Fin 2) (up p) (0 : Fin 1)))) * OA outs c (ix3 (0 : Fin 2) (up p) d)
            + Ideal.exp (OM outs c (ix3 (1 : Fin 2) (up p) (0 : Fin 1)) - max (OM outs c (ix3 (0 : Fin 2) (up p) (0 : Fin 1))) (OM outs c (ix3 (1 : Fin 2) (up p) (0 : Fin 1)))) * OA outs c (ix3 (1 : Fin 2) (up p) d))
          (Ideal.exp (OM outs c (ix3 (0 : Fin 2) (up p) (0 : Fin 1)) - max (OM outs c (ix3 (0 : Fin 2) (up p) (0 : Fin 1))) (OM outs c (ix3 (1 : Fin 2) (up p) (0 : Fin 1)))) * OL outs c (ix3 (0 : Fin 2) (up p) (0 : Fin 1))
            + Ideal.exp (OM outs c (ix3 (1 : Fin 2) (up p) (0 : Fin 1)) - max (OM outs c (ix3 (0 : Fin 2) (up p) (0 : Fin 1))) (OM outs c (ix3 (1 : Fin 2) (up p) (0 : Fin 1)))) * OL outs c (ix3 (1 : Fin 2) (up p) (0 : Fin 1)))) := by
  refine (congrFun (v51_fun m outs c) (ix2 p d)).trans ?_
  refine (combine_apply _ _ _ _ _ _ _ p d).trans ?_
  rw [v24_apply, v26_apply, v28_apply, v30_apply, v32_apply, v34_apply, V12_main_v17]

end AtIdeal

end Cert.KernelIdeal.KHost

end
-- ==== Proof.SpecG.lean ====
/-
  The streamed softmax state for an arbitrary row of scores. The kernel streams all 128 padded rows; only the first ten
  are rows of the mapping. For any score row `sc` over the 8192 keys and any value matrix `xv`, `gState sc xv c n` is
  the state of half `c` after its first `n` tiles of 512 keys; the specification's `kState` is this at the
  row's own scores.
-/
import proofs.«114392_j58480274702406_2_alg».proof.Proof.Spec

noncomputable section

namespace Cert.Spec

/-- The streamed state of half `c` after its first `n` tiles, for the score row `sc` and the values `xv`. -/
def gState (sc : Fin 8192 → EReal) (xv : Mat 8192 768) (c : Fin 2) : ℕ → State
  | 0 => (⊥, 0, fun _ => 0)
  | n + 1 => kStep (gState sc xv c n) (fun r => sc (row512 c n r)) (fun r d => xv (row512 c n r) d)

/-- The specification's state is the general one at the row's own scores. -/
theorem kState_eq_gState (m1 : Mat 8192 10) (x : Mat 8192 768) (att : Mat 768 768) (c : Fin 2) (p : Fin 10) (n : ℕ) :
    kState m1 x att c p n = gState (kScore m1 x att p) x c n := by
  induction n with
  | zero => rfl
  | succ n ih => rw [kState, gState, ih]

end Cert.Spec

end
-- ==== Proof.KHostMid.lean ====
/- The host's glue between region 1 and region 2, read at an index: the padded cluster features (the two halves' partial
   products added), their product with the low-to-mid attention matrix, and the complement of the padded mapping,
   transposed. -/
import proofs.«114392_j58480274702406_2_alg».proof.Proof.KHostDefs
import Idealize.ShloMosaic.Lib.IdealHost
set_option maxRecDepth 4000

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-- The extended reals' product, sum and difference, named so that a factor whose type is a buffer's contents at an index
    is read as the extended real it is. -/
local notation:70 x:70 " *ₑ " y:71 => @HMul.hMul EReal EReal EReal instHMul x y
local notation:65 x:65 " -ₑ " y:66 => @HSub.hSub EReal EReal EReal instHSub x y

/-- No operation after the launch writes the low-to-mid attention matrix: up to region 2 it holds its launch contents. -/
theorem V10_main_arg2 : V10 m outs c main_arg2 = m ((c : Thread nD τ).loc main_arg2) :=
  (V10_of m outs c main_arg2 (by decide)).trans <| (V9_of m outs c main_arg2 (by decide)).trans <| (V8_of m outs c main_arg2 (by decide)).trans <| (V7_of m outs c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

/-- The padded mapping is not written between region 0's entry and region 2's. -/
theorem V9_main_v3 : V9 m outs c main_v3 = V6 m c main_v3 :=
  (V9_of m outs c main_v3 (by decide)).trans <| (V8_of m outs c main_v3 (by decide)).trans <| (V7_of m outs c main_v3 (by decide))

/-- mid_pad at (q, d) is the sum of the two halves' partial products at the same row and column: the sum of two reshaped
    slices [h:h+1, 0:128, 0:768], h = 0, 1. -/
theorem midPad (q : Fin 128) (d : Fin 768) :
    @Eq EReal (V10 m outs c main_v17 (ix2 q d))
      (O12 outs c (ix3 (0 : Fin 2) q d) + O12 outs c (ix3 (1 : Fin 2) q d)) := by
  show StableHlo.after hostOps2 (V9 m outs c) (Proc.devRef .tc main_v17) (ix2 q d) = _
  after_results
  simp only [V9, Function.update_self]
  rw [addf_apply]
  refine congrArg₂ (· + ·) ?_ ?_
  · refine (shapeCast_apply _ _ (ix2 q d) (ix3 (0 : Fin 1) q d) ?_).trans ?_
    · rw [Shape.rowMajor_val_three, Shape.rowMajor_val_two]
      show (0 * 128 + q.val) * 768 + d.val = q.val * 768 + d.val; omega
    refine extractStridedSlice_apply _ _ _ _ (ix3 (0 : Fin 2) q d) (fun b => ?_)
    match b with
    | ⟨0, _⟩ => rfl
    | ⟨1, _⟩ => show q.val = 0 + q.val; omega
    | ⟨2, _⟩ => show d.val = 0 + d.val; omega
  · refine (shapeCast_apply _ _ (ix2 q d) (ix3 (0 : Fin 1) q d) ?_).trans ?_
    · rw [Shape.rowMajor_val_three, Shape.rowMajor_val_two]
      show (0 * 128 + q.val) * 768 + d.val = q.val * 768 + d.val; omega
    refine extractStridedSlice_apply _ _ _ _ (ix3 (1 : Fin 2) q d) (fun b => ?_)
    match b with
    | ⟨0, _⟩ => rfl
    | ⟨1, _⟩ => show q.val = 0 + q.val; omega
    | ⟨2, _⟩ => show d.val = 0 + d.val; omega

/-- A 128 × 768 by 768 × 768 matrix product read at (q, e): the sum over the contracted coordinate of the products of the
    entries. -/
theorem dot_mid_att_apply (A : FVec Ideal S128x768 .f32) (B : FVec Ideal S768x768 .f32) (q : Fin 128) (e : Fin 768) :
    Host.dotGeneral dot_S128x768_S768x768_S128x768_1_0_0_1_n_n (some .fp32) A B (ix2 q e)
      = ∑ d : Fin 768, A (ix2 q d) * B (ix2 d e) := by
  show FloatOps.dotGeneral _ _ _ A B (ix2 q e) = _
  rw [Ideal.dotGeneral_apply,
    ← Equiv.sum_comp (contrEquiv1 dot_S128x768_S768x768_S128x768_1_0_0_1_n_n 768 rfl rfl).symm]
  refine Finset.sum_congr rfl fun d _ => ?_
  have c2 := contrEquiv1_symm_val dot_S128x768_S768x768_S128x768_1_0_0_1_n_n 768 rfl rfl d
  have l2 : dot_S128x768_S768x768_S128x768_1_0_0_1_n_n.lhsIdx (ix2 q e)
      ((contrEquiv1 _ 768 rfl rfl).symm d) = ix2 q d := by
    funext ax; apply Fin.ext
    match ax with
    | ⟨0, _⟩ => simp [DotDims.lhsIdx, dot_S128x768_S768x768_S128x768_1_0_0_1_n_n]; rfl
    | ⟨1, _⟩ => simp [DotDims.lhsIdx, dot_S128x768_S768x768_S128x768_1_0_0_1_n_n]; exact c2
  have r2 : dot_S128x768_S768x768_S128x768_1_0_0_1_n_n.rhsIdx (ix2 q e)
      ((contrEquiv1 _ 768 rfl rfl).symm d) = ix2 d e := by
    funext ax; apply Fin.ext
    match ax with
    | ⟨0, _⟩ => simp [DotDims.rhsIdx, dot_S128x768_S768x768_S128x768_1_0_0_1_n_n]; exact c2
    | ⟨1, _⟩ => simp [DotDims.rhsIdx, dot_S128x768_S768x768_S128x768_1_0_0_1_n_n]; rfl
  rw [l2, r2]

/-- a_pad is the matrix product of mid_pad and the low-to-mid attention matrix, as whole arrays. -/
theorem aPad_fun :
    V10 m outs c main_v18
      = Host.dotGeneral (F := Ideal) (φ₁ := .f32) (φ₂ := .f32) dot_S128x768_S768x768_S128x768_1_0_0_1_n_n (some .fp32)
          (V10 m outs c main_v17) (V10 m outs c main_arg2) := by
  show StableHlo.after hostOps2 (V9 m outs c) (Proc.devRef .tc main_v18)
      = Host.dotGeneral (F := Ideal) (φ₁ := .f32) (φ₂ := .f32) dot_S128x768_S768x768_S128x768_1_0_0_1_n_n (some .fp32)
          (StableHlo.after hostOps2 (V9 m outs c) (Proc.devRef .tc main_v17))
          (StableHlo.after hostOps2 (V9 m outs c) (Proc.devRef .tc main_arg2))
  after_results

/-- a_pad at (q, e) is the sum over the 768 features d of mid_pad (q, d) times the attention matrix at (d, e). -/
theorem aPad (q : Fin 128) (e : Fin 768) :
    @Eq EReal (V10 m outs c main_v18 (ix2 q e))
      (∑ d : Fin 768, V10 m outs c main_v17 (ix2 q d) *ₑ m ((c : Thread nD τ).loc main_arg2) (ix2 d e)) := by
  refine (congrFun (aPad_fun m outs c) (ix2 q e)).trans ((dot_mid_att_apply _ _ q e).trans ?_)
  rw [V10_main_arg2]

/-- The constant one, broadcast to the padded mapping's shape, reads one everywhere. -/
theorem one_bcast (i : S8192x128.Idx) :
    broadcastInDim S8192x128 ![] bcast_S_S8192x128 (constant (F := Ideal) S_ .f32 0x3F800000#32) i = (1 : EReal) :=
  (broadcastInDim_apply _ _ _ i ix0 (fun a => a.elim0)).trans Ideal.ofBits_one_f32

/-- The mask at (q, s) is one minus the padded mapping at (s, q): the transpose of the difference of the constant one,
    broadcast, and the padded mapping. -/
theorem mask (q : Fin 128) (s : Fin 8192) :
    @Eq EReal (V10 m outs c main_v21 (ix2 q s)) (1 -ₑ V6 m c main_v3 (ix2 s q)) := by
  show StableHlo.after hostOps2 (V9 m outs c) (Proc.devRef .tc main_v21) (ix2 q s) = _
  after_results_simp
  refine (transpose_apply _ _ _ (ix2 q s) (ix2 s q) (fun b => ?_)).trans ?_
  · match b with
    | ⟨0, _⟩ => rfl
    | ⟨1, _⟩ => rfl
  rw [subf_apply, V9_main_v3, one_bcast]
  rfl

end Cert.KernelIdeal.KHost

end
-- ==== Proof.KI1ValPiece.lean ====
/-
  What each of the two cases of the second region's body leaves in the output block's buffer, as one formula of the
  blocks it read: at a first point of a half, the payload over the zero block; at a later point, the payload over what
  the buffer held.
-/
import proofs.«114392_j58480274702406_2_alg».proof.Proof.KI1Dat
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a rank-two block. -/
theorem v1_hz2 : (![0, 0] : Fin 2 → Nat) = fun _ => 0 := funext fun a => by fin_cases a <;> rfl
/-- The zero offsets of a rank-three block. -/
theorem v1_hz3 : (![0, 0, 0] : Fin 3 → Nat) = fun _ => 0 := funext fun a => by fin_cases a <;> rfl

/-- At a later point of a half the body's one store covers the block: it leaves the old block plus the tile's product. -/
theorem out1_B_eq (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : ¬cond1_0 i)
    (x0 : Vec F S512x768 .f32) (x1 : Vec F S512x128 .f32) (xo : Vec F S1x128x768 .f32) :
    out1_B c i arg2 harg2 arg3 harg3 arg4 harg4 hc0 x0 x1 xo = k1_pay2 x0 x1 xo := by
  unfold out1_B
  rw [View.read_writes_eq_canon _ _ _ (cover1_B c i arg2 harg2 arg3 harg3 arg4 harg4 hc0 x0 x1 xo)]
  unfold kernelRun1_B
  dsimp only
  rw [View.canon_unit_zero v1_hz3]
  simp only [View.readAt_eq_ld, harg2.read_unread, harg3.read_unread, harg4.read_unread,
    View.ld_unit_zero (S := S512x768) v1_hz2, View.ld_unit_zero (S := S512x128) v1_hz2,
    View.ld_unit_zero (S := S1x128x768) v1_hz3]

/-- At the first point of a half the body stores the zero block, reads it back, and leaves zero plus the tile's product. -/
theorem out1_A_eq (c : Dev nD) (i : grid1.Coords) (arg2 : Memref sig .tc .vmem S512x768 .f32) (harg2 : arg2.IsWhole) (arg3 : Memref sig .tc .vmem S512x128 .f32) (harg3 : arg3.IsWhole) (arg4 : Memref sig .tc .vmem S1x128x768 .f32) (harg4 : arg4.IsWhole) (hc0 : cond1_0 i)
    (x0 : Vec F S512x768 .f32) (x1 : Vec F S512x128 .f32) :
    out1_A c i arg2 harg2 arg3 harg3 arg4 harg4 hc0 x0 x1 = k1_pay2 x0 x1 k1_pay1 := by
  unfold out1_A
  rw [View.read_writes_eq_canon _ _ _ (cover1_A c i arg2 harg2 arg3 harg3 arg4 harg4 hc0 x0 x1)]
  unfold kernelRun1_A
  dsimp only
  sl_unfold_words
  rw [View.canon_cons_unit_zero (S := S1x128x768) v1_hz3, View.readCov_unit_zero (S := S1x128x768) _ v1_hz3]
  simp only [View.readAt_eq_ld, harg2.read_unread, harg3.read_unread,
    View.ld_unit_zero (S := S512x768) v1_hz2, View.ld_unit_zero (S := S512x128) v1_hz2]

end Cert.KernelIdeal.Hand

end
-- ==== Proof.KI1ValPay.lean ====
/-
  The second region's arithmetic, read at one entry over the extended reals: the tile's product m1tileᵀ · xtile at
  (q, d) is the sum over the tile's 512 rows r of m1tile (r, q) · xtile (r, d); the payload adds it to the old block's
  entry; the reset block is zero everywhere.
-/
import proofs.«114392_j58480274702406_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The product of the transposed 512 × 128 tile with the 512 × 768 tile into the zero block, at (q, d): the sum over
    the contracted row r of the two entries' product. -/
theorem mm1_apply (A : FVec Ideal S512x128 .f32) (B : FVec Ideal S512x768 .f32) (q : Fin 128) (d : Fin 768) :
    matmul dot_S512x128_S512x768_S128x768_0_0_1_1_n_n (some .fp32) A B (constant S128x768 .f32 0x00000000#32) (ix2 q d)
      = ∑ r : Fin 512, A (ix2 r q) * B (ix2 r d) := by
  show FloatOps.matmul _ _ A B _ (ix2 q d) = _
  rw [Ideal.matmul_constant_zero_apply,
    ← Equiv.sum_comp (contrEquiv1 dot_S512x128_S512x768_S128x768_0_0_1_1_n_n 512 rfl rfl).symm]
  refine Finset.sum_congr rfl fun r _ => ?_
  have c2 := contrEquiv1_symm_val dot_S512x128_S512x768_S128x768_0_0_1_1_n_n 512 rfl rfl r
  have l2 : dot_S512x128_S512x768_S128x768_0_0_1_1_n_n.lhsIdx (ix2 q d)
      ((contrEquiv1 _ 512 rfl rfl).symm r) = ix2 r q := by
    funext ax; apply Fin.ext
    match ax with
    | ⟨0, _⟩ => simp [DotDims.lhsIdx, dot_S512x128_S512x768_S128x768_0_0_1_1_n_n]; exact c2
    | ⟨1, _⟩ => simp [DotDims.lhsIdx, dot_S512x128_S512x768_S128x768_0_0_1_1_n_n]; rfl
  have r2 : dot_S512x128_S512x768_S128x768_0_0_1_1_n_n.rhsIdx (ix2 q d)
      ((contrEquiv1 _ 512 rfl rfl).symm r) = ix2 r d := by
    funext ax; apply Fin.ext
    match ax with
    | ⟨0, _⟩ => simp [DotDims.rhsIdx, dot_S512x128_S512x768_S128x768_0_0_1_1_n_n]; exact c2
    | ⟨1, _⟩ => simp [DotDims.rhsIdx, dot_S512x128_S512x768_S128x768_0_0_1_1_n_n]; rfl
  rw [l2, r2]

/-- Entry (h, q, d) of a 1 × 128 × 768 block and entry (q, d) of the 128 × 768 matrix sit at the same row-major place. -/
theorem v1_rm (h : Fin 1) (q : Fin 128) (d : Fin 768) :
    (S128x768.rowMajor (ix2 q d)).val = (S1x128x768.rowMajor (ix3 h q d)).val := by
  rw [Shape.rowMajor_val_three, Shape.rowMajor_val_two]
  have := h.isLt
  show q.val * 768 + d.val = (h.val * 128 + q.val) * 768 + d.val
  have h0 : h.val = 0 := by omega
  rw [h0]; omega

/-- The payload at entry (h, q, d): the old block's entry plus the tile's product there. -/
theorem k1_pay2_apply (x0 : Vec Ideal S512x768 .f32) (x1 : Vec Ideal S512x128 .f32) (xo : Vec Ideal S1x128x768 .f32)
    (h : Fin 1) (q : Fin 128) (d : Fin 768) :
    k1_pay2 x0 x1 xo (ix3 h q d) = xo (ix3 h q d) + ∑ r : Fin 512, x1 (ix2 r q) * x0 (ix2 r d) := by
  unfold k1_pay2
  refine (shapeCast_apply _ _ (ix3 h q d) (ix2 q d) (v1_rm h q d)).trans ?_
  refine (addf_apply _ _ (ix2 q d)).trans ?_
  refine congrArg₂ (· + ·) ?_ ?_
  · exact shapeCast_apply _ _ (ix2 q d) (ix3 h q d) (v1_rm h q d).symm
  · rw [shapeCast_self]
    exact mm1_apply x1 x0 q d

/-- The reset block is zero at every entry. -/
theorem k1_pay1_apply (h : Fin 1) (q : Fin 128) (d : Fin 768) : k1_pay1 (F := Ideal) (ix3 h q d) = 0 := by
  unfold k1_pay1
  refine (shapeCast_apply _ _ (ix3 h q d) (ix2 q d) (v1_rm h q d)).trans ?_
  exact Ideal.ofBits_zero_f32

end Cert.KernelIdeal.Hand

end
-- ==== Proof.KI1ValBlk.lean ====
/-
  The second region's two input blocks at a grid point, read at an entry. Point t of the sixteen is tile t % 8 of half
  t / 8; both input windows' blocks at t are rows 512·t … 512·t + 511 of their arrays, which is row r of that tile of
  that half.
-/
import proofs.«114392_j58480274702406_2_alg».proof.Proof.KI1Run
import proofs.«114392_j58480274702406_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- The half of the grid a position lies in. -/
def half1 (n : ℕ) : Fin 2 := ⟨n / 8 % 2, Nat.mod_lt _ (by decide)⟩

/-- The printed index maps, decided over the grid: both input windows' block index at point t is (t, 0), the output's
    (t / 8, 0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 8 ∧ win1_2.index t (1 : Fin 3) = 0 ∧ win1_2.index t (2 : Fin 3) = 0 :=
  (by decide +kernel : ∀ t : Fin grid1.N, _)

/-- The x tile at point t, entry (r, d): x at row r of tile t % 8 of half t / 8, column d. -/
theorem iblk1_0_apply (c : Dev nD) (t : Fin cfg1.N) (r : Fin 512) (d : Fin 768) :
    (iblk1 V c 0 t : Vec F S512x768 .f32) (ix2 r d)
      = (V c main_arg0 : S8192x768.Idx → Elt F .f32) (ix2 (Cert.Spec.row512 (half1 t.val) (t.val % 8) r) d) := by
  have hN : t.val < 16 := lt_of_lt_of_eq t.isLt (show cfg1.N = 16 from N_1)
  obtain ⟨e0, e1, -⟩ := idx_facts1 t
  unfold iblk1
  rw [View.read_apply]
  show V c main_arg0 _ = V c main_arg0 _
  congr 1
  funext a
  apply Fin.ext
  match a with
  | ⟨0, _⟩ =>
    show win1_0.index t (0 : Fin 2) * 512 + 1 * r.val = (512 * (8 * (t.val / 8 % 2) + t.val % 8) + r.val) % 8192
    have := r.isLt
    rw [e0]; omega
  | ⟨1, _⟩ =>
    show win1_0.index t (1 : Fin 2) * 768 + 1 * d.val = d.val
    rw [e1]; omega

/-- The mapping tile at point t, entry (r, q): the padded mapping at row r of tile t % 8 of half t / 8, column q. -/
theorem iblk1_1_apply (c : Dev nD) (t : Fin cfg1.N) (r : Fin 512) (q : Fin 128) :
    (iblk1 V c 1 t : Vec F S512x128 .f32) (ix2 r q)
      = (V c main_v3 : S8192x128.Idx → Elt F .f32) (ix2 (Cert.Spec.row512 (half1 t.val) (t.val % 8) r) q) := by
  have hN : t.val < 16 := lt_of_lt_of_eq t.isLt (show cfg1.N = 16 from N_1)
  obtain ⟨-, -, e0, e1, -⟩ := idx_facts1 t
  unfold iblk1
  rw [View.read_apply]
  show V c main_v3 _ = V c main_v3 _
  congr 1
  funext a
  apply Fin.ext
  match a with
  | ⟨0, _⟩ =>
    show win1_1.index t (0 : Fin 2) * 512 + 1 * r.val = (512 * (8 * (t.val / 8 % 2) + t.val % 8) + r.val) % 8192
    have := r.isLt
    rw [e0]; omega
  | ⟨1, _⟩ =>
    show win1_1.index t (1 : Fin 2) * 128 + 1 * q.val = q.val
    rw [e1]; omega

end Cert.KernelIdeal.Hand

end
-- ==== Proof.KI1ValAcc.lean ====
/-
  The second region's accumulation, entry by entry over the extended reals. Within a half of the grid the output
  block's buffer after the point at position n holds, at entry (q, d), the sum of the products of the half's tiles
  0 … n % 8: the first point leaves zero plus its tile's product, every later point adds its own to what the point before
  left.
-/
import proofs.«114392_j58480274702406_2_alg».proof.Proof.KI1ValPiece
import proofs.«114392_j58480274702406_2_alg».proof.Proof.KI1ValPay
import proofs.«114392_j58480274702406_2_alg».proof.Proof.KI1ValBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The extended reals' product and sum, named so that a buffer's entry is read as the extended real it is. -/
local notation:70 x:70 " *ₑ " y:71 => @HMul.hMul EReal EReal EReal instHMul x y
local notation:65 x:65 " +ₑ " y:66 => @HAdd.hAdd EReal EReal EReal instHAdd x y

/-- Tile i of half hh: its contribution to entry (q, d) of m1ᵀ · x, the sum over the tile's 512 rows. -/
def tile1 (c : Dev nD) (hh : Fin 2) (i : ℕ) (q : Fin 128) (d : Fin 768) : EReal :=
  ∑ r : Fin 512, V c main_v3 (ix2 (Cert.Spec.row512 hh i r) q) *ₑ V c main_arg0 (ix2 (Cert.Spec.row512 hh i r) d)

/-- The payload over the two input blocks of point t: the old entry plus that point's tile's contribution. -/
theorem pay1_at (c : Dev nD) (t : Fin cfg1.N) (xo : Vec Ideal S1x128x768 .f32) (h : Fin 1) (q : Fin 128) (d : Fin 768) :
    @Eq EReal (k1_pay2 (iblk1 V c 0 t) (iblk1 V c 1 t) xo (ix3 h q d))
      (xo (ix3 h q d) +ₑ tile1 V c (half1 t.val) (t.val % 8) q d) := by
  refine (k1_pay2_apply (iblk1 V c 0 t) (iblk1 V c 1 t) xo h q d).trans ?_
  refine congrArg (fun z : EReal => xo (ix3 h q d) +ₑ z) ?_
  unfold tile1
  refine Finset.sum_congr rfl fun r _ => ?_
  rw [iblk1_0_apply V c t r d, iblk1_1_apply V c t r q]

/-- After the point at position n the output block's buffer holds, at (q, d), the contributions of tiles 0 … n % 8 of
    the half n lies in, added in order. -/
theorem outsAt1_apply (c : Dev nD) : ∀ (n : ℕ) (hn : n < cfg1.N) (h : Fin 1) (q : Fin 128) (d : Fin 768),
    @Eq EReal (outsAt1 V c n hn (ix3 h q d)) (∑ i ∈ Finset.range (n % 8 + 1), tile1 V c (half1 n) i q d) := by
  intro n
  induction n using Nat.strong_induction_on with
  | _ n ih =>
    intro hn h q d
    by_cases h0 : n % 8 = 0
    · rw [outsAt1_A V c ⟨n, hn⟩ h0, out1_A_eq]
      refine (pay1_at V c ⟨n, hn⟩ (k1_pay1 (F := Ideal)) h q d).trans ?_
      rw [k1_pay1_apply h q d, zero_add]
      show tile1 V c (half1 n) (n % 8) q d = _
      rw [h0, Finset.sum_range_one]
    · rw [outsAt1_B V c ⟨n, hn⟩ h0, out1_B_eq]
      refine (pay1_at V c ⟨n, hn⟩ _ h q d).trans ?_
      show outsAt1 V c (n - 1) _ (ix3 h q d) +ₑ tile1 V c (half1 n) (n % 8) q d = _
      have e1 : (n - 1) % 8 + 1 = n % 8 := by omega
      have e2 : half1 (n - 1) = half1 n := Fin.ext (by show (n - 1) / 8 % 2 = n / 8 % 2; omega)
      rw [ih (n - 1) (by omega) _ h q d, e1, e2]
      exact (Finset.sum_range_succ _ _).symm

end Cert.KernelIdeal.Hand

end
-- ==== Proof.KI1Val.lean ====
/-
  What the second region leaves in its output array, entry by entry over the extended reals. The block of half h is
  written back once, after the half's last point, when its buffer holds the sum of the half's eight tiles' products; the
  two halves' blocks are the two slabs of the 2 × 128 × 768 array. So entry (h, q, d) of the array ends as the sum over
  the half's tiles i and each tile's rows r of m1 (row, q) · x (row, d).
-/
import proofs.«114392_j58480274702406_2_alg».proof.Proof.KI1ValAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The extended reals' product, named so that a buffer's entry is read as the extended real it is. -/
local notation:70 x:70 " *ₑ " y:71 => @HMul.hMul EReal EReal EReal instHMul x y

/-- One half's m1ᵀ · x: entry (h, q, d) is the sum of the contributions of the eight tiles of half h. -/
def mid1 (c : Dev nD) : S2x128x768.Idx → EReal := fun j => ∑ i : Fin 8, tile1 V c (j 0) i.val (j 1) (j 2)

/-- The write-back after the last point of a half writes that half's slab of `mid1`. -/
theorem flushed1_eq (c : Dev nD) (t : Fin cfg1.N) (hf : (cfg1.win 2).flush t = true) :
    (dat1 V c).flushed 2 t = ((cfg1.win 2).blk t).view.read (Elt Ideal) (mid1 V c) := by
  have hN : t.val < 16 := lt_of_lt_of_eq t.isLt (show cfg1.N = 16 from N_1)
  have h7 : t.val % 8 = 7 := (flush1_2 t).mp hf
  obtain ⟨-, -, -, -, e0, e1, e2⟩ := idx_facts1 t
  show (cfg1.win 2).cut (grid1.coords t) ((dat1 V c).after 2 t) = _
  rw [after1_2]
  refine funext fun (j : S1x128x768.Idx) => ?_
  obtain ⟨h, q, d, rfl⟩ : ∃ (h : Fin 1) (q : Fin 128) (d : Fin 768), j = ix3 h q d := ⟨j 0, j 1, j 2, eq_ix3 j⟩
  show @Eq EReal (outsAt1 V c t.val t.isLt (ix3 h q d)) (mid1 V c (((cfg1.win 2).blk t).view.emb (ix3 h q d)))
  have hemb : ((cfg1.win 2).blk t).view.emb (ix3 h q d) = (ix3 (half1 t.val) q d : S2x128x768.Idx) := by
    funext a; apply Fin.ext
    match a with
    | ⟨0, _⟩ =>
      show win1_2.index t (0 : Fin 3) * 1 + 1 * h.val = t.val / 8 % 2
      have := h.isLt
      rw [e0]; omega
    | ⟨1, _⟩ => show win1_2.index t (1 : Fin 3) * 128 + 1 * q.val = q.val; rw [e1]; omega
    | ⟨2, _⟩ => show win1_2.index t (2 : Fin 3) * 768 + 1 * d.val = d.val; rw [e2]; omega
  rw [hemb, outsAt1_apply V c t.val t.isLt h q d, h7]
  show ∑ i ∈ Finset.range 8, tile1 V c (half1 t.val) i q d = ∑ i : Fin 8, tile1 V c (half1 t.val) i.val q d
  exact Finset.sum_range _

/-- Every entry of the array lies in the slab some half's last point writes back. -/
theorem cover1 (i : S2x128x768.Idx) :
    ∃ t : Fin cfg1.N, (cfg1.win 2).flush t = true ∧ i ∈ ((cfg1.win 2).blk t).view.set := by
  have hN : cfg1.N = 16 := N_1
  have h0 : (i 0).val < 2 := (i 0).isLt
  have h1 : (i 1).val < 128 := (i 1).isLt
  have h2 : (i 2).val < 768 := (i 2).isLt
  let t : Fin cfg1.N := ⟨8 * (i 0).val + 7, by omega⟩
  have ht : t.val = 8 * (i 0).val + 7 := rfl
  obtain ⟨-, -, -, -, e0, e1, e2⟩ := idx_facts1 t
  refine ⟨t, (flush1_2 t).mpr (by omega), ?_⟩
  show i ∈ ((View.whole main_v12).slice (win1_2.rect t)).set
  rw [View.set_slice_whole, Rect.mem_set_unit]
  intro a
  match a with
  | ⟨0, _⟩ =>
    show win1_2.index t (0 : Fin 3) * 1 ≤ (i 0).val ∧ (i 0).val < win1_2.index t (0 : Fin 3) * 1 + 1
    rw [e0]; omega
  | ⟨1, _⟩ =>
    show win1_2.index t (1 : Fin 3) * 128 ≤ (i 1).val ∧ (i 1).val < win1_2.index t (1 : Fin 3) * 128 + 128
    rw [e1]; omega
  | ⟨2, _⟩ =>
    show win1_2.index t (2 : Fin 3) * 768 ≤ (i 2).val ∧ (i 2).val < win1_2.index t (2 : Fin 3) * 768 + 768
    rw [e2]; omega

/-- The array after the region is `mid1`. -/
theorem final1 (c : Dev nD) : (dat1 V c).arrAt 2 cfg1.N = mid1 V c :=
  (dat1 V c).arrAt_eq_of_cover 2 (mid1 V c) (flushed1_eq V c) cover1

/-- Entry (h, q, d) of the second region's output array: the sum over the eight tiles i of half h and the 512 rows r of
    each of the padded mapping at (row, q) times x at (row, d). -/
theorem value1 (c : Dev nD) (h : Fin 2) (q : Fin 128) (d : Fin 768) :
    @Eq EReal ((dat1 V c).arrAt 2 cfg1.N (ix3 h q d))
      (∑ i : Fin 8, ∑ r : Fin 512, V c main_v3 (ix2 (Cert.Spec.row512 h i.val r) q) *ₑ V c main_arg0 (ix2 (Cert.Spec.row512 h i.val r) d)) :=
  congrFun (final1 V c) (ix3 h q d)

end Cert.KernelIdeal.Hand

end
-- ==== Proof.BridgeMid.lean ====
/-
  The kernel program's cluster sums and attention scores in the specification's tiled forms. The padded mapping's
  first ten columns are the mapping. The second region leaves, for each half of the nodes, the sum over the half's
  eight tiles of 512 rows of mapping times features; the host adds the two halves: the tiled cluster sums. The host
  then multiplies by the attention matrix, the third region multiplies by the features' transpose and by one minus
  the mapping: the tiled scores.
-/
import proofs.«114392_j58480274702406_2_alg».proof.Proof.KHostMid
import proofs.«114392_j58480274702406_2_alg».proof.Proof.KHostMap
import proofs.«114392_j58480274702406_2_alg».proof.Proof.KISeg1
import proofs.«114392_j58480274702406_2_alg».proof.Proof.KI1Val

set_option maxRecDepth 16384

noncomputable section

namespace Cert.Bridge

open Cert.KernelIdeal Cert.KernelIdeal.Gen Cert.KernelIdeal.KHost
open Idealize.ShloMosaic Idealize.ShloMosaic.TcCoe Idealize.ShloMosaic.ValueIdx
open Idealize.SL.Sem
open Idealize.ShloMosaic.Pipeline (Dat)

/-- The extended reals' product and difference, named so that a buffer's entry is read as the extended real it is. -/
local notation:70 x:70 " *ₑ " y:71 => @HMul.hMul EReal EReal EReal instHMul x y
local notation:65 x:65 " -ₑ " y:66 => @HSub.hSub EReal EReal EReal instHSub x y

variable (m : (ℓ : Loc nD τ sig) → Buf (Elt Ideal) ℓ) (outs : Outs (F := Ideal)) (c : Dev nD)

/-- Column `p < 10` of the padded mapping is column `p` of the mapping. -/
theorem m1col (s : Fin 8192) (p : Fin 10) :
    @Eq EReal (V6 m c main_v3 (ix2 s (up p))) (Cert.ReferenceIdeal.RefValue.M1 s p) := by
  have hp : (up p).val < 10 := p.isLt
  rw [m1pad m c s (up p), dif_pos hp]
  rfl

/-- The padded cluster sums' row `p < 10` is the tiled form: the two halves' sums over their eight tiles of 512 rows. -/
theorem midK (h9 : outs 9 main_v12 c = (Cert.KernelIdeal.Hand.dat1 (Cert.KernelIdeal.Hand.U8 m outs) c).arrAt 2 cfg1.N) (p : Fin 10) (d : Fin 768) :
    @Eq EReal (V10 m outs c main_v17 (ix2 (up p) d))
      (Cert.Spec.kMid Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) p d) := by
  refine (midPad m outs c (up p) d).trans ?_
  show @Eq EReal (@HAdd.hAdd EReal EReal EReal instHAdd (outs 9 main_v12 c (ix3 (0 : Fin 2) (up p) d)) (outs 9 main_v12 c (ix3 (1 : Fin 2) (up p) d))) _
  rw [h9, Cert.KernelIdeal.Hand.value1 (Cert.KernelIdeal.Hand.U8 m outs) c 0 (up p) d,
    Cert.KernelIdeal.Hand.value1 (Cert.KernelIdeal.Hand.U8 m outs) c 1 (up p) d]
  unfold Cert.Spec.kMid Cert.Spec.kMidHalf
  have term : ∀ (h : Fin 2) (i : Fin 8) (r : Fin 512),
      @Eq EReal (Cert.KernelIdeal.Hand.U8 m outs c main_v3 (ix2 (Cert.Spec.row512 h i.val r) (up p))
          *ₑ Cert.KernelIdeal.Hand.U8 m outs c main_arg0 (ix2 (Cert.Spec.row512 h i.val r) d))
        (Cert.ReferenceIdeal.RefValue.M1 (Cert.Spec.row512 h i.val r) p * (fun s e => (m ((c.tc : Thread Cert.KernelIdeal.nD Cert.KernelIdeal.τ).loc Cert.KernelIdeal.main_arg0) : Cert.ReferenceIdeal.S8192x768.Idx → EReal) (ix2 s e)) (Cert.Spec.row512 h i.val r) d) := by
    intro h i r
    show @Eq EReal (V8 m outs c main_v3 (ix2 (Cert.Spec.row512 h i.val r) (up p))
        *ₑ V8 m outs c main_arg0 (ix2 (Cert.Spec.row512 h i.val r) d)) _
    rw [V8_main_v3, m1col, V8_main_arg0]
  exact congrArg₂ (· + ·) (Finset.sum_congr rfl fun i _ => Finset.sum_congr rfl fun r _ => term 0 i r)
    (Finset.sum_congr rfl fun i _ => Finset.sum_congr rfl fun r _ => term 1 i r)

/-- The third region's score of cluster `p < 10` and node `key`, from the padded products, is the tiled form. -/
theorem scoreK (h9 : outs 9 main_v12 c = (Cert.KernelIdeal.Hand.dat1 (Cert.KernelIdeal.Hand.U8 m outs) c).arrAt 2 cfg1.N) (p : Fin 10) (key : Fin 8192) :
    @Eq EReal ((∑ e : Fin 768, V10 m outs c main_v18 (ix2 (up p) e) *ₑ V10 m outs c main_arg0 (ix2 key e))
        *ₑ V10 m outs c main_v21 (ix2 (up p) key))
      (Cert.Spec.kScore Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p key) := by
  unfold Cert.Spec.kScore
  rw [mask m outs c (up p) key, m1col m c key p]
  refine congrArg₂ (· * ·) (Finset.sum_congr rfl fun e _ => ?_) rfl
  rw [aPad m outs c (up p) e, V10_main_arg0]
  refine congrArg₂ (· * ·) (Finset.sum_congr rfl fun d _ => ?_) rfl
  rw [midK m outs c h9 p d]

end Cert.Bridge

end
-- ==== Proof.BridgeRep.lean ====
/- The kernel program's cluster representation in the specification's tiled form. The host merges the two halves' streamed
   softmax states at their common maximum, divides once, and adds the tiled cluster sums; each half's state is what the third
   region leaves in its three output arrays, which is the specification's streamed state of the half after its eight tiles
   for the row's own scores and the node features. -/
import proofs.«114392_j58480274702406_2_alg».proof.Proof.KHostRep
import proofs.«114392_j58480274702406_2_alg».proof.Proof.KHostMap
import proofs.«114392_j58480274702406_2_alg».proof.Proof.KISeg1
import proofs.«114392_j58480274702406_2_alg».proof.Proof.KI2Dat
import proofs.«114392_j58480274702406_2_alg».proof.Proof.SpecG
import proofs.«114392_j58480274702406_2_alg».proof.Proof.RefValue
import proofs.«114392_j58480274702406_2_alg».proof.Proof.BridgeMid

set_option maxRecDepth 16384

noncomputable section

namespace Cert.Bridge

open Cert.KernelIdeal Cert.KernelIdeal.Gen Cert.KernelIdeal.KHost
open Idealize.ShloMosaic Idealize.ShloMosaic.TcCoe Idealize.ShloMosaic.ValueIdx
open Idealize.SL.Sem
open Idealize.ShloMosaic.Pipeline (Dat)

/-- The extended reals' product, named so that a buffer's entry is read as the extended real it is. -/
local notation:70 x:70 " *ₑ " y:71 => @HMul.hMul EReal EReal EReal instHMul x y

variable (m : (ℓ : Loc nD τ sig) → Buf (Elt Ideal) ℓ) (outs : Outs (F := Ideal)) (c : Dev nD)

set_option maxHeartbeats 1000000 in
/-- Given the tiled cluster sums and the tiled scores, what region 2 leaves in its three arrays, and that these are the
    streamed states, the cluster representation at (p, d) is the specification's tiled form. -/
theorem repK_core
    (hmid : ∀ (p : Fin 10) (d : Fin 768), @Eq EReal (V10 m outs c main_v17 (ix2 (up p) d)) (Cert.Spec.kMid Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) p d))
    (hscore : ∀ (p : Fin 10) (key : Fin 8192),
      @Eq EReal ((∑ e : Fin 768, V10 m outs c main_v18 (ix2 (up p) e) *ₑ V10 m outs c main_arg0 (ix2 key e)) *ₑ V10 m outs c main_v21 (ix2 (up p) key))
        (Cert.Spec.kScore Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p key))
    (ha : outs 11 main_v22_0 c = (Cert.KernelIdeal.Hand.dat2 (Cert.KernelIdeal.Hand.U10 m outs) c).arrAt 3 cfg2.N)
    (hb : outs 11 main_v22_1 c = (Cert.KernelIdeal.Hand.dat2 (Cert.KernelIdeal.Hand.U10 m outs) c).arrAt 4 cfg2.N)
    (hc : outs 11 main_v22_2 c = (Cert.KernelIdeal.Hand.dat2 (Cert.KernelIdeal.Hand.U10 m outs) c).arrAt 5 cfg2.N)
    (hval : ∀ (h : Fin 2) (q : Fin 128) (d : Fin 768),
      let sc : Fin 8192 → EReal := fun key => (∑ e : Fin 768, Cert.KernelIdeal.Hand.U10 m outs c main_v18 (ix2 q e) *ₑ Cert.KernelIdeal.Hand.U10 m outs c main_arg0 (ix2 key e)) *ₑ Cert.KernelIdeal.Hand.U10 m outs c main_v21 (ix2 q key)
      let xv : Cert.Spec.Mat 8192 768 := fun s e => Cert.KernelIdeal.Hand.U10 m outs c main_arg0 (ix2 s e)
      @Eq EReal ((Cert.KernelIdeal.Hand.dat2 (Cert.KernelIdeal.Hand.U10 m outs) c).arrAt 3 cfg2.N (ix3 h q 0)) (Cert.Spec.gState sc xv h 8).1
      ∧ @Eq EReal ((Cert.KernelIdeal.Hand.dat2 (Cert.KernelIdeal.Hand.U10 m outs) c).arrAt 4 cfg2.N (ix3 h q 0)) (Cert.Spec.gState sc xv h 8).2.1
      ∧ @Eq EReal ((Cert.KernelIdeal.Hand.dat2 (Cert.KernelIdeal.Hand.U10 m outs) c).arrAt 5 cfg2.N (ix3 h q d)) ((Cert.Spec.gState sc xv h 8).2.2 d))
    (p : Fin 10) (d : Fin 768) :
    @Eq EReal (V12 m outs c main_v51 (ix2 p d)) (Cert.Spec.kMidRep Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p d) := by
  -- the score row of p' and the value matrix the region streams are the specification's
  have hs : (fun key : Fin 8192 => (∑ e : Fin 768, Cert.KernelIdeal.Hand.U10 m outs c main_v18 (ix2 (up p) e) *ₑ Cert.KernelIdeal.Hand.U10 m outs c main_arg0 (ix2 key e)) *ₑ Cert.KernelIdeal.Hand.U10 m outs c main_v21 (ix2 (up p) key))
      = Cert.Spec.kScore Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p := funext fun key => hscore p key
  have hx : (fun s e => Cert.KernelIdeal.Hand.U10 m outs c main_arg0 (ix2 s e) : Cert.Spec.Mat 8192 768) = (fun s e => (m ((c.tc : Thread Cert.KernelIdeal.nD Cert.KernelIdeal.τ).loc Cert.KernelIdeal.main_arg0) : Cert.ReferenceIdeal.S8192x768.Idx → EReal) (ix2 s e)) := by
    funext s e
    show @Eq EReal (V10 m outs c main_arg0 (ix2 s e)) _
    rw [V10_main_arg0]
  -- so each half's three outputs at row p' are the components of the specification's state after eight tiles
  obtain ⟨a0, b0, c0⟩ := hval 0 (up p) d
  obtain ⟨a1, b1, c1⟩ := hval 1 (up p) d
  rw [hs, hx, ← Cert.Spec.kState_eq_gState] at a0 b0 c0 a1 b1 c1
  refine (midRep m outs c p d).trans ?_
  unfold OM OL OA
  rw [ha, hb, hc, a0, b0, c0, a1, b1, c1, hmid p d]
  rfl

/-- THE CLUSTER REPRESENTATION IN THE TILED FORM. With region 1's output array the tiled cluster sums' halves (`h9`), region 2's
    three output arrays what the region leaves (`ha hb hc`) and those the streamed states (`hval`), the cluster
    representation at (p, d) is the specification's: the tiled cluster sums plus the two halves' states merged at their common
    maximum and divided once. -/
theorem repK
    (h9 : outs 9 main_v12 c = (Cert.KernelIdeal.Hand.dat1 (Cert.KernelIdeal.Hand.U8 m outs) c).arrAt 2 cfg1.N)
    (ha : outs 11 main_v22_0 c = (Cert.KernelIdeal.Hand.dat2 (Cert.KernelIdeal.Hand.U10 m outs) c).arrAt 3 cfg2.N)
    (hb : outs 11 main_v22_1 c = (Cert.KernelIdeal.Hand.dat2 (Cert.KernelIdeal.Hand.U10 m outs) c).arrAt 4 cfg2.N)
    (hc : outs 11 main_v22_2 c = (Cert.KernelIdeal.Hand.dat2 (Cert.KernelIdeal.Hand.U10 m outs) c).arrAt 5 cfg2.N)
    (hval : ∀ (h : Fin 2) (q : Fin 128) (d : Fin 768),
      let sc : Fin 8192 → EReal := fun key => (∑ e : Fin 768, Cert.KernelIdeal.Hand.U10 m outs c main_v18 (ix2 q e) *ₑ Cert.KernelIdeal.Hand.U10 m outs c main_arg0 (ix2 key e)) *ₑ Cert.KernelIdeal.Hand.U10 m outs c main_v21 (ix2 q key)
      let xv : Cert.Spec.Mat 8192 768 := fun s e => Cert.KernelIdeal.Hand.U10 m outs c main_arg0 (ix2 s e)
      @Eq EReal ((Cert.KernelIdeal.Hand.dat2 (Cert.KernelIdeal.Hand.U10 m outs) c).arrAt 3 cfg2.N (ix3 h q 0)) (Cert.Spec.gState sc xv h 8).1
      ∧ @Eq EReal ((Cert.KernelIdeal.Hand.dat2 (Cert.KernelIdeal.Hand.U10 m outs) c).arrAt 4 cfg2.N (ix3 h q 0)) (Cert.Spec.gState sc xv h 8).2.1
      ∧ @Eq EReal ((Cert.KernelIdeal.Hand.dat2 (Cert.KernelIdeal.Hand.U10 m outs) c).arrAt 5 cfg2.N (ix3 h q d)) ((Cert.Spec.gState sc xv h 8).2.2 d))
    (p : Fin 10) (d : Fin 768) :
    @Eq EReal (V12 m outs c main_v51 (ix2 p d)) (Cert.Spec.kMidRep Cert.ReferenceIdeal.RefValue.M1 (fun s e => (m ((c.tc : Thread Cert.KernelIdeal.nD Cert.KernelIdeal.τ).loc Cert.KernelIdeal.main_arg0) : Cert.ReferenceIdeal.S8192x768.Idx → EReal) (ix2 s e)) (fun e f => (m ((c.tc : Thread Cert.KernelIdeal.nD Cert.KernelIdeal.τ).loc Cert.KernelIdeal.main_arg2) : Cert.ReferenceIdeal.S768x768.Idx → EReal) (ix2 e f)) p d) :=
  repK_core m outs c (fun p d => midK m outs c h9 p d) (fun p key => scoreK m outs c h9 p key) ha hb hc hval p d

end Cert.Bridge

end
-- ==== Proof.KHostTail.lean ====
/- Everything the program computes after the coarse adjacency (10 × 10) and the cluster features (10 × 768) are formed,
   as one function of those two arrays and the five remaining parameter arrays: the graph convolution on the ten
   clusters (unit diagonal, inverse square roots of the clamped degrees on both sides, the weights and bias, the
   rectifier), the grouping of the ten clusters into five with its attention and softmax, the second graph convolution
   and the mean over the five rows. The result buffer holds that function of the two arrays. -/
import proofs.«114392_j58480274702406_2_alg».proof.Proof.Gen.KernelIdeal.Regions
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.StableHlo

section Stages
variable {F : FTy → Type} [FloatOps F]

/-- The coarse adjacency with unit diagonal, each entry scaled by the inverse square roots of its row's and its column's degree (the row sums clamped below at one). -/
def normAdjMid (v11 : (⟨S10x10, .f32⟩ : BufTy).Contents (Elt F)) :
    (⟨S10x10, .f32⟩ : BufTy).Contents (Elt F) :=
  let v52 : (⟨S10, .i32⟩ : BufTy).Contents (Elt F) := (iotaInDim S10 32 0)
  let c_1 : (⟨S_, .i32⟩ : BufTy).Contents (Elt F) := (constantI S_ 32 0#32)
  let v53 : (⟨S10, .i32⟩ : BufTy).Contents (Elt F) := (broadcastInDim S10 ![] bcast_S_S10 : (⟨S_, .i32⟩ : BufTy).Contents (Elt F) → (⟨S10, .i32⟩ : BufTy).Contents (Elt F)) c_1
  let v54 : (⟨S10, .i1⟩ : BufTy).Contents (Elt F) := (cmpi .slt : (⟨S10, .i32⟩ : BufTy).Contents (Elt F) → (⟨S10, .i32⟩ : BufTy).Contents (Elt F) → (⟨S10, .i1⟩ : BufTy).Contents (Elt F)) v52 v53
  let c_2 : (⟨S_, .i32⟩ : BufTy).Contents (Elt F) := (constantI S_ 32 10#32)
  let v55 : (⟨S10, .i32⟩ : BufTy).Contents (Elt F) := (broadcastInDim S10 ![] bcast_S_S10 : (⟨S_, .i32⟩ : BufTy).Contents (Elt F) → (⟨S10, .i32⟩ : BufTy).Contents (Elt F)) c_2
  let v56 : (⟨S10, .i32⟩ : BufTy).Contents (Elt F) := (addi : (⟨S10, .i32⟩ : BufTy).Contents (Elt F) → (⟨S10, .i32⟩ : BufTy).Contents (Elt F) → (⟨S10, .i32⟩ : BufTy).Contents (Elt F)) v52 v55
  let v57 : (⟨S10, .i32⟩ : BufTy).Contents (Elt F) := (select : (⟨S10, .i1⟩ : BufTy).Contents (Elt F) → (⟨S10, .i32⟩ : BufTy).Contents (Elt F) → (⟨S10, .i32⟩ : BufTy).Contents (Elt F) → (⟨S10, .i32⟩ : BufTy).Contents (Elt F)) v54 v56 v52
  let c_3 : (⟨S_, .i32⟩ : BufTy).Contents (Elt F) := (constantI S_ 32 0#32)
  let v58 : (⟨S10, .i32⟩ : BufTy).Contents (Elt F) := (broadcastInDim S10 ![] bcast_S_S10 : (⟨S_, .i32⟩ : BufTy).Contents (Elt F) → (⟨S10, .i32⟩ : BufTy).Contents (Elt F)) c_3
  let v59 : (⟨S10, .i1⟩ : BufTy).Contents (Elt F) := (cmpi .slt : (⟨S10, .i32⟩ : BufTy).Contents (Elt F) → (⟨S10, .i32⟩ : BufTy).Contents (Elt F) → (⟨S10, .i1⟩ : BufTy).Contents (Elt F)) v52 v58
  let c_4 : (⟨S_, .i32⟩ : BufTy).Contents (Elt F) := (constantI S_ 32 10#32)
  let v60 : (⟨S10, .i32⟩ : BufTy).Contents (Elt F) := (broadcastInDim S10 ![] bcast_S_S10 : (⟨S_, .i32⟩ : BufTy).Contents (Elt F) → (⟨S10, .i32⟩ : BufTy).Contents (Elt F)) c_4
  let v61 : (⟨S10, .i32⟩ : BufTy).Contents (Elt F) := (addi : (⟨S10, .i32⟩ : BufTy).Contents (Elt F) → (⟨S10, .i32⟩ : BufTy).Contents (Elt F) → (⟨S10, .i32⟩ : BufTy).Contents (Elt F)) v52 v60
  let v62 : (⟨S10, .i32⟩ : BufTy).Contents (Elt F) := (select : (⟨S10, .i1⟩ : BufTy).Contents (Elt F) → (⟨S10, .i32⟩ : BufTy).Contents (Elt F) → (⟨S10, .i32⟩ : BufTy).Contents (Elt F) → (⟨S10, .i32⟩ : BufTy).Contents (Elt F)) v59 v61 v52
  let v63 : (⟨S10x1, .i32⟩ : BufTy).Contents (Elt F) := (broadcastInDim S10x1 ![0] bcast_S10_S10x1_0 : (⟨S10, .i32⟩ : BufTy).Contents (Elt F) → (⟨S10x1, .i32⟩ : BufTy).Contents (Elt F)) v57
  let v64 : (⟨S10x1, .i32⟩ : BufTy).Contents (Elt F) := (broadcastInDim S10x1 ![0] bcast_S10_S10x1_0 : (⟨S10, .i32⟩ : BufTy).Contents (Elt F) → (⟨S10x1, .i32⟩ : BufTy).Contents (Elt F)) v62
  let v65 : (⟨S10x2, .i32⟩ : BufTy).Contents (Elt F) := ((fun a b => concatenate S10x2 1 [⟨S10x1, a⟩, ⟨S10x1, b⟩] concatenates_S10x1_S10x1_S10x2_d1) : (⟨S10x1, .i32⟩ : BufTy).Contents (Elt F) → (⟨S10x1, .i32⟩ : BufTy).Contents (Elt F) → (⟨S10x2, .i32⟩ : BufTy).Contents (Elt F)) v63 v64
  let cst_5 : (⟨S_, .f32⟩ : BufTy).Contents (Elt F) := (constant S_ .f32 0x3F800000#32)
  let v66 : (⟨S10, .f32⟩ : BufTy).Contents (Elt F) := (broadcastInDim S10 ![] bcast_S_S10 : (⟨S_, .f32⟩ : BufTy).Contents (Elt F) → (⟨S10, .f32⟩ : BufTy).Contents (Elt F)) cst_5
  let v67 : (⟨S10x10, .f32⟩ : BufTy).Contents (Elt F) := ((fun x i u => Host.scatter scatter_S10x10_S10x2_S10_n_01_01_1 (fun _ b => b) x i u) : (⟨S10x10, .f32⟩ : BufTy).Contents (Elt F) → (⟨S10x2, .i32⟩ : BufTy).Contents (Elt F) → (⟨S10, .f32⟩ : BufTy).Contents (Elt F) → (⟨S10x10, .f32⟩ : BufTy).Contents (Elt F)) v11 v65 v66
  let cst_6 : (⟨S_, .f32⟩ : BufTy).Contents (Elt F) := (constant S_ .f32 0x00000000#32)
  let v68 : (⟨S10, .f32⟩ : BufTy).Contents (Elt F) := ((fun x v => Host.reduceAdd x v reducesTo_S10x10_S10_d1 h_S_) : (⟨S10x10, .f32⟩ : BufTy).Contents (Elt F) → (⟨S_, .f32⟩ : BufTy).Contents (Elt F) → (⟨S10, .f32⟩ : BufTy).Contents (Elt F)) v67 cst_6
  let cst_7 : (⟨S_, .f32⟩ : BufTy).Contents (Elt F) := (constant S_ .f32 0x3F800000#32)
  let call3_v0 : (⟨S_, .f32⟩ : BufTy).Contents (Elt F) := id cst_7
  let call3_v1 : (⟨S10, .f32⟩ : BufTy).Contents (Elt F) := (broadcastInDim S10 ![] bcast_S_S10) call3_v0
  let v69 : (⟨S10, .f32⟩ : BufTy).Contents (Elt F) := maximumf call3_v1 v68
  let cst_8 : (⟨S_, .f32⟩ : BufTy).Contents (Elt F) := (constant S_ .f32 0xBF000000#32)
  let v70 : (⟨S10, .f32⟩ : BufTy).Contents (Elt F) := (broadcastInDim S10 ![] bcast_S_S10 : (⟨S_, .f32⟩ : BufTy).Contents (Elt F) → (⟨S10, .f32⟩ : BufTy).Contents (Elt F)) cst_8
  let v71 : (⟨S10, .f32⟩ : BufTy).Contents (Elt F) := (Host.powf : (⟨S10, .f32⟩ : BufTy).Contents (Elt F) → (⟨S10, .f32⟩ : BufTy).Contents (Elt F) → (⟨S10, .f32⟩ : BufTy).Contents (Elt F)) v69 v70
  let v72 : (⟨S10x1, .f32⟩ : BufTy).Contents (Elt F) := (broadcastInDim S10x1 ![0] bcast_S10_S10x1_0 : (⟨S10, .f32⟩ : BufTy).Contents (Elt F) → (⟨S10x1, .f32⟩ : BufTy).Contents (Elt F)) v71
  let v73 : (⟨S10x10, .f32⟩ : BufTy).Contents (Elt F) := (broadcastInDim S10x10 ![0, 1] bcast_S10x1_S10x10_0_1 : (⟨S10x1, .f32⟩ : BufTy).Contents (Elt F) → (⟨S10x10, .f32⟩ : BufTy).Contents (Elt F)) v72
  let v74 : (⟨S10x10, .f32⟩ : BufTy).Contents (Elt F) := (mulf : (⟨S10x10, .f32⟩ : BufTy).Contents (Elt F) → (⟨S10x10, .f32⟩ : BufTy).Contents (Elt F) → (⟨S10x10, .f32⟩ : BufTy).Contents (Elt F)) v73 v67
  let v75 : (⟨S1x10, .f32⟩ : BufTy).Contents (Elt F) := (broadcastInDim S1x10 ![1] bcast_S10_S1x10_1 : (⟨S10, .f32⟩ : BufTy).Contents (Elt F) → (⟨S1x10, .f32⟩ : BufTy).Contents (Elt F)) v71
  let v76 : (⟨S10x10, .f32⟩ : BufTy).Contents (Elt F) := (broadcastInDim S10x10 ![0, 1] bcast_S1x10_S10x10_0_1 : (⟨S1x10, .f32⟩ : BufTy).Contents (Elt F) → (⟨S10x10, .f32⟩ : BufTy).Contents (Elt F)) v75
  let v77 : (⟨S10x10, .f32⟩ : BufTy).Contents (Elt F) := (mulf : (⟨S10x10, .f32⟩ : BufTy).Contents (Elt F) → (⟨S10x10, .f32⟩ : BufTy).Contents (Elt F) → (⟨S10x10, .f32⟩ : BufTy).Contents (Elt F)) v74 v76
  v77

/-- The first graph convolution: the normalised adjacency times (the cluster features times the weights), plus the bias, rectified. -/
def xMid (v51 : (⟨S10x768, .f32⟩ : BufTy).Contents (Elt F)) (a3 : (⟨S768x768, .f32⟩ : BufTy).Contents (Elt F)) (v77 : (⟨S10x10, .f32⟩ : BufTy).Contents (Elt F)) (a4 : (⟨S768, .f32⟩ : BufTy).Contents (Elt F)) :
    (⟨S10x768, .f32⟩ : BufTy).Contents (Elt F) :=
  let v78 : (⟨S10x768, .f32⟩ : BufTy).Contents (Elt F) := ((fun l r => Host.dotGeneral dot_S10x768_S768x768_S10x768_1_0_0_1_n_n none l r) : (⟨S10x768, .f32⟩ : BufTy).Contents (Elt F) → (⟨S768x768, .f32⟩ : BufTy).Contents (Elt F) → (⟨S10x768, .f32⟩ : BufTy).Contents (Elt F)) v51 a3
  let v79 : (⟨S10x768, .f32⟩ : BufTy).Contents (Elt F) := ((fun l r => Host.dotGeneral dot_S10x10_S10x768_S10x768_1_0_0_1_n_n none l r) : (⟨S10x10, .f32⟩ : BufTy).Contents (Elt F) → (⟨S10x768, .f32⟩ : BufTy).Contents (Elt F) → (⟨S10x768, .f32⟩ : BufTy).Contents (Elt F)) v77 v78
  let v80 : (⟨S1x768, .f32⟩ : BufTy).Contents (Elt F) := (broadcastInDim S1x768 ![1] bcast_S768_S1x768_1 : (⟨S768, .f32⟩ : BufTy).Contents (Elt F) → (⟨S1x768, .f32⟩ : BufTy).Contents (Elt F)) a4
  let v81 : (⟨S10x768, .f32⟩ : BufTy).Contents (Elt F) := (broadcastInDim S10x768 ![0, 1] bcast_S1x768_S10x768_0_1 : (⟨S1x768, .f32⟩ : BufTy).Contents (Elt F) → (⟨S10x768, .f32⟩ : BufTy).Contents (Elt F)) v80
  let v82 : (⟨S10x768, .f32⟩ : BufTy).Contents (Elt F) := (addf : (⟨S10x768, .f32⟩ : BufTy).Contents (Elt F) → (⟨S10x768, .f32⟩ : BufTy).Contents (Elt F) → (⟨S10x768, .f32⟩ : BufTy).Contents (Elt F)) v79 v81
  let call4_cst : (⟨S_, .f32⟩ : BufTy).Contents (Elt F) := (constant S_ .f32 0x00000000#32)
  let call4_v0 : (⟨S10x768, .f32⟩ : BufTy).Contents (Elt F) := (broadcastInDim S10x768 ![] bcast_S_S10x768) call4_cst
  let v83 : (⟨S10x768, .f32⟩ : BufTy).Contents (Elt F) := maximumf v82 call4_v0
  v83

/-- The mapping of the ten clusters onto five groups: the one-hot of (p / 2) over five columns. -/
def m2  :
    (⟨S10x5, .f32⟩ : BufTy).Contents (Elt F) :=
  let v84 : (⟨S10, .i32⟩ : BufTy).Contents (Elt F) := (iotaInDim S10 32 0)
  let c_9 : (⟨S_, .i32⟩ : BufTy).Contents (Elt F) := (constantI S_ 32 2#32)
  let call5_v0 : (⟨S_, .i32⟩ : BufTy).Contents (Elt F) := id c_9
  let call5_v1 : (⟨S10, .i32⟩ : BufTy).Contents (Elt F) := (broadcastInDim S10 ![] bcast_S_S10) call5_v0
  let call5_v2 : (⟨S10, .i32⟩ : BufTy).Contents (Elt F) := Host.divsi v84 call5_v1
  let call5_v3 : (⟨S10, .i32⟩ : BufTy).Contents (Elt F) := signi v84
  let call5_v4 : (⟨S_, .i32⟩ : BufTy).Contents (Elt F) := signi call5_v0
  let call5_v5 : (⟨S10, .i32⟩ : BufTy).Contents (Elt F) := (broadcastInDim S10 ![] bcast_S_S10) call5_v4
  let call5_v6 : (⟨S10, .i1⟩ : BufTy).Contents (Elt F) := (cmpi .ne) call5_v3 call5_v5
  let call5_v7 : (⟨S10, .i32⟩ : BufTy).Contents (Elt F) := (broadcastInDim S10 ![] bcast_S_S10) call5_v0
  let call5_v8 : (⟨S10, .i32⟩ : BufTy).Contents (Elt F) := Host.remsi v84 call5_v7
  let call5_c : (⟨S_, .i32⟩ : BufTy).Contents (Elt F) := (constantI S_ 32 0#32)
  let call5_v9 : (⟨S10, .i32⟩ : BufTy).Contents (Elt F) := (broadcastInDim S10 ![] bcast_S_S10) call5_c
  let call5_v10 : (⟨S10, .i1⟩ : BufTy).Contents (Elt F) := (cmpi .ne) call5_v8 call5_v9
  let call5_v11 : (⟨S10, .i1⟩ : BufTy).Contents (Elt F) := andi call5_v6 call5_v10
  let call5_c_0 : (⟨S_, .i32⟩ : BufTy).Contents (Elt F) := (constantI S_ 32 1#32)
  let call5_v12 : (⟨S10, .i32⟩ : BufTy).Contents (Elt F) := (broadcastInDim S10 ![] bcast_S_S10) call5_c_0
  let call5_v13 : (⟨S10, .i32⟩ : BufTy).Contents (Elt F) := subi call5_v2 call5_v12
  let v85 : (⟨S10, .i32⟩ : BufTy).Contents (Elt F) := select call5_v11 call5_v13 call5_v2
  let call6_v0 : (⟨S10x1, .i32⟩ : BufTy).Contents (Elt F) := (broadcastInDim S10x1 ![0] bcast_S10_S10x1_0) v85
  let call6_v1 : (⟨S1x5, .i32⟩ : BufTy).Contents (Elt F) := (iotaInDim S1x5 32 1)
  let call6_v2 : (⟨S10x5, .i32⟩ : BufTy).Contents (Elt F) := (broadcastInDim S10x5 ![0, 1] bcast_S10x1_S10x5_0_1) call6_v0
  let call6_v3 : (⟨S10x5, .i32⟩ : BufTy).Contents (Elt F) := (broadcastInDim S10x5 ![0, 1] bcast_S1x5_S10x5_0_1) call6_v1
  let call6_v4 : (⟨S10x5, .i1⟩ : BufTy).Contents (Elt F) := (cmpi .eq) call6_v2 call6_v3
  let v86 : (⟨S10x5, .f32⟩ : BufTy).Contents (Elt F) := (uitofp .f32) call6_v4
  v86

/-- The groups' adjacency: the mapping's transpose times the coarse adjacency times the mapping. -/
def highAdj (v86 : (⟨S10x5, .f32⟩ : BufTy).Contents (Elt F)) (v11 : (⟨S10x10, .f32⟩ : BufTy).Contents (Elt F)) :
    (⟨S5x5, .f32⟩ : BufTy).Contents (Elt F) :=
  let v87 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v86
  let v88 : (⟨S5x10, .f32⟩ : BufTy).Contents (Elt F) := ((fun l r => Host.dotGeneral dot_S5x10_S10x10_S5x10_1_0_0_1_n_n none l r) : (⟨S5x10, .f32⟩ : BufTy).Contents (Elt F) → (⟨S10x10, .f32⟩ : BufTy).Contents (Elt F) → (⟨S5x10, .f32⟩ : BufTy).Contents (Elt F)) v87 v11
  let v89 : (⟨S5x5, .f32⟩ : BufTy).Contents (Elt F) := ((fun l r => Host.dotGeneral dot_S5x10_S10x5_S5x5_1_0_0_1_n_n none l r) : (⟨S5x10, .f32⟩ : BufTy).Contents (Elt F) → (⟨S10x5, .f32⟩ : BufTy).Contents (Elt F) → (⟨S5x5, .f32⟩ : BufTy).Contents (Elt F)) v88 v86
  v89

/-- The groups' features: the attention of the five groups over the ten clusters (own-group scores multiplied by zero, softmax along the clusters) applied to the convolved features, plus the groups' sums. -/
def highRep (v86 : (⟨S10x5, .f32⟩ : BufTy).Contents (Elt F)) (v83 : (⟨S10x768, .f32⟩ : BufTy).Contents (Elt F)) (a5 : (⟨S768x768, .f32⟩ : BufTy).Contents (Elt F)) :
    (⟨S5x768, .f32⟩ : BufTy).Contents (Elt F) :=
  let v90 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v86
  let v91 : (⟨S5x768, .f32⟩ : BufTy).Contents (Elt F) := ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)) v90 v83
  let v92 : (⟨S5x768, .f32⟩ : BufTy).Contents (Elt F) := ((fun l r => Host.dotGeneral dot_S5x768_S768x768_S5x768_1_0_0_1_n_n (some .fp32) l r) : (⟨S5x768, .f32⟩ : BufTy).Contents (Elt F) → (⟨S768x768, .f32⟩ : BufTy).Contents (Elt F) → (⟨S5x768, .f32⟩ : BufTy).Contents (Elt F)) v91 a5
  let v93 : (⟨S768x10, .f32⟩ : BufTy).Contents (Elt F) := ((transpose S768x10 [1, 0] · transposes_S10x768_S768x10_1_0) : (⟨S10x768, .f32⟩ : BufTy).Contents (Elt F) → (⟨S768x10, .f32⟩ : BufTy).Contents (Elt F)) v83
  let v94 : (⟨S5x10, .f32⟩ : BufTy).Contents (Elt F) := ((fun l r => Host.dotGeneral dot_S5x768_S768x10_S5x10_1_0_0_1_n_n (some .fp32) l r) : (⟨S5x768, .f32⟩ : BufTy).Contents (Elt F) → (⟨S768x10, .f32⟩ : BufTy).Contents (Elt F) → (⟨S5x10, .f32⟩ : BufTy).Contents (Elt F)) v92 v93
  let cst_10 : (⟨S_, .f32⟩ : BufTy).Contents (Elt F) := (constant S_ .f32 0x3F800000#32)
  let v95 : (⟨S10x5, .f32⟩ : BufTy).Contents (Elt F) := (broadcastInDim S10x5 ![] bcast_S_S10x5 : (⟨S_, .f32⟩ : BufTy).Contents (Elt F) → (⟨S10x5, .f32⟩ : BufTy).Contents (Elt F)) cst_10
  let v96 : (⟨S10x5, .f32⟩ : BufTy).Contents (Elt F) := (subf : (⟨S10x5, .f32⟩ : BufTy).Contents (Elt F) → (⟨S10x5, .f32⟩ : BufTy).Contents (Elt F) → (⟨S10x5, .f32⟩ : BufTy).Contents (Elt F)) v95 v86
  let v97 : (⟨S5x10, .f32⟩ : BufTy).Contents (Elt F) := ((transpose S5x10 [1, 0] · transposes_S10x5_S5x10_1_0) : (⟨S10x5, .f32⟩ : BufTy).Contents (Elt F) → (⟨S5x10, .f32⟩ : BufTy).Contents (Elt F)) v96
  let v98 : (⟨S5x10, .f32⟩ : BufTy).Contents (Elt F) := (mulf : (⟨S5x10, .f32⟩ : BufTy).Contents (Elt F) → (⟨S5x10, .f32⟩ : BufTy).Contents (Elt F) → (⟨S5x10, .f32⟩ : BufTy).Contents (Elt F)) v94 v97
  let cst_11 : (⟨S_, .f32⟩ : BufTy).Contents (Elt F) := (constant S_ .f32 0xFF800000#32)
  let v99 : (⟨S5, .f32⟩ : BufTy).Contents (Elt F) := ((fun x v => Host.reduce FloatOps.maximumf x v reducesTo_S5x10_S5_d1 h_S_) : (⟨S5x10, .f32⟩ : BufTy).Contents (Elt F) → (⟨S_, .f32⟩ : BufTy).Contents (Elt F) → (⟨S5, .f32⟩ : BufTy).Contents (Elt F)) v98 cst_11
  let cst_12 : (⟨S_, .f32⟩ : BufTy).Contents (Elt F) := (constant S_ .f32 0xFF800000#32)
  let v100 : (⟨S5, .f32⟩ : BufTy).Contents (Elt F) := (broadcastInDim S5 ![] bcast_S_S5 : (⟨S_, .f32⟩ : BufTy).Contents (Elt F) → (⟨S5, .f32⟩ : BufTy).Contents (Elt F)) cst_12
  let v101 : (⟨S5, .f32⟩ : BufTy).Contents (Elt F) := (maximumf : (⟨S5, .f32⟩ : BufTy).Contents (Elt F) → (⟨S5, .f32⟩ : BufTy).Contents (Elt F) → (⟨S5, .f32⟩ : BufTy).Contents (Elt F)) v100 v99
  let v102 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v101
  let v103 : (⟨S5x10, .f32⟩ : BufTy).Contents (Elt F) := (broadcastInDim S5x10 ![0, 1] bcast_S5x1_S5x10_0_1 : (⟨S5x1, .f32⟩ : BufTy).Contents (Elt F) → (⟨S5x10, .f32⟩ : BufTy).Contents (Elt F)) v102
  let v104 : (⟨S5x10, .f32⟩ : BufTy).Contents (Elt F) := (subf : (⟨S5x10, .f32⟩ : BufTy).Contents (Elt F) → (⟨S5x10, .f32⟩ : BufTy).Contents (Elt F) → (⟨S5x10, .f32⟩ : BufTy).Contents (Elt F)) v98 v103
  let v105 : (⟨S5x10, .f32⟩ : BufTy).Contents (Elt F) := (Host.exp : (⟨S5x10, .f32⟩ : BufTy).Contents (Elt F) → (⟨S5x10, .f32⟩ : BufTy).Contents (Elt F)) v104
  let cst_13 : (⟨S_, .f32⟩ : BufTy).Contents (Elt F) := (constant S_ .f32 0x00000000#32)
  let v106 : (⟨S5, .f32⟩ : BufTy).Contents (Elt F) := ((fun x v => Host.reduceAdd x v reducesTo_S5x10_S5_d1 h_S_) : (⟨S5x10, .f32⟩ : BufTy).Contents (Elt F) → (⟨S_, .f32⟩ : BufTy).Contents (Elt F) → (⟨S5, .f32⟩ : BufTy).Contents (Elt F)) v105 cst_13
  let v107 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v106
  let v108 : (⟨S5x10, .f32⟩ : BufTy).Contents (Elt F) := (broadcastInDim S5x10 ![0, 1] bcast_S5x1_S5x10_0_1 : (⟨S5x1, .f32⟩ : BufTy).Contents (Elt F) → (⟨S5x10, .f32⟩ : BufTy).Contents (Elt F)) v107
  let v109 : (⟨S5x10, .f32⟩ : BufTy).Contents (Elt F) := (Host.divf : (⟨S5x10, .f32⟩ : BufTy).Contents (Elt F) → (⟨S5x10, .f32⟩ : BufTy).Contents (Elt F) → (⟨S5x10, .f32⟩ : BufTy).Contents (Elt F)) v105 v108
  let v110 : (⟨S5x768, .f32⟩ : BufTy).Contents (Elt F) := ((fun l r => Host.dotGeneral dot_S5x10_S10x768_S5x768_1_0_0_1_n_n none l r) : (⟨S5x10, .f32⟩ : BufTy).Contents (Elt F) → (⟨S10x768, .f32⟩ : BufTy).Contents (Elt F) → (⟨S5x768, .f32⟩ : BufTy).Contents (Elt F)) v109 v83
  let v111 : (⟨S5x768, .f32⟩ : BufTy).Contents (Elt F) := (addf : (⟨S5x768, .f32⟩ : BufTy).Contents (Elt F) → (⟨S5x768, .f32⟩ : BufTy).Contents (Elt F) → (⟨S5x768, .f32⟩ : BufTy).Contents (Elt F)) v110 v91
  v111

/-- The groups' adjacency with unit diagonal, scaled by the inverse square roots of the clamped degrees. -/
def normAdjHigh (v89 : (⟨S5x5, .f32⟩ : BufTy).Contents (Elt F)) :
    (⟨S5x5, .f32⟩ : BufTy).Contents (Elt F) :=
  let v112 : (⟨S5, .i32⟩ : BufTy).Contents (Elt F) := (iotaInDim S5 32 0)
  let c_14 : (⟨S_, .i32⟩ : BufTy).Contents (Elt F) := (constantI S_ 32 0#32)
  let v113 : (⟨S5, .i32⟩ : BufTy).Contents (Elt F) := (broadcastInDim S5 ![] bcast_S_S5 : (⟨S_, .i32⟩ : BufTy).Contents (Elt F) → (⟨S5, .i32⟩ : BufTy).Contents (Elt F)) c_14
  let v114 : (⟨S5, .i1⟩ : BufTy).Contents (Elt F) := (cmpi .slt : (⟨S5, .i32⟩ : BufTy).Contents (Elt F) → (⟨S5, .i32⟩ : BufTy).Contents (Elt F) → (⟨S5, .i1⟩ : BufTy).Contents (Elt F)) v112 v113
  let c_15 : (⟨S_, .i32⟩ : BufTy).Contents (Elt F) := (constantI S_ 32 5#32)
  let v115 : (⟨S5, .i32⟩ : BufTy).Contents (Elt F) := (broadcastInDim S5 ![] bcast_S_S5 : (⟨S_, .i32⟩ : BufTy).Contents (Elt F) → (⟨S5, .i32⟩ : BufTy).Contents (Elt F)) c_15
  let v116 : (⟨S5, .i32⟩ : BufTy).Contents (Elt F) := (addi : (⟨S5, .i32⟩ : BufTy).Contents (Elt F) → (⟨S5, .i32⟩ : BufTy).Contents (Elt F) → (⟨S5, .i32⟩ : BufTy).Contents (Elt F)) v112 v115
  let v117 : (⟨S5, .i32⟩ : BufTy).Contents (Elt F) := (select : (⟨S5, .i1⟩ : BufTy).Contents (Elt F) → (⟨S5, .i32⟩ : BufTy).Contents (Elt F) → (⟨S5, .i32⟩ : BufTy).Contents (Elt F) → (⟨S5, .i32⟩ : BufTy).Contents (Elt F)) v114 v116 v112
  let c_16 : (⟨S_, .i32⟩ : BufTy).Contents (Elt F) := (constantI S_ 32 0#32)
  let v118 : (⟨S5, .i32⟩ : BufTy).Contents (Elt F) := (broadcastInDim S5 ![] bcast_S_S5 : (⟨S_, .i32⟩ : BufTy).Contents (Elt F) → (⟨S5, .i32⟩ : BufTy).Contents (Elt F)) c_16
  let v119 : (⟨S5, .i1⟩ : BufTy).Contents (Elt F) := (cmpi .slt : (⟨S5, .i32⟩ : BufTy).Contents (Elt F) → (⟨S5, .i32⟩ : BufTy).Contents (Elt F) → (⟨S5, .i1⟩ : BufTy).Contents (Elt F)) v112 v118
  let c_17 : (⟨S_, .i32⟩ : BufTy).Contents (Elt F) := (constantI S_ 32 5#32)
  let v120 : (⟨S5, .i32⟩ : BufTy).Contents (Elt F) := (broadcastInDim S5 ![] bcast_S_S5 : (⟨S_, .i32⟩ : BufTy).Contents (Elt F) → (⟨S5, .i32⟩ : BufTy).Contents (Elt F)) c_17
  let v121 : (⟨S5, .i32⟩ : BufTy).Contents (Elt F) := (addi : (⟨S5, .i32⟩ : BufTy).Contents (Elt F) → (⟨S5, .i32⟩ : BufTy).Contents (Elt F) → (⟨S5, .i32⟩ : BufTy).Contents (Elt F)) v112 v120
  let v122 : (⟨S5, .i32⟩ : BufTy).Contents (Elt F) := (select : (⟨S5, .i1⟩ : BufTy).Contents (Elt F) → (⟨S5, .i32⟩ : BufTy).Contents (Elt F) → (⟨S5, .i32⟩ : BufTy).Contents (Elt F) → (⟨S5, .i32⟩ : BufTy).Contents (Elt F)) v119 v121 v112
  let v123 : (⟨S5x1, .i32⟩ : BufTy).Contents (Elt F) := (broadcastInDim S5x1 ![0] bcast_S5_S5x1_0 : (⟨S5, .i32⟩ : BufTy).Contents (Elt F) → (⟨S5x1, .i32⟩ : BufTy).Contents (Elt F)) v117
  let v124 : (⟨S5x1, .i32⟩ : BufTy).Contents (Elt F) := (broadcastInDim S5x1 ![0] bcast_S5_S5x1_0 : (⟨S5, .i32⟩ : BufTy).Contents (Elt F) → (⟨S5x1, .i32⟩ : BufTy).Contents (Elt F)) v122
  let v125 : (⟨S5x2, .i32⟩ : BufTy).Contents (Elt F) := ((fun a b => concatenate S5x2 1 [⟨S5x1, a⟩, ⟨S5x1, b⟩] concatenates_S5x1_S5x1_S5x2_d1) : (⟨S5x1, .i32⟩ : BufTy).Contents (Elt F) → (⟨S5x1, .i32⟩ : BufTy).Contents (Elt F) → (⟨S5x2, .i32⟩ : BufTy).Contents (Elt F)) v123 v124
  let cst_18 : (⟨S_, .f32⟩ : BufTy).Contents (Elt F) := (constant S_ .f32 0x3F800000#32)
  let v126 : (⟨S5, .f32⟩ : BufTy).Contents (Elt F) := (broadcastInDim S5 ![] bcast_S_S5 : (⟨S_, .f32⟩ : BufTy).Contents (Elt F) → (⟨S5, .f32⟩ : BufTy).Contents (Elt F)) cst_18
  let v127 : (⟨S5x5, .f32⟩ : BufTy).Contents (Elt F) := ((fun x i u => Host.scatter scatter_S5x5_S5x2_S5_n_01_01_1 (fun _ b => b) x i u) : (⟨S5x5, .f32⟩ : BufTy).Contents (Elt F) → (⟨S5x2, .i32⟩ : BufTy).Contents (Elt F) → (⟨S5, .f32⟩ : BufTy).Contents (Elt F) → (⟨S5x5, .f32⟩ : BufTy).Contents (Elt F)) v89 v125 v126
  let cst_19 : (⟨S_, .f32⟩ : BufTy).Contents (Elt F) := (constant S_ .f32 0x00000000#32)
  let v128 : (⟨S5, .f32⟩ : BufTy).Contents (Elt F) := ((fun x v => Host.reduceAdd x v reducesTo_S5x5_S5_d1 h_S_) : (⟨S5x5, .f32⟩ : BufTy).Contents (Elt F) → (⟨S_, .f32⟩ : BufTy).Contents (Elt F) → (⟨S5, .f32⟩ : BufTy).Contents (Elt F)) v127 cst_19
  let cst_20 : (⟨S_, .f32⟩ : BufTy).Contents (Elt F) := (constant S_ .f32 0x3F800000#32)
  let call7_v0 : (⟨S_, .f32⟩ : BufTy).Contents (Elt F) := id cst_20
  let call7_v1 : (⟨S5, .f32⟩ : BufTy).Contents (Elt F) := (broadcastInDim S5 ![] bcast_S_S5) call7_v0
  let v129 : (⟨S5, .f32⟩ : BufTy).Contents (Elt F) := maximumf call7_v1 v128
  let cst_21 : (⟨S_, .f32⟩ : BufTy).Contents (Elt F) := (constant S_ .f32 0xBF000000#32)
  let v130 : (⟨S5, .f32⟩ : BufTy).Contents (Elt F) := (broadcastInDim S5 ![] bcast_S_S5 : (⟨S_, .f32⟩ : BufTy).Contents (Elt F) → (⟨S5, .f32⟩ : BufTy).Contents (Elt F)) cst_21
  let v131 : (⟨S5, .f32⟩ : BufTy).Contents (Elt F) := (Host.powf : (⟨S5, .f32⟩ : BufTy).Contents (Elt F) → (⟨S5, .f32⟩ : BufTy).Contents (Elt F) → (⟨S5, .f32⟩ : BufTy).Contents (Elt F)) v129 v130
  let v132 : (⟨S5x1, .f32⟩ : BufTy).Contents (Elt F) := (broadcastInDim S5x1 ![0] bcast_S5_S5x1_0 : (⟨S5, .f32⟩ : BufTy).Contents (Elt F) → (⟨S5x1, .f32⟩ : BufTy).Contents (Elt F)) v131
  let v133 : (⟨S5x5, .f32⟩ : BufTy).Contents (Elt F) := (broadcastInDim S5x5 ![0, 1] bcast_S5x1_S5x5_0_1 : (⟨S5x1, .f32⟩ : BufTy).Contents (Elt F) → (⟨S5x5, .f32⟩ : BufTy).Contents (Elt F)) v132
  let v134 : (⟨S5x5, .f32⟩ : BufTy).Contents (Elt F) := (mulf : (⟨S5x5, .f32⟩ : BufTy).Contents (Elt F) → (⟨S5x5, .f32⟩ : BufTy).Contents (Elt F) → (⟨S5x5, .f32⟩ : BufTy).Contents (Elt F)) v133 v127
  let v135 : (⟨S1x5, .f32⟩ : BufTy).Contents (Elt F) := (broadcastInDim S1x5 ![1] bcast_S5_S1x5_1 : (⟨S5, .f32⟩ : BufTy).Contents (Elt F) → (⟨S1x5, .f32⟩ : BufTy).Contents (Elt F)) v131
  let v136 : (⟨S5x5, .f32⟩ : BufTy).Contents (Elt F) := (broadcastInDim S5x5 ![0, 1] bcast_S1x5_S5x5_0_1 : (⟨S1x5, .f32⟩ : BufTy).Contents (Elt F) → (⟨S5x5, .f32⟩ : BufTy).Contents (Elt F)) v135
  let v137 : (⟨S5x5, .f32⟩ : BufTy).Contents (Elt F) := (mulf : (⟨S5x5, .f32⟩ : BufTy).Contents (Elt F) → (⟨S5x5, .f32⟩ : BufTy).Contents (Elt F) → (⟨S5x5, .f32⟩ : BufTy).Contents (Elt F)) v134 v136
  v137

/-- The second graph convolution, rectified, and the mean over the five rows. -/
def tailOut (v111 : (⟨S5x768, .f32⟩ : BufTy).Contents (Elt F)) (a6 : (⟨S768x768, .f32⟩ : BufTy).Contents (Elt F)) (v137 : (⟨S5x5, .f32⟩ : BufTy).Contents (Elt F)) (a7 : (⟨S768, .f32⟩ : BufTy).Contents (Elt F)) :
    (⟨S768, .f32⟩ : BufTy).Contents (Elt F) :=
  let v138 : (⟨S5x768, .f32⟩ : BufTy).Contents (Elt F) := ((fun l r => Host.dotGeneral dot_S5x768_S768x768_S5x768_1_0_0_1_n_n none l r) : (⟨S5x768, .f32⟩ : BufTy).Contents (Elt F) → (⟨S768x768, .f32⟩ : BufTy).Contents (Elt F) → (⟨S5x768, .f32⟩ : BufTy).Contents (Elt F)) v111 a6
  let v139 : (⟨S5x768, .f32⟩ : BufTy).Contents (Elt F) := ((fun l r => Host.dotGeneral dot_S5x5_S5x768_S5x768_1_0_0_1_n_n none l r) : (⟨S5x5, .f32⟩ : BufTy).Contents (Elt F) → (⟨S5x768, .f32⟩ : BufTy).Contents (Elt F) → (⟨S5x768, .f32⟩ : BufTy).Contents (Elt F)) v137 v138
  let v140 : (⟨S1x768, .f32⟩ : BufTy).Contents (Elt F) := (broadcastInDim S1x768 ![1] bcast_S768_S1x768_1 : (⟨S768, .f32⟩ : BufTy).Contents (Elt F) → (⟨S1x768, .f32⟩ : BufTy).Contents (Elt F)) a7
  let v141 : (⟨S5x768, .f32⟩ : BufTy).Contents (Elt F) := (broadcastInDim S5x768 ![0, 1] bcast_S1x768_S5x768_0_1 : (⟨S1x768, .f32⟩ : BufTy).Contents (Elt F) → (⟨S5x768, .f32⟩ : BufTy).Contents (Elt F)) v140
  let v142 : (⟨S5x768, .f32⟩ : BufTy).Contents (Elt F) := (addf : (⟨S5x768, .f32⟩ : BufTy).Contents (Elt F) → (⟨S5x768, .f32⟩ : BufTy).Contents (Elt F) → (⟨S5x768, .f32⟩ : BufTy).Contents (Elt F)) v139 v141
  let call8_cst : (⟨S_, .f32⟩ : BufTy).Contents (Elt F) := (constant S_ .f32 0x00000000#32)
  let call8_v0 : (⟨S5x768, .f32⟩ : BufTy).Contents (Elt F) := (broadcastInDim S5x768 ![] bcast_S_S5x768) call8_cst
  let v143 : (⟨S5x768, .f32⟩ : BufTy).Contents (Elt F) := maximumf v142 call8_v0
  let cst_22 : (⟨S_, .f32⟩ : BufTy).Contents (Elt F) := (constant S_ .f32 0x00000000#32)
  let v144 : (⟨S768, .f32⟩ : BufTy).Contents (Elt F) := ((fun x v => Host.reduceAdd x v reducesTo_S5x768_S768_d0 h_S_) : (⟨S5x768, .f32⟩ : BufTy).Contents (Elt F) → (⟨S_, .f32⟩ : BufTy).Contents (Elt F) → (⟨S768, .f32⟩ : BufTy).Contents (Elt F)) v143 cst_22
  let cst_23 : (⟨S_, .f32⟩ : BufTy).Contents (Elt F) := (constant S_ .f32 0x40A00000#32)
  let v145 : (⟨S768, .f32⟩ : BufTy).Contents (Elt F) := (broadcastInDim S768 ![] bcast_S_S768 : (⟨S_, .f32⟩ : BufTy).Contents (Elt F) → (⟨S768, .f32⟩ : BufTy).Contents (Elt F)) cst_23
  let v146 : (⟨S768, .f32⟩ : BufTy).Contents (Elt F) := (Host.divf : (⟨S768, .f32⟩ : BufTy).Contents (Elt F) → (⟨S768, .f32⟩ : BufTy).Contents (Elt F) → (⟨S768, .f32⟩ : BufTy).Contents (Elt F)) v144 v145
  v146

/-- The whole tail, over any float instance: the stages composed. -/
def tailG (midAdj : (⟨S10x10, .f32⟩ : BufTy).Contents (Elt F)) (midRep : (⟨S10x768, .f32⟩ : BufTy).Contents (Elt F))
    (w1 : (⟨S768x768, .f32⟩ : BufTy).Contents (Elt F)) (b1 : (⟨S768, .f32⟩ : BufTy).Contents (Elt F))
    (attMH : (⟨S768x768, .f32⟩ : BufTy).Contents (Elt F)) (w2 : (⟨S768x768, .f32⟩ : BufTy).Contents (Elt F))
    (b2 : (⟨S768, .f32⟩ : BufTy).Contents (Elt F)) : (⟨S768, .f32⟩ : BufTy).Contents (Elt F) :=
  let normAdjMidV := normAdjMid midAdj
  let xMidV := xMid midRep w1 normAdjMidV b1
  let m2V := m2 (F := F)
  let highAdjV := highAdj m2V midAdj
  let highRepV := highRep m2V xMidV attMH
  let normAdjHighV := normAdjHigh highAdjV
  tailOut highRepV w2 normAdjHighV b2

end Stages

/-- Everything computed after the coarse adjacency `midAdj` and the cluster features `midRep`, at the extended reals:
    the first graph convolution with weights `w1` and bias `b1`, the second-level attention with `attMH`, the second graph
    convolution with `w2` and `b2`, and the mean over the five rows. -/
def tailK (midAdj : S10x10.Idx → EReal) (midRep : S10x768.Idx → EReal) (w1 : S768x768.Idx → EReal) (b1 : S768.Idx → EReal)
    (attMH : S768x768.Idx → EReal) (w2 : S768x768.Idx → EReal) (b2 : S768.Idx → EReal) : S768.Idx → EReal :=
  let normAdjMidV := normAdjMid (F := Ideal) midAdj
  let xMidV := xMid (F := Ideal) midRep w1 normAdjMidV b1
  let m2V := m2 (F := Ideal)
  let highAdjV := highAdj (F := Ideal) m2V midAdj
  let highRepV := highRep (F := Ideal) m2V xMidV attMH
  let normAdjHighV := normAdjHigh (F := Ideal) highAdjV
  tailOut (F := Ideal) highRepV w2 normAdjHighV b2

section Run
variable {F : FTy → Type} [FloatOps F]
variable (m : (ℓ : Loc nD τ sig) → Buf (Elt F) ℓ) (outs : Outs (F := F)) (c : Dev nD)

set_option maxHeartbeats 4000000 in
/-- Over any float instance: the result buffer at the end holds the tail of the coarse adjacency, the cluster features and
    the five parameter arrays as they stand after region 2's host stretch. -/
theorem tail_eqG :
    V23 m outs c main_v146
      = tailG (V12 m outs c main_v11) (V12 m outs c main_v51) (V12 m outs c main_arg3) (V12 m outs c main_arg4)
          (V12 m outs c main_arg5) (V12 m outs c main_arg6) (V12 m outs c main_arg7) := by
  show StableHlo.after hostOps3_11 (StableHlo.after hostOps3_10 (StableHlo.after hostOps3_9 (StableHlo.after hostOps3_8
        (StableHlo.after hostOps3_7 (StableHlo.after hostOps3_6 (StableHlo.after hostOps3_5 (StableHlo.after hostOps3_4
        (StableHlo.after hostOps3_3 (StableHlo.after hostOps3_2 (StableHlo.after hostOps3_1
        (StableHlo.after hostOps3 (V11 m outs c)))))))))))) (Proc.devRef .tc main_v146)
      = tailG (StableHlo.after hostOps3 (V11 m outs c) (Proc.devRef .tc main_v11))
          (StableHlo.after hostOps3 (V11 m outs c) (Proc.devRef .tc main_v51))
          (StableHlo.after hostOps3 (V11 m outs c) (Proc.devRef .tc main_arg3))
          (StableHlo.after hostOps3 (V11 m outs c) (Proc.devRef .tc main_arg4))
          (StableHlo.after hostOps3 (V11 m outs c) (Proc.devRef .tc main_arg5))
          (StableHlo.after hostOps3 (V11 m outs c) (Proc.devRef .tc main_arg6))
          (StableHlo.after hostOps3 (V11 m outs c) (Proc.devRef .tc main_arg7))
  generalize V11 m outs c = W
  after_results_simp
  rfl

end Run

end Cert.KernelIdeal.KHost

end
-- ==== Proof.KHostTailEq.lean ====
/- The result buffer at the end, at the extended reals: the tail of the coarse adjacency as region 0's host stretch leaves
   it, of the cluster features as region 2's host stretch leaves them, and of the five parameter arrays as launched. -/
import proofs.«114392_j58480274702406_2_alg».proof.Proof.KHostTail

noncomputable section

namespace Cert.KernelIdeal.KHost

open Cert.KernelIdeal Cert.KernelIdeal.Gen
open Idealize.ShloMosaic Idealize.ShloMosaic.TcCoe

variable (m : (ℓ : Loc nD τ sig) → Buf (Elt Ideal) ℓ) (outs : Outs (F := Ideal)) (c : Dev nD)

/-- Nothing between region 0's host stretch and region 2's writes the coarse adjacency. -/
theorem V12_main_v11 : V12 m outs c main_v11 = V8 m outs c main_v11 :=
  (V12_of m outs c main_v11 (by decide)).trans <| (V11_of m outs c main_v11 (by decide)).trans <| (V10_of m outs c main_v11 (by decide)).trans <| (V9_of m outs c main_v11 (by decide))
/-- No operation writes parameter array 3: after region 2's host stretch it holds its launch contents. -/
theorem V12_main_arg3 : V12 m outs c main_arg3 = m ((c : Thread nD τ).loc main_arg3) :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
/-- No operation writes parameter array 4: after region 2's host stretch it holds its launch contents. -/
theorem V12_main_arg4 : V12 m outs c main_arg4 = m ((c : Thread nD τ).loc main_arg4) :=
  (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
/-- No operation writes parameter array 5: after region 2's host stretch it holds its launch contents. -/
theorem V12_main_arg5 : V12 m outs c main_arg5 = m ((c : Thread nD τ).loc main_arg5) :=
  (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
/-- No operation writes parameter array 6: after region 2's host stretch it holds its launch contents. -/
theorem V12_main_arg6 : V12 m outs c main_arg6 = m ((c : Thread nD τ).loc main_arg6) :=
  (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
/-- No operation writes parameter array 7: after region 2's host stretch it holds its launch contents. -/
theorem V12_main_arg7 : V12 m outs c main_arg7 = m ((c : Thread nD τ).loc main_arg7) :=
  (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))

/-- The result is the tail of the coarse adjacency, the cluster features and the five parameter arrays. -/
theorem tail_eq :
    V23 m outs c main_v146
      = tailK (V8 m outs c main_v11) (V12 m outs c main_v51) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (tail_eqG m outs c).trans ?_
  rw [V12_main_v11, V12_main_arg3, V12_main_arg4, V12_main_arg5, V12_main_arg6, V12_main_arg7]
  rfl

end Cert.KernelIdeal.KHost

end
-- ==== Proof.KHostTailRef.lean ====
/- The program's tail and the reference program's tail are one function of the seven arrays: stage by stage the two are,
   at the extended reals, definitionally the same composition of operations on the same shapes. (Among what the two texts
   spell differently: two matrix products carry a precision attribute in one text and none in the other; the extended
   reals' exact product does not read it.) -/
import proofs.«114392_j58480274702406_2_alg».proof.Proof.KHostTail
import proofs.«114392_j58480274702406_2_alg».proof.Proof.RefValueTail

set_option maxRecDepth 16384
set_option maxHeartbeats 2000000

noncomputable section

namespace Cert.KernelIdeal.KHost

open Idealize.ShloMosaic

/-- The normalised coarse adjacency is the reference's. -/
theorem normAdjMid_eq : @normAdjMid Ideal _ = @Cert.ReferenceIdeal.RefValue.normAdjMid Ideal _ := rfl

/-- The first graph convolution is the reference's. -/
theorem xMid_eq : @xMid Ideal _ = @Cert.ReferenceIdeal.RefValue.xMid Ideal _ := rfl

/-- The mapping of the ten clusters onto five groups is the reference's. -/
theorem m2_eq : @m2 Ideal _ = @Cert.ReferenceIdeal.RefValue.m2 Ideal _ := rfl

/-- The groups' adjacency is the reference's. -/
theorem highAdj_eq : @highAdj Ideal _ = @Cert.ReferenceIdeal.RefValue.highAdj Ideal _ := rfl

/-- The groups' features are the reference's: the two matrix products whose precision attribute differs are the same exact sums. -/
theorem highRep_eq : @highRep Ideal _ = @Cert.ReferenceIdeal.RefValue.highRep Ideal _ := rfl

/-- The normalised groups' adjacency is the reference's. -/
theorem normAdjHigh_eq : @normAdjHigh Ideal _ = @Cert.ReferenceIdeal.RefValue.normAdjHigh Ideal _ := rfl

/-- The second graph convolution and the mean are the reference's. -/
theorem tailOut_eq : @tailOut Ideal _ = @Cert.ReferenceIdeal.RefValue.tailOut Ideal _ := rfl

/-- The two tails are one function of the seven arrays. -/
theorem tailK_eq : tailK = Cert.ReferenceIdeal.RefValue.tail := by
  funext midAdj midRep w1 b1 attMH w2 b2
  unfold tailK Cert.ReferenceIdeal.RefValue.tail
  simp only [normAdjMid_eq, xMid_eq, m2_eq, highAdj_eq, highRep_eq, normAdjHigh_eq, tailOut_eq]

end Cert.KernelIdeal.KHost

end
-- ==== Proof.KI2ValPiece.lean ====
/-
  What each of the three cases of the third region's body leaves in the three carried buffers, and at the last point of
  a half in the three output blocks, as formulas of the blocks it read: the new maximum, the new normaliser and the new
  weighted sum over the start values (first point of a half) or over what the buffers held (later points); the output
  blocks are the carried buffers' new contents seen as slabs.
-/
import proofs.«114392_j58480274702406_2_alg».proof.Proof.KI2Dat
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-- The zero offsets of a rank-two block. -/
theorem v2_hz2 : (![0, 0] : Fin 2 → Nat) = fun _ => 0 := funext fun a => by fin_cases a <;> rfl
/-- The zero offsets of a rank-three block. -/
theorem v2_hz3 : (![0, 0, 0] : Fin 3 → Nat) = fun _ => 0 := funext fun a => by fin_cases a <;> rfl

/-- Carried buffer 0 after the body at a middle point of a half. -/
theorem sout2_B_0_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_B_0 c i arg2 harg2 arg3 harg3 arg4 harg4 arg5 harg5 arg6 harg6 arg7 harg7 arg8 harg8 arg9 harg9 arg10 harg10 hc0 hc1 x0 x1 x2 xs0 xs1 xs2 = k2_pay2 (k2_pay10 x0 x2 x1 xs0) := by
  unfold sout2_B_0
  rw [View.read_writes_eq_canon _ _ _ (scover2_B_0 c i arg2 harg2 arg3 harg3 arg4 harg4 arg5 harg5 arg6 harg6 arg7 harg7 arg8 harg8 arg9 harg9 arg10 harg10 hc0 hc1 x0 x1 x2 xs0 xs1 xs2)]
  unfold kernelRun2_B
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 1 after the body at a middle point of a half. -/
theorem sout2_B_1_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_B_1 c i arg2 harg2 arg3 harg3 arg4 harg4 arg5 harg5 arg6 harg6 arg7 harg7 arg8 harg8 arg9 harg9 arg10 harg10 hc0 hc1 x0 x1 x2 xs0 xs1 xs2 = k2_pay13 x0 x2 x1 xs0 xs0 xs1 := by
  unfold sout2_B_1
  rw [View.read_writes_eq_canon _ _ _ (scover2_B_1 c i arg2 harg2 arg3 harg3 arg4 harg4 arg5 harg5 arg6 harg6 arg7 harg7 arg8 harg8 arg9 harg9 arg10 harg10 hc0 hc1 x0 x1 x2 xs0 xs1 xs2)]
  unfold kernelRun2_B
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 2 after the body at a middle point of a half. -/
theorem sout2_B_2_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : ¬cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_B_2 c i arg2 harg2 arg3 harg3 arg4 harg4 arg5 harg5 arg6 harg6 arg7 harg7 arg8 harg8 arg9 harg9 arg10 harg10 hc0 hc1 x0 x1 x2 xs0 xs1 xs2 = k2_pay1 (k2_pay14 x0 x2 x1 xs0 xs0 xs2) (k2_pay15 x0 x2 x1 xs0) := by
  unfold sout2_B_2
  rw [View.read_writes_eq_canon _ _ _ (scover2_B_2 c i arg2 harg2 arg3 harg3 arg4 harg4 arg5 harg5 arg6 harg6 arg7 harg7 arg8 harg8 arg9 harg9 arg10 harg10 hc0 hc1 x0 x1 x2 xs0 xs1 xs2)]
  unfold kernelRun2_B
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 0 after the body at the first point of a half. -/
theorem sout2_A_0_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) :
    sout2_A_0 c i arg2 harg2 arg3 harg3 arg4 harg4 arg5 harg5 arg6 harg6 arg7 harg7 arg8 harg8 arg9 harg9 arg10 harg10 hc0 hc1 x0 x1 x2 = k2_pay2 (k2_pay10 x0 x2 x1 k2_pay6) := by
  unfold sout2_A_0
  rw [View.read_writes_eq_canon _ _ _ (scover2_A_0 c i arg2 harg2 arg3 harg3 arg4 harg4 arg5 harg5 arg6 harg6 arg7 harg7 arg8 harg8 arg9 harg9 arg10 harg10 hc0 hc1 x0 x1 x2)]
  unfold kernelRun2_A
  dsimp only
  sl_unfold_words
  rw [View.canon_cons_unit_zero (S := S128x1) v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 1 after the body at the first point of a half. -/
theorem sout2_A_1_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) :
    sout2_A_1 c i arg2 harg2 arg3 harg3 arg4 harg4 arg5 harg5 arg6 harg6 arg7 harg7 arg8 harg8 arg9 harg9 arg10 harg10 hc0 hc1 x0 x1 x2 = k2_pay13 x0 x2 x1 k2_pay6 k2_pay6 k2_pay7 := by
  unfold sout2_A_1
  rw [View.read_writes_eq_canon _ _ _ (scover2_A_1 c i arg2 harg2 arg3 harg3 arg4 harg4 arg5 harg5 arg6 harg6 arg7 harg7 arg8 harg8 arg9 harg9 arg10 harg10 hc0 hc1 x0 x1 x2)]
  unfold kernelRun2_A
  dsimp only
  sl_unfold_words
  rw [View.canon_cons_unit_zero (S := S128x1) v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 2 after the body at the first point of a half. -/
theorem sout2_A_2_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : cond2_0 i) (hc1 : ¬cond2_1 i)
    (x0 : Vec F S512x768 .f32) (x1 : Vec F S128x512 .f32) (x2 : Vec F S128x768 .f32) :
    sout2_A_2 c i arg2 harg2 arg3 harg3 arg4 harg4 arg5 harg5 arg6 harg6 arg7 harg7 arg8 harg8 arg9 harg9 arg10 harg10 hc0 hc1 x0 x1 x2 = k2_pay1 (k2_pay14 x0 x2 x1 k2_pay6 k2_pay6 k2_pay8) (k2_pay15 x0 x2 x1 k2_pay6) := by
  unfold sout2_A_2
  rw [View.read_writes_eq_canon _ _ _ (scover2_A_2 c i arg2 harg2 arg3 harg3 arg4 harg4 arg5 harg5 arg6 harg6 arg7 harg7 arg8 harg8 arg9 harg9 arg10 harg10 hc0 hc1 x0 x1 x2)]
  unfold kernelRun2_A
  dsimp only
  sl_unfold_words
  rw [View.canon_cons_unit_zero (S := S128x768) v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 0 after the body at the last point of a half. -/
theorem sout2_C_0_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_C_0 c i arg2 harg2 arg3 harg3 arg4 harg4 arg5 harg5 arg6 harg6 arg7 harg7 arg8 harg8 arg9 harg9 arg10 harg10 hc0 hc1 x0 x1 x2 xs0 xs1 xs2 = k2_pay2 (k2_pay10 x0 x2 x1 xs0) := by
  unfold sout2_C_0
  rw [View.read_writes_eq_canon _ _ _ (scover2_C_0 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 1 after the body at the last point of a half. -/
theorem sout2_C_1_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_C_1 c i arg2 harg2 arg3 harg3 arg4 harg4 arg5 harg5 arg6 harg6 arg7 harg7 arg8 harg8 arg9 harg9 arg10 harg10 hc0 hc1 x0 x1 x2 xs0 xs1 xs2 = k2_pay13 x0 x2 x1 xs0 xs0 xs1 := by
  unfold sout2_C_1
  rw [View.read_writes_eq_canon _ _ _ (scover2_C_1 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Carried buffer 2 after the body at the last point of a half. -/
theorem sout2_C_2_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    sout2_C_2 c i arg2 harg2 arg3 harg3 arg4 harg4 arg5 harg5 arg6 harg6 arg7 harg7 arg8 harg8 arg9 harg9 arg10 harg10 hc0 hc1 x0 x1 x2 xs0 xs1 xs2 = k2_pay1 (k2_pay14 x0 x2 x1 xs0 xs0 xs2) (k2_pay15 x0 x2 x1 xs0) := by
  unfold sout2_C_2
  rw [View.read_writes_eq_canon _ _ _ (scover2_C_2 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  (try sl_unfold_words)
  rw [View.canon_unit_zero v2_hz2]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Output 3's buffer after the body at the last point of a half: carried buffer 0's new contents, as a slab. -/
theorem out2_C_3_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    out2_C_3 c i arg2 harg2 arg3 harg3 arg4 harg4 arg5 harg5 arg6 harg6 arg7 harg7 arg8 harg8 arg9 harg9 arg10 harg10 hc0 hc1 x0 x1 x2 xs0 xs1 xs2 = k2_pay3 (k2_pay2 (k2_pay10 x0 x2 x1 xs0)) := by
  unfold out2_C_3
  rw [View.read_writes_eq_canon _ _ _ (cover2_C_3 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  sl_unfold_words
  rw [View.canon_unit_zero v2_hz3]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Output 4's buffer after the body at the last point of a half: carried buffer 1's new contents, as a slab. -/
theorem out2_C_4_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    out2_C_4 c i arg2 harg2 arg3 harg3 arg4 harg4 arg5 harg5 arg6 harg6 arg7 harg7 arg8 harg8 arg9 harg9 arg10 harg10 hc0 hc1 x0 x1 x2 xs0 xs1 xs2 = k2_pay4 (k2_pay13 x0 x2 x1 xs0 xs0 xs1) := by
  unfold out2_C_4
  rw [View.read_writes_eq_canon _ _ _ (cover2_C_4 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  sl_unfold_words
  rw [View.canon_unit_zero v2_hz3]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

/-- Output 5's buffer after the body at the last point of a half: carried buffer 2's new contents, as a slab. -/
theorem out2_C_5_eq (c : Dev nD) (i : grid2.Coords) (arg2 : Memref sig .tc .vmem S512x768 .f32) (harg2 : arg2.IsWhole) (arg3 : Memref sig .tc .vmem S128x512 .f32) (harg3 : arg3.IsWhole) (arg4 : Memref sig .tc .vmem S128x768 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x768 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S128x768 .f32) (harg10 : arg10.IsWhole) (hc0 : ¬cond2_0 i) (hc1 : cond2_1 i)
    (x0 : Vec F S512x768 .f32) (x1 : Vec F S128x512 .f32) (x2 : Vec F S128x768 .f32) (xs0 : Vec F S128x1 .f32) (xs1 : Vec F S128x1 .f32) (xs2 : Vec F S128x768 .f32) :
    out2_C_5 c i arg2 harg2 arg3 harg3 arg4 harg4 arg5 harg5 arg6 harg6 arg7 harg7 arg8 harg8 arg9 harg9 arg10 harg10 hc0 hc1 x0 x1 x2 xs0 xs1 xs2 = k2_pay5 (k2_pay1 (k2_pay14 x0 x2 x1 xs0 xs0 xs2) (k2_pay15 x0 x2 x1 xs0)) := by
  unfold out2_C_5
  rw [View.read_writes_eq_canon _ _ _ (cover2_C_5 c i arg2 harg2 arg3 harg3 arg4 harg4 arg5 harg5 arg6 harg6 arg7 harg7 arg8 harg8 arg9 harg9 arg10 harg10 hc0 hc1 x0 x1 x2 xs0 xs1 xs2)]
  unfold kernelRun2_C
  dsimp only
  sl_unfold_words
  rw [View.canon_unit_zero v2_hz3]
  simp only [View.readCov_unit_zero (S := S128x1) _ v2_hz2, View.readCov_unit_zero (S := S128x768) _ v2_hz2, View.readAt_eq_ld, harg2.read_unread, harg3.read_unread, harg4.read_unread, harg8.read_unread, harg9.read_unread, harg10.read_unread,
    View.ld_unit_zero (S := S512x768) v2_hz2, View.ld_unit_zero (S := S128x512) v2_hz2, View.ld_unit_zero (S := S128x768) v2_hz2,
    View.ld_unit_zero (S := S128x1) v2_hz2]

end Cert.KernelIdeal.Hand

end
-- ==== Proof.KI2ValPay.lean ====
/-
  The third region's arithmetic, read at one entry over the extended reals. One tile of 512 keys: the score of row q
  against key r is the product of row q of the query block with row r of the tile, times the mask entry; the new
  maximum of row q is the larger of the old one and the tile's largest score; the old normaliser and weighted sum are
  rescaled by e^(old maximum - new maximum) and the tile's exponentials e^(score - new maximum), and their products
  with the tile's values, are added. Row by row this is one step of the streamed softmax of the specification.
-/
import proofs.«114392_j58480274702406_2_alg».proof.Proof.Gen.KernelIdeal.Skeleton
import proofs.«114392_j58480274702406_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The product of the 128 × 768 block with the transposed 512 × 768 tile into the zero block, at (q, r): the sum over
    the contracted column e of the two entries' product. -/
theorem mm2a_apply (A : FVec Ideal S128x768 .f32) (B : FVec Ideal S512x768 .f32) (q : Fin 128) (r : Fin 512) :
    matmul dot_S128x768_S512x768_S128x512_1_1_0_0_n_n (some .fp32) A B (constant S128x512 .f32 0x00000000#32) (ix2 q r)
      = ∑ e : Fin 768, A (ix2 q e) * B (ix2 r e) := by
  show FloatOps.matmul _ _ A B _ (ix2 q r) = _
  rw [Ideal.matmul_constant_zero_apply,
    ← Equiv.sum_comp (contrEquiv1 dot_S128x768_S512x768_S128x512_1_1_0_0_n_n 768 rfl rfl).symm]
  refine Finset.sum_congr rfl fun k _ => ?_
  have c2 := contrEquiv1_symm_val dot_S128x768_S512x768_S128x512_1_1_0_0_n_n 768 rfl rfl k
  have l2 : dot_S128x768_S512x768_S128x512_1_1_0_0_n_n.lhsIdx (ix2 q r)
      ((contrEquiv1 _ 768 rfl rfl).symm k) = ix2 q k := by
    funext ax; apply Fin.ext
    match ax with
    | ⟨0, _⟩ => simp [DotDims.lhsIdx, dot_S128x768_S512x768_S128x512_1_1_0_0_n_n] <;> first | exact c2 | rfl
    | ⟨1, _⟩ => simp [DotDims.lhsIdx, dot_S128x768_S512x768_S128x512_1_1_0_0_n_n] <;> first | exact c2 | rfl
  have r2 : dot_S128x768_S512x768_S128x512_1_1_0_0_n_n.rhsIdx (ix2 q r)
      ((contrEquiv1 _ 768 rfl rfl).symm k) = ix2 r k := by
    funext ax; apply Fin.ext
    match ax with
    | ⟨0, _⟩ => simp [DotDims.rhsIdx, dot_S128x768_S512x768_S128x512_1_1_0_0_n_n] <;> first | exact c2 | rfl
    | ⟨1, _⟩ => simp [DotDims.rhsIdx, dot_S128x768_S512x768_S128x512_1_1_0_0_n_n] <;> first | exact c2 | rfl
  rw [l2, r2]

/-- The product of the 128 × 512 weights with the 512 × 768 tile into the zero block, at (q, d): the sum over the
    contracted key r. -/
theorem mm2b_apply (P : FVec Ideal S128x512 .bf16) (X : FVec Ideal S512x768 .bf16) (q : Fin 128) (d : Fin 768) :
    matmul dot_S128x512_S512x768_S128x768_1_0_0_1_n_n none P X (constant S128x768 .f32 0x00000000#32) (ix2 q d)
      = ∑ r : Fin 512, P (ix2 q r) * X (ix2 r d) := by
  show FloatOps.matmul _ _ P X _ (ix2 q d) = _
  rw [Ideal.matmul_constant_zero_apply,
    ← Equiv.sum_comp (contrEquiv1 dot_S128x512_S512x768_S128x768_1_0_0_1_n_n 512 rfl rfl).symm]
  refine Finset.sum_congr rfl fun k _ => ?_
  have c2 := contrEquiv1_symm_val dot_S128x512_S512x768_S128x768_1_0_0_1_n_n 512 rfl rfl k
  have l2 : dot_S128x512_S512x768_S128x768_1_0_0_1_n_n.lhsIdx (ix2 q d)
      ((contrEquiv1 _ 512 rfl rfl).symm k) = ix2 q k := by
    funext ax; apply Fin.ext
    match ax with
    | ⟨0, _⟩ => simp [DotDims.lhsIdx, dot_S128x512_S512x768_S128x768_1_0_0_1_n_n] <;> first | exact c2 | rfl
    | ⟨1, _⟩ => simp [DotDims.lhsIdx, dot_S128x512_S512x768_S128x768_1_0_0_1_n_n] <;> first | exact c2 | rfl
  have r2 : dot_S128x512_S512x768_S128x768_1_0_0_1_n_n.rhsIdx (ix2 q d)
      ((contrEquiv1 _ 512 rfl rfl).symm k) = ix2 k d := by
    funext ax; apply Fin.ext
    match ax with
    | ⟨0, _⟩ => simp [DotDims.rhsIdx, dot_S128x512_S512x768_S128x768_1_0_0_1_n_n] <;> first | exact c2 | rfl
    | ⟨1, _⟩ => simp [DotDims.rhsIdx, dot_S128x512_S512x768_S128x768_1_0_0_1_n_n] <;> first | exact c2 | rfl
  rw [l2, r2]

/-- A vector of 128 entries seen as a 128 × 1 column reads, at (q, z), the vector at q. -/
theorem col2_apply {α : Type} (v : S128.Idx → α) (q : Fin 128) (z : Fin 1) :
    shapeCast S128x1 v shapeCasts_S128_S128x1 (ix2 q z) = v (ix1 q) :=
  shapeCast_apply v _ (ix2 q z) (ix1 q) (by
    rw [Shape.rowMajor_val_two, Shape.rowMajor_val_one]
    show q.val = q.val * 1 + z.val
    have := z.isLt; omega)

/-- A 128 × 1 column spread over 512 columns reads, at (q, r), the column at q. -/
theorem bc512_apply {α : Type} (v : S128x1.Idx → α) (q : Fin 128) (r : Fin 512) :
    broadcastTo S128x512 v broadcasts_S128x1_S128x512 (ix2 q r) = v (ix2 q (0 : Fin 1)) := by
  refine broadcastTo_apply v _ (ix2 q r) (ix2 q (0 : Fin 1)) fun ax => ?_
  match ax with
  | ⟨0, _⟩ => rfl
  | ⟨1, _⟩ => rfl

/-- A 128 × 1 column spread over 768 columns reads, at (q, d), the column at q. -/
theorem bc768_apply {α : Type} (v : S128x1.Idx → α) (q : Fin 128) (d : Fin 768) :
    broadcastTo S128x768 v broadcasts_S128x1_S128x768 (ix2 q d) = v (ix2 q (0 : Fin 1)) := by
  refine broadcastTo_apply v _ (ix2 q d) (ix2 q (0 : Fin 1)) fun ax => ?_
  match ax with
  | ⟨0, _⟩ => rfl
  | ⟨1, _⟩ => rfl

/-- The index of row q with the reduced column k put back. -/
theorem lift2_eq (q : Fin 128) (k : Fin 512) : reduces_S128x512_S128.lift (ix1 q) k = ix2 q k := by
  funext ax; apply Fin.ext
  match ax with
  | ⟨0, _⟩ => rfl
  | ⟨1, _⟩ => rfl

/-- The row maximum from minus infinity: a fold of the larger-of over the row's 512 entries. -/
theorem rmax2_apply (src : FVec Ideal S128x512 .f32) (q : Fin 128) :
    multiReduction .maximumf [1] S128 src 0xFF800000#32 reduces_S128x512_S128 (.inl rfl) rfl (ix1 q)
      = (Finset.univ : Finset (Fin 512)).fold max (⊥ : EReal) (fun r => src (ix2 q r)) := by
  refine (Ideal.multiReduction_maximumf_single src 0xFF800000#32 reduces_S128x512_S128 (.inl rfl) rfl (ix1 q)).trans ?_
  have hb : (FloatOps.ofBits .f32 0xFF800000#32 : Ideal .f32) = (⊥ : EReal) := by
    show Ideal.ofBits .f32 0xFF800000#32 = ⊥
    simp [Ideal.ofBits, Ideal.ieee]
  rw [hb]
  exact congrArg (fun f => (Finset.univ : Finset (Fin 512)).fold max (⊥ : EReal) f) (funext fun r => congrArg src (lift2_eq q r))

/-- The row sum: the sum of the row's 512 entries. -/
theorem rsum2_apply (src : FVec Ideal S128x512 .f32) (q : Fin 128) :
    multiReduction .add [1] S128 src 0x00000000#32 reduces_S128x512_S128 (.inl rfl) rfl (ix1 q)
      = ∑ r : Fin 512, src (ix2 q r) := by
  refine (Ideal.multiReduction_add_single src 0x00000000#32 reduces_S128x512_S128 (.inl rfl) rfl (ix1 q)).trans ?_
  exact Finset.sum_congr rfl fun r _ => congrArg src (lift2_eq q r)

variable (x0 : Vec Ideal S512x768 .f32) (x2 : Vec Ideal S128x768 .f32) (x1 : Vec Ideal S128x512 .f32)

/-- The score of row q against key r of the tile. -/
theorem k2_pay9_apply (q : Fin 128) (r : Fin 512) :
    k2_pay9 x0 x2 x1 (ix2 q r) = (∑ e : Fin 768, x2 (ix2 q e) * x0 (ix2 r e)) * x1 (ix2 q r) := by
  unfold k2_pay9
  refine (mulf_apply _ _ (ix2 q r)).trans ?_
  rw [shapeCast_self, shapeCast_self]
  exact congrArg (· * x1 (ix2 q r)) (mm2a_apply x2 x0 q r)

/-- The new maximum of row q. -/
theorem k2_pay10_apply (M : Vec Ideal S128x1 .f32) (q : Fin 128) (z : Fin 1) :
    k2_pay10 x0 x2 x1 M (ix2 q z)
      = max (M (ix2 q z)) ((Finset.univ : Finset (Fin 512)).fold max (⊥ : EReal) (fun r => k2_pay9 x0 x2 x1 (ix2 q r))) := by
  unfold k2_pay10
  refine (maximumf_apply _ _ (ix2 q z)).trans ?_
  refine congrArg (max (M (ix2 q z))) ?_
  refine (col2_apply _ q z).trans ?_
  exact rmax2_apply _ q

/-- The rescaling factor of row q. -/
theorem k2_pay11_apply (M M' : Vec Ideal S128x1 .f32) (q : Fin 128) (z : Fin 1) :
    k2_pay11 x0 x2 x1 M M' (ix2 q z) = Ideal.exp (M' (ix2 q z) - k2_pay10 x0 x2 x1 M (ix2 q z)) := by
  unfold k2_pay11
  rfl

/-- The tile's weight of row q, key r. -/
theorem k2_pay12_apply (M : Vec Ideal S128x1 .f32) (q : Fin 128) (r : Fin 512) :
    k2_pay12 x0 x2 x1 M (ix2 q r) = Ideal.exp (k2_pay9 x0 x2 x1 (ix2 q r) - k2_pay10 x0 x2 x1 M (ix2 q (0 : Fin 1))) := by
  unfold k2_pay12
  show Ideal.exp (k2_pay9 x0 x2 x1 (ix2 q r) - broadcastTo S128x512 (k2_pay10 x0 x2 x1 M) broadcasts_S128x1_S128x512 (ix2 q r)) = _
  rw [bc512_apply]

/-- The new normaliser of row q. -/
theorem k2_pay13_apply (M M' L : Vec Ideal S128x1 .f32) (q : Fin 128) (z : Fin 1) :
    k2_pay13 x0 x2 x1 M M' L (ix2 q z)
      = k2_pay11 x0 x2 x1 M M' (ix2 q z) * L (ix2 q z) + ∑ r : Fin 512, k2_pay12 x0 x2 x1 M (ix2 q r) := by
  unfold k2_pay13
  rw [shapeCast_self]
  refine (addf_apply _ _ (ix2 q z)).trans ?_
  refine congrArg₂ (· + ·) rfl ?_
  refine (col2_apply _ q z).trans ?_
  exact rsum2_apply _ q

/-- The rescaled old weighted sum of row q at column d. -/
theorem k2_pay14_apply (M M' : Vec Ideal S128x1 .f32) (A : Vec Ideal S128x768 .f32) (q : Fin 128) (d : Fin 768) :
    k2_pay14 x0 x2 x1 M M' A (ix2 q d) = k2_pay11 x0 x2 x1 M M' (ix2 q (0 : Fin 1)) * A (ix2 q d) := by
  unfold k2_pay14
  refine (mulf_apply _ _ (ix2 q d)).trans ?_
  rw [bc768_apply]

/-- The tile's weighted sum of row q at column d. -/
theorem k2_pay15_apply (M : Vec Ideal S128x1 .f32) (q : Fin 128) (d : Fin 768) :
    k2_pay15 x0 x2 x1 M (ix2 q d) = ∑ r : Fin 512, k2_pay12 x0 x2 x1 M (ix2 q r) * x0 (ix2 r d) := by
  unfold k2_pay15
  exact mm2b_apply _ _ q d

omit x0 x2 x1 in
theorem k2_pay1_apply (a b : FVec Ideal S128x768 .f32) (q : Fin 128) (d : Fin 768) :
    k2_pay1 a b (ix2 q d) = a (ix2 q d) + b (ix2 q d) := by
  unfold k2_pay1
  rw [shapeCast_self]
  rfl

omit x0 x2 x1 in
theorem k2_pay2_eq {F : FTy → Type} [FloatOps F] (v : FVec F S128x1 .f32) : k2_pay2 v = v := by
  unfold k2_pay2
  exact shapeCast_self _ _

omit x0 x2 x1 in
theorem k2_pay3_apply {F : FTy → Type} [FloatOps F] (v : Vec F S128x1 .f32) (u : Fin 1) (q : Fin 128) (z : Fin 1) :
    k2_pay3 v (ix3 u q z) = v (ix2 q z) := by
  unfold k2_pay3
  exact shapeCast_ab_1ab_apply _ _ u q z

omit x0 x2 x1 in
theorem k2_pay4_apply {F : FTy → Type} [FloatOps F] (v : Vec F S128x1 .f32) (u : Fin 1) (q : Fin 128) (z : Fin 1) :
    k2_pay4 v (ix3 u q z) = v (ix2 q z) := by
  unfold k2_pay4
  exact shapeCast_ab_1ab_apply _ _ u q z

omit x0 x2 x1 in
theorem k2_pay5_apply {F : FTy → Type} [FloatOps F] (v : Vec F S128x768 .f32) (u : Fin 1) (q : Fin 128) (d : Fin 768) :
    k2_pay5 v (ix3 u q d) = v (ix2 q d) := by
  unfold k2_pay5
  exact shapeCast_ab_1ab_apply _ _ u q d

omit x0 x2 x1 in
/-- The start maximum is minus infinity. -/
theorem k2_pay6_apply (q : Fin 128) (z : Fin 1) : (k2_pay6 (F := Ideal) (ix2 q z) : EReal) = ⊥ := by
  unfold k2_pay6
  rw [shapeCast_self]
  show Ideal.ofBits .f32 0xFF800000#32 = ⊥
  simp [Ideal.ofBits, Ideal.ieee]

omit x0 x2 x1 in
/-- The start normaliser is zero. -/
theorem k2_pay7_apply (q : Fin 128) (z : Fin 1) : (k2_pay7 (F := Ideal) (ix2 q z) : EReal) = 0 := by
  unfold k2_pay7
  rw [shapeCast_self]
  exact Ideal.ofBits_zero_f32

omit x0 x2 x1 in
/-- The start weighted sum is zero. -/
theorem k2_pay8_apply (q : Fin 128) (d : Fin 768) : (k2_pay8 (F := Ideal) (ix2 q d) : EReal) = 0 := by
  unfold k2_pay8
  rw [shapeCast_self]
  exact Ideal.ofBits_zero_f32

/-- ONE STREAMED STEP, row by row: from the carried columns (M, L, A) the body's three stores hold, at row q, the
    specification's step of the state (M q, L q, A q ·) with the tile's scores of row q and the tile's values. -/
theorem k2_step_apply (M L : Vec Ideal S128x1 .f32) (A : Vec Ideal S128x768 .f32) (q : Fin 128) :
    ((k2_pay2 (k2_pay10 x0 x2 x1 M) (ix2 q (0 : Fin 1)) : EReal),
      (k2_pay13 x0 x2 x1 M M L (ix2 q (0 : Fin 1)) : EReal),
      fun d : Fin 768 => (k2_pay1 (k2_pay14 x0 x2 x1 M M A) (k2_pay15 x0 x2 x1 M) (ix2 q d) : EReal))
      = Cert.Spec.kStep ((M (ix2 q (0 : Fin 1)) : EReal), (L (ix2 q (0 : Fin 1)) : EReal), fun d : Fin 768 => (A (ix2 q d) : EReal))
          (fun r : Fin 512 => (k2_pay9 x0 x2 x1 (ix2 q r) : EReal)) (fun (r : Fin 512) (d : Fin 768) => (x0 (ix2 r d) : EReal)) := by
  have e10 := k2_pay10_apply x0 x2 x1 M q (0 : Fin 1)
  unfold Cert.Spec.kStep
  dsimp only
  refine Prod.ext ?_ (Prod.ext ?_ ?_)
  · show (k2_pay2 (k2_pay10 x0 x2 x1 M) (ix2 q (0 : Fin 1)) : EReal) = _
    rw [k2_pay2_eq]
    exact e10
  · show (k2_pay13 x0 x2 x1 M M L (ix2 q (0 : Fin 1)) : EReal) = _
    rw [← e10]
    refine (k2_pay13_apply x0 x2 x1 M M L q (0 : Fin 1)).trans ?_
    rw [k2_pay11_apply]
    refine congrArg₂ (· + ·) rfl ?_
    exact Finset.sum_congr rfl fun r _ => k2_pay12_apply x0 x2 x1 M q r
  · show (fun d : Fin 768 => (k2_pay1 (k2_pay14 x0 x2 x1 M M A) (k2_pay15 x0 x2 x1 M) (ix2 q d) : EReal)) = _
    rw [← e10]
    funext d
    refine (k2_pay1_apply _ _ q d).trans ?_
    rw [k2_pay14_apply, k2_pay15_apply, k2_pay11_apply]
    refine congrArg₂ (· + ·) rfl ?_
    exact Finset.sum_congr rfl fun r _ => by rw [k2_pay12_apply]

end Cert.KernelIdeal.Hand

end
-- ==== Proof.KI2ValBlk.lean ====
/-
  The third region's three input blocks at a grid point, read at an entry. Point t of the sixteen is tile t % 8 of half
  t / 8. The value tile at t is rows 512·t … 512·t + 511 of the values, the mask tile is columns 512·t … 512·t + 511 of
  the mask, and the query block is the whole 128 × 768 array at every point. The three output windows' blocks at t are
  slab t / 8 of their arrays.
-/
import proofs.«114392_j58480274702406_2_alg».proof.Proof.KI2Run
import proofs.«114392_j58480274702406_2_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

/-- The half of the grid a position lies in. -/
def half2 (n : ℕ) : Fin 2 := ⟨n / 8 % 2, Nat.mod_lt _ (by decide)⟩

/-- The printed index maps, decided over the grid. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 3) = t.val / 8 ∧ win2_3.index t (1 : Fin 3) = 0 ∧ win2_3.index t (2 : Fin 3) = 0
    ∧ win2_4.index t (0 : Fin 3) = t.val / 8 ∧ win2_4.index t (1 : Fin 3) = 0 ∧ win2_4.index t (2 : Fin 3) = 0
    ∧ win2_5.index t (0 : Fin 3) = t.val / 8 ∧ win2_5.index t (1 : Fin 3) = 0 ∧ win2_5.index t (2 : Fin 3) = 0 :=
  (by decide +kernel : ∀ t : Fin grid2.N, _)

/-- The value tile at point t, entry (r, e): the values at row r of tile t % 8 of half t / 8, column e. -/
theorem iblk2_0_apply (c : Dev nD) (t : Fin cfg2.N) (r : Fin 512) (e : Fin 768) :
    (iblk2 V c 0 t : Vec F S512x768 .f32) (ix2 r e)
      = (V c main_arg0 : S8192x768.Idx → Elt F .f32) (ix2 (Cert.Spec.row512 (half2 t.val) (t.val % 8) r) e) := by
  have hN : t.val < 16 := lt_of_lt_of_eq t.isLt (show cfg2.N = 16 from N_2)
  obtain ⟨e0, e1, -⟩ := idx_facts2 t
  unfold iblk2
  rw [View.read_apply]
  show V c main_arg0 _ = V c main_arg0 _
  congr 1
  funext a
  apply Fin.ext
  match a with
  | ⟨0, _⟩ =>
    show win2_0.index t (0 : Fin 2) * 512 + 1 * r.val = (512 * (8 * (t.val / 8 % 2) + t.val % 8) + r.val) % 8192
    have := r.isLt
    rw [e0]; omega
  | ⟨1, _⟩ =>
    show win2_0.index t (1 : Fin 2) * 768 + 1 * e.val = e.val
    rw [e1]; omega

/-- The mask tile at point t, entry (q, r): the mask at row q, column the key r of tile t % 8 of half t / 8. -/
theorem iblk2_1_apply (c : Dev nD) (t : Fin cfg2.N) (q : Fin 128) (r : Fin 512) :
    (iblk2 V c 1 t : Vec F S128x512 .f32) (ix2 q r)
      = (V c main_v21 : S128x8192.Idx → Elt F .f32) (ix2 q (Cert.Spec.row512 (half2 t.val) (t.val % 8) r)) := by
  have hN : t.val < 16 := lt_of_lt_of_eq t.isLt (show cfg2.N = 16 from N_2)
  obtain ⟨-, -, e0, e1, -⟩ := idx_facts2 t
  unfold iblk2
  rw [View.read_apply]
  show V c main_v21 _ = V c main_v21 _
  congr 1
  funext a
  apply Fin.ext
  match a with
  | ⟨0, _⟩ =>
    show win2_1.index t (0 : Fin 2) * 128 + 1 * q.val = q.val
    rw [e0]; omega
  | ⟨1, _⟩ =>
    show win2_1.index t (1 : Fin 2) * 512 + 1 * r.val = (512 * (8 * (t.val / 8 % 2) + t.val % 8) + r.val) % 8192
    have := r.isLt
    rw [e1]; omega

/-- The query block at any point, entry (q, e): the whole array's. -/
theorem iblk2_2_apply (c : Dev nD) (t : Fin cfg2.N) (q : Fin 128) (e : Fin 768) :
    (iblk2 V c 2 t : Vec F S128x768 .f32) (ix2 q e)
      = (V c main_v18 : S128x768.Idx → Elt F .f32) (ix2 q e) := by
  obtain ⟨-, -, -, -, e0, e1, -⟩ := idx_facts2 t
  unfold iblk2
  rw [View.read_apply]
  show V c main_v18 _ = V c main_v18 _
  congr 1
  funext a
  apply Fin.ext
  match a with
  | ⟨0, _⟩ =>
    show win2_2.index t (0 : Fin 2) * 128 + 1 * q.val = q.val
    rw [e0]; omega
  | ⟨1, _⟩ =>
    show win2_2.index t (1 : Fin 2) * 768 + 1 * e.val = e.val
    rw [e1]; omega

end Cert.KernelIdeal.Hand

end
-- ==== Proof.KI2ValAcc.lean ====
/-
  The third region's streamed accumulation, row by row over the extended reals. Within a half of the grid, after the
  point at position n the three carried buffers hold, at row q, the specification's streamed state of half n / 8 after
  its first n % 8 + 1 tiles, for the score row of q (the query row q against every key, times the mask) and the value
  matrix: the first point of a half steps from the start state, every later point from what the point before left. At
  the last point of a half the three output blocks hold the same entries.
-/
import proofs.«114392_j58480274702406_2_alg».proof.Proof.KI2ValPiece
import proofs.«114392_j58480274702406_2_alg».proof.Proof.KI2ValPay
import proofs.«114392_j58480274702406_2_alg».proof.Proof.KI2ValBlk
import proofs.«114392_j58480274702406_2_alg».proof.Proof.SpecG
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The extended reals' product, named so that a buffer's entry is read as the extended real it is. -/
local notation:70 x:70 " *ₑ " y:71 => @HMul.hMul EReal EReal EReal instHMul x y

/-- Row q's scores against every key: the query row times the key's values, times the mask entry. -/
def sc2 (c : Dev nD) (q : Fin 128) : Fin 8192 → EReal := fun key =>
  (∑ e : Fin 768, V c main_v18 (ix2 q e) *ₑ V c main_arg0 (ix2 key e)) *ₑ V c main_v21 (ix2 q key)

/-- The value matrix. -/
def xv2 (c : Dev nD) : Cert.Spec.Mat 8192 768 := fun s e => V c main_arg0 (ix2 s e)

/-- The tile's scores of row q at point t are row q's scores at the tile's keys. -/
theorem pay9_at (c : Dev nD) (t : Fin cfg2.N) (q : Fin 128) (r : Fin 512) :
    @Eq EReal (k2_pay9 (iblk2 V c 0 t) (iblk2 V c 2 t) (iblk2 V c 1 t) (ix2 q r)) (sc2 V c q (Cert.Spec.row512 (half2 t.val) (t.val % 8) r)) := by
  refine (k2_pay9_apply (iblk2 V c 0 t) (iblk2 V c 2 t) (iblk2 V c 1 t) q r).trans ?_
  unfold sc2
  rw [iblk2_1_apply V c t q r]
  refine congrArg (fun z : EReal => z *ₑ _) ?_
  refine Finset.sum_congr rfl fun e _ => ?_
  rw [iblk2_2_apply V c t q e, iblk2_0_apply V c t r e]

/-- One point's step at row q: from carried columns that hold the state `st` at row q, the body's three stores hold the
    specification's step of `st` with the point's tile. -/
theorem step2_at (c : Dev nD) (t : Fin cfg2.N) (M L : Vec Ideal S128x1 .f32) (A : Vec Ideal S128x768 .f32) (q : Fin 128)
    (st : Cert.Spec.State)
    (hst : ((M (ix2 q (0 : Fin 1)) : EReal), (L (ix2 q (0 : Fin 1)) : EReal), fun d : Fin 768 => (A (ix2 q d) : EReal)) = st) :
    ((k2_pay2 (k2_pay10 (iblk2 V c 0 t) (iblk2 V c 2 t) (iblk2 V c 1 t) M) (ix2 q (0 : Fin 1)) : EReal),
      (k2_pay13 (iblk2 V c 0 t) (iblk2 V c 2 t) (iblk2 V c 1 t) M M L (ix2 q (0 : Fin 1)) : EReal),
      fun d : Fin 768 => (k2_pay1 (k2_pay14 (iblk2 V c 0 t) (iblk2 V c 2 t) (iblk2 V c 1 t) M M A) (k2_pay15 (iblk2 V c 0 t) (iblk2 V c 2 t) (iblk2 V c 1 t) M) (ix2 q d) : EReal))
      = Cert.Spec.kStep st (fun r => sc2 V c q (Cert.Spec.row512 (half2 t.val) (t.val % 8) r))
          (fun r d => xv2 V c (Cert.Spec.row512 (half2 t.val) (t.val % 8) r) d) := by
  refine (k2_step_apply (iblk2 V c 0 t) (iblk2 V c 2 t) (iblk2 V c 1 t) M L A q).trans ?_
  rw [hst]
  have e1 : (fun r : Fin 512 => (k2_pay9 (iblk2 V c 0 t) (iblk2 V c 2 t) (iblk2 V c 1 t) (ix2 q r) : EReal))
      = fun r => sc2 V c q (Cert.Spec.row512 (half2 t.val) (t.val % 8) r) := funext fun r => pay9_at V c t q r
  have e2 : (fun (r : Fin 512) (d : Fin 768) => ((iblk2 V c 0 t : Vec Ideal S512x768 .f32) (ix2 r d) : EReal))
      = fun r d => xv2 V c (Cert.Spec.row512 (half2 t.val) (t.val % 8) r) d :=
    funext fun r => funext fun d => iblk2_0_apply V c t r d
  rw [e1, e2]

/-- After the point at position n the three carried buffers hold, at row q, the streamed state of half n / 8 after
    n % 8 + 1 tiles. -/
theorem scr2_apply (c : Dev nD) : ∀ (n : ℕ) (hn : n < cfg2.N) (q : Fin 128),
    (((outsAt2 V c n hn).2.2.2.1 (ix2 q (0 : Fin 1)) : EReal), ((outsAt2 V c n hn).2.2.2.2.1 (ix2 q (0 : Fin 1)) : EReal),
      fun d : Fin 768 => ((outsAt2 V c n hn).2.2.2.2.2 (ix2 q d) : EReal))
      = Cert.Spec.gState (sc2 V c q) (xv2 V c) (half2 n) (n % 8 + 1) := by
  intro n
  induction n using Nat.strong_induction_on with
  | _ n ih =>
    intro hn q
    have hN : n < 16 := lt_of_lt_of_eq hn (show cfg2.N = 16 from N_2)
    by_cases h0 : n % 8 = 0
    · have h1 : ¬n % 8 = 7 := by omega
      rw [outsAt2_A V c ⟨n, hn⟩ h0 h1]
      dsimp only
      rw [sout2_A_0_eq, sout2_A_1_eq, sout2_A_2_eq]
      refine (step2_at V c ⟨n, hn⟩ (k2_pay6 (F := Ideal)) (k2_pay7 (F := Ideal)) (k2_pay8 (F := Ideal)) q
        ((⊥ : EReal), (0 : EReal), fun _ => (0 : EReal))
        (Prod.ext (k2_pay6_apply q 0) (Prod.ext (k2_pay7_apply q 0) (funext fun d => k2_pay8_apply q d)))).trans ?_
      show Cert.Spec.kStep _ (fun r => sc2 V c q (Cert.Spec.row512 (half2 n) (n % 8) r))
        (fun r d => xv2 V c (Cert.Spec.row512 (half2 n) (n % 8) r) d) = _
      rw [h0]
      rfl
    · have e1 : (n - 1) % 8 + 1 = n % 8 := by omega
      have e2 : half2 (n - 1) = half2 n := Fin.ext (by show (n - 1) / 8 % 2 = n / 8 % 2; omega)
      have ihp := ih (n - 1) (by omega) (Nat.lt_of_le_of_lt (Nat.sub_le _ _) hn) q
      rw [e1, e2] at ihp
      by_cases h1 : n % 8 = 7
      · rw [outsAt2_C V c ⟨n, hn⟩ h0 h1]
        dsimp only
        rw [sout2_C_0_eq, sout2_C_1_eq, sout2_C_2_eq]
        refine (step2_at V c ⟨n, hn⟩ _ _ _ q _ ihp).trans ?_
        rfl
      · rw [outsAt2_B V c ⟨n, hn⟩ h0 h1]
        dsimp only
        rw [sout2_B_0_eq, sout2_B_1_eq, sout2_B_2_eq]
        refine (step2_at V c ⟨n, hn⟩ _ _ _ q _ ihp).trans ?_
        rfl

/-- At the last point of a half the three output blocks hold the carried buffers' entries. -/
theorem out2_apply (c : Dev nD) (n : ℕ) (hn : n < cfg2.N) (h7 : n % 8 = 7) (u : Fin 1) (q : Fin 128) (d : Fin 768) :
    (outsAt2 V c n hn).1 (ix3 u q (0 : Fin 1)) = (outsAt2 V c n hn).2.2.2.1 (ix2 q (0 : Fin 1))
    ∧ (outsAt2 V c n hn).2.1 (ix3 u q (0 : Fin 1)) = (outsAt2 V c n hn).2.2.2.2.1 (ix2 q (0 : Fin 1))
    ∧ (outsAt2 V c n hn).2.2.1 (ix3 u q d) = (outsAt2 V c n hn).2.2.2.2.2 (ix2 q d) := by
  have h0 : ¬n % 8 = 0 := by omega
  rw [outsAt2_C V c ⟨n, hn⟩ h0 h7]
  dsimp only
  rw [out2_C_3_eq, out2_C_4_eq, out2_C_5_eq, sout2_C_0_eq, sout2_C_1_eq, sout2_C_2_eq]
  exact ⟨k2_pay3_apply _ u q 0, k2_pay4_apply _ u q 0, k2_pay5_apply _ u q d⟩

end Cert.KernelIdeal.Hand

end
-- ==== Proof.KI2ValFin.lean ====
/-
  What the third region leaves in its three output arrays, entry by entry over the extended reals. The blocks of half h
  are written back once, after the half's last point, when the three carried buffers hold, row by row, the streamed
  state of the half after its eight tiles; the two halves' blocks are the two slabs of each array. So entry (h, q, ·) of
  the three arrays is the running maximum, the normaliser and the weighted sum of the specification's streamed state of
  half h after eight tiles, for the score row of q and the value matrix.
-/
import proofs.«114392_j58480274702406_2_alg».proof.Proof.KI2ValAcc
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- Output 3's array as the two halves' final streamed states, row by row. -/
def res2_3 (c : Dev nD) : S2x128x1.Idx → EReal := fun j => (Cert.Spec.gState (sc2 V c (j 1)) (xv2 V c) (j 0) 8).1

/-- The write-back after the last point of a half writes that half's slab of `res2_3`. -/
theorem flushed2_3_eq (c : Dev nD) (t : Fin cfg2.N) (hf : (cfg2.win 3).flush t = true) :
    (dat2 V c).flushed 3 t = ((cfg2.win 3).blk t).view.read (Elt Ideal) (res2_3 V c) := by
  have hN : t.val < 16 := lt_of_lt_of_eq t.isLt (show cfg2.N = 16 from N_2)
  have h7 : t.val % 8 = 7 := (flush2_3 t).mp hf
  obtain ⟨-, -, -, -, -, -, e0, e1, e2, -⟩ := idx_facts2 t
  show (cfg2.win 3).cut (grid2.coords t) ((dat2 V c).after 3 t) = _
  rw [after2_3]
  refine funext fun (j : S1x128x1.Idx) => ?_
  obtain ⟨u, q, z, rfl⟩ : ∃ (u : Fin 1) (q : Fin 128) (z : Fin 1), j = ix3 u q z := ⟨j 0, j 1, j 2, eq_ix3 j⟩
  obtain rfl : z = 0 := Subsingleton.elim _ _
  show @Eq EReal ((outsAt2 V c t.val t.isLt).1 (ix3 u q (0 : Fin 1))) (res2_3 V c (((cfg2.win 3).blk t).view.emb (ix3 u q (0 : Fin 1))))
  have hemb : ((cfg2.win 3).blk t).view.emb (ix3 u q (0 : Fin 1)) = (ix3 (half2 t.val) q (0 : Fin 1) : S2x128x1.Idx) := by
    funext a; apply Fin.ext
    match a with
    | ⟨0, _⟩ =>
      show win2_3.index t (0 : Fin 3) * 1 + 1 * u.val = t.val / 8 % 2
      have := u.isLt
      rw [e0]; omega
    | ⟨1, _⟩ => show win2_3.index t (1 : Fin 3) * 128 + 1 * q.val = q.val; rw [e1]; omega
    | ⟨2, _⟩ => show win2_3.index t (2 : Fin 3) * 1 + 1 * ((0 : Fin 1) : Fin 1).val = ((0 : Fin 1) : Fin 1).val; rw [e2]; omega
  rw [hemb, (out2_apply V c t.val t.isLt h7 u q (0 : Fin 768)).1]
  have hs := congrArg Prod.fst (scr2_apply V c t.val t.isLt q)
  rw [h7] at hs
  exact hs

/-- Every entry of the array lies in the slab some half's last point writes back. -/
theorem cover2_3 (i : S2x128x1.Idx) :
    ∃ t : Fin cfg2.N, (cfg2.win 3).flush t = true ∧ i ∈ ((cfg2.win 3).blk t).view.set := by
  have hN : cfg2.N = 16 := N_2
  have h0 : (i 0).val < 2 := (i 0).isLt
  have h1 : (i 1).val < 128 := (i 1).isLt
  have h2 : (i 2).val < 1 := (i 2).isLt
  let t : Fin cfg2.N := ⟨8 * (i 0).val + 7, by omega⟩
  have ht : t.val = 8 * (i 0).val + 7 := rfl
  obtain ⟨-, -, -, -, -, -, e0, e1, e2, -⟩ := idx_facts2 t
  refine ⟨t, (flush2_3 t).mpr (by omega), ?_⟩
  show i ∈ ((View.whole main_v22_0).slice (win2_3.rect t)).set
  rw [View.set_slice_whole, Rect.mem_set_unit]
  intro a
  match a with
  | ⟨0, _⟩ =>
    show win2_3.index t (0 : Fin 3) * 1 ≤ (i 0).val ∧ (i 0).val < win2_3.index t (0 : Fin 3) * 1 + 1
    rw [e0]; omega
  | ⟨1, _⟩ =>
    show win2_3.index t (1 : Fin 3) * 128 ≤ (i 1).val ∧ (i 1).val < win2_3.index t (1 : Fin 3) * 128 + 128
    rw [e1]; omega
  | ⟨2, _⟩ =>
    show win2_3.index t (2 : Fin 3) * 1 ≤ (i 2).val ∧ (i 2).val < win2_3.index t (2 : Fin 3) * 1 + 1
    rw [e2]; omega

/-- The array after the region is `res2_3`. -/
theorem final2_3 (c : Dev nD) : (dat2 V c).arrAt 3 cfg2.N = res2_3 V c :=
  (dat2 V c).arrAt_eq_of_cover 3 (res2_3 V c) (flushed2_3_eq V c) cover2_3

/-- Output 4's array as the two halves' final streamed states, row by row. -/
def res2_4 (c : Dev nD) : S2x128x1.Idx → EReal := fun j => (Cert.Spec.gState (sc2 V c (j 1)) (xv2 V c) (j 0) 8).2.1

/-- The write-back after the last point of a half writes that half's slab of `res2_4`. -/
theorem flushed2_4_eq (c : Dev nD) (t : Fin cfg2.N) (hf : (cfg2.win 4).flush t = true) :
    (dat2 V c).flushed 4 t = ((cfg2.win 4).blk t).view.read (Elt Ideal) (res2_4 V c) := by
  have hN : t.val < 16 := lt_of_lt_of_eq t.isLt (show cfg2.N = 16 from N_2)
  have h7 : t.val % 8 = 7 := (flush2_4 t).mp hf
  obtain ⟨-, -, -, -, -, -, -, -, -, e0, e1, e2, -⟩ := idx_facts2 t
  show (cfg2.win 4).cut (grid2.coords t) ((dat2 V c).after 4 t) = _
  rw [after2_4]
  refine funext fun (j : S1x128x1.Idx) => ?_
  obtain ⟨u, q, z, rfl⟩ : ∃ (u : Fin 1) (q : Fin 128) (z : Fin 1), j = ix3 u q z := ⟨j 0, j 1, j 2, eq_ix3 j⟩
  obtain rfl : z = 0 := Subsingleton.elim _ _
  show @Eq EReal ((outsAt2 V c t.val t.isLt).2.1 (ix3 u q (0 : Fin 1))) (res2_4 V c (((cfg2.win 4).blk t).view.emb (ix3 u q (0 : Fin 1))))
  have hemb : ((cfg2.win 4).blk t).view.emb (ix3 u q (0 : Fin 1)) = (ix3 (half2 t.val) q (0 : Fin 1) : S2x128x1.Idx) := by
    funext a; apply Fin.ext
    match a with
    | ⟨0, _⟩ =>
      show win2_4.index t (0 : Fin 3) * 1 + 1 * u.val = t.val / 8 % 2
      have := u.isLt
      rw [e0]; omega
    | ⟨1, _⟩ => show win2_4.index t (1 : Fin 3) * 128 + 1 * q.val = q.val; rw [e1]; omega
    | ⟨2, _⟩ => show win2_4.index t (2 : Fin 3) * 1 + 1 * ((0 : Fin 1) : Fin 1).val = ((0 : Fin 1) : Fin 1).val; rw [e2]; omega
  rw [hemb, (out2_apply V c t.val t.isLt h7 u q (0 : Fin 768)).2.1]
  have hs := congrArg (fun s : Cert.Spec.State => s.2.1) (scr2_apply V c t.val t.isLt q)
  rw [h7] at hs
  exact hs

/-- Every entry of the array lies in the slab some half's last point writes back. -/
theorem cover2_4 (i : S2x128x1.Idx) :
    ∃ t : Fin cfg2.N, (cfg2.win 4).flush t = true ∧ i ∈ ((cfg2.win 4).blk t).view.set := by
  have hN : cfg2.N = 16 := N_2
  have h0 : (i 0).val < 2 := (i 0).isLt
  have h1 : (i 1).val < 128 := (i 1).isLt
  have h2 : (i 2).val < 1 := (i 2).isLt
  let t : Fin cfg2.N := ⟨8 * (i 0).val + 7, by omega⟩
  have ht : t.val = 8 * (i 0).val + 7 := rfl
  obtain ⟨-, -, -, -, -, -, -, -, -, e0, e1, e2, -⟩ := idx_facts2 t
  refine ⟨t, (flush2_4 t).mpr (by omega), ?_⟩
  show i ∈ ((View.whole main_v22_1).slice (win2_4.rect t)).set
  rw [View.set_slice_whole, Rect.mem_set_unit]
  intro a
  match a with
  | ⟨0, _⟩ =>
    show win2_4.index t (0 : Fin 3) * 1 ≤ (i 0).val ∧ (i 0).val < win2_4.index t (0 : Fin 3) * 1 + 1
    rw [e0]; omega
  | ⟨1, _⟩ =>
    show win2_4.index t (1 : Fin 3) * 128 ≤ (i 1).val ∧ (i 1).val < win2_4.index t (1 : Fin 3) * 128 + 128
    rw [e1]; omega
  | ⟨2, _⟩ =>
    show win2_4.index t (2 : Fin 3) * 1 ≤ (i 2).val ∧ (i 2).val < win2_4.index t (2 : Fin 3) * 1 + 1
    rw [e2]; omega

/-- The array after the region is `res2_4`. -/
theorem final2_4 (c : Dev nD) : (dat2 V c).arrAt 4 cfg2.N = res2_4 V c :=
  (dat2 V c).arrAt_eq_of_cover 4 (res2_4 V c) (flushed2_4_eq V c) cover2_4

/-- Output 5's array as the two halves' final streamed states, row by row. -/
def res2_5 (c : Dev nD) : S2x128x768.Idx → EReal := fun j => (Cert.Spec.gState (sc2 V c (j 1)) (xv2 V c) (j 0) 8).2.2 (j 2)

/-- The write-back after the last point of a half writes that half's slab of `res2_5`. -/
theorem flushed2_5_eq (c : Dev nD) (t : Fin cfg2.N) (hf : (cfg2.win 5).flush t = true) :
    (dat2 V c).flushed 5 t = ((cfg2.win 5).blk t).view.read (Elt Ideal) (res2_5 V c) := by
  have hN : t.val < 16 := lt_of_lt_of_eq t.isLt (show cfg2.N = 16 from N_2)
  have h7 : t.val % 8 = 7 := (flush2_5 t).mp hf
  obtain ⟨-, -, -, -, -, -, -, -, -, -, -, -, e0, e1, e2⟩ := idx_facts2 t
  show (cfg2.win 5).cut (grid2.coords t) ((dat2 V c).after 5 t) = _
  rw [after2_5]
  refine funext fun (j : S1x128x768.Idx) => ?_
  obtain ⟨u, q, d, rfl⟩ : ∃ (u : Fin 1) (q : Fin 128) (d : Fin 768), j = ix3 u q d := ⟨j 0, j 1, j 2, eq_ix3 j⟩
  show @Eq EReal ((outsAt2 V c t.val t.isLt).2.2.1 (ix3 u q d)) (res2_5 V c (((cfg2.win 5).blk t).view.emb (ix3 u q d)))
  have hemb : ((cfg2.win 5).blk t).view.emb (ix3 u q d) = (ix3 (half2 t.val) q d : S2x128x768.Idx) := by
    funext a; apply Fin.ext
    match a with
    | ⟨0, _⟩ =>
      show win2_5.index t (0 : Fin 3) * 1 + 1 * u.val = t.val / 8 % 2
      have := u.isLt
      rw [e0]; omega
    | ⟨1, _⟩ => show win2_5.index t (1 : Fin 3) * 128 + 1 * q.val = q.val; rw [e1]; omega
    | ⟨2, _⟩ => show win2_5.index t (2 : Fin 3) * 768 + 1 * (d : Fin 768).val = (d : Fin 768).val; rw [e2]; omega
  rw [hemb, (out2_apply V c t.val t.isLt h7 u q d).2.2]
  have hs := congrArg (fun s : Cert.Spec.State => s.2.2) (scr2_apply V c t.val t.isLt q)
  rw [h7] at hs
  exact congrFun hs d

/-- Every entry of the array lies in the slab some half's last point writes back. -/
theorem cover2_5 (i : S2x128x768.Idx) :
    ∃ t : Fin cfg2.N, (cfg2.win 5).flush t = true ∧ i ∈ ((cfg2.win 5).blk t).view.set := by
  have hN : cfg2.N = 16 := N_2
  have h0 : (i 0).val < 2 := (i 0).isLt
  have h1 : (i 1).val < 128 := (i 1).isLt
  have h2 : (i 2).val < 768 := (i 2).isLt
  let t : Fin cfg2.N := ⟨8 * (i 0).val + 7, by omega⟩
  have ht : t.val = 8 * (i 0).val + 7 := rfl
  obtain ⟨-, -, -, -, -, -, -, -, -, -, -, -, e0, e1, e2⟩ := idx_facts2 t
  refine ⟨t, (flush2_5 t).mpr (by omega), ?_⟩
  show i ∈ ((View.whole main_v22_2).slice (win2_5.rect t)).set
  rw [View.set_slice_whole, Rect.mem_set_unit]
  intro a
  match a with
  | ⟨0, _⟩ =>
    show win2_5.index t (0 : Fin 3) * 1 ≤ (i 0).val ∧ (i 0).val < win2_5.index t (0 : Fin 3) * 1 + 1
    rw [e0]; omega
  | ⟨1, _⟩ =>
    show win2_5.index t (1 : Fin 3) * 128 ≤ (i 1).val ∧ (i 1).val < win2_5.index t (1 : Fin 3) * 128 + 128
    rw [e1]; omega
  | ⟨2, _⟩ =>
    show win2_5.index t (2 : Fin 3) * 768 ≤ (i 2).val ∧ (i 2).val < win2_5.index t (2 : Fin 3) * 768 + 768
    rw [e2]; omega

/-- The array after the region is `res2_5`. -/
theorem final2_5 (c : Dev nD) : (dat2 V c).arrAt 5 cfg2.N = res2_5 V c :=
  (dat2 V c).arrAt_eq_of_cover 5 (res2_5 V c) (flushed2_5_eq V c) cover2_5

end Cert.KernelIdeal.Hand

end
-- ==== Proof.KI2Val.lean ====
/-
  Entry (h, q, ·) of the third region's three output arrays over the extended reals: the running maximum, the normaliser
  and the weighted sum of the specification's streamed state of half h after its eight tiles, for the score row of q
  (the query row q against every key, times the mask entry) and the value matrix.
-/
import proofs.«114392_j58480274702406_2_alg».proof.Proof.KI2ValFin
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The extended reals' product, named so that a buffer's entry is read as the extended real it is. -/
local notation:70 x:70 " *ₑ " y:71 => @HMul.hMul EReal EReal EReal instHMul x y

/-- The three arrays at (h, q, ·), over the named score row and value matrix. -/
theorem value2_named (c : Dev nD) (h : Fin 2) (q : Fin 128) (d : Fin 768) :
    @Eq EReal ((dat2 V c).arrAt 3 cfg2.N (ix3 h q 0)) (Cert.Spec.gState (sc2 V c q) (xv2 V c) h 8).1
    ∧ @Eq EReal ((dat2 V c).arrAt 4 cfg2.N (ix3 h q 0)) (Cert.Spec.gState (sc2 V c q) (xv2 V c) h 8).2.1
    ∧ @Eq EReal ((dat2 V c).arrAt 5 cfg2.N (ix3 h q d)) ((Cert.Spec.gState (sc2 V c q) (xv2 V c) h 8).2.2 d) :=
  ⟨congrFun (final2_3 V c) (ix3 h q 0), congrFun (final2_4 V c) (ix3 h q 0), congrFun (final2_5 V c) (ix3 h q d)⟩

/-- Entry (h, q, ·) of the third region's three output arrays: the components of the streamed state of half h after its
    eight tiles, for row q's scores and the value matrix. -/
theorem value2 (c : Dev nD) (h : Fin 2) (q : Fin 128) (d : Fin 768) :
    let sc : Fin 8192 → EReal := fun key => (∑ e : Fin 768, V c main_v18 (ValueIdx.ix2 q e) *ₑ V c main_arg0 (ValueIdx.ix2 key e)) *ₑ V c main_v21 (ValueIdx.ix2 q key)
    let xv : Cert.Spec.Mat 8192 768 := fun s e => V c main_arg0 (ValueIdx.ix2 s e)
    @Eq EReal ((dat2 V c).arrAt 3 cfg2.N (ValueIdx.ix3 h q 0)) (Cert.Spec.gState sc xv h 8).1
    ∧ @Eq EReal ((dat2 V c).arrAt 4 cfg2.N (ValueIdx.ix3 h q 0)) (Cert.Spec.gState sc xv h 8).2.1
    ∧ @Eq EReal ((dat2 V c).arrAt 5 cfg2.N (ValueIdx.ix3 h q d)) ((Cert.Spec.gState sc xv h 8).2.2 d) :=
  value2_named V c h q d

end Cert.KernelIdeal.Hand

end
-- ==== Proof.PreFinite.lean ====
/-
  From "every float input is finite" to "every entry is a real number", at the exact-real instance.
  The predicate takes, for each input array, the absolute value of every entry, compares it with plus infinity,
  and folds the comparisons with `and` from 1; the eight results are joined with `and`. If the predicate is 1 then
  each fold is 1, so every comparison is 1: the larger of `x` and `-x` is below plus infinity, which excludes both
  infinities and leaves a real number.
-/
import proofs.«114392_j58480274702406_2_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFinite

open Idealize.ShloMosaic Idealize.ShloMosaic.ValueIdx Cert.Pre_finite_inputs

/-- The scalar shape has one index. -/
instance : Subsingleton S_.Idx := ⟨fun a b => funext fun d => d.elim0⟩

/-- The word 0x7F800000 is plus infinity. -/
theorem ofBits_pos_inf : Ideal.ofBits .f32 0x7F800000#32 = (⊤ : EReal) := by
  simp [Ideal.ofBits, Ideal.ieee]

/-- An extended real whose absolute value, `max y (-y)`, compares below plus infinity is a real number. -/
theorem real_of_abs_lt_top (y : EReal) (h : Ideal.cmp .olt (max y (-y)) (⊤ : EReal) = 1#1) : ∃ r : ℝ, y = (r : EReal) := by
  have hlt : max y (-y) < ⊤ := by
    by_contra hn
    simp [Ideal.cmp, hn] at h
  induction y using EReal.rec with
  | bot => simp at hlt
  | coe r => exact ⟨r, rfl⟩
  | top => simp at hlt

/-- `jnp.all(|x| < +inf)` is 1 only if every entry of `x` is a real number: for an array of any shape, reduced over any
    axes into the scalar shape. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have h1 := Host.reduce_andi_all _ _ hr hu _ e i
  rw [cmpf_apply, broadcastInDim_scalar_apply, constant_apply, ofBits_pos_inf] at h1
  exact real_of_abs_lt_top (x i) h1

/-- If the finiteness predicate of the eight inputs is 1, every entry of the first three is a real number. -/
theorem finite_of_pre [Cert.Pre_finite_inputs.Facts] (a0 : FVec Ideal Cert.Pre_finite_inputs.S8192x768 .f32)
    (a1 : FVec Ideal Cert.Pre_finite_inputs.S8192x8192 .f32) (a2 a3 : FVec Ideal Cert.Pre_finite_inputs.S768x768 .f32)
    (a4 : FVec Ideal Cert.Pre_finite_inputs.S768 .f32) (a5 a6 : FVec Ideal Cert.Pre_finite_inputs.S768x768 .f32)
    (a7 : FVec Ideal Cert.Pre_finite_inputs.S768 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1, fn_part2] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨real_of_all_finite a0 _ _ _ h3, real_of_all_finite a1 _ _ _ h7, real_of_all_finite a2 _ _ _ h12⟩

end Cert.PreFinite

end
-- ==== Proof.BridgeAll.lean ====
/-
  The kernel program's result is the reference program's result. At the last item the kernel program's result buffer
  holds the common tail of the two programs applied to its mid-level adjacency and mid-level representation. Those
  two arrays are, entry by entry, the tiled formulas of the specification: the adjacency sandwich associated the other
  way over row tiles, the representation by a softmax streamed over key tiles in two halves and merged. When every input
  entry is a real number the tiled formulas equal the plain ones, which is what the reference program's two arrays hold.
-/
import proofs.«114392_j58480274702406_2_alg».proof.Proof.KIOuts
import proofs.«114392_j58480274702406_2_alg».proof.Proof.BridgeEnd
import proofs.«114392_j58480274702406_2_alg».proof.Proof.BridgeAdj
import proofs.«114392_j58480274702406_2_alg».proof.Proof.BridgeRep
import proofs.«114392_j58480274702406_2_alg».proof.Proof.KHostTailEq
import proofs.«114392_j58480274702406_2_alg».proof.Proof.KHostTailRef
import proofs.«114392_j58480274702406_2_alg».proof.Proof.KI2Val
import proofs.«114392_j58480274702406_2_alg».proof.Proof.PreFinite
import proofs.«114392_j58480274702406_2_alg».proof.Proof.Gen.Pre_finite_inputs
import proofs.«114392_j58480274702406_2_alg».proof.Defs

noncomputable section

namespace Cert.Bridge

open Cert.KernelIdeal Cert.KernelIdeal.Gen Cert.KernelIdeal.Hand Cert.KernelIdeal.KHost
open Idealize.ShloMosaic Idealize.ShloMosaic.TcCoe Idealize.ShloMosaic.ValueIdx Idealize.SL.Sem Idealize.ShloMosaic.StableHlo

/-- Under the precondition and agreement on the arguments, the kernel program's last contents of its result buffer are
    the reference's tail of the reference's own two intermediate arrays. -/
theorem result_eq [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (V23 m (outsC m) c Cert.KernelIdeal.main_v146 : Cert.ReferenceIdeal.S768.Idx → EReal)
      = Cert.ReferenceIdeal.RefValue.tail (after Cert.ReferenceIdeal.RefRun.ops (launchContents m' c) (Proc.devRef .tc Cert.ReferenceIdeal.main_v5))
          (after Cert.ReferenceIdeal.RefRun.ops (launchContents m' c) (Proc.devRef .tc Cert.ReferenceIdeal.main_v27))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
  bridge_end m m' (outsC m) c hagree (Cert.PreFinite.finite_of_pre _ _ _ _ _ _ _ _ hpre) tailK tailK_eq (tail_eq m (outsC m) c)
    (adjK m (outsC m) c ((leaves m).h7 c))
    (repK m (outsC m) c ((leaves m).h9 c) ((leaves m).ha c) ((leaves m).hb c) ((leaves m).hc c)
      (fun h q d => value2 (U10 m (outsC m)) c h q d))

end Cert.Bridge

end
-- ==== Proof.lean ====
/-
  The certificate. Three programs: the kernel program as printed (word level), the same program read over the extended
  reals, and the reference read over the extended reals. Each runs to the end without a fault and returns its argument
  arrays unchanged: the reference is a straight line of host operations; the kernel program is host operations around
  three kernel regions, each region's body run at every grid point and its windows' arrays taken out of and put back into
  the core's holdings. The idealized kernel program is the printed one read at another instance: nothing was rewritten.
  Under finite inputs the two idealized programs return the same array: both apply one common tail of operations to a
  mid-level adjacency matrix and a mid-level representation, which the kernel computes by tiled, reassociated and streamed
  sums and the reference by plain ones; over the reals these agree.
-/
import proofs.«114392_j58480274702406_2_alg».proof.Defs
import proofs.«114392_j58480274702406_2_alg».proof.Proof.Gen.Kernel
import proofs.«114392_j58480274702406_2_alg».proof.Proof.Gen.KernelIdeal
import proofs.«114392_j58480274702406_2_alg».proof.Proof.Gen.ReferenceIdeal
import proofs.«114392_j58480274702406_2_alg».proof.Proof.Gen.Pre_finite_inputs
import proofs.«114392_j58480274702406_2_alg».proof.Proof.RefFrame
import proofs.«114392_j58480274702406_2_alg».proof.Proof.RefValue
import proofs.«114392_j58480274702406_2_alg».proof.Proof.KOuts
import proofs.«114392_j58480274702406_2_alg».proof.Proof.KIOuts
import proofs.«114392_j58480274702406_2_alg».proof.Proof.BridgeAll

noncomputable section

namespace Cert.Proof

open Idealize.ShloMosaic Idealize.ShloMosaic.TcCoe Idealize.SL.Sem

/-- The printed kernel program runs, faults nowhere, and returns its arguments. -/
theorem frame_k : Cert.frame_Kernel (hKernel := Cert.Kernel.Gen.facts) (hPre_finite_inputs := Cert.Pre_finite_inputs.Gen.facts) :=
  fun m ρ _ => Cert.Kernel.Hand.run_of_leaves m (Cert.Kernel.Hand.outsC m) ρ (Cert.Kernel.Hand.leaves m)

/-- So does its reading over the extended reals. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2)
    (Cert.KernelIdeal.Hand.run_of_leaves m (Cert.KernelIdeal.Hand.outsC m) ρ (Cert.KernelIdeal.Hand.leaves m))

/-- The two idealized programs, from memories agreeing on the arguments, return the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V23 m (Cert.KernelIdeal.Hand.outsC m) c Cert.KernelIdeal.main_v146,
    Cert.KernelIdeal.Hand.run_of_leaves m (Cert.KernelIdeal.Hand.outsC m) ρ (Cert.KernelIdeal.Hand.leaves m), ?_⟩
  refine (θ_run (Cert.ReferenceIdeal.defs (F := Ideal)) _ _).mono (fun _ h c => ⟨(h c).1.trans ?_, (h c).2⟩)
    (Cert.ReferenceIdeal.RefValue.run_value m' ρ')
  exact (Cert.Bridge.result_eq (hP := Cert.Pre_finite_inputs.Gen.facts) m m' c (hpre c) (hagree c)).symm

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri (hR := Cert.ReferenceIdeal.Gen.facts) (hP := Cert.Pre_finite_inputs.Gen.facts), trivial, algebraic⟩

end Cert.Proof

end
